-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2098176 : Shape := ⟨2, ![32, 2098176]⟩
abbrev S_ : Shape := ⟨0, ![]⟩

class Facts : Prop where
  bcast_S_S32x2098176 : S_.BroadcastsInDim S32x2098176 (![] : Fin 0 → Fin S32x2098176.rank)
  reducesTo_S32x2098176_S_d0_1 : S32x2098176.ReducesTo [0, 1] S_
  h_S_ : 0 < S_.numel

variable [Facts]

def fn {F : FTy → Type} [FloatOps F] (main_arg0 : FVec F S32x2098176 .f32) : IVec S_ 1 :=
  let main_v0 : FVec F S32x2098176 .f32 := Host.absf main_arg0
  let main_cst : FVec F S_ .f32 := constant S_ .f32 0x7F800000#32
  let main_v1 : FVec F S32x2098176 .f32 := broadcastInDim S32x2098176 ![] bcast_S_S32x2098176 main_cst
  let main_v2 : IVec S32x2098176 1 := cmpf .olt main_v0 main_v1
  let main_c : IVec S_ 1 := constantI S_ 1 1#1
  let main_v3 : IVec S_ 1 := (fun x v => Host.reduce IntOp.andi x v reducesTo_S32x2098176_S_d0_1 h_S_) main_v2 main_c
  main_v3
-- ==== Kernel.lean ====
abbrev S32x2098176 : Shape := ⟨2, ![32, 2098176]⟩
abbrev S32x1x2098176 : Shape := ⟨3, ![32, 1, 2098176]⟩
abbrev S32x2048x2048 : Shape := ⟨3, ![32, 2048, 2048]⟩
abbrev S1x1x2098176 : Shape := ⟨3, ![1, 1, 2098176]⟩
abbrev S1x1024x2048 : Shape := ⟨3, ![1, 1024, 2048]⟩
abbrev S1x1x2048 : Shape := ⟨3, ![1, 1, 2048]⟩
abbrev S2048 : Shape := ⟨1, ![2048]⟩
abbrev S1x2048 : Shape := ⟨2, ![1, 2048]⟩
abbrev S64x2048 : Shape := ⟨2, ![64, 2048]⟩
abbrev S1x64x2048 : Shape := ⟨3, ![1, 64, 2048]⟩
abbrev S1x1x2016 : Shape := ⟨3, ![1, 1, 2016]⟩
abbrev S2016 : Shape := ⟨1, ![2016]⟩
abbrev S32 : Shape := ⟨1, ![32]⟩
abbrev S1x1x1953 : Shape := ⟨3, ![1, 1, 1953]⟩
abbrev S1953 : Shape := ⟨1, ![1953]⟩
abbrev S95 : Shape := ⟨1, ![95]⟩
abbrev S1x1x1891 : Shape := ⟨3, ![1, 1, 1891]⟩
abbrev S1891 : Shape := ⟨1, ![1891]⟩
abbrev S157 : Shape := ⟨1, ![157]⟩
abbrev S1x1x1830 : Shape := ⟨3, ![1, 1, 1830]⟩
abbrev S1830 : Shape := ⟨1, ![1830]⟩
abbrev S218 : Shape := ⟨1, ![218]⟩
abbrev S1x1x1770 : Shape := ⟨3, ![1, 1, 1770]⟩
abbrev S1770 : Shape := ⟨1, ![1770]⟩
abbrev S278 : Shape := ⟨1, ![278]⟩
abbrev S1x1x1711 : Shape := ⟨3, ![1, 1, 1711]⟩
abbrev S1711 : Shape := ⟨1, ![1711]⟩
abbrev S337 : Shape := ⟨1, ![337]⟩
abbrev S1x1x1653 : Shape := ⟨3, ![1, 1, 1653]⟩
abbrev S1653 : Shape := ⟨1, ![1653]⟩
abbrev S395 : Shape := ⟨1, ![395]⟩
abbrev S1x1x1596 : Shape := ⟨3, ![1, 1, 1596]⟩
abbrev S1596 : Shape := ⟨1, ![1596]⟩
abbrev S452 : Shape := ⟨1, ![452]⟩
abbrev S1x1x1540 : Shape := ⟨3, ![1, 1, 1540]⟩
abbrev S1540 : Shape := ⟨1, ![1540]⟩
abbrev S508 : Shape := ⟨1, ![508]⟩
abbrev S1x1x1485 : Shape := ⟨3, ![1, 1, 1485]⟩
abbrev S1485 : Shape := ⟨1, ![1485]⟩
abbrev S563 : Shape := ⟨1, ![563]⟩
abbrev S1x1x1431 : Shape := ⟨3, ![1, 1, 1431]⟩
abbrev S1431 : Shape := ⟨1, ![1431]⟩
abbrev S617 : Shape := ⟨1, ![617]⟩
abbrev S1x1x1378 : Shape := ⟨3, ![1, 1, 1378]⟩
abbrev S1378 : Shape := ⟨1, ![1378]⟩
abbrev S670 : Shape := ⟨1, ![670]⟩
abbrev S1x1x1326 : Shape := ⟨3, ![1, 1, 1326]⟩
abbrev S1326 : Shape := ⟨1, ![1326]⟩
abbrev S722 : Shape := ⟨1, ![722]⟩
abbrev S1x1x1275 : Shape := ⟨3, ![1, 1, 1275]⟩
abbrev S1275 : Shape := ⟨1, ![1275]⟩
abbrev S773 : Shape := ⟨1, ![773]⟩
abbrev S1x1x1225 : Shape := ⟨3, ![1, 1, 1225]⟩
abbrev S1225 : Shape := ⟨1, ![1225]⟩
abbrev S823 : Shape := ⟨1, ![823]⟩
abbrev S1x1x1176 : Shape := ⟨3, ![1, 1, 1176]⟩
abbrev S1176 : Shape := ⟨1, ![1176]⟩
abbrev S872 : Shape := ⟨1, ![872]⟩
abbrev S1x1x1128 : Shape := ⟨3, ![1, 1, 1128]⟩
abbrev S1128 : Shape := ⟨1, ![1128]⟩
abbrev S920 : Shape := ⟨1, ![920]⟩
abbrev S1x1x1081 : Shape := ⟨3, ![1, 1, 1081]⟩
abbrev S1081 : Shape := ⟨1, ![1081]⟩
abbrev S967 : Shape := ⟨1, ![967]⟩
abbrev S1x1x1035 : Shape := ⟨3, ![1, 1, 1035]⟩
abbrev S1035 : Shape := ⟨1, ![1035]⟩
abbrev S1013 : Shape := ⟨1, ![1013]⟩
abbrev S1x1x990 : Shape := ⟨3, ![1, 1, 990]⟩
abbrev S990 : Shape := ⟨1, ![990]⟩
abbrev S1058 : Shape := ⟨1, ![1058]⟩
abbrev S1x1x946 : Shape := ⟨3, ![1, 1, 946]⟩
abbrev S946 : Shape := ⟨1, ![946]⟩
abbrev S1102 : Shape := ⟨1, ![1102]⟩
abbrev S1x1x903 : Shape := ⟨3, ![1, 1, 903]⟩
abbrev S903 : Shape := ⟨1, ![903]⟩
abbrev S1145 : Shape := ⟨1, ![1145]⟩
abbrev S1x1x861 : Shape := ⟨3, ![1, 1, 861]⟩
abbrev S861 : Shape := ⟨1, ![861]⟩
abbrev S1187 : Shape := ⟨1, ![1187]⟩
abbrev S1x1x820 : Shape := ⟨3, ![1, 1, 820]⟩
abbrev S820 : Shape := ⟨1, ![820]⟩
abbrev S1228 : Shape := ⟨1, ![1228]⟩
abbrev S1x1x780 : Shape := ⟨3, ![1, 1, 780]⟩
abbrev S780 : Shape := ⟨1, ![780]⟩
abbrev S1268 : Shape := ⟨1, ![1268]⟩
abbrev S1x1x741 : Shape := ⟨3, ![1, 1, 741]⟩
abbrev S741 : Shape := ⟨1, ![741]⟩
abbrev S1307 : Shape := ⟨1, ![1307]⟩
abbrev S1x1x703 : Shape := ⟨3, ![1, 1, 703]⟩
abbrev S703 : Shape := ⟨1, ![703]⟩
abbrev S1345 : Shape := ⟨1, ![1345]⟩
abbrev S1x1x666 : Shape := ⟨3, ![1, 1, 666]⟩
abbrev S666 : Shape := ⟨1, ![666]⟩
abbrev S1382 : Shape := ⟨1, ![1382]⟩
abbrev S1x1x630 : Shape := ⟨3, ![1, 1, 630]⟩
abbrev S630 : Shape := ⟨1, ![630]⟩
abbrev S1418 : Shape := ⟨1, ![1418]⟩
abbrev S1x1x595 : Shape := ⟨3, ![1, 1, 595]⟩
abbrev S595 : Shape := ⟨1, ![595]⟩
abbrev S1453 : Shape := ⟨1, ![1453]⟩
abbrev S1x1x561 : Shape := ⟨3, ![1, 1, 561]⟩
abbrev S561 : Shape := ⟨1, ![561]⟩
abbrev S1487 : Shape := ⟨1, ![1487]⟩
abbrev S1x1x528 : Shape := ⟨3, ![1, 1, 528]⟩
abbrev S528 : Shape := ⟨1, ![528]⟩
abbrev S1520 : Shape := ⟨1, ![1520]⟩
abbrev S1x1x496 : Shape := ⟨3, ![1, 1, 496]⟩
abbrev S496 : Shape := ⟨1, ![496]⟩
abbrev S1552 : Shape := ⟨1, ![1552]⟩
abbrev S1x1x465 : Shape := ⟨3, ![1, 1, 465]⟩
abbrev S465 : Shape := ⟨1, ![465]⟩
abbrev S1583 : Shape := ⟨1, ![1583]⟩
abbrev S1x1x435 : Shape := ⟨3, ![1, 1, 435]⟩
abbrev S435 : Shape := ⟨1, ![435]⟩
abbrev S1613 : Shape := ⟨1, ![1613]⟩
abbrev S1x1x406 : Shape := ⟨3, ![1, 1, 406]⟩
abbrev S406 : Shape := ⟨1, ![406]⟩
abbrev S1642 : Shape := ⟨1, ![1642]⟩
abbrev S1x1x378 : Shape := ⟨3, ![1, 1, 378]⟩
abbrev S378 : Shape := ⟨1, ![378]⟩
abbrev S1670 : Shape := ⟨1, ![1670]⟩
abbrev S1x1x351 : Shape := ⟨3, ![1, 1, 351]⟩
abbrev S351 : Shape := ⟨1, ![351]⟩
abbrev S1697 : Shape := ⟨1, ![1697]⟩
abbrev S1x1x325 : Shape := ⟨3, ![1, 1, 325]⟩
abbrev S325 : Shape := ⟨1, ![325]⟩
abbrev S1723 : Shape := ⟨1, ![1723]⟩
abbrev S1x1x300 : Shape := ⟨3, ![1, 1, 300]⟩
abbrev S300 : Shape := ⟨1, ![300]⟩
abbrev S1748 : Shape := ⟨1, ![1748]⟩
abbrev S1x1x276 : Shape := ⟨3, ![1, 1, 276]⟩
abbrev S276 : Shape := ⟨1, ![276]⟩
abbrev S1772 : Shape := ⟨1, ![1772]⟩
abbrev S1x1x253 : Shape := ⟨3, ![1, 1, 253]⟩
abbrev S253 : Shape := ⟨1, ![253]⟩
abbrev S1795 : Shape := ⟨1, ![1795]⟩
abbrev S1x1x231 : Shape := ⟨3, ![1, 1, 231]⟩
abbrev S231 : Shape := ⟨1, ![231]⟩
abbrev S1817 : Shape := ⟨1, ![1817]⟩
abbrev S1x1x210 : Shape := ⟨3, ![1, 1, 210]⟩
abbrev S210 : Shape := ⟨1, ![210]⟩
abbrev S1838 : Shape := ⟨1, ![1838]⟩
abbrev S1x1x190 : Shape := ⟨3, ![1, 1, 190]⟩
abbrev S190 : Shape := ⟨1, ![190]⟩
abbrev S1858 : Shape := ⟨1, ![1858]⟩
abbrev S1x1x171 : Shape := ⟨3, ![1, 1, 171]⟩
abbrev S171 : Shape := ⟨1, ![171]⟩
abbrev S1877 : Shape := ⟨1, ![1877]⟩
abbrev S1x1x153 : Shape := ⟨3, ![1, 1, 153]⟩
abbrev S153 : Shape := ⟨1, ![153]⟩
abbrev S1895 : Shape := ⟨1, ![1895]⟩
abbrev S1x1x136 : Shape := ⟨3, ![1, 1, 136]⟩
abbrev S136 : Shape := ⟨1, ![136]⟩
abbrev S1912 : Shape := ⟨1, ![1912]⟩
abbrev S1x1x120 : Shape := ⟨3, ![1, 1, 120]⟩
abbrev S120 : Shape := ⟨1, ![120]⟩
abbrev S1928 : Shape := ⟨1, ![1928]⟩
abbrev S1x1x105 : Shape := ⟨3, ![1, 1, 105]⟩
abbrev S105 : Shape := ⟨1, ![105]⟩
abbrev S1943 : Shape := ⟨1, ![1943]⟩
abbrev S1x1x91 : Shape := ⟨3, ![1, 1, 91]⟩
abbrev S91 : Shape := ⟨1, ![91]⟩
abbrev S1957 : Shape := ⟨1, ![1957]⟩
abbrev S1x1x78 : Shape := ⟨3, ![1, 1, 78]⟩
abbrev S78 : Shape := ⟨1, ![78]⟩
abbrev S1970 : Shape := ⟨1, ![1970]⟩
abbrev S1x1x66 : Shape := ⟨3, ![1, 1, 66]⟩
abbrev S66 : Shape := ⟨1, ![66]⟩
abbrev S1982 : Shape := ⟨1, ![1982]⟩
abbrev S1x1x55 : Shape := ⟨3, ![1, 1, 55]⟩
abbrev S55 : Shape := ⟨1, ![55]⟩
abbrev S1993 : Shape := ⟨1, ![1993]⟩
abbrev S1x1x45 : Shape := ⟨3, ![1, 1, 45]⟩
abbrev S45 : Shape := ⟨1, ![45]⟩
abbrev S2003 : Shape := ⟨1, ![2003]⟩
abbrev S1x1x36 : Shape := ⟨3, ![1, 1, 36]⟩
abbrev S36 : Shape := ⟨1, ![36]⟩
abbrev S2012 : Shape := ⟨1, ![2012]⟩
abbrev S1x1x28 : Shape := ⟨3, ![1, 1, 28]⟩
abbrev S28 : Shape := ⟨1, ![28]⟩
abbrev S2020 : Shape := ⟨1, ![2020]⟩
abbrev S1x1x21 : Shape := ⟨3, ![1, 1, 21]⟩
abbrev S21 : Shape := ⟨1, ![21]⟩
abbrev S2027 : Shape := ⟨1, ![2027]⟩
abbrev S1x1x15 : Shape := ⟨3, ![1, 1, 15]⟩
abbrev S15 : Shape := ⟨1, ![15]⟩
abbrev S2033 : Shape := ⟨1, ![2033]⟩
abbrev S1x1x10 : Shape := ⟨3, ![1, 1, 10]⟩
abbrev S10 : Shape := ⟨1, ![10]⟩
abbrev S2038 : Shape := ⟨1, ![2038]⟩
abbrev S1x1x6 : Shape := ⟨3, ![1, 1, 6]⟩
abbrev S6 : Shape := ⟨1, ![6]⟩
abbrev S2042 : Shape := ⟨1, ![2042]⟩
abbrev S1x1x3 : Shape := ⟨3, ![1, 1, 3]⟩
abbrev S3 : Shape := ⟨1, ![3]⟩
abbrev S2045 : Shape := ⟨1, ![2045]⟩
abbrev S1x1x1 : Shape := ⟨3, ![1, 1, 1]⟩
abbrev S1 : Shape := ⟨1, ![1]⟩
abbrev S2047 : Shape := ⟨1, ![2047]⟩

abbrev nBuf : Space → Nat
  | .hbm => 3
  | .vmem => 4
  | .smem => 0
  | _ => 0

abbrev bufTy : (tb : Table) → Fin (tcTables nBuf tb) → BufTy
  | .hbm, ⟨0, _⟩ => ⟨S32x2098176, .f32⟩
  | .hbm, ⟨1, _⟩ => ⟨S32x1x2098176, .f32⟩
  | .hbm, ⟨2, _⟩ => ⟨S32x2048x2048, .f32⟩
  | .local _ .vmem, ⟨0, _⟩ => ⟨S1x1x2098176, .f32⟩
  | .local _ .vmem, ⟨1, _⟩ => ⟨S1x1x2098176, .f32⟩
  | .local _ .vmem, ⟨2, _⟩ => ⟨S1x1024x2048, .f32⟩
  | .local _ .vmem, ⟨3, _⟩ => ⟨S1x1024x2048, .f32⟩
  | _, _ => ⟨S32x2098176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x2098176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2098176.size a ≤ S32x1x2098176.size a
  hwx0_0 : ∀ i : grid0.Coords, EltTy.bits .f32 = 32 ∨ (Rect.block (s := S32x1x2098176) S1x1x2098176.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S32x2048x2048.size a
  hwx0_1 : ∀ i : grid0.Coords, EltTy.bits .f32 = 32 ∨ (Rect.block (s := S32x2048x2048) S1x1024x2048.size (cc0_transform_1 i) (hinb0_1 i)).WholeWords (EltTy.packing .f32)

class Shapes1.Facts₀ : Prop where
  shapeCasts_S32x2098176_S32x1x2098176 : S32x2098176.ShapeCasts S32x1x2098176
  inb_S1x1x2098176_S1x1x2048_0_0_0 : ∀ a, (![0, 0, 0] : Fin 3 → Nat) a + S1x1x2048.size a ≤ S1x1x2098176.size a
  h_S1x1x2048 : 0 < S1x1x2048.numel
  shapeCasts_S1x1x2048_S2048 : S1x1x2048.ShapeCasts S2048
  inb_S1x1x2098176_S1x1x2048_0_0_2048 : ∀ a, (![0, 0, 2048] : Fin 3 → Nat) a + S1x1x2048.size a ≤ S1x1x2098176.size a
  inb_S1x1x2098176_S1x1x2048_0_0_4095 : ∀ a, (![0, 0, 4095] : Fin 3 → Nat) a + S1x1x2048.size a ≤ S1x1x2098176.size a
  inb_S1x1x2098176_S1x1x2048_0_0_6141 : ∀ a, (![0, 0, 6141] : Fin 3 → Nat) a + S1x1x2048.size a ≤ S1x1x2098176.size a
  inb_S1x1x2098176_S1x1x2048_0_0_8186 : ∀ a, (![0, 0, 8186] : Fin 3 → Nat) a + S1x1x2048.size a ≤ S1x1x2098176.size a
  inb_S1x1x2098176_S1x1x2048_0_0_10230 : ∀ a, (![0, 0, 10230] : Fin 3 → Nat) a + S1x1x2048.size a ≤ S1x1x2098176.size a
  inb_S1x1x2098176_S1x1x2048_0_0_12273 : ∀ a, (![0, 0, 12273] : Fin 3 → Nat) a + S1x1x2048.size a ≤ S1x1x2098176.size a
  inb_S1x1x2098176_S1x1x2048_0_0_14315 : ∀ a, (![0, 0, 14315] : Fin 3 → Nat) a + S1x1x2048.size a ≤ S1x1x2098176.size a
  inb_S1x1x2098176_S1x1x2048_0_0_16356 : ∀ a, (![0, 0, 16356] : Fin 3 → Nat) a + S1x1x2048.size a ≤ S1x1x2098176.size a
  inb_S1x1x2098176_S1x1x2048_0_0_18396 : ∀ a, (![0, 0, 18396] : Fin 3 → Nat) a + S1x1x2048.size a ≤ S1x1x2098176.size a
  inb_S1x1x2098176_S1x1x2048_0_0_20435 : ∀ a, (![0, 0, 20435] : Fin 3 → Nat) a + S1x1x2048.size a ≤ S1x1x2098176.size a
  inb_S1x1x2098176_S1x1x2048_0_0_22473 : ∀ a, (![0, 0, 22473] : Fin 3 → Nat) a + S1x1x2048.size a ≤ S1x1x2098176.size a
  inb_S1x1x2098176_S1x1x2048_0_0_24510 : ∀ a, (![0, 0, 24510] : Fin 3 → Nat) a + S1x1x2048.size a ≤ S1x1x2098176.size a
  inb_S1x1x2098176_S1x1x2048_0_0_26546 : ∀ a, (![0, 0, 26546] : Fin 3 → Nat) a + S1x1x2048.size a ≤ S1x1x2098176.size a
  inb_S1x1x2098176_S1x1x2048_0_0_28581 : ∀ a, (![0, 0, 28581] : Fin 3 → Nat) a + S1x1x2048.size a ≤ S1x1x2098176.size a
  inb_S1x1x2098176_S1x1x2048_0_0_30615 : ∀ a, (![0, 0, 30615] : Fin 3 → Nat) a + S1x1x2048.size a ≤ S1x1x2098176.size a
  inb_S1x1x2098176_S1x1x2048_0_0_32648 : ∀ a, (![0, 0, 32648] : Fin 3 → Nat) a + S1x1x2048.size a ≤ S1x1x2098176.size a
  inb_S1x1x2098176_S1x1x2048_0_0_34680 : ∀ a, (![0, 0, 34680] : Fin 3 → Nat) a + S1x1x2048.size a ≤ S1x1x2098176.size a
  inb_S1x1x2098176_S1x1x2048_0_0_36711 : ∀ a, (![0, 0, 36711] : Fin 3 → Nat) a + S1x1x2048.size a ≤ S1x1x2098176.size a
  inb_S1x1x2098176_S1x1x2048_0_0_38741 : ∀ a, (![0, 0, 38741] : Fin 3 → Nat) a + S1x1x2048.size a ≤ S1x1x2098176.size a
  inb_S1x1x2098176_S1x1x2048_0_0_40770 : ∀ a, (![0, 0, 40770] : Fin 3 → Nat) a + S1x1x2048.size a ≤ S1x1x2098176.size a
  inb_S1x1x2098176_S1x1x2048_0_0_42798 : ∀ a, (![0, 0, 42798] : Fin 3 → Nat) a + S1x1x2048.size a ≤ S1x1x2098176.size a
  inb_S1x1x2098176_S1x1x2048_0_0_44825 : ∀ a, (![0, 0, 44825] : Fin 3 → Nat) a + S1x1x2048.size a ≤ S1x1x2098176.size a
  inb_S1x1x2098176_S1x1x2048_0_0_46851 : ∀ a, (![0, 0, 46851] : Fin 3 → Nat) a + S1x1x2048.size a ≤ S1x1x2098176.size a
  inb_S1x1x2098176_S1x1x2048_0_0_48876 : ∀ a, (![0, 0, 48876] : Fin 3 → Nat) a + S1x1x2048.size a ≤ S1x1x2098176.size a
  inb_S1x1x2098176_S1x1x2048_0_0_50900 : ∀ a, (![0, 0, 50900] : Fin 3 → Nat) a + S1x1x2048.size a ≤ S1x1x2098176.size a
  inb_S1x1x2098176_S1x1x2048_0_0_52923 : ∀ a, (![0, 0, 52923] : Fin 3 → Nat) a + S1x1x2048.size a ≤ S1x1x2098176.size a
  inb_S1x1x2098176_S1x1x2048_0_0_54945 : ∀ a, (![0, 0, 54945] : Fin 3 → Nat) a + S1x1x2048.size a ≤ S1x1x2098176.size a
  inb_S1x1x2098176_S1x1x2048_0_0_56966 : ∀ a, (![0, 0, 56966] : Fin 3 → Nat) a + S1x1x2048.size a ≤ S1x1x2098176.size a
  inb_S1x1x2098176_S1x1x2048_0_0_58986 : ∀ a, (![0, 0, 58986] : Fin 3 → Nat) a + S1x1x2048.size a ≤ S1x1x2098176.size a
  inb_S1x1x2098176_S1x1x2048_0_0_61005 : ∀ a, (![0, 0, 61005] : Fin 3 → Nat) a + S1x1x2048.size a ≤ S1x1x2098176.size a
  inb_S1x1x2098176_S1x1x2048_0_0_63023 : ∀ a, (![0, 0, 63023] : Fin 3 → Nat) a + S1x1x2048.size a ≤ S1x1x2098176.size a
  inb_S1x1x2098176_S1x1x2048_0_0_65040 : ∀ a, (![0, 0, 65040] : Fin 3 → Nat) a + S1x1x2048.size a ≤ S1x1x2098176.size a
  inb_S1x1x2098176_S1x1x2048_0_0_67056 : ∀ a, (![0, 0, 67056] : Fin 3 → Nat) a + S1x1x2048.size a ≤ S1x1x2098176.size a
  inb_S1x1x2098176_S1x1x2048_0_0_69071 : ∀ a, (![0, 0, 69071] : Fin 3 → Nat) a + S1x1x2048.size a ≤ S1x1x2098176.size a
  inb_S1x1x2098176_S1x1x2048_0_0_71085 : ∀ a, (![0, 0, 71085] : Fin 3 → Nat) a + S1x1x2048.size a ≤ S1x1x2098176.size a
  inb_S1x1x2098176_S1x1x2048_0_0_73098 : ∀ a, (![0, 0, 73098] : Fin 3 → Nat) a + S1x1x2048.size a ≤ S1x1x2098176.size a
  inb_S1x1x2098176_S1x1x2048_0_0_75110 : ∀ a, (![0, 0, 75110] : Fin 3 → Nat) a + S1x1x2048.size a ≤ S1x1x2098176.size a
  inb_S1x1x2098176_S1x1x2048_0_0_77121 : ∀ a, (![0, 0, 77121] : Fin 3 → Nat) a + S1x1x2048.size a ≤ S1x1x2098176.size a
  inb_S1x1x2098176_S1x1x2048_0_0_79131 : ∀ a, (![0, 0, 79131] : Fin 3 → Nat) a + S1x1x2048.size a ≤ S1x1x2098176.size a
  inb_S1x1x2098176_S1x1x2048_0_0_81140 : ∀ a, (![0, 0, 81140] : Fin 3 → Nat) a + S1x1x2048.size a ≤ S1x1x2098176.size a
  inb_S1x1x2098176_S1x1x2048_0_0_83148 : ∀ a, (![0, 0, 83148] : Fin 3 → Nat) a + S1x1x2048.size a ≤ S1x1x2098176.size a
  inb_S1x1x2098176_S1x1x2048_0_0_85155 : ∀ a, (![0, 0, 85155] : Fin 3 → Nat) a + S1x1x2048.size a ≤ S1x1x2098176.size a
  inb_S1x1x2098176_S1x1x2048_0_0_87161 : ∀ a, (![0, 0, 87161] : Fin 3 → Nat) a + S1x1x2048.size a ≤ S1x1x2098176.size a
  inb_S1x1x2098176_S1x1x2048_0_0_89166 : ∀ a, (![0, 0, 89166] : Fin 3 → Nat) a + S1x1x2048.size a ≤ S1x1x2098176.size a
  inb_S1x1x2098176_S1x1x2048_0_0_91170 : ∀ a, (![0, 0, 91170] : Fin 3 → Nat) a + S1x1x2048.size a ≤ S1x1x2098176.size a
  inb_S1x1x2098176_S1x1x2048_0_0_93173 : ∀ a, (![0, 0, 93173] : Fin 3 → Nat) a + S1x1x2048.size a ≤ S1x1x2098176.size a
  inb_S1x1x2098176_S1x1x2048_0_0_95175 : ∀ a, (![0, 0, 95175] : Fin 3 → Nat) a + S1x1x2048.size a ≤ S1x1x2098176.size a
  inb_S1x1x2098176_S1x1x2048_0_0_97176 : ∀ a, (![0, 0, 97176] : Fin 3 → Nat) a + S1x1x2048.size a ≤ S1x1x2098176.size a
  inb_S1x1x2098176_S1x1x2048_0_0_99176 : ∀ a, (![0, 0, 99176] : Fin 3 → Nat) a + S1x1x2048.size a ≤ S1x1x2098176.size a
  inb_S1x1x2098176_S1x1x2048_0_0_101175 : ∀ a, (![0, 0, 101175] : Fin 3 → Nat) a + S1x1x2048.size a ≤ S1x1x2098176.size a
  inb_S1x1x2098176_S1x1x2048_0_0_103173 : ∀ a, (![0, 0, 103173] : Fin 3 → Nat) a + S1x1x2048.size a ≤ S1x1x2098176.size a
  inb_S1x1x2098176_S1x1x2048_0_0_105170 : ∀ a, (![0, 0, 105170] : Fin 3 → Nat) a + S1x1x2048.size a ≤ S1x1x2098176.size a
  inb_S1x1x2098176_S1x1x2048_0_0_107166 : ∀ a, (![0, 0, 107166] : Fin 3 → Nat) a + S1x1x2048.size a ≤ S1x1x2098176.size a
  inb_S1x1x2098176_S1x1x2048_0_0_109161 : ∀ a, (![0, 0, 109161] : Fin 3 → Nat) a + S1x1x2048.size a ≤ S1x1x2098176.size a
  inb_S1x1x2098176_S1x1x2048_0_0_111155 : ∀ a, (![0, 0, 111155] : Fin 3 → Nat) a + S1x1x2048.size a ≤ S1x1x2098176.size a
  inb_S1x1x2098176_S1x1x2048_0_0_113148 : ∀ a, (![0, 0, 113148] : Fin 3 → Nat) a + S1x1x2048.size a ≤ S1x1x2098176.size a
  inb_S1x1x2098176_S1x1x2048_0_0_115140 : ∀ a, (![0, 0, 115140] : Fin 3 → Nat) a + S1x1x2048.size a ≤ S1x1x2098176.size a
  inb_S1x1x2098176_S1x1x2048_0_0_117131 : ∀ a, (![0, 0, 117131] : Fin 3 → Nat) a + S1x1x2048.size a ≤ S1x1x2098176.size a
  inb_S1x1x2098176_S1x1x2048_0_0_119121 : ∀ a, (![0, 0, 119121] : Fin 3 → Nat) a + S1x1x2048.size a ≤ S1x1x2098176.size a
  inb_S1x1x2098176_S1x1x2048_0_0_121110 : ∀ a, (![0, 0, 121110] : Fin 3 → Nat) a + S1x1x2048.size a ≤ S1x1x2098176.size a
  inb_S1x1x2098176_S1x1x2048_0_0_123098 : ∀ a, (![0, 0, 123098] : Fin 3 → Nat) a + S1x1x2048.size a ≤ S1x1x2098176.size a
  inb_S1x1x2098176_S1x1x2048_0_0_125085 : ∀ a, (![0, 0, 125085] : Fin 3 → Nat) a + S1x1x2048.size a ≤ S1x1x2098176.size a
  inb_S1x1x2098176_S1x1x2048_0_0_127071 : ∀ a, (![0, 0, 127071] : Fin 3 → Nat) a + S1x1x2048.size a ≤ S1x1x2098176.size a
  shapeCasts_S2048_S1x2048 : S2048.ShapeCasts S1x2048
  concatenates_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S64x2048_d0 : Shape.Concatenates (S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: S1x2048 :: []) S64x2048 0
  inb_S1x1024x2048_S1x64x2048_0_0_0 : ∀ a, (![0, 0, 0] : Fin 3 → Nat) a + S1x64x2048.size a ≤ S1x1024x2048.size a
  h_S1x64x2048 : 0 < S1x64x2048.numel
  shapeCasts_S1x64x2048_S64x2048 : S1x64x2048.ShapeCasts S64x2048
  shapeCasts_S64x2048_S1x64x2048 : S64x2048.ShapeCasts S1x64x2048
  inb_S1x1x2098176_S1x1x2048_0_0_129056 : ∀ a, (![0, 0, 129056] : Fin 3 → Nat) a + S1x1x2048.size a ≤ S1x1x2098176.size a
  inb_S1x1x2098176_S1x1x2048_0_0_131040 : ∀ a, (![0, 0, 131040] : Fin 3 → Nat) a + S1x1x2048.size a ≤ S1x1x2098176.size a
  inb_S1x1x2098176_S1x1x2048_0_0_133023 : ∀ a, (![0, 0, 133023] : Fin 3 → Nat) a + S1x1x2048.size a ≤ S1x1x2098176.size a
  inb_S1x1x2098176_S1x1x2048_0_0_135005 : ∀ a, (![0, 0, 135005] : Fin 3 → Nat) a + S1x1x2048.size a ≤ S1x1x2098176.size a
  inb_S1x1x2098176_S1x1x2048_0_0_136986 : ∀ a, (![0, 0, 136986] : Fin 3 → Nat) a + S1x1x2048.size a ≤ S1x1x2098176.size a
  inb_S1x1x2098176_S1x1x2048_0_0_138966 : ∀ a, (![0, 0, 138966] : Fin 3 → Nat) a + S1x1x2048.size a ≤ S1x1x2098176.size a
  inb_S1x1x2098176_S1x1x2048_0_0_140945 : ∀ a, (![0, 0, 140945] : Fin 3 → Nat) a + S1x1x2048.size a ≤ S1x1x2098176.size a
  inb_S1x1x2098176_S1x1x2048_0_0_142923 : ∀ a, (![0, 0, 142923] : Fin 3 → Nat) a + S1x1x2048.size a ≤ S1x1x2098176.size a
  inb_S1x1x2098176_S1x1x2048_0_0_144900 : ∀ a, (![0, 0, 144900] : Fin 3 → Nat) a + S1x1x2048.size a ≤ S1x1x2098176.size a
  inb_S1x1x2098176_S1x1x2048_0_0_146876 : ∀ a, (![0, 0, 146876] : Fin 3 → Nat) a + S1x1x2048.size a ≤ S1x1x2098176.size a
  inb_S1x1x2098176_S1x1x2048_0_0_148851 : ∀ a, (![0, 0, 148851] : Fin 3 → Nat) a + S1x1x2048.size a ≤ S1x1x2098176.size a
  inb_S1x1x2098176_S1x1x2048_0_0_150825 : ∀ a, (![0, 0, 150825] : Fin 3 → Nat) a + S1x1x2048.size a ≤ S1x1x2098176.size a
  inb_S1x1x2098176_S1x1x2048_0_0_152798 : ∀ a, (![0, 0, 152798] : Fin 3 → Nat) a + S1x1x2048.size a ≤ S1x1x2098176.size a
  inb_S1x1x2098176_S1x1x2048_0_0_154770 : ∀ a, (![0, 0, 154770] : Fin 3 → Nat) a + S1x1x2048.size a ≤ S1x1x2098176.size a
  inb_S1x1x2098176_S1x1x2048_0_0_156741 : ∀ a, (![0, 0, 156741] : Fin 3 → Nat) a + S1x1x2048.size a ≤ S1x1x2098176.size a
  inb_S1x1x2098176_S1x1x2048_0_0_158711 : ∀ a, (![0, 0, 158711] : Fin 3 → Nat) a + S1x1x2048.size a ≤ S1x1x2098176.size a
  inb_S1x1x2098176_S1x1x2048_0_0_160680 : ∀ a, (![0, 0, 160680] : Fin 3 → Nat) a + S1x1x2048.size a ≤ S1x1x2098176.size a
  inb_S1x1x2098176_S1x1x2048_0_0_162648 : ∀ a, (![0, 0, 162648] : Fin 3 → Nat) a + S1x1x2048.size a ≤ S1x1x2098176.size a
  inb_S1x1x2098176_S1x1x2048_0_0_164615 : ∀ a, (![0, 0, 164615] : Fin 3 → Nat) a + S1x1x2048.size a ≤ S1x1x2098176.size a
  inb_S1x1x2098176_S1x1x2048_0_0_166581 : ∀ a, (![0, 0, 166581] : Fin 3 → Nat) a + S1x1x2048.size a ≤ S1x1x2098176.size a
  inb_S1x1x2098176_S1x1x2048_0_0_168546 : ∀ a, (![0, 0, 168546] : Fin 3 → Nat) a + S1x1x2048.size a ≤ S1x1x2098176.size a
  inb_S1x1x2098176_S1x1x2048_0_0_170510 : ∀ a, (![0, 0, 170510] : Fin 3 → Nat) a + S1x1x2048.size a ≤ S1x1x2098176.size a
  inb_S1x1x2098176_S1x1x2048_0_0_172473 : ∀ a, (![0, 0, 172473] : Fin 3 → Nat) a + S1x1x2048.size a ≤ S1x1x2098176.size a
  inb_S1x1x2098176_S1x1x2048_0_0_174435 : ∀ a, (![0, 0, 174435] : Fin 3 → Nat) a + S1x1x2048.size a ≤ S1x1x2098176.size a
  inb_S1x1x2098176_S1x1x2048_0_0_176396 : ∀ a, (![0, 0, 176396] : Fin 3 → Nat) a + S1x1x2048.size a ≤ S1x1x2098176.size a
  inb_S1x1x2098176_S1x1x2048_0_0_178356 : ∀ a, (![0, 0, 178356] : Fin 3 → Nat) a + S1x1x2048.size a ≤ S1x1x2098176.size a
  inb_S1x1x2098176_S1x1x2048_0_0_180315 : ∀ a, (![0, 0, 180315] : Fin 3 → Nat) a + S1x1x2048.size a ≤ S1x1x2098176.size a
  inb_S1x1x2098176_S1x1x2048_0_0_182273 : ∀ a, (![0, 0, 182273] : Fin 3 → Nat) a + S1x1x2048.size a ≤ S1x1x2098176.size a
  inb_S1x1x2098176_S1x1x2048_0_0_184230 : ∀ a, (![0, 0, 184230] : Fin 3 → Nat) a + S1x1x2048.size a ≤ S1x1x2098176.size a
  inb_S1x1x2098176_S1x1x2048_0_0_186186 : ∀ a, (![0, 0, 186186] : Fin 3 → Nat) a + S1x1x2048.size a ≤ S1x1x2098176.size a
  inb_S1x1x2098176_S1x1x2048_0_0_188141 : ∀ a, (![0, 0, 188141] : Fin 3 → Nat) a + S1x1x2048.size a ≤ S1x1x2098176.size a
  inb_S1x1x2098176_S1x1x2048_0_0_190095 : ∀ a, (![0, 0, 190095] : Fin 3 → Nat) a + S1x1x2048.size a ≤ S1x1x2098176.size a
  inb_S1x1x2098176_S1x1x2048_0_0_192048 : ∀ a, (![0, 0, 192048] : Fin 3 → Nat) a + S1x1x2048.size a ≤ S1x1x2098176.size a
  inb_S1x1x2098176_S1x1x2048_0_0_194000 : ∀ a, (![0, 0, 194000] : Fin 3 → Nat) a + S1x1x2048.size a ≤ S1x1x2098176.size a
  inb_S1x1x2098176_S1x1x2048_0_0_195951 : ∀ a, (![0, 0, 195951] : Fin 3 → Nat) a + S1x1x2048.size a ≤ S1x1x2098176.size a
  inb_S1x1x2098176_S1x1x2048_0_0_197901 : ∀ a, (![0, 0, 197901] : Fin 3 → Nat) a + S1x1x2048.size a ≤ S1x1x2098176.size a
  inb_S1x1x2098176_S1x1x2048_0_0_199850 : ∀ a, (![0, 0, 199850] : Fin 3 → Nat) a + S1x1x2048.size a ≤ S1x1x2098176.size a
  inb_S1x1x2098176_S1x1x2048_0_0_201798 : ∀ a, (![0, 0, 201798] : Fin 3 → Nat) a + S1x1x2048.size a ≤ S1x1x2098176.size a
  inb_S1x1x2098176_S1x1x2048_0_0_203745 : ∀ a, (![0, 0, 203745] : Fin 3 → Nat) a + S1x1x2048.size a ≤ S1x1x2098176.size a
  inb_S1x1x2098176_S1x1x2048_0_0_205691 : ∀ a, (![0, 0, 205691] : Fin 3 → Nat) a + S1x1x2048.size a ≤ S1x1x2098176.size a
  inb_S1x1x2098176_S1x1x2048_0_0_207636 : ∀ a, (![0, 0, 207636] : Fin 3 → Nat) a + S1x1x2048.size a ≤ S1x1x2098176.size a
  inb_S1x1x2098176_S1x1x2048_0_0_209580 : ∀ a, (![0, 0, 209580] : Fin 3 → Nat) a + S1x1x2048.size a ≤ S1x1x2098176.size a
  inb_S1x1x2098176_S1x1x2048_0_0_211523 : ∀ a, (![0, 0, 211523] : Fin 3 → Nat) a + S1x1x2048.size a ≤ S1x1x2098176.size a
  inb_S1x1x2098176_S1x1x2048_0_0_213465 : ∀ a, (![0, 0, 213465] : Fin 3 → Nat) a + S1x1x2048.size a ≤ S1x1x2098176.size a
  inb_S1x1x2098176_S1x1x2048_0_0_215406 : ∀ a, (![0, 0, 215406] : Fin 3 → Nat) a + S1x1x2048.size a ≤ S1x1x2098176.size a
  inb_S1x1x2098176_S1x1x2048_0_0_217346 : ∀ a, (![0, 0, 217346] : Fin 3 → Nat) a + S1x1x2048.size a ≤ S1x1x2098176.size a
  inb_S1x1x2098176_S1x1x2048_0_0_219285 : ∀ a, (![0, 0, 219285] : Fin 3 → Nat) a + S1x1x2048.size a ≤ S1x1x2098176.size a
  inb_S1x1x2098176_S1x1x2048_0_0_221223 : ∀ a, (![0, 0, 221223] : Fin 3 → Nat) a + S1x1x2048.size a ≤ S1x1x2098176.size a
  inb_S1x1x2098176_S1x1x2048_0_0_223160 : ∀ a, (![0, 0, 223160] : Fin 3 → Nat) a + S1x1x2048.size a ≤ S1x1x2098176.size a
  inb_S1x1x2098176_S1x1x2048_0_0_225096 : ∀ a, (![0, 0, 225096] : Fin 3 → Nat) a + S1x1x2048.size a ≤ S1x1x2098176.size a
  inb_S1x1x2098176_S1x1x2048_0_0_227031 : ∀ a, (![0, 0, 227031] : Fin 3 → Nat) a + S1x1x2048.size a ≤ S1x1x2098176.size a
  inb_S1x1x2098176_S1x1x2048_0_0_228965 : ∀ a, (![0, 0, 228965] : Fin 3 → Nat) a + S1x1x2048.size a ≤ S1x1x2098176.size a
  inb_S1x1x2098176_S1x1x2048_0_0_230898 : ∀ a, (![0, 0, 230898] : Fin 3 → Nat) a + S1x1x2048.size a ≤ S1x1x2098176.size a
  inb_S1x1x2098176_S1x1x2048_0_0_232830 : ∀ a, (![0, 0, 232830] : Fin 3 → Nat) a + S1x1x2048.size a ≤ S1x1x2098176.size a
  inb_S1x1x2098176_S1x1x2048_0_0_234761 : ∀ a, (![0, 0, 234761] : Fin 3 → Nat) a + S1x1x2048.size a ≤ S1x1x2098176.size a
  inb_S1x1x2098176_S1x1x2048_0_0_236691 : ∀ a, (![0, 0, 236691] : Fin 3 → Nat) a + S1x1x2048.size a ≤ S1x1x2098176.size a
  inb_S1x1x2098176_S1x1x2048_0_0_238620 : ∀ a, (![0, 0, 238620] : Fin 3 → Nat) a + S1x1x2048.size a ≤ S1x1x2098176.size a
  inb_S1x1x2098176_S1x1x2048_0_0_240548 : ∀ a, (![0, 0, 240548] : Fin 3 → Nat) a + S1x1x2048.size a ≤ S1x1x2098176.size a
  inb_S1x1x2098176_S1x1x2048_0_0_242475 : ∀ a, (![0, 0, 242475] : Fin 3 → Nat) a + S1x1x2048.size a ≤ S1x1x2098176.size a
  inb_S1x1x2098176_S1x1x2048_0_0_244401 : ∀ a, (![0, 0, 244401] : Fin 3 → Nat) a + S1x1x2048.size a ≤ S1x1x2098176.size a
  inb_S1x1x2098176_S1x1x2048_0_0_246326 : ∀ a, (![0, 0, 246326] : Fin 3 → Nat) a + S1x1x2048.size a ≤ S1x1x2098176.size a
  inb_S1x1x2098176_S1x1x2048_0_0_248250 : ∀ a, (![0, 0, 248250] : Fin 3 → Nat) a + S1x1x2048.size a ≤ S1x1x2098176.size a
  inb_S1x1x2098176_S1x1x2048_0_0_250173 : ∀ a, (![0, 0, 250173] : Fin 3 → Nat) a + S1x1x2048.size a ≤ S1x1x2098176.size a
  inb_S1x1x2098176_S1x1x2048_0_0_252095 : ∀ a, (![0, 0, 252095] : Fin 3 → Nat) a + S1x1x2048.size a ≤ S1x1x2098176.size a
  inb_S1x1024x2048_S1x64x2048_0_64_0 : ∀ a, (![0, 64, 0] : Fin 3 → Nat) a + S1x64x2048.size a ≤ S1x1024x2048.size a
  inb_S1x1x2098176_S1x1x2048_0_0_254016 : ∀ a, (![0, 0, 254016] : Fin 3 → Nat) a + S1x1x2048.size a ≤ S1x1x2098176.size a
  inb_S1x1x2098176_S1x1x2048_0_0_255936 : ∀ a, (![0, 0, 255936] : Fin 3 → Nat) a + S1x1x2048.size a ≤ S1x1x2098176.size a
  inb_S1x1x2098176_S1x1x2048_0_0_257855 : ∀ a, (![0, 0, 257855] : Fin 3 → Nat) a + S1x1x2048.size a ≤ S1x1x2098176.size a
  inb_S1x1x2098176_S1x1x2048_0_0_259773 : ∀ a, (![0, 0, 259773] : Fin 3 → Nat) a + S1x1x2048.size a ≤ S1x1x2098176.size a
  inb_S1x1x2098176_S1x1x2048_0_0_261690 : ∀ a, (![0, 0, 261690] : Fin 3 → Nat) a + S1x1x2048.size a ≤ S1x1x2098176.size a
  inb_S1x1x2098176_S1x1x2048_0_0_263606 : ∀ a, (![0, 0, 263606] : Fin 3 → Nat) a + S1x1x2048.size a ≤ S1x1x2098176.size a
  inb_S1x1x2098176_S1x1x2048_0_0_265521 : ∀ a, (![0, 0, 265521] : Fin 3 → Nat) a + S1x1x2048.size a ≤ S1x1x2098176.size a
  inb_S1x1x2098176_S1x1x2048_0_0_267435 : ∀ a, (![0, 0, 267435] : Fin 3 → Nat) a + S1x1x2048.size a ≤ S1x1x2098176.size a
  inb_S1x1x2098176_S1x1x2048_0_0_269348 : ∀ a, (![0, 0, 269348] : Fin 3 → Nat) a + S1x1x2048.size a ≤ S1x1x2098176.size a
  inb_S1x1x2098176_S1x1x2048_0_0_271260 : ∀ a, (![0, 0, 271260] : Fin 3 → Nat) a + S1x1x2048.size a ≤ S1x1x2098176.size a
  inb_S1x1x2098176_S1x1x2048_0_0_273171 : ∀ a, (![0, 0, 273171] : Fin 3 → Nat) a + S1x1x2048.size a ≤ S1x1x2098176.size a
  inb_S1x1x2098176_S1x1x2048_0_0_275081 : ∀ a, (![0, 0, 275081] : Fin 3 → Nat) a + S1x1x2048.size a ≤ S1x1x2098176.size a
  inb_S1x1x2098176_S1x1x2048_0_0_276990 : ∀ a, (![0, 0, 276990] : Fin 3 → Nat) a + S1x1x2048.size a ≤ S1x1x2098176.size a
  inb_S1x1x2098176_S1x1x2048_0_0_278898 : ∀ a, (![0, 0, 278898] : Fin 3 → Nat) a + S1x1x2048.size a ≤ S1x1x2098176.size a
  inb_S1x1x2098176_S1x1x2048_0_0_280805 : ∀ a, (![0, 0, 280805] : Fin 3 → Nat) a + S1x1x2048.size a ≤ S1x1x2098176.size a
  inb_S1x1x2098176_S1x1x2048_0_0_282711 : ∀ a, (![0, 0, 282711] : Fin 3 → Nat) a + S1x1x2048.size a ≤ S1x1x2098176.size a
  inb_S1x1x2098176_S1x1x2048_0_0_284616 : ∀ a, (![0, 0, 284616] : Fin 3 → Nat) a + S1x1x2048.size a ≤ S1x1x2098176.size a
  inb_S1x1x2098176_S1x1x2048_0_0_286520 : ∀ a, (![0, 0, 286520] : Fin 3 → Nat) a + S1x1x2048.size a ≤ S1x1x2098176.size a
  inb_S1x1x2098176_S1x1x2048_0_0_288423 : ∀ a, (![0, 0, 288423] : Fin 3 → Nat) a + S1x1x2048.size a ≤ S1x1x2098176.size a
  inb_S1x1x2098176_S1x1x2048_0_0_290325 : ∀ a, (![0, 0, 290325] : Fin 3 → Nat) a + S1x1x2048.size a ≤ S1x1x2098176.size a
  inb_S1x1x2098176_S1x1x2048_0_0_292226 : ∀ a, (![0, 0, 292226] : Fin 3 → Nat) a + S1x1x2048.size a ≤ S1x1x2098176.size a
  inb_S1x1x2098176_S1x1x2048_0_0_294126 : ∀ a, (![0, 0, 294126] : Fin 3 → Nat) a + S1x1x2048.size a ≤ S1x1x2098176.size a
  inb_S1x1x2098176_S1x1x2048_0_0_296025 : ∀ a, (![0, 0, 296025] : Fin 3 → Nat) a + S1x1x2048.size a ≤ S1x1x2098176.size a
  inb_S1x1x2098176_S1x1x2048_0_0_297923 : ∀ a, (![0, 0, 297923] : Fin 3 → Nat) a + S1x1x2048.size a ≤ S1x1x2098176.size a
  inb_S1x1x2098176_S1x1x2048_0_0_299820 : ∀ a, (![0, 0, 299820] : Fin 3 → Nat) a + S1x1x2048.size a ≤ S1x1x2098176.size a
  inb_S1x1x2098176_S1x1x2048_0_0_301716 : ∀ a, (![0, 0, 301716] : Fin 3 → Nat) a + S1x1x2048.size a ≤ S1x1x2098176.size a
  inb_S1x1x2098176_S1x1x2048_0_0_303611 : ∀ a, (![0, 0, 303611] : Fin 3 → Nat) a + S1x1x2048.size a ≤ S1x1x2098176.size a
  inb_S1x1x2098176_S1x1x2048_0_0_305505 : ∀ a, (![0, 0, 305505] : Fin 3 → Nat) a + S1x1x2048.size a ≤ S1x1x2098176.size a
  inb_S1x1x2098176_S1x1x2048_0_0_307398 : ∀ a, (![0, 0, 307398] : Fin 3 → Nat) a + S1x1x2048.size a ≤ S1x1x2098176.size a
  inb_S1x1x2098176_S1x1x2048_0_0_309290 : ∀ a, (![0, 0, 309290] : Fin 3 → Nat) a + S1x1x2048.size a ≤ S1x1x2098176.size a
  inb_S1x1x2098176_S1x1x2048_0_0_311181 : ∀ a, (![0, 0, 311181] : Fin 3 → Nat) a + S1x1x2048.size a ≤ S1x1x2098176.size a
  inb_S1x1x2098176_S1x1x2048_0_0_313071 : ∀ a, (![0, 0, 313071] : Fin 3 → Nat) a + S1x1x2048.size a ≤ S1x1x2098176.size a
  inb_S1x1x2098176_S1x1x2048_0_0_314960 : ∀ a, (![0, 0, 314960] : Fin 3 → Nat) a + S1x1x2048.size a ≤ S1x1x2098176.size a
  inb_S1x1x2098176_S1x1x2048_0_0_316848 : ∀ a, (![0, 0, 316848] : Fin 3 → Nat) a + S1x1x2048.size a ≤ S1x1x2098176.size a
  inb_S1x1x2098176_S1x1x2048_0_0_318735 : ∀ a, (![0, 0, 318735] : Fin 3 → Nat) a + S1x1x2048.size a ≤ S1x1x2098176.size a
  inb_S1x1x2098176_S1x1x2048_0_0_320621 : ∀ a, (![0, 0, 320621] : Fin 3 → Nat) a + S1x1x2048.size a ≤ S1x1x2098176.size a
  inb_S1x1x2098176_S1x1x2048_0_0_322506 : ∀ a, (![0, 0, 322506] : Fin 3 → Nat) a + S1x1x2048.size a ≤ S1x1x2098176.size a
  inb_S1x1x2098176_S1x1x2048_0_0_324390 : ∀ a, (![0, 0, 324390] : Fin 3 → Nat) a + S1x1x2048.size a ≤ S1x1x2098176.size a
  inb_S1x1x2098176_S1x1x2048_0_0_326273 : ∀ a, (![0, 0, 326273] : Fin 3 → Nat) a + S1x1x2048.size a ≤ S1x1x2098176.size a
  inb_S1x1x2098176_S1x1x2048_0_0_328155 : ∀ a, (![0, 0, 328155] : Fin 3 → Nat) a + S1x1x2048.size a ≤ S1x1x2098176.size a
  inb_S1x1x2098176_S1x1x2048_0_0_330036 : ∀ a, (![0, 0, 330036] : Fin 3 → Nat) a + S1x1x2048.size a ≤ S1x1x2098176.size a
  inb_S1x1x2098176_S1x1x2048_0_0_331916 : ∀ a, (![0, 0, 331916] : Fin 3 → Nat) a + S1x1x2048.size a ≤ S1x1x2098176.size a
  inb_S1x1x2098176_S1x1x2048_0_0_333795 : ∀ a, (![0, 0, 333795] : Fin 3 → Nat) a + S1x1x2048.size a ≤ S1x1x2098176.size a
  inb_S1x1x2098176_S1x1x2048_0_0_335673 : ∀ a, (![0, 0, 335673] : Fin 3 → Nat) a + S1x1x2048.size a ≤ S1x1x2098176.size a
  inb_S1x1x2098176_S1x1x2048_0_0_337550 : ∀ a, (![0, 0, 337550] : Fin 3 → Nat) a + S1x1x2048.size a ≤ S1x1x2098176.size a
  inb_S1x1x2098176_S1x1x2048_0_0_339426 : ∀ a, (![0, 0, 339426] : Fin 3 → Nat) a + S1x1x2048.size a ≤ S1x1x2098176.size a
  inb_S1x1x2098176_S1x1x2048_0_0_341301 : ∀ a, (![0, 0, 341301] : Fin 3 → Nat) a + S1x1x2048.size a ≤ S1x1x2098176.size a
  inb_S1x1x2098176_S1x1x2048_0_0_343175 : ∀ a, (![0, 0, 343175] : Fin 3 → Nat) a + S1x1x2048.size a ≤ S1x1x2098176.size a
  inb_S1x1x2098176_S1x1x2048_0_0_345048 : ∀ a, (![0, 0, 345048] : Fin 3 → Nat) a + S1x1x2048.size a ≤ S1x1x2098176.size a
  inb_S1x1x2098176_S1x1x2048_0_0_346920 : ∀ a, (![0, 0, 346920] : Fin 3 → Nat) a + S1x1x2048.size a ≤ S1x1x2098176.size a
  inb_S1x1x2098176_S1x1x2048_0_0_348791 : ∀ a, (![0, 0, 348791] : Fin 3 → Nat) a + S1x1x2048.size a ≤ S1x1x2098176.size a
  inb_S1x1x2098176_S1x1x2048_0_0_350661 : ∀ a, (![0, 0, 350661] : Fin 3 → Nat) a + S1x1x2048.size a ≤ S1x1x2098176.size a
  inb_S1x1x2098176_S1x1x2048_0_0_352530 : ∀ a, (![0, 0, 352530] : Fin 3 → Nat) a + S1x1x2048.size a ≤ S1x1x2098176.size a
  inb_S1x1x2098176_S1x1x2048_0_0_354398 : ∀ a, (![0, 0, 354398] : Fin 3 → Nat) a + S1x1x2048.size a ≤ S1x1x2098176.size a
  inb_S1x1x2098176_S1x1x2048_0_0_356265 : ∀ a, (![0, 0, 356265] : Fin 3 → Nat) a + S1x1x2048.size a ≤ S1x1x2098176.size a
  inb_S1x1x2098176_S1x1x2048_0_0_358131 : ∀ a, (![0, 0, 358131] : Fin 3 → Nat) a + S1x1x2048.size a ≤ S1x1x2098176.size a
  inb_S1x1x2098176_S1x1x2048_0_0_359996 : ∀ a, (![0, 0, 359996] : Fin 3 → Nat) a + S1x1x2048.size a ≤ S1x1x2098176.size a
  inb_S1x1x2098176_S1x1x2048_0_0_361860 : ∀ a, (![0, 0, 361860] : Fin 3 → Nat) a + S1x1x2048.size a ≤ S1x1x2098176.size a
  inb_S1x1x2098176_S1x1x2048_0_0_363723 : ∀ a, (![0, 0, 363723] : Fin 3 → Nat) a + S1x1x2048.size a ≤ S1x1x2098176.size a
  inb_S1x1x2098176_S1x1x2048_0_0_365585 : ∀ a, (![0, 0, 365585] : Fin 3 → Nat) a + S1x1x2048.size a ≤ S1x1x2098176.size a
  inb_S1x1x2098176_S1x1x2048_0_0_367446 : ∀ a, (![0, 0, 367446] : Fin 3 → Nat) a + S1x1x2048.size a ≤ S1x1x2098176.size a
  inb_S1x1x2098176_S1x1x2048_0_0_369306 : ∀ a, (![0, 0, 369306] : Fin 3 → Nat) a + S1x1x2048.size a ≤ S1x1x2098176.size a
  inb_S1x1x2098176_S1x1x2048_0_0_371165 : ∀ a, (![0, 0, 371165] : Fin 3 → Nat) a + S1x1x2048.size a ≤ S1x1x2098176.size a
  inb_S1x1x2098176_S1x1x2048_0_0_373023 : ∀ a, (![0, 0, 373023] : Fin 3 → Nat) a + S1x1x2048.size a ≤ S1x1x2098176.size a
  inb_S1x1024x2048_S1x64x2048_0_128_0 : ∀ a, (![0, 128, 0] : Fin 3 → Nat) a + S1x64x2048.size a ≤ S1x1024x2048.size a
  inb_S1x1x2098176_S1x1x2048_0_0_374880 : ∀ a, (![0, 0, 374880] : Fin 3 → Nat) a + S1x1x2048.size a ≤ S1x1x2098176.size a
  inb_S1x1x2098176_S1x1x2048_0_0_376736 : ∀ a, (![0, 0, 376736] : Fin 3 → Nat) a + S1x1x2048.size a ≤ S1x1x2098176.size a
  inb_S1x1x2098176_S1x1x2048_0_0_378591 : ∀ a, (![0, 0, 378591] : Fin 3 → Nat) a + S1x1x2048.size a ≤ S1x1x2098176.size a
  inb_S1x1x2098176_S1x1x2048_0_0_380445 : ∀ a, (![0, 0, 380445] : Fin 3 → Nat) a + S1x1x2048.size a ≤ S1x1x2098176.size a
  inb_S1x1x2098176_S1x1x2048_0_0_382298 : ∀ a, (![0, 0, 382298] : Fin 3 → Nat) a + S1x1x2048.size a ≤ S1x1x2098176.size a
  inb_S1x1x2098176_S1x1x2048_0_0_384150 : ∀ a, (![0, 0, 384150] : Fin 3 → Nat) a + S1x1x2048.size a ≤ S1x1x2098176.size a
  inb_S1x1x2098176_S1x1x2048_0_0_386001 : ∀ a, (![0, 0, 386001] : Fin 3 → Nat) a + S1x1x2048.size a ≤ S1x1x2098176.size a
  inb_S1x1x2098176_S1x1x2048_0_0_387851 : ∀ a, (![0, 0, 387851] : Fin 3 → Nat) a + S1x1x2048.size a ≤ S1x1x2098176.size a
  inb_S1x1x2098176_S1x1x2048_0_0_389700 : ∀ a, (![0, 0, 389700] : Fin 3 → Nat) a + S1x1x2048.size a ≤ S1x1x2098176.size a
  inb_S1x1x2098176_S1x1x2048_0_0_391548 : ∀ a, (![0, 0, 391548] : Fin 3 → Nat) a + S1x1x2048.size a ≤ S1x1x2098176.size a
  inb_S1x1x2098176_S1x1x2048_0_0_393395 : ∀ a, (![0, 0, 393395] : Fin 3 → Nat) a + S1x1x2048.size a ≤ S1x1x2098176.size a
  inb_S1x1x2098176_S1x1x2048_0_0_395241 : ∀ a, (![0, 0, 395241] : Fin 3 → Nat) a + S1x1x2048.size a ≤ S1x1x2098176.size a
  inb_S1x1x2098176_S1x1x2048_0_0_397086 : ∀ a, (![0, 0, 397086] : Fin 3 → Nat) a + S1x1x2048.size a ≤ S1x1x2098176.size a
  inb_S1x1x2098176_S1x1x2048_0_0_398930 : ∀ a, (![0, 0, 398930] : Fin 3 → Nat) a + S1x1x2048.size a ≤ S1x1x2098176.size a
  inb_S1x1x2098176_S1x1x2048_0_0_400773 : ∀ a, (![0, 0, 400773] : Fin 3 → Nat) a + S1x1x2048.size a ≤ S1x1x2098176.size a
  inb_S1x1x2098176_S1x1x2048_0_0_402615 : ∀ a, (![0, 0, 402615] : Fin 3 → Nat) a + S1x1x2048.size a ≤ S1x1x2098176.size a
  inb_S1x1x2098176_S1x1x2048_0_0_404456 : ∀ a, (![0, 0, 404456] : Fin 3 → Nat) a + S1x1x2048.size a ≤ S1x1x2098176.size a
  inb_S1x1x2098176_S1x1x2048_0_0_406296 : ∀ a, (![0, 0, 406296] : Fin 3 → Nat) a + S1x1x2048.size a ≤ S1x1x2098176.size a
  inb_S1x1x2098176_S1x1x2048_0_0_408135 : ∀ a, (![0, 0, 408135] : Fin 3 → Nat) a + S1x1x2048.size a ≤ S1x1x2098176.size a
  inb_S1x1x2098176_S1x1x2048_0_0_409973 : ∀ a, (![0, 0, 409973] : Fin 3 → Nat) a + S1x1x2048.size a ≤ S1x1x2098176.size a
  inb_S1x1x2098176_S1x1x2048_0_0_411810 : ∀ a, (![0, 0, 411810] : Fin 3 → Nat) a + S1x1x2048.size a ≤ S1x1x2098176.size a
  inb_S1x1x2098176_S1x1x2048_0_0_413646 : ∀ a, (![0, 0, 413646] : Fin 3 → Nat) a + S1x1x2048.size a ≤ S1x1x2098176.size a
  inb_S1x1x2098176_S1x1x2048_0_0_415481 : ∀ a, (![0, 0, 415481] : Fin 3 → Nat) a + S1x1x2048.size a ≤ S1x1x2098176.size a
  inb_S1x1x2098176_S1x1x2048_0_0_417315 : ∀ a, (![0, 0, 417315] : Fin 3 → Nat) a + S1x1x2048.size a ≤ S1x1x2098176.size a
  inb_S1x1x2098176_S1x1x2048_0_0_419148 : ∀ a, (![0, 0, 419148] : Fin 3 → Nat) a + S1x1x2048.size a ≤ S1x1x2098176.size a
  inb_S1x1x2098176_S1x1x2048_0_0_420980 : ∀ a, (![0, 0, 420980] : Fin 3 → Nat) a + S1x1x2048.size a ≤ S1x1x2098176.size a
  inb_S1x1x2098176_S1x1x2048_0_0_422811 : ∀ a, (![0, 0, 422811] : Fin 3 → Nat) a + S1x1x2048.size a ≤ S1x1x2098176.size a
  inb_S1x1x2098176_S1x1x2048_0_0_424641 : ∀ a, (![0, 0, 424641] : Fin 3 → Nat) a + S1x1x2048.size a ≤ S1x1x2098176.size a
  inb_S1x1x2098176_S1x1x2048_0_0_426470 : ∀ a, (![0, 0, 426470] : Fin 3 → Nat) a + S1x1x2048.size a ≤ S1x1x2098176.size a
  inb_S1x1x2098176_S1x1x2048_0_0_428298 : ∀ a, (![0, 0, 428298] : Fin 3 → Nat) a + S1x1x2048.size a ≤ S1x1x2098176.size a
  inb_S1x1x2098176_S1x1x2048_0_0_430125 : ∀ a, (![0, 0, 430125] : Fin 3 → Nat) a + S1x1x2048.size a ≤ S1x1x2098176.size a
  inb_S1x1x2098176_S1x1x2048_0_0_431951 : ∀ a, (![0, 0, 431951] : Fin 3 → Nat) a + S1x1x2048.size a ≤ S1x1x2098176.size a
  inb_S1x1x2098176_S1x1x2048_0_0_433776 : ∀ a, (![0, 0, 433776] : Fin 3 → Nat) a + S1x1x2048.size a ≤ S1x1x2098176.size a
  inb_S1x1x2098176_S1x1x2048_0_0_435600 : ∀ a, (![0, 0, 435600] : Fin 3 → Nat) a + S1x1x2048.size a ≤ S1x1x2098176.size a
  inb_S1x1x2098176_S1x1x2048_0_0_437423 : ∀ a, (![0, 0, 437423] : Fin 3 → Nat) a + S1x1x2048.size a ≤ S1x1x2098176.size a
  inb_S1x1x2098176_S1x1x2048_0_0_439245 : ∀ a, (![0, 0, 439245] : Fin 3 → Nat) a + S1x1x2048.size a ≤ S1x1x2098176.size a
  inb_S1x1x2098176_S1x1x2048_0_0_441066 : ∀ a, (![0, 0, 441066] : Fin 3 → Nat) a + S1x1x2048.size a ≤ S1x1x2098176.size a
  inb_S1x1x2098176_S1x1x2048_0_0_442886 : ∀ a, (![0, 0, 442886] : Fin 3 → Nat) a + S1x1x2048.size a ≤ S1x1x2098176.size a
  inb_S1x1x2098176_S1x1x2048_0_0_444705 : ∀ a, (![0, 0, 444705] : Fin 3 → Nat) a + S1x1x2048.size a ≤ S1x1x2098176.size a
  inb_S1x1x2098176_S1x1x2048_0_0_446523 : ∀ a, (![0, 0, 446523] : Fin 3 → Nat) a + S1x1x2048.size a ≤ S1x1x2098176.size a
  inb_S1x1x2098176_S1x1x2048_0_0_448340 : ∀ a, (![0, 0, 448340] : Fin 3 → Nat) a + S1x1x2048.size a ≤ S1x1x2098176.size a
  inb_S1x1x2098176_S1x1x2048_0_0_450156 : ∀ a, (![0, 0, 450156] : Fin 3 → Nat) a + S1x1x2048.size a ≤ S1x1x2098176.size a
  inb_S1x1x2098176_S1x1x2048_0_0_451971 : ∀ a, (![0, 0, 451971] : Fin 3 → Nat) a + S1x1x2048.size a ≤ S1x1x2098176.size a
  inb_S1x1x2098176_S1x1x2048_0_0_453785 : ∀ a, (![0, 0, 453785] : Fin 3 → Nat) a + S1x1x2048.size a ≤ S1x1x2098176.size a
  inb_S1x1x2098176_S1x1x2048_0_0_455598 : ∀ a, (![0, 0, 455598] : Fin 3 → Nat) a + S1x1x2048.size a ≤ S1x1x2098176.size a
  inb_S1x1x2098176_S1x1x2048_0_0_457410 : ∀ a, (![0, 0, 457410] : Fin 3 → Nat) a + S1x1x2048.size a ≤ S1x1x2098176.size a
  inb_S1x1x2098176_S1x1x2048_0_0_459221 : ∀ a, (![0, 0, 459221] : Fin 3 → Nat) a + S1x1x2048.size a ≤ S1x1x2098176.size a
  inb_S1x1x2098176_S1x1x2048_0_0_461031 : ∀ a, (![0, 0, 461031] : Fin 3 → Nat) a + S1x1x2048.size a ≤ S1x1x2098176.size a
  inb_S1x1x2098176_S1x1x2048_0_0_462840 : ∀ a, (![0, 0, 462840] : Fin 3 → Nat) a + S1x1x2048.size a ≤ S1x1x2098176.size a
  inb_S1x1x2098176_S1x1x2048_0_0_464648 : ∀ a, (![0, 0, 464648] : Fin 3 → Nat) a + S1x1x2048.size a ≤ S1x1x2098176.size a
  inb_S1x1x2098176_S1x1x2048_0_0_466455 : ∀ a, (![0, 0, 466455] : Fin 3 → Nat) a + S1x1x2048.size a ≤ S1x1x2098176.size a
  inb_S1x1x2098176_S1x1x2048_0_0_468261 : ∀ a, (![0, 0, 468261] : Fin 3 → Nat) a + S1x1x2048.size a ≤ S1x1x2098176.size a
  inb_S1x1x2098176_S1x1x2048_0_0_470066 : ∀ a, (![0, 0, 470066] : Fin 3 → Nat) a + S1x1x2048.size a ≤ S1x1x2098176.size a
  inb_S1x1x2098176_S1x1x2048_0_0_471870 : ∀ a, (![0, 0, 471870] : Fin 3 → Nat) a + S1x1x2048.size a ≤ S1x1x2098176.size a
  inb_S1x1x2098176_S1x1x2048_0_0_473673 : ∀ a, (![0, 0, 473673] : Fin 3 → Nat) a + S1x1x2048.size a ≤ S1x1x2098176.size a
  inb_S1x1x2098176_S1x1x2048_0_0_475475 : ∀ a, (![0, 0, 475475] : Fin 3 → Nat) a + S1x1x2048.size a ≤ S1x1x2098176.size a
  inb_S1x1x2098176_S1x1x2048_0_0_477276 : ∀ a, (![0, 0, 477276] : Fin 3 → Nat) a + S1x1x2048.size a ≤ S1x1x2098176.size a
  inb_S1x1x2098176_S1x1x2048_0_0_479076 : ∀ a, (![0, 0, 479076] : Fin 3 → Nat) a + S1x1x2048.size a ≤ S1x1x2098176.size a
  inb_S1x1x2098176_S1x1x2048_0_0_480875 : ∀ a, (![0, 0, 480875] : Fin 3 → Nat) a + S1x1x2048.size a ≤ S1x1x2098176.size a
  inb_S1x1x2098176_S1x1x2048_0_0_482673 : ∀ a, (![0, 0, 482673] : Fin 3 → Nat) a + S1x1x2048.size a ≤ S1x1x2098176.size a
  inb_S1x1x2098176_S1x1x2048_0_0_484470 : ∀ a, (![0, 0, 484470] : Fin 3 → Nat) a + S1x1x2048.size a ≤ S1x1x2098176.size a
  inb_S1x1x2098176_S1x1x2048_0_0_486266 : ∀ a, (![0, 0, 486266] : Fin 3 → Nat) a + S1x1x2048.size a ≤ S1x1x2098176.size a
  inb_S1x1x2098176_S1x1x2048_0_0_488061 : ∀ a, (![0, 0, 488061] : Fin 3 → Nat) a + S1x1x2048.size a ≤ S1x1x2098176.size a
  inb_S1x1x2098176_S1x1x2048_0_0_489855 : ∀ a, (![0, 0, 489855] : Fin 3 → Nat) a + S1x1x2048.size a ≤ S1x1x2098176.size a
  inb_S1x1024x2048_S1x64x2048_0_192_0 : ∀ a, (![0, 192, 0] : Fin 3 → Nat) a + S1x64x2048.size a ≤ S1x1024x2048.size a
  inb_S1x1x2098176_S1x1x2048_0_0_491648 : ∀ a, (![0, 0, 491648] : Fin 3 → Nat) a + S1x1x2048.size a ≤ S1x1x2098176.size a
  inb_S1x1x2098176_S1x1x2048_0_0_493440 : ∀ a, (![0, 0, 493440] : Fin 3 → Nat) a + S1x1x2048.size a ≤ S1x1x2098176.size a
  inb_S1x1x2098176_S1x1x2048_0_0_495231 : ∀ a, (![0, 0, 495231] : Fin 3 → Nat) a + S1x1x2048.size a ≤ S1x1x2098176.size a
  inb_S1x1x2098176_S1x1x2048_0_0_497021 : ∀ a, (![0, 0, 497021] : Fin 3 → Nat) a + S1x1x2048.size a ≤ S1x1x2098176.size a
  inb_S1x1x2098176_S1x1x2048_0_0_498810 : ∀ a, (![0, 0, 498810] : Fin 3 → Nat) a + S1x1x2048.size a ≤ S1x1x2098176.size a
  inb_S1x1x2098176_S1x1x2048_0_0_500598 : ∀ a, (![0, 0, 500598] : Fin 3 → Nat) a + S1x1x2048.size a ≤ S1x1x2098176.size a
  inb_S1x1x2098176_S1x1x2048_0_0_502385 : ∀ a, (![0, 0, 502385] : Fin 3 → Nat) a + S1x1x2048.size a ≤ S1x1x2098176.size a
  inb_S1x1x2098176_S1x1x2048_0_0_504171 : ∀ a, (![0, 0, 504171] : Fin 3 → Nat) a + S1x1x2048.size a ≤ S1x1x2098176.size a
  inb_S1x1x2098176_S1x1x2048_0_0_505956 : ∀ a, (![0, 0, 505956] : Fin 3 → Nat) a + S1x1x2048.size a ≤ S1x1x2098176.size a
  inb_S1x1x2098176_S1x1x2048_0_0_507740 : ∀ a, (![0, 0, 507740] : Fin 3 → Nat) a + S1x1x2048.size a ≤ S1x1x2098176.size a
  inb_S1x1x2098176_S1x1x2048_0_0_509523 : ∀ a, (![0, 0, 509523] : Fin 3 → Nat) a + S1x1x2048.size a ≤ S1x1x2098176.size a
  inb_S1x1x2098176_S1x1x2048_0_0_511305 : ∀ a, (![0, 0, 511305] : Fin 3 → Nat) a + S1x1x2048.size a ≤ S1x1x2098176.size a
  inb_S1x1x2098176_S1x1x2048_0_0_513086 : ∀ a, (![0, 0, 513086] : Fin 3 → Nat) a + S1x1x2048.size a ≤ S1x1x2098176.size a
  inb_S1x1x2098176_S1x1x2048_0_0_514866 : ∀ a, (![0, 0, 514866] : Fin 3 → Nat) a + S1x1x2048.size a ≤ S1x1x2098176.size a
  inb_S1x1x2098176_S1x1x2048_0_0_516645 : ∀ a, (![0, 0, 516645] : Fin 3 → Nat) a + S1x1x2048.size a ≤ S1x1x2098176.size a
  inb_S1x1x2098176_S1x1x2048_0_0_518423 : ∀ a, (![0, 0, 518423] : Fin 3 → Nat) a + S1x1x2048.size a ≤ S1x1x2098176.size a
  inb_S1x1x2098176_S1x1x2048_0_0_520200 : ∀ a, (![0, 0, 520200] : Fin 3 → Nat) a + S1x1x2048.size a ≤ S1x1x2098176.size a
  inb_S1x1x2098176_S1x1x2048_0_0_521976 : ∀ a, (![0, 0, 521976] : Fin 3 → Nat) a + S1x1x2048.size a ≤ S1x1x2098176.size a
  inb_S1x1x2098176_S1x1x2048_0_0_523751 : ∀ a, (![0, 0, 523751] : Fin 3 → Nat) a + S1x1x2048.size a ≤ S1x1x2098176.size a
  inb_S1x1x2098176_S1x1x2048_0_0_525525 : ∀ a, (![0, 0, 525525] : Fin 3 → Nat) a + S1x1x2048.size a ≤ S1x1x2098176.size a
  inb_S1x1x2098176_S1x1x2048_0_0_527298 : ∀ a, (![0, 0, 527298] : Fin 3 → Nat) a + S1x1x2048.size a ≤ S1x1x2098176.size a
  inb_S1x1x2098176_S1x1x2048_0_0_529070 : ∀ a, (![0, 0, 529070] : Fin 3 → Nat) a + S1x1x2048.size a ≤ S1x1x2098176.size a
  inb_S1x1x2098176_S1x1x2048_0_0_530841 : ∀ a, (![0, 0, 530841] : Fin 3 → Nat) a + S1x1x2048.size a ≤ S1x1x2098176.size a
  inb_S1x1x2098176_S1x1x2048_0_0_532611 : ∀ a, (![0, 0, 532611] : Fin 3 → Nat) a + S1x1x2048.size a ≤ S1x1x2098176.size a
  inb_S1x1x2098176_S1x1x2048_0_0_534380 : ∀ a, (![0, 0, 534380] : Fin 3 → Nat) a + S1x1x2048.size a ≤ S1x1x2098176.size a
  inb_S1x1x2098176_S1x1x2048_0_0_536148 : ∀ a, (![0, 0, 536148] : Fin 3 → Nat) a + S1x1x2048.size a ≤ S1x1x2098176.size a
  inb_S1x1x2098176_S1x1x2048_0_0_537915 : ∀ a, (![0, 0, 537915] : Fin 3 → Nat) a + S1x1x2048.size a ≤ S1x1x2098176.size a
  inb_S1x1x2098176_S1x1x2048_0_0_539681 : ∀ a, (![0, 0, 539681] : Fin 3 → Nat) a + S1x1x2048.size a ≤ S1x1x2098176.size a
  inb_S1x1x2098176_S1x1x2048_0_0_541446 : ∀ a, (![0, 0, 541446] : Fin 3 → Nat) a + S1x1x2048.size a ≤ S1x1x2098176.size a
  inb_S1x1x2098176_S1x1x2048_0_0_543210 : ∀ a, (![0, 0, 543210] : Fin 3 → Nat) a + S1x1x2048.size a ≤ S1x1x2098176.size a
  inb_S1x1x2098176_S1x1x2048_0_0_544973 : ∀ a, (![0, 0, 544973] : Fin 3 → Nat) a + S1x1x2048.size a ≤ S1x1x2098176.size a
  inb_S1x1x2098176_S1x1x2048_0_0_546735 : ∀ a, (![0, 0, 546735] : Fin 3 → Nat) a + S1x1x2048.size a ≤ S1x1x2098176.size a
  inb_S1x1x2098176_S1x1x2048_0_0_548496 : ∀ a, (![0, 0, 548496] : Fin 3 → Nat) a + S1x1x2048.size a ≤ S1x1x2098176.size a
  inb_S1x1x2098176_S1x1x2048_0_0_550256 : ∀ a, (![0, 0, 550256] : Fin 3 → Nat) a + S1x1x2048.size a ≤ S1x1x2098176.size a
  inb_S1x1x2098176_S1x1x2048_0_0_552015 : ∀ a, (![0, 0, 552015] : Fin 3 → Nat) a + S1x1x2048.size a ≤ S1x1x2098176.size a
  inb_S1x1x2098176_S1x1x2048_0_0_553773 : ∀ a, (![0, 0, 553773] : Fin 3 → Nat) a + S1x1x2048.size a ≤ S1x1x2098176.size a
  inb_S1x1x2098176_S1x1x2048_0_0_555530 : ∀ a, (![0, 0, 555530] : Fin 3 → Nat) a + S1x1x2048.size a ≤ S1x1x2098176.size a
  inb_S1x1x2098176_S1x1x2048_0_0_557286 : ∀ a, (![0, 0, 557286] : Fin 3 → Nat) a + S1x1x2048.size a ≤ S1x1x2098176.size a
  inb_S1x1x2098176_S1x1x2048_0_0_559041 : ∀ a, (![0, 0, 559041] : Fin 3 → Nat) a + S1x1x2048.size a ≤ S1x1x2098176.size a
  inb_S1x1x2098176_S1x1x2048_0_0_560795 : ∀ a, (![0, 0, 560795] : Fin 3 → Nat) a + S1x1x2048.size a ≤ S1x1x2098176.size a
  inb_S1x1x2098176_S1x1x2048_0_0_562548 : ∀ a, (![0, 0, 562548] : Fin 3 → Nat) a + S1x1x2048.size a ≤ S1x1x2098176.size a
  inb_S1x1x2098176_S1x1x2048_0_0_564300 : ∀ a, (![0, 0, 564300] : Fin 3 → Nat) a + S1x1x2048.size a ≤ S1x1x2098176.size a
  inb_S1x1x2098176_S1x1x2048_0_0_566051 : ∀ a, (![0, 0, 566051] : Fin 3 → Nat) a + S1x1x2048.size a ≤ S1x1x2098176.size a
  inb_S1x1x2098176_S1x1x2048_0_0_567801 : ∀ a, (![0, 0, 567801] : Fin 3 → Nat) a + S1x1x2048.size a ≤ S1x1x2098176.size a
  inb_S1x1x2098176_S1x1x2048_0_0_569550 : ∀ a, (![0, 0, 569550] : Fin 3 → Nat) a + S1x1x2048.size a ≤ S1x1x2098176.size a
  inb_S1x1x2098176_S1x1x2048_0_0_571298 : ∀ a, (![0, 0, 571298] : Fin 3 → Nat) a + S1x1x2048.size a ≤ S1x1x2098176.size a
  inb_S1x1x2098176_S1x1x2048_0_0_573045 : ∀ a, (![0, 0, 573045] : Fin 3 → Nat) a + S1x1x2048.size a ≤ S1x1x2098176.size a
  inb_S1x1x2098176_S1x1x2048_0_0_574791 : ∀ a, (![0, 0, 574791] : Fin 3 → Nat) a + S1x1x2048.size a ≤ S1x1x2098176.size a
  inb_S1x1x2098176_S1x1x2048_0_0_576536 : ∀ a, (![0, 0, 576536] : Fin 3 → Nat) a + S1x1x2048.size a ≤ S1x1x2098176.size a
  inb_S1x1x2098176_S1x1x2048_0_0_578280 : ∀ a, (![0, 0, 578280] : Fin 3 → Nat) a + S1x1x2048.size a ≤ S1x1x2098176.size a
  inb_S1x1x2098176_S1x1x2048_0_0_580023 : ∀ a, (![0, 0, 580023] : Fin 3 → Nat) a + S1x1x2048.size a ≤ S1x1x2098176.size a
  inb_S1x1x2098176_S1x1x2048_0_0_581765 : ∀ a, (![0, 0, 581765] : Fin 3 → Nat) a + S1x1x2048.size a ≤ S1x1x2098176.size a
  inb_S1x1x2098176_S1x1x2048_0_0_583506 : ∀ a, (![0, 0, 583506] : Fin 3 → Nat) a + S1x1x2048.size a ≤ S1x1x2098176.size a
  inb_S1x1x2098176_S1x1x2048_0_0_585246 : ∀ a, (![0, 0, 585246] : Fin 3 → Nat) a + S1x1x2048.size a ≤ S1x1x2098176.size a
  inb_S1x1x2098176_S1x1x2048_0_0_586985 : ∀ a, (![0, 0, 586985] : Fin 3 → Nat) a + S1x1x2048.size a ≤ S1x1x2098176.size a
  inb_S1x1x2098176_S1x1x2048_0_0_588723 : ∀ a, (![0, 0, 588723] : Fin 3 → Nat) a + S1x1x2048.size a ≤ S1x1x2098176.size a
  inb_S1x1x2098176_S1x1x2048_0_0_590460 : ∀ a, (![0, 0, 590460] : Fin 3 → Nat) a + S1x1x2048.size a ≤ S1x1x2098176.size a
  inb_S1x1x2098176_S1x1x2048_0_0_592196 : ∀ a, (![0, 0, 592196] : Fin 3 → Nat) a + S1x1x2048.size a ≤ S1x1x2098176.size a
  inb_S1x1x2098176_S1x1x2048_0_0_593931 : ∀ a, (![0, 0, 593931] : Fin 3 → Nat) a + S1x1x2048.size a ≤ S1x1x2098176.size a
  inb_S1x1x2098176_S1x1x2048_0_0_595665 : ∀ a, (![0, 0, 595665] : Fin 3 → Nat) a + S1x1x2048.size a ≤ S1x1x2098176.size a
  inb_S1x1x2098176_S1x1x2048_0_0_597398 : ∀ a, (![0, 0, 597398] : Fin 3 → Nat) a + S1x1x2048.size a ≤ S1x1x2098176.size a
  inb_S1x1x2098176_S1x1x2048_0_0_599130 : ∀ a, (![0, 0, 599130] : Fin 3 → Nat) a + S1x1x2048.size a ≤ S1x1x2098176.size a
  inb_S1x1x2098176_S1x1x2048_0_0_600861 : ∀ a, (![0, 0, 600861] : Fin 3 → Nat) a + S1x1x2048.size a ≤ S1x1x2098176.size a
  inb_S1x1x2098176_S1x1x2048_0_0_602591 : ∀ a, (![0, 0, 602591] : Fin 3 → Nat) a + S1x1x2048.size a ≤ S1x1x2098176.size a
  inb_S1x1024x2048_S1x64x2048_0_256_0 : ∀ a, (![0, 256, 0] : Fin 3 → Nat) a + S1x64x2048.size a ≤ S1x1024x2048.size a
  inb_S1x1x2098176_S1x1x2048_0_0_604320 : ∀ a, (![0, 0, 604320] : Fin 3 → Nat) a + S1x1x2048.size a ≤ S1x1x2098176.size a
  inb_S1x1x2098176_S1x1x2048_0_0_606048 : ∀ a, (![0, 0, 606048] : Fin 3 → Nat) a + S1x1x2048.size a ≤ S1x1x2098176.size a
  inb_S1x1x2098176_S1x1x2048_0_0_607775 : ∀ a, (![0, 0, 607775] : Fin 3 → Nat) a + S1x1x2048.size a ≤ S1x1x2098176.size a
  inb_S1x1x2098176_S1x1x2048_0_0_609501 : ∀ a, (![0, 0, 609501] : Fin 3 → Nat) a + S1x1x2048.size a ≤ S1x1x2098176.size a
  inb_S1x1x2098176_S1x1x2048_0_0_611226 : ∀ a, (![0, 0, 611226] : Fin 3 → Nat) a + S1x1x2048.size a ≤ S1x1x2098176.size a
  inb_S1x1x2098176_S1x1x2048_0_0_612950 : ∀ a, (![0, 0, 612950] : Fin 3 → Nat) a + S1x1x2048.size a ≤ S1x1x2098176.size a
  inb_S1x1x2098176_S1x1x2048_0_0_614673 : ∀ a, (![0, 0, 614673] : Fin 3 → Nat) a + S1x1x2048.size a ≤ S1x1x2098176.size a
  inb_S1x1x2098176_S1x1x2048_0_0_616395 : ∀ a, (![0, 0, 616395] : Fin 3 → Nat) a + S1x1x2048.size a ≤ S1x1x2098176.size a
  inb_S1x1x2098176_S1x1x2048_0_0_618116 : ∀ a, (![0, 0, 618116] : Fin 3 → Nat) a + S1x1x2048.size a ≤ S1x1x2098176.size a
  inb_S1x1x2098176_S1x1x2048_0_0_619836 : ∀ a, (![0, 0, 619836] : Fin 3 → Nat) a + S1x1x2048.size a ≤ S1x1x2098176.size a
  inb_S1x1x2098176_S1x1x2048_0_0_621555 : ∀ a, (![0, 0, 621555] : Fin 3 → Nat) a + S1x1x2048.size a ≤ S1x1x2098176.size a
  inb_S1x1x2098176_S1x1x2048_0_0_623273 : ∀ a, (![0, 0, 623273] : Fin 3 → Nat) a + S1x1x2048.size a ≤ S1x1x2098176.size a
  inb_S1x1x2098176_S1x1x2048_0_0_624990 : ∀ a, (![0, 0, 624990] : Fin 3 → Nat) a + S1x1x2048.size a ≤ S1x1x2098176.size a
  inb_S1x1x2098176_S1x1x2048_0_0_626706 : ∀ a, (![0, 0, 626706] : Fin 3 → Nat) a + S1x1x2048.size a ≤ S1x1x2098176.size a
  inb_S1x1x2098176_S1x1x2048_0_0_628421 : ∀ a, (![0, 0, 628421] : Fin 3 → Nat) a + S1x1x2048.size a ≤ S1x1x2098176.size a
  inb_S1x1x2098176_S1x1x2048_0_0_630135 : ∀ a, (![0, 0, 630135] : Fin 3 → Nat) a + S1x1x2048.size a ≤ S1x1x2098176.size a
  inb_S1x1x2098176_S1x1x2048_0_0_631848 : ∀ a, (![0, 0, 631848] : Fin 3 → Nat) a + S1x1x2048.size a ≤ S1x1x2098176.size a
  inb_S1x1x2098176_S1x1x2048_0_0_633560 : ∀ a, (![0, 0, 633560] : Fin 3 → Nat) a + S1x1x2048.size a ≤ S1x1x2098176.size a
  inb_S1x1x2098176_S1x1x2048_0_0_635271 : ∀ a, (![0, 0, 635271] : Fin 3 → Nat) a + S1x1x2048.size a ≤ S1x1x2098176.size a
  inb_S1x1x2098176_S1x1x2048_0_0_636981 : ∀ a, (![0, 0, 636981] : Fin 3 → Nat) a + S1x1x2048.size a ≤ S1x1x2098176.size a
  inb_S1x1x2098176_S1x1x2048_0_0_638690 : ∀ a, (![0, 0, 638690] : Fin 3 → Nat) a + S1x1x2048.size a ≤ S1x1x2098176.size a
  inb_S1x1x2098176_S1x1x2048_0_0_640398 : ∀ a, (![0, 0, 640398] : Fin 3 → Nat) a + S1x1x2048.size a ≤ S1x1x2098176.size a
  inb_S1x1x2098176_S1x1x2048_0_0_642105 : ∀ a, (![0, 0, 642105] : Fin 3 → Nat) a + S1x1x2048.size a ≤ S1x1x2098176.size a
  inb_S1x1x2098176_S1x1x2048_0_0_643811 : ∀ a, (![0, 0, 643811] : Fin 3 → Nat) a + S1x1x2048.size a ≤ S1x1x2098176.size a
  inb_S1x1x2098176_S1x1x2048_0_0_645516 : ∀ a, (![0, 0, 645516] : Fin 3 → Nat) a + S1x1x2048.size a ≤ S1x1x2098176.size a
  inb_S1x1x2098176_S1x1x2048_0_0_647220 : ∀ a, (![0, 0, 647220] : Fin 3 → Nat) a + S1x1x2048.size a ≤ S1x1x2098176.size a
  inb_S1x1x2098176_S1x1x2048_0_0_648923 : ∀ a, (![0, 0, 648923] : Fin 3 → Nat) a + S1x1x2048.size a ≤ S1x1x2098176.size a
  inb_S1x1x2098176_S1x1x2048_0_0_650625 : ∀ a, (![0, 0, 650625] : Fin 3 → Nat) a + S1x1x2048.size a ≤ S1x1x2098176.size a
  inb_S1x1x2098176_S1x1x2048_0_0_652326 : ∀ a, (![0, 0, 652326] : Fin 3 → Nat) a + S1x1x2048.size a ≤ S1x1x2098176.size a
  inb_S1x1x2098176_S1x1x2048_0_0_654026 : ∀ a, (![0, 0, 654026] : Fin 3 → Nat) a + S1x1x2048.size a ≤ S1x1x2098176.size a
  inb_S1x1x2098176_S1x1x2048_0_0_655725 : ∀ a, (![0, 0, 655725] : Fin 3 → Nat) a + S1x1x2048.size a ≤ S1x1x2098176.size a
  inb_S1x1x2098176_S1x1x2048_0_0_657423 : ∀ a, (![0, 0, 657423] : Fin 3 → Nat) a + S1x1x2048.size a ≤ S1x1x2098176.size a
  inb_S1x1x2098176_S1x1x2048_0_0_659120 : ∀ a, (![0, 0, 659120] : Fin 3 → Nat) a + S1x1x2048.size a ≤ S1x1x2098176.size a
  inb_S1x1x2098176_S1x1x2048_0_0_660816 : ∀ a, (![0, 0, 660816] : Fin 3 → Nat) a + S1x1x2048.size a ≤ S1x1x2098176.size a
  inb_S1x1x2098176_S1x1x2048_0_0_662511 : ∀ a, (![0, 0, 662511] : Fin 3 → Nat) a + S1x1x2048.size a ≤ S1x1x2098176.size a
  inb_S1x1x2098176_S1x1x2048_0_0_664205 : ∀ a, (![0, 0, 664205] : Fin 3 → Nat) a + S1x1x2048.size a ≤ S1x1x2098176.size a
  inb_S1x1x2098176_S1x1x2048_0_0_665898 : ∀ a, (![0, 0, 665898] : Fin 3 → Nat) a + S1x1x2048.size a ≤ S1x1x2098176.size a
  inb_S1x1x2098176_S1x1x2048_0_0_667590 : ∀ a, (![0, 0, 667590] : Fin 3 → Nat) a + S1x1x2048.size a ≤ S1x1x2098176.size a
  inb_S1x1x2098176_S1x1x2048_0_0_669281 : ∀ a, (![0, 0, 669281] : Fin 3 → Nat) a + S1x1x2048.size a ≤ S1x1x2098176.size a
  inb_S1x1x2098176_S1x1x2048_0_0_670971 : ∀ a, (![0, 0, 670971] : Fin 3 → Nat) a + S1x1x2048.size a ≤ S1x1x2098176.size a
  inb_S1x1x2098176_S1x1x2048_0_0_672660 : ∀ a, (![0, 0, 672660] : Fin 3 → Nat) a + S1x1x2048.size a ≤ S1x1x2098176.size a
  inb_S1x1x2098176_S1x1x2048_0_0_674348 : ∀ a, (![0, 0, 674348] : Fin 3 → Nat) a + S1x1x2048.size a ≤ S1x1x2098176.size a
  inb_S1x1x2098176_S1x1x2048_0_0_676035 : ∀ a, (![0, 0, 676035] : Fin 3 → Nat) a + S1x1x2048.size a ≤ S1x1x2098176.size a
  inb_S1x1x2098176_S1x1x2048_0_0_677721 : ∀ a, (![0, 0, 677721] : Fin 3 → Nat) a + S1x1x2048.size a ≤ S1x1x2098176.size a
  inb_S1x1x2098176_S1x1x2048_0_0_679406 : ∀ a, (![0, 0, 679406] : Fin 3 → Nat) a + S1x1x2048.size a ≤ S1x1x2098176.size a
  inb_S1x1x2098176_S1x1x2048_0_0_681090 : ∀ a, (![0, 0, 681090] : Fin 3 → Nat) a + S1x1x2048.size a ≤ S1x1x2098176.size a
  inb_S1x1x2098176_S1x1x2048_0_0_682773 : ∀ a, (![0, 0, 682773] : Fin 3 → Nat) a + S1x1x2048.size a ≤ S1x1x2098176.size a
  inb_S1x1x2098176_S1x1x2048_0_0_684455 : ∀ a, (![0, 0, 684455] : Fin 3 → Nat) a + S1x1x2048.size a ≤ S1x1x2098176.size a
  inb_S1x1x2098176_S1x1x2048_0_0_686136 : ∀ a, (![0, 0, 686136] : Fin 3 → Nat) a + S1x1x2048.size a ≤ S1x1x2098176.size a
  inb_S1x1x2098176_S1x1x2048_0_0_687816 : ∀ a, (![0, 0, 687816] : Fin 3 → Nat) a + S1x1x2048.size a ≤ S1x1x2098176.size a
  inb_S1x1x2098176_S1x1x2048_0_0_689495 : ∀ a, (![0, 0, 689495] : Fin 3 → Nat) a + S1x1x2048.size a ≤ S1x1x2098176.size a
  inb_S1x1x2098176_S1x1x2048_0_0_691173 : ∀ a, (![0, 0, 691173] : Fin 3 → Nat) a + S1x1x2048.size a ≤ S1x1x2098176.size a
  inb_S1x1x2098176_S1x1x2048_0_0_692850 : ∀ a, (![0, 0, 692850] : Fin 3 → Nat) a + S1x1x2048.size a ≤ S1x1x2098176.size a
  inb_S1x1x2098176_S1x1x2048_0_0_694526 : ∀ a, (![0, 0, 694526] : Fin 3 → Nat) a + S1x1x2048.size a ≤ S1x1x2098176.size a
  inb_S1x1x2098176_S1x1x2048_0_0_696201 : ∀ a, (![0, 0, 696201] : Fin 3 → Nat) a + S1x1x2048.size a ≤ S1x1x2098176.size a
  inb_S1x1x2098176_S1x1x2048_0_0_697875 : ∀ a, (![0, 0, 697875] : Fin 3 → Nat) a + S1x1x2048.size a ≤ S1x1x2098176.size a
  inb_S1x1x2098176_S1x1x2048_0_0_699548 : ∀ a, (![0, 0, 699548] : Fin 3 → Nat) a + S1x1x2048.size a ≤ S1x1x2098176.size a
  inb_S1x1x2098176_S1x1x2048_0_0_701220 : ∀ a, (![0, 0, 701220] : Fin 3 → Nat) a + S1x1x2048.size a ≤ S1x1x2098176.size a
  inb_S1x1x2098176_S1x1x2048_0_0_702891 : ∀ a, (![0, 0, 702891] : Fin 3 → Nat) a + S1x1x2048.size a ≤ S1x1x2098176.size a
  inb_S1x1x2098176_S1x1x2048_0_0_704561 : ∀ a, (![0, 0, 704561] : Fin 3 → Nat) a + S1x1x2048.size a ≤ S1x1x2098176.size a
  inb_S1x1x2098176_S1x1x2048_0_0_706230 : ∀ a, (![0, 0, 706230] : Fin 3 → Nat) a + S1x1x2048.size a ≤ S1x1x2098176.size a
  inb_S1x1x2098176_S1x1x2048_0_0_707898 : ∀ a, (![0, 0, 707898] : Fin 3 → Nat) a + S1x1x2048.size a ≤ S1x1x2098176.size a
  inb_S1x1x2098176_S1x1x2048_0_0_709565 : ∀ a, (![0, 0, 709565] : Fin 3 → Nat) a + S1x1x2048.size a ≤ S1x1x2098176.size a
  inb_S1x1x2098176_S1x1x2048_0_0_711231 : ∀ a, (![0, 0, 711231] : Fin 3 → Nat) a + S1x1x2048.size a ≤ S1x1x2098176.size a
  inb_S1x1024x2048_S1x64x2048_0_320_0 : ∀ a, (![0, 320, 0] : Fin 3 → Nat) a + S1x64x2048.size a ≤ S1x1024x2048.size a
  inb_S1x1x2098176_S1x1x2048_0_0_712896 : ∀ a, (![0, 0, 712896] : Fin 3 → Nat) a + S1x1x2048.size a ≤ S1x1x2098176.size a
  inb_S1x1x2098176_S1x1x2048_0_0_714560 : ∀ a, (![0, 0, 714560] : Fin 3 → Nat) a + S1x1x2048.size a ≤ S1x1x2098176.size a
  inb_S1x1x2098176_S1x1x2048_0_0_716223 : ∀ a, (![0, 0, 716223] : Fin 3 → Nat) a + S1x1x2048.size a ≤ S1x1x2098176.size a
  inb_S1x1x2098176_S1x1x2048_0_0_717885 : ∀ a, (![0, 0, 717885] : Fin 3 → Nat) a + S1x1x2048.size a ≤ S1x1x2098176.size a
  inb_S1x1x2098176_S1x1x2048_0_0_719546 : ∀ a, (![0, 0, 719546] : Fin 3 → Nat) a + S1x1x2048.size a ≤ S1x1x2098176.size a
  inb_S1x1x2098176_S1x1x2048_0_0_721206 : ∀ a, (![0, 0, 721206] : Fin 3 → Nat) a + S1x1x2048.size a ≤ S1x1x2098176.size a
  inb_S1x1x2098176_S1x1x2048_0_0_722865 : ∀ a, (![0, 0, 722865] : Fin 3 → Nat) a + S1x1x2048.size a ≤ S1x1x2098176.size a
  inb_S1x1x2098176_S1x1x2048_0_0_724523 : ∀ a, (![0, 0, 724523] : Fin 3 → Nat) a + S1x1x2048.size a ≤ S1x1x2098176.size a
  inb_S1x1x2098176_S1x1x2048_0_0_726180 : ∀ a, (![0, 0, 726180] : Fin 3 → Nat) a + S1x1x2048.size a ≤ S1x1x2098176.size a
  inb_S1x1x2098176_S1x1x2048_0_0_727836 : ∀ a, (![0, 0, 727836] : Fin 3 → Nat) a + S1x1x2048.size a ≤ S1x1x2098176.size a
  inb_S1x1x2098176_S1x1x2048_0_0_729491 : ∀ a, (![0, 0, 729491] : Fin 3 → Nat) a + S1x1x2048.size a ≤ S1x1x2098176.size a
  inb_S1x1x2098176_S1x1x2048_0_0_731145 : ∀ a, (![0, 0, 731145] : Fin 3 → Nat) a + S1x1x2048.size a ≤ S1x1x2098176.size a
  inb_S1x1x2098176_S1x1x2048_0_0_732798 : ∀ a, (![0, 0, 732798] : Fin 3 → Nat) a + S1x1x2048.size a ≤ S1x1x2098176.size a
  inb_S1x1x2098176_S1x1x2048_0_0_734450 : ∀ a, (![0, 0, 734450] : Fin 3 → Nat) a + S1x1x2048.size a ≤ S1x1x2098176.size a
  inb_S1x1x2098176_S1x1x2048_0_0_736101 : ∀ a, (![0, 0, 736101] : Fin 3 → Nat) a + S1x1x2048.size a ≤ S1x1x2098176.size a
  inb_S1x1x2098176_S1x1x2048_0_0_737751 : ∀ a, (![0, 0, 737751] : Fin 3 → Nat) a + S1x1x2048.size a ≤ S1x1x2098176.size a
  inb_S1x1x2098176_S1x1x2048_0_0_739400 : ∀ a, (![0, 0, 739400] : Fin 3 → Nat) a + S1x1x2048.size a ≤ S1x1x2098176.size a
  inb_S1x1x2098176_S1x1x2048_0_0_741048 : ∀ a, (![0, 0, 741048] : Fin 3 → Nat) a + S1x1x2048.size a ≤ S1x1x2098176.size a
  inb_S1x1x2098176_S1x1x2048_0_0_742695 : ∀ a, (![0, 0, 742695] : Fin 3 → Nat) a + S1x1x2048.size a ≤ S1x1x2098176.size a
  inb_S1x1x2098176_S1x1x2048_0_0_744341 : ∀ a, (![0, 0, 744341] : Fin 3 → Nat) a + S1x1x2048.size a ≤ S1x1x2098176.size a
  inb_S1x1x2098176_S1x1x2048_0_0_745986 : ∀ a, (![0, 0, 745986] : Fin 3 → Nat) a + S1x1x2048.size a ≤ S1x1x2098176.size a
  inb_S1x1x2098176_S1x1x2048_0_0_747630 : ∀ a, (![0, 0, 747630] : Fin 3 → Nat) a + S1x1x2048.size a ≤ S1x1x2098176.size a
  inb_S1x1x2098176_S1x1x2048_0_0_749273 : ∀ a, (![0, 0, 749273] : Fin 3 → Nat) a + S1x1x2048.size a ≤ S1x1x2098176.size a
  inb_S1x1x2098176_S1x1x2048_0_0_750915 : ∀ a, (![0, 0, 750915] : Fin 3 → Nat) a + S1x1x2048.size a ≤ S1x1x2098176.size a
  inb_S1x1x2098176_S1x1x2048_0_0_752556 : ∀ a, (![0, 0, 752556] : Fin 3 → Nat) a + S1x1x2048.size a ≤ S1x1x2098176.size a
  inb_S1x1x2098176_S1x1x2048_0_0_754196 : ∀ a, (![0, 0, 754196] : Fin 3 → Nat) a + S1x1x2048.size a ≤ S1x1x2098176.size a
  inb_S1x1x2098176_S1x1x2048_0_0_755835 : ∀ a, (![0, 0, 755835] : Fin 3 → Nat) a + S1x1x2048.size a ≤ S1x1x2098176.size a
  inb_S1x1x2098176_S1x1x2048_0_0_757473 : ∀ a, (![0, 0, 757473] : Fin 3 → Nat) a + S1x1x2048.size a ≤ S1x1x2098176.size a
  inb_S1x1x2098176_S1x1x2048_0_0_759110 : ∀ a, (![0, 0, 759110] : Fin 3 → Nat) a + S1x1x2048.size a ≤ S1x1x2098176.size a
  inb_S1x1x2098176_S1x1x2048_0_0_760746 : ∀ a, (![0, 0, 760746] : Fin 3 → Nat) a + S1x1x2048.size a ≤ S1x1x2098176.size a
  inb_S1x1x2098176_S1x1x2048_0_0_762381 : ∀ a, (![0, 0, 762381] : Fin 3 → Nat) a + S1x1x2048.size a ≤ S1x1x2098176.size a
  inb_S1x1x2098176_S1x1x2048_0_0_764015 : ∀ a, (![0, 0, 764015] : Fin 3 → Nat) a + S1x1x2048.size a ≤ S1x1x2098176.size a
  inb_S1x1x2098176_S1x1x2048_0_0_765648 : ∀ a, (![0, 0, 765648] : Fin 3 → Nat) a + S1x1x2048.size a ≤ S1x1x2098176.size a
  inb_S1x1x2098176_S1x1x2048_0_0_767280 : ∀ a, (![0, 0, 767280] : Fin 3 → Nat) a + S1x1x2048.size a ≤ S1x1x2098176.size a
  inb_S1x1x2098176_S1x1x2048_0_0_768911 : ∀ a, (![0, 0, 768911] : Fin 3 → Nat) a + S1x1x2048.size a ≤ S1x1x2098176.size a
  inb_S1x1x2098176_S1x1x2048_0_0_770541 : ∀ a, (![0, 0, 770541] : Fin 3 → Nat) a + S1x1x2048.size a ≤ S1x1x2098176.size a
  inb_S1x1x2098176_S1x1x2048_0_0_772170 : ∀ a, (![0, 0, 772170] : Fin 3 → Nat) a + S1x1x2048.size a ≤ S1x1x2098176.size a
  inb_S1x1x2098176_S1x1x2048_0_0_773798 : ∀ a, (![0, 0, 773798] : Fin 3 → Nat) a + S1x1x2048.size a ≤ S1x1x2098176.size a
  inb_S1x1x2098176_S1x1x2048_0_0_775425 : ∀ a, (![0, 0, 775425] : Fin 3 → Nat) a + S1x1x2048.size a ≤ S1x1x2098176.size a
  inb_S1x1x2098176_S1x1x2048_0_0_777051 : ∀ a, (![0, 0, 777051] : Fin 3 → Nat) a + S1x1x2048.size a ≤ S1x1x2098176.size a
  inb_S1x1x2098176_S1x1x2048_0_0_778676 : ∀ a, (![0, 0, 778676] : Fin 3 → Nat) a + S1x1x2048.size a ≤ S1x1x2098176.size a
  inb_S1x1x2098176_S1x1x2048_0_0_780300 : ∀ a, (![0, 0, 780300] : Fin 3 → Nat) a + S1x1x2048.size a ≤ S1x1x2098176.size a
  inb_S1x1x2098176_S1x1x2048_0_0_781923 : ∀ a, (![0, 0, 781923] : Fin 3 → Nat) a + S1x1x2048.size a ≤ S1x1x2098176.size a
  inb_S1x1x2098176_S1x1x2048_0_0_783545 : ∀ a, (![0, 0, 783545] : Fin 3 → Nat) a + S1x1x2048.size a ≤ S1x1x2098176.size a
  inb_S1x1x2098176_S1x1x2048_0_0_785166 : ∀ a, (![0, 0, 785166] : Fin 3 → Nat) a + S1x1x2048.size a ≤ S1x1x2098176.size a
  inb_S1x1x2098176_S1x1x2048_0_0_786786 : ∀ a, (![0, 0, 786786] : Fin 3 → Nat) a + S1x1x2048.size a ≤ S1x1x2098176.size a
  inb_S1x1x2098176_S1x1x2048_0_0_788405 : ∀ a, (![0, 0, 788405] : Fin 3 → Nat) a + S1x1x2048.size a ≤ S1x1x2098176.size a
  inb_S1x1x2098176_S1x1x2048_0_0_790023 : ∀ a, (![0, 0, 790023] : Fin 3 → Nat) a + S1x1x2048.size a ≤ S1x1x2098176.size a
  inb_S1x1x2098176_S1x1x2048_0_0_791640 : ∀ a, (![0, 0, 791640] : Fin 3 → Nat) a + S1x1x2048.size a ≤ S1x1x2098176.size a
  inb_S1x1x2098176_S1x1x2048_0_0_793256 : ∀ a, (![0, 0, 793256] : Fin 3 → Nat) a + S1x1x2048.size a ≤ S1x1x2098176.size a
  inb_S1x1x2098176_S1x1x2048_0_0_794871 : ∀ a, (![0, 0, 794871] : Fin 3 → Nat) a + S1x1x2048.size a ≤ S1x1x2098176.size a
  inb_S1x1x2098176_S1x1x2048_0_0_796485 : ∀ a, (![0, 0, 796485] : Fin 3 → Nat) a + S1x1x2048.size a ≤ S1x1x2098176.size a
  inb_S1x1x2098176_S1x1x2048_0_0_798098 : ∀ a, (![0, 0, 798098] : Fin 3 → Nat) a + S1x1x2048.size a ≤ S1x1x2098176.size a
  inb_S1x1x2098176_S1x1x2048_0_0_799710 : ∀ a, (![0, 0, 799710] : Fin 3 → Nat) a + S1x1x2048.size a ≤ S1x1x2098176.size a
  inb_S1x1x2098176_S1x1x2048_0_0_801321 : ∀ a, (![0, 0, 801321] : Fin 3 → Nat) a + S1x1x2048.size a ≤ S1x1x2098176.size a
  inb_S1x1x2098176_S1x1x2048_0_0_802931 : ∀ a, (![0, 0, 802931] : Fin 3 → Nat) a + S1x1x2048.size a ≤ S1x1x2098176.size a
  inb_S1x1x2098176_S1x1x2048_0_0_804540 : ∀ a, (![0, 0, 804540] : Fin 3 → Nat) a + S1x1x2048.size a ≤ S1x1x2098176.size a
  inb_S1x1x2098176_S1x1x2048_0_0_806148 : ∀ a, (![0, 0, 806148] : Fin 3 → Nat) a + S1x1x2048.size a ≤ S1x1x2098176.size a
  inb_S1x1x2098176_S1x1x2048_0_0_807755 : ∀ a, (![0, 0, 807755] : Fin 3 → Nat) a + S1x1x2048.size a ≤ S1x1x2098176.size a
  inb_S1x1x2098176_S1x1x2048_0_0_809361 : ∀ a, (![0, 0, 809361] : Fin 3 → Nat) a + S1x1x2048.size a ≤ S1x1x2098176.size a
  inb_S1x1x2098176_S1x1x2048_0_0_810966 : ∀ a, (![0, 0, 810966] : Fin 3 → Nat) a + S1x1x2048.size a ≤ S1x1x2098176.size a
  inb_S1x1x2098176_S1x1x2048_0_0_812570 : ∀ a, (![0, 0, 812570] : Fin 3 → Nat) a + S1x1x2048.size a ≤ S1x1x2098176.size a
  inb_S1x1x2098176_S1x1x2048_0_0_814173 : ∀ a, (![0, 0, 814173] : Fin 3 → Nat) a + S1x1x2048.size a ≤ S1x1x2098176.size a
  inb_S1x1x2098176_S1x1x2048_0_0_815775 : ∀ a, (![0, 0, 815775] : Fin 3 → Nat) a + S1x1x2048.size a ≤ S1x1x2098176.size a
  inb_S1x1024x2048_S1x64x2048_0_384_0 : ∀ a, (![0, 384, 0] : Fin 3 → Nat) a + S1x64x2048.size a ≤ S1x1024x2048.size a
  inb_S1x1x2098176_S1x1x2048_0_0_817376 : ∀ a, (![0, 0, 817376] : Fin 3 → Nat) a + S1x1x2048.size a ≤ S1x1x2098176.size a
  inb_S1x1x2098176_S1x1x2048_0_0_818976 : ∀ a, (![0, 0, 818976] : Fin 3 → Nat) a + S1x1x2048.size a ≤ S1x1x2098176.size a
  inb_S1x1x2098176_S1x1x2048_0_0_820575 : ∀ a, (![0, 0, 820575] : Fin 3 → Nat) a + S1x1x2048.size a ≤ S1x1x2098176.size a
  inb_S1x1x2098176_S1x1x2048_0_0_822173 : ∀ a, (![0, 0, 822173] : Fin 3 → Nat) a + S1x1x2048.size a ≤ S1x1x2098176.size a
  inb_S1x1x2098176_S1x1x2048_0_0_823770 : ∀ a, (![0, 0, 823770] : Fin 3 → Nat) a + S1x1x2048.size a ≤ S1x1x2098176.size a
  inb_S1x1x2098176_S1x1x2048_0_0_825366 : ∀ a, (![0, 0, 825366] : Fin 3 → Nat) a + S1x1x2048.size a ≤ S1x1x2098176.size a
  inb_S1x1x2098176_S1x1x2048_0_0_826961 : ∀ a, (![0, 0, 826961] : Fin 3 → Nat) a + S1x1x2048.size a ≤ S1x1x2098176.size a
  inb_S1x1x2098176_S1x1x2048_0_0_828555 : ∀ a, (![0, 0, 828555] : Fin 3 → Nat) a + S1x1x2048.size a ≤ S1x1x2098176.size a
  inb_S1x1x2098176_S1x1x2048_0_0_830148 : ∀ a, (![0, 0, 830148] : Fin 3 → Nat) a + S1x1x2048.size a ≤ S1x1x2098176.size a
  inb_S1x1x2098176_S1x1x2048_0_0_831740 : ∀ a, (![0, 0, 831740] : Fin 3 → Nat) a + S1x1x2048.size a ≤ S1x1x2098176.size a
  inb_S1x1x2098176_S1x1x2048_0_0_833331 : ∀ a, (![0, 0, 833331] : Fin 3 → Nat) a + S1x1x2048.size a ≤ S1x1x2098176.size a
  inb_S1x1x2098176_S1x1x2048_0_0_834921 : ∀ a, (![0, 0, 834921] : Fin 3 → Nat) a + S1x1x2048.size a ≤ S1x1x2098176.size a
  inb_S1x1x2098176_S1x1x2048_0_0_836510 : ∀ a, (![0, 0, 836510] : Fin 3 → Nat) a + S1x1x2048.size a ≤ S1x1x2098176.size a
  inb_S1x1x2098176_S1x1x2048_0_0_838098 : ∀ a, (![0, 0, 838098] : Fin 3 → Nat) a + S1x1x2048.size a ≤ S1x1x2098176.size a
  inb_S1x1x2098176_S1x1x2048_0_0_839685 : ∀ a, (![0, 0, 839685] : Fin 3 → Nat) a + S1x1x2048.size a ≤ S1x1x2098176.size a
  inb_S1x1x2098176_S1x1x2048_0_0_841271 : ∀ a, (![0, 0, 841271] : Fin 3 → Nat) a + S1x1x2048.size a ≤ S1x1x2098176.size a
  inb_S1x1x2098176_S1x1x2048_0_0_842856 : ∀ a, (![0, 0, 842856] : Fin 3 → Nat) a + S1x1x2048.size a ≤ S1x1x2098176.size a
  inb_S1x1x2098176_S1x1x2048_0_0_844440 : ∀ a, (![0, 0, 844440] : Fin 3 → Nat) a + S1x1x2048.size a ≤ S1x1x2098176.size a
  inb_S1x1x2098176_S1x1x2048_0_0_846023 : ∀ a, (![0, 0, 846023] : Fin 3 → Nat) a + S1x1x2048.size a ≤ S1x1x2098176.size a
  inb_S1x1x2098176_S1x1x2048_0_0_847605 : ∀ a, (![0, 0, 847605] : Fin 3 → Nat) a + S1x1x2048.size a ≤ S1x1x2098176.size a
  inb_S1x1x2098176_S1x1x2048_0_0_849186 : ∀ a, (![0, 0, 849186] : Fin 3 → Nat) a + S1x1x2048.size a ≤ S1x1x2098176.size a
  inb_S1x1x2098176_S1x1x2048_0_0_850766 : ∀ a, (![0, 0, 850766] : Fin 3 → Nat) a + S1x1x2048.size a ≤ S1x1x2098176.size a
  inb_S1x1x2098176_S1x1x2048_0_0_852345 : ∀ a, (![0, 0, 852345] : Fin 3 → Nat) a + S1x1x2048.size a ≤ S1x1x2098176.size a
  inb_S1x1x2098176_S1x1x2048_0_0_853923 : ∀ a, (![0, 0, 853923] : Fin 3 → Nat) a + S1x1x2048.size a ≤ S1x1x2098176.size a
  inb_S1x1x2098176_S1x1x2048_0_0_855500 : ∀ a, (![0, 0, 855500] : Fin 3 → Nat) a + S1x1x2048.size a ≤ S1x1x2098176.size a
  inb_S1x1x2098176_S1x1x2048_0_0_857076 : ∀ a, (![0, 0, 857076] : Fin 3 → Nat) a + S1x1x2048.size a ≤ S1x1x2098176.size a
  inb_S1x1x2098176_S1x1x2048_0_0_858651 : ∀ a, (![0, 0, 858651] : Fin 3 → Nat) a + S1x1x2048.size a ≤ S1x1x2098176.size a
  inb_S1x1x2098176_S1x1x2048_0_0_860225 : ∀ a, (![0, 0, 860225] : Fin 3 → Nat) a + S1x1x2048.size a ≤ S1x1x2098176.size a
  inb_S1x1x2098176_S1x1x2048_0_0_861798 : ∀ a, (![0, 0, 861798] : Fin 3 → Nat) a + S1x1x2048.size a ≤ S1x1x2098176.size a
  inb_S1x1x2098176_S1x1x2048_0_0_863370 : ∀ a, (![0, 0, 863370] : Fin 3 → Nat) a + S1x1x2048.size a ≤ S1x1x2098176.size a
  inb_S1x1x2098176_S1x1x2048_0_0_864941 : ∀ a, (![0, 0, 864941] : Fin 3 → Nat) a + S1x1x2048.size a ≤ S1x1x2098176.size a
  inb_S1x1x2098176_S1x1x2048_0_0_866511 : ∀ a, (![0, 0, 866511] : Fin 3 → Nat) a + S1x1x2048.size a ≤ S1x1x2098176.size a
  inb_S1x1x2098176_S1x1x2048_0_0_868080 : ∀ a, (![0, 0, 868080] : Fin 3 → Nat) a + S1x1x2048.size a ≤ S1x1x2098176.size a
  inb_S1x1x2098176_S1x1x2048_0_0_869648 : ∀ a, (![0, 0, 869648] : Fin 3 → Nat) a + S1x1x2048.size a ≤ S1x1x2098176.size a
  inb_S1x1x2098176_S1x1x2048_0_0_871215 : ∀ a, (![0, 0, 871215] : Fin 3 → Nat) a + S1x1x2048.size a ≤ S1x1x2098176.size a
  inb_S1x1x2098176_S1x1x2048_0_0_872781 : ∀ a, (![0, 0, 872781] : Fin 3 → Nat) a + S1x1x2048.size a ≤ S1x1x2098176.size a
  inb_S1x1x2098176_S1x1x2048_0_0_874346 : ∀ a, (![0, 0, 874346] : Fin 3 → Nat) a + S1x1x2048.size a ≤ S1x1x2098176.size a
  inb_S1x1x2098176_S1x1x2048_0_0_875910 : ∀ a, (![0, 0, 875910] : Fin 3 → Nat) a + S1x1x2048.size a ≤ S1x1x2098176.size a
  inb_S1x1x2098176_S1x1x2048_0_0_877473 : ∀ a, (![0, 0, 877473] : Fin 3 → Nat) a + S1x1x2048.size a ≤ S1x1x2098176.size a
  inb_S1x1x2098176_S1x1x2048_0_0_879035 : ∀ a, (![0, 0, 879035] : Fin 3 → Nat) a + S1x1x2048.size a ≤ S1x1x2098176.size a
  inb_S1x1x2098176_S1x1x2048_0_0_880596 : ∀ a, (![0, 0, 880596] : Fin 3 → Nat) a + S1x1x2048.size a ≤ S1x1x2098176.size a
  inb_S1x1x2098176_S1x1x2048_0_0_882156 : ∀ a, (![0, 0, 882156] : Fin 3 → Nat) a + S1x1x2048.size a ≤ S1x1x2098176.size a
  inb_S1x1x2098176_S1x1x2048_0_0_883715 : ∀ a, (![0, 0, 883715] : Fin 3 → Nat) a + S1x1x2048.size a ≤ S1x1x2098176.size a
  inb_S1x1x2098176_S1x1x2048_0_0_885273 : ∀ a, (![0, 0, 885273] : Fin 3 → Nat) a + S1x1x2048.size a ≤ S1x1x2098176.size a
  inb_S1x1x2098176_S1x1x2048_0_0_886830 : ∀ a, (![0, 0, 886830] : Fin 3 → Nat) a + S1x1x2048.size a ≤ S1x1x2098176.size a
  inb_S1x1x2098176_S1x1x2048_0_0_888386 : ∀ a, (![0, 0, 888386] : Fin 3 → Nat) a + S1x1x2048.size a ≤ S1x1x2098176.size a
  inb_S1x1x2098176_S1x1x2048_0_0_889941 : ∀ a, (![0, 0, 889941] : Fin 3 → Nat) a + S1x1x2048.size a ≤ S1x1x2098176.size a
  inb_S1x1x2098176_S1x1x2048_0_0_891495 : ∀ a, (![0, 0, 891495] : Fin 3 → Nat) a + S1x1x2048.size a ≤ S1x1x2098176.size a
  inb_S1x1x2098176_S1x1x2048_0_0_893048 : ∀ a, (![0, 0, 893048] : Fin 3 → Nat) a + S1x1x2048.size a ≤ S1x1x2098176.size a
  inb_S1x1x2098176_S1x1x2048_0_0_894600 : ∀ a, (![0, 0, 894600] : Fin 3 → Nat) a + S1x1x2048.size a ≤ S1x1x2098176.size a
  inb_S1x1x2098176_S1x1x2048_0_0_896151 : ∀ a, (![0, 0, 896151] : Fin 3 → Nat) a + S1x1x2048.size a ≤ S1x1x2098176.size a
  inb_S1x1x2098176_S1x1x2048_0_0_897701 : ∀ a, (![0, 0, 897701] : Fin 3 → Nat) a + S1x1x2048.size a ≤ S1x1x2098176.size a
  inb_S1x1x2098176_S1x1x2048_0_0_899250 : ∀ a, (![0, 0, 899250] : Fin 3 → Nat) a + S1x1x2048.size a ≤ S1x1x2098176.size a
  inb_S1x1x2098176_S1x1x2048_0_0_900798 : ∀ a, (![0, 0, 900798] : Fin 3 → Nat) a + S1x1x2048.size a ≤ S1x1x2098176.size a
  inb_S1x1x2098176_S1x1x2048_0_0_902345 : ∀ a, (![0, 0, 902345] : Fin 3 → Nat) a + S1x1x2048.size a ≤ S1x1x2098176.size a
  inb_S1x1x2098176_S1x1x2048_0_0_903891 : ∀ a, (![0, 0, 903891] : Fin 3 → Nat) a + S1x1x2048.size a ≤ S1x1x2098176.size a
  inb_S1x1x2098176_S1x1x2048_0_0_905436 : ∀ a, (![0, 0, 905436] : Fin 3 → Nat) a + S1x1x2048.size a ≤ S1x1x2098176.size a
  inb_S1x1x2098176_S1x1x2048_0_0_906980 : ∀ a, (![0, 0, 906980] : Fin 3 → Nat) a + S1x1x2048.size a ≤ S1x1x2098176.size a
  inb_S1x1x2098176_S1x1x2048_0_0_908523 : ∀ a, (![0, 0, 908523] : Fin 3 → Nat) a + S1x1x2048.size a ≤ S1x1x2098176.size a
  inb_S1x1x2098176_S1x1x2048_0_0_910065 : ∀ a, (![0, 0, 910065] : Fin 3 → Nat) a + S1x1x2048.size a ≤ S1x1x2098176.size a
  inb_S1x1x2098176_S1x1x2048_0_0_911606 : ∀ a, (![0, 0, 911606] : Fin 3 → Nat) a + S1x1x2048.size a ≤ S1x1x2098176.size a
  inb_S1x1x2098176_S1x1x2048_0_0_913146 : ∀ a, (![0, 0, 913146] : Fin 3 → Nat) a + S1x1x2048.size a ≤ S1x1x2098176.size a
  inb_S1x1x2098176_S1x1x2048_0_0_914685 : ∀ a, (![0, 0, 914685] : Fin 3 → Nat) a + S1x1x2048.size a ≤ S1x1x2098176.size a
  inb_S1x1x2098176_S1x1x2048_0_0_916223 : ∀ a, (![0, 0, 916223] : Fin 3 → Nat) a + S1x1x2048.size a ≤ S1x1x2098176.size a
  inb_S1x1024x2048_S1x64x2048_0_448_0 : ∀ a, (![0, 448, 0] : Fin 3 → Nat) a + S1x64x2048.size a ≤ S1x1024x2048.size a
  inb_S1x1x2098176_S1x1x2048_0_0_917760 : ∀ a, (![0, 0, 917760] : Fin 3 → Nat) a + S1x1x2048.size a ≤ S1x1x2098176.size a
  inb_S1x1x2098176_S1x1x2048_0_0_919296 : ∀ a, (![0, 0, 919296] : Fin 3 → Nat) a + S1x1x2048.size a ≤ S1x1x2098176.size a
  inb_S1x1x2098176_S1x1x2048_0_0_920831 : ∀ a, (![0, 0, 920831] : Fin 3 → Nat) a + S1x1x2048.size a ≤ S1x1x2098176.size a
  inb_S1x1x2098176_S1x1x2048_0_0_922365 : ∀ a, (![0, 0, 922365] : Fin 3 → Nat) a + S1x1x2048.size a ≤ S1x1x2098176.size a
  inb_S1x1x2098176_S1x1x2048_0_0_923898 : ∀ a, (![0, 0, 923898] : Fin 3 → Nat) a + S1x1x2048.size a ≤ S1x1x2098176.size a
  inb_S1x1x2098176_S1x1x2048_0_0_925430 : ∀ a, (![0, 0, 925430] : Fin 3 → Nat) a + S1x1x2048.size a ≤ S1x1x2098176.size a
  inb_S1x1x2098176_S1x1x2048_0_0_926961 : ∀ a, (![0, 0, 926961] : Fin 3 → Nat) a + S1x1x2048.size a ≤ S1x1x2098176.size a
  inb_S1x1x2098176_S1x1x2048_0_0_928491 : ∀ a, (![0, 0, 928491] : Fin 3 → Nat) a + S1x1x2048.size a ≤ S1x1x2098176.size a
  inb_S1x1x2098176_S1x1x2048_0_0_930020 : ∀ a, (![0, 0, 930020] : Fin 3 → Nat) a + S1x1x2048.size a ≤ S1x1x2098176.size a
  inb_S1x1x2098176_S1x1x2048_0_0_931548 : ∀ a, (![0, 0, 931548] : Fin 3 → Nat) a + S1x1x2048.size a ≤ S1x1x2098176.size a
  inb_S1x1x2098176_S1x1x2048_0_0_933075 : ∀ a, (![0, 0, 933075] : Fin 3 → Nat) a + S1x1x2048.size a ≤ S1x1x2098176.size a
  inb_S1x1x2098176_S1x1x2048_0_0_934601 : ∀ a, (![0, 0, 934601] : Fin 3 → Nat) a + S1x1x2048.size a ≤ S1x1x2098176.size a
  inb_S1x1x2098176_S1x1x2048_0_0_936126 : ∀ a, (![0, 0, 936126] : Fin 3 → Nat) a + S1x1x2048.size a ≤ S1x1x2098176.size a
  inb_S1x1x2098176_S1x1x2048_0_0_937650 : ∀ a, (![0, 0, 937650] : Fin 3 → Nat) a + S1x1x2048.size a ≤ S1x1x2098176.size a
  inb_S1x1x2098176_S1x1x2048_0_0_939173 : ∀ a, (![0, 0, 939173] : Fin 3 → Nat) a + S1x1x2048.size a ≤ S1x1x2098176.size a
  inb_S1x1x2098176_S1x1x2048_0_0_940695 : ∀ a, (![0, 0, 940695] : Fin 3 → Nat) a + S1x1x2048.size a ≤ S1x1x2098176.size a
  inb_S1x1x2098176_S1x1x2048_0_0_942216 : ∀ a, (![0, 0, 942216] : Fin 3 → Nat) a + S1x1x2048.size a ≤ S1x1x2098176.size a
  inb_S1x1x2098176_S1x1x2048_0_0_943736 : ∀ a, (![0, 0, 943736] : Fin 3 → Nat) a + S1x1x2048.size a ≤ S1x1x2098176.size a
  inb_S1x1x2098176_S1x1x2048_0_0_945255 : ∀ a, (![0, 0, 945255] : Fin 3 → Nat) a + S1x1x2048.size a ≤ S1x1x2098176.size a
  inb_S1x1x2098176_S1x1x2048_0_0_946773 : ∀ a, (![0, 0, 946773] : Fin 3 → Nat) a + S1x1x2048.size a ≤ S1x1x2098176.size a
  inb_S1x1x2098176_S1x1x2048_0_0_948290 : ∀ a, (![0, 0, 948290] : Fin 3 → Nat) a + S1x1x2048.size a ≤ S1x1x2098176.size a
  inb_S1x1x2098176_S1x1x2048_0_0_949806 : ∀ a, (![0, 0, 949806] : Fin 3 → Nat) a + S1x1x2048.size a ≤ S1x1x2098176.size a
  inb_S1x1x2098176_S1x1x2048_0_0_951321 : ∀ a, (![0, 0, 951321] : Fin 3 → Nat) a + S1x1x2048.size a ≤ S1x1x2098176.size a
  inb_S1x1x2098176_S1x1x2048_0_0_952835 : ∀ a, (![0, 0, 952835] : Fin 3 → Nat) a + S1x1x2048.size a ≤ S1x1x2098176.size a
  inb_S1x1x2098176_S1x1x2048_0_0_954348 : ∀ a, (![0, 0, 954348] : Fin 3 → Nat) a + S1x1x2048.size a ≤ S1x1x2098176.size a
  inb_S1x1x2098176_S1x1x2048_0_0_955860 : ∀ a, (![0, 0, 955860] : Fin 3 → Nat) a + S1x1x2048.size a ≤ S1x1x2098176.size a
  inb_S1x1x2098176_S1x1x2048_0_0_957371 : ∀ a, (![0, 0, 957371] : Fin 3 → Nat) a + S1x1x2048.size a ≤ S1x1x2098176.size a
  inb_S1x1x2098176_S1x1x2048_0_0_958881 : ∀ a, (![0, 0, 958881] : Fin 3 → Nat) a + S1x1x2048.size a ≤ S1x1x2098176.size a
  inb_S1x1x2098176_S1x1x2048_0_0_960390 : ∀ a, (![0, 0, 960390] : Fin 3 → Nat) a + S1x1x2048.size a ≤ S1x1x2098176.size a
  inb_S1x1x2098176_S1x1x2048_0_0_961898 : ∀ a, (![0, 0, 961898] : Fin 3 → Nat) a + S1x1x2048.size a ≤ S1x1x2098176.size a
  inb_S1x1x2098176_S1x1x2048_0_0_963405 : ∀ a, (![0, 0, 963405] : Fin 3 → Nat) a + S1x1x2048.size a ≤ S1x1x2098176.size a
  inb_S1x1x2098176_S1x1x2048_0_0_964911 : ∀ a, (![0, 0, 964911] : Fin 3 → Nat) a + S1x1x2048.size a ≤ S1x1x2098176.size a
  inb_S1x1x2098176_S1x1x2048_0_0_966416 : ∀ a, (![0, 0, 966416] : Fin 3 → Nat) a + S1x1x2048.size a ≤ S1x1x2098176.size a
  inb_S1x1x2098176_S1x1x2048_0_0_967920 : ∀ a, (![0, 0, 967920] : Fin 3 → Nat) a + S1x1x2048.size a ≤ S1x1x2098176.size a
  inb_S1x1x2098176_S1x1x2048_0_0_969423 : ∀ a, (![0, 0, 969423] : Fin 3 → Nat) a + S1x1x2048.size a ≤ S1x1x2098176.size a
  inb_S1x1x2098176_S1x1x2048_0_0_970925 : ∀ a, (![0, 0, 970925] : Fin 3 → Nat) a + S1x1x2048.size a ≤ S1x1x2098176.size a
  inb_S1x1x2098176_S1x1x2048_0_0_972426 : ∀ a, (![0, 0, 972426] : Fin 3 → Nat) a + S1x1x2048.size a ≤ S1x1x2098176.size a
  inb_S1x1x2098176_S1x1x2048_0_0_973926 : ∀ a, (![0, 0, 973926] : Fin 3 → Nat) a + S1x1x2048.size a ≤ S1x1x2098176.size a
  inb_S1x1x2098176_S1x1x2048_0_0_975425 : ∀ a, (![0, 0, 975425] : Fin 3 → Nat) a + S1x1x2048.size a ≤ S1x1x2098176.size a
  inb_S1x1x2098176_S1x1x2048_0_0_976923 : ∀ a, (![0, 0, 976923] : Fin 3 → Nat) a + S1x1x2048.size a ≤ S1x1x2098176.size a
  inb_S1x1x2098176_S1x1x2048_0_0_978420 : ∀ a, (![0, 0, 978420] : Fin 3 → Nat) a + S1x1x2048.size a ≤ S1x1x2098176.size a
  inb_S1x1x2098176_S1x1x2048_0_0_979916 : ∀ a, (![0, 0, 979916] : Fin 3 → Nat) a + S1x1x2048.size a ≤ S1x1x2098176.size a
  inb_S1x1x2098176_S1x1x2048_0_0_981411 : ∀ a, (![0, 0, 981411] : Fin 3 → Nat) a + S1x1x2048.size a ≤ S1x1x2098176.size a
  inb_S1x1x2098176_S1x1x2048_0_0_982905 : ∀ a, (![0, 0, 982905] : Fin 3 → Nat) a + S1x1x2048.size a ≤ S1x1x2098176.size a
  inb_S1x1x2098176_S1x1x2048_0_0_984398 : ∀ a, (![0, 0, 984398] : Fin 3 → Nat) a + S1x1x2048.size a ≤ S1x1x2098176.size a
  inb_S1x1x2098176_S1x1x2048_0_0_985890 : ∀ a, (![0, 0, 985890] : Fin 3 → Nat) a + S1x1x2048.size a ≤ S1x1x2098176.size a
  inb_S1x1x2098176_S1x1x2048_0_0_987381 : ∀ a, (![0, 0, 987381] : Fin 3 → Nat) a + S1x1x2048.size a ≤ S1x1x2098176.size a
  inb_S1x1x2098176_S1x1x2048_0_0_988871 : ∀ a, (![0, 0, 988871] : Fin 3 → Nat) a + S1x1x2048.size a ≤ S1x1x2098176.size a
  inb_S1x1x2098176_S1x1x2048_0_0_990360 : ∀ a, (![0, 0, 990360] : Fin 3 → Nat) a + S1x1x2048.size a ≤ S1x1x2098176.size a
  inb_S1x1x2098176_S1x1x2048_0_0_991848 : ∀ a, (![0, 0, 991848] : Fin 3 → Nat) a + S1x1x2048.size a ≤ S1x1x2098176.size a
  inb_S1x1x2098176_S1x1x2048_0_0_993335 : ∀ a, (![0, 0, 993335] : Fin 3 → Nat) a + S1x1x2048.size a ≤ S1x1x2098176.size a
  inb_S1x1x2098176_S1x1x2048_0_0_994821 : ∀ a, (![0, 0, 994821] : Fin 3 → Nat) a + S1x1x2048.size a ≤ S1x1x2098176.size a
  inb_S1x1x2098176_S1x1x2048_0_0_996306 : ∀ a, (![0, 0, 996306] : Fin 3 → Nat) a + S1x1x2048.size a ≤ S1x1x2098176.size a
  inb_S1x1x2098176_S1x1x2048_0_0_997790 : ∀ a, (![0, 0, 997790] : Fin 3 → Nat) a + S1x1x2048.size a ≤ S1x1x2098176.size a
  inb_S1x1x2098176_S1x1x2048_0_0_999273 : ∀ a, (![0, 0, 999273] : Fin 3 → Nat) a + S1x1x2048.size a ≤ S1x1x2098176.size a
  inb_S1x1x2098176_S1x1x2048_0_0_1000755 : ∀ a, (![0, 0, 1000755] : Fin 3 → Nat) a + S1x1x2048.size a ≤ S1x1x2098176.size a
  inb_S1x1x2098176_S1x1x2048_0_0_1002236 : ∀ a, (![0, 0, 1002236] : Fin 3 → Nat) a + S1x1x2048.size a ≤ S1x1x2098176.size a
  inb_S1x1x2098176_S1x1x2048_0_0_1003716 : ∀ a, (![0, 0, 1003716] : Fin 3 → Nat) a + S1x1x2048.size a ≤ S1x1x2098176.size a
  inb_S1x1x2098176_S1x1x2048_0_0_1005195 : ∀ a, (![0, 0, 1005195] : Fin 3 → Nat) a + S1x1x2048.size a ≤ S1x1x2098176.size a
  inb_S1x1x2098176_S1x1x2048_0_0_1006673 : ∀ a, (![0, 0, 1006673] : Fin 3 → Nat) a + S1x1x2048.size a ≤ S1x1x2098176.size a
  inb_S1x1x2098176_S1x1x2048_0_0_1008150 : ∀ a, (![0, 0, 1008150] : Fin 3 → Nat) a + S1x1x2048.size a ≤ S1x1x2098176.size a
  inb_S1x1x2098176_S1x1x2048_0_0_1009626 : ∀ a, (![0, 0, 1009626] : Fin 3 → Nat) a + S1x1x2048.size a ≤ S1x1x2098176.size a
  inb_S1x1x2098176_S1x1x2048_0_0_1011101 : ∀ a, (![0, 0, 1011101] : Fin 3 → Nat) a + S1x1x2048.size a ≤ S1x1x2098176.size a
  inb_S1x1x2098176_S1x1x2048_0_0_1012575 : ∀ a, (![0, 0, 1012575] : Fin 3 → Nat) a + S1x1x2048.size a ≤ S1x1x2098176.size a
  inb_S1x1024x2048_S1x64x2048_0_512_0 : ∀ a, (![0, 512, 0] : Fin 3 → Nat) a + S1x64x2048.size a ≤ S1x1024x2048.size a
  inb_S1x1x2098176_S1x1x2048_0_0_1014048 : ∀ a, (![0, 0, 1014048] : Fin 3 → Nat) a + S1x1x2048.size a ≤ S1x1x2098176.size a
  inb_S1x1x2098176_S1x1x2048_0_0_1015520 : ∀ a, (![0, 0, 1015520] : Fin 3 → Nat) a + S1x1x2048.size a ≤ S1x1x2098176.size a
  inb_S1x1x2098176_S1x1x2048_0_0_1016991 : ∀ a, (![0, 0, 1016991] : Fin 3 → Nat) a + S1x1x2048.size a ≤ S1x1x2098176.size a
  inb_S1x1x2098176_S1x1x2048_0_0_1018461 : ∀ a, (![0, 0, 1018461] : Fin 3 → Nat) a + S1x1x2048.size a ≤ S1x1x2098176.size a
  inb_S1x1x2098176_S1x1x2048_0_0_1019930 : ∀ a, (![0, 0, 1019930] : Fin 3 → Nat) a + S1x1x2048.size a ≤ S1x1x2098176.size a
  inb_S1x1x2098176_S1x1x2048_0_0_1021398 : ∀ a, (![0, 0, 1021398] : Fin 3 → Nat) a + S1x1x2048.size a ≤ S1x1x2098176.size a
  inb_S1x1x2098176_S1x1x2048_0_0_1022865 : ∀ a, (![0, 0, 1022865] : Fin 3 → Nat) a + S1x1x2048.size a ≤ S1x1x2098176.size a
  inb_S1x1x2098176_S1x1x2048_0_0_1024331 : ∀ a, (![0, 0, 1024331] : Fin 3 → Nat) a + S1x1x2048.size a ≤ S1x1x2098176.size a
  inb_S1x1x2098176_S1x1x2048_0_0_1025796 : ∀ a, (![0, 0, 1025796] : Fin 3 → Nat) a + S1x1x2048.size a ≤ S1x1x2098176.size a
  inb_S1x1x2098176_S1x1x2048_0_0_1027260 : ∀ a, (![0, 0, 1027260] : Fin 3 → Nat) a + S1x1x2048.size a ≤ S1x1x2098176.size a
  inb_S1x1x2098176_S1x1x2048_0_0_1028723 : ∀ a, (![0, 0, 1028723] : Fin 3 → Nat) a + S1x1x2048.size a ≤ S1x1x2098176.size a
  inb_S1x1x2098176_S1x1x2048_0_0_1030185 : ∀ a, (![0, 0, 1030185] : Fin 3 → Nat) a + S1x1x2048.size a ≤ S1x1x2098176.size a
  inb_S1x1x2098176_S1x1x2048_0_0_1031646 : ∀ a, (![0, 0, 1031646] : Fin 3 → Nat) a + S1x1x2048.size a ≤ S1x1x2098176.size a
  inb_S1x1x2098176_S1x1x2048_0_0_1033106 : ∀ a, (![0, 0, 1033106] : Fin 3 → Nat) a + S1x1x2048.size a ≤ S1x1x2098176.size a
  inb_S1x1x2098176_S1x1x2048_0_0_1034565 : ∀ a, (![0, 0, 1034565] : Fin 3 → Nat) a + S1x1x2048.size a ≤ S1x1x2098176.size a
  inb_S1x1x2098176_S1x1x2048_0_0_1036023 : ∀ a, (![0, 0, 1036023] : Fin 3 → Nat) a + S1x1x2048.size a ≤ S1x1x2098176.size a
  inb_S1x1x2098176_S1x1x2048_0_0_1037480 : ∀ a, (![0, 0, 1037480] : Fin 3 → Nat) a + S1x1x2048.size a ≤ S1x1x2098176.size a
  inb_S1x1x2098176_S1x1x2048_0_0_1038936 : ∀ a, (![0, 0, 1038936] : Fin 3 → Nat) a + S1x1x2048.size a ≤ S1x1x2098176.size a
  inb_S1x1x2098176_S1x1x2048_0_0_1040391 : ∀ a, (![0, 0, 1040391] : Fin 3 → Nat) a + S1x1x2048.size a ≤ S1x1x2098176.size a
  inb_S1x1x2098176_S1x1x2048_0_0_1041845 : ∀ a, (![0, 0, 1041845] : Fin 3 → Nat) a + S1x1x2048.size a ≤ S1x1x2098176.size a
  inb_S1x1x2098176_S1x1x2048_0_0_1043298 : ∀ a, (![0, 0, 1043298] : Fin 3 → Nat) a + S1x1x2048.size a ≤ S1x1x2098176.size a
  inb_S1x1x2098176_S1x1x2048_0_0_1044750 : ∀ a, (![0, 0, 1044750] : Fin 3 → Nat) a + S1x1x2048.size a ≤ S1x1x2098176.size a
  inb_S1x1x2098176_S1x1x2048_0_0_1046201 : ∀ a, (![0, 0, 1046201] : Fin 3 → Nat) a + S1x1x2048.size a ≤ S1x1x2098176.size a
  inb_S1x1x2098176_S1x1x2048_0_0_1047651 : ∀ a, (![0, 0, 1047651] : Fin 3 → Nat) a + S1x1x2048.size a ≤ S1x1x2098176.size a
  inb_S1x1x2098176_S1x1x2048_0_0_1049100 : ∀ a, (![0, 0, 1049100] : Fin 3 → Nat) a + S1x1x2048.size a ≤ S1x1x2098176.size a
  inb_S1x1x2098176_S1x1x2048_0_0_1050548 : ∀ a, (![0, 0, 1050548] : Fin 3 → Nat) a + S1x1x2048.size a ≤ S1x1x2098176.size a
  inb_S1x1x2098176_S1x1x2048_0_0_1051995 : ∀ a, (![0, 0, 1051995] : Fin 3 → Nat) a + S1x1x2048.size a ≤ S1x1x2098176.size a
  inb_S1x1x2098176_S1x1x2048_0_0_1053441 : ∀ a, (![0, 0, 1053441] : Fin 3 → Nat) a + S1x1x2048.size a ≤ S1x1x2098176.size a
  inb_S1x1x2098176_S1x1x2048_0_0_1054886 : ∀ a, (![0, 0, 1054886] : Fin 3 → Nat) a + S1x1x2048.size a ≤ S1x1x2098176.size a
  inb_S1x1x2098176_S1x1x2048_0_0_1056330 : ∀ a, (![0, 0, 1056330] : Fin 3 → Nat) a + S1x1x2048.size a ≤ S1x1x2098176.size a
  inb_S1x1x2098176_S1x1x2048_0_0_1057773 : ∀ a, (![0, 0, 1057773] : Fin 3 → Nat) a + S1x1x2048.size a ≤ S1x1x2098176.size a
  inb_S1x1x2098176_S1x1x2048_0_0_1059215 : ∀ a, (![0, 0, 1059215] : Fin 3 → Nat) a + S1x1x2048.size a ≤ S1x1x2098176.size a
  inb_S1x1x2098176_S1x1x2048_0_0_1060656 : ∀ a, (![0, 0, 1060656] : Fin 3 → Nat) a + S1x1x2048.size a ≤ S1x1x2098176.size a
  inb_S1x1x2098176_S1x1x2048_0_0_1062096 : ∀ a, (![0, 0, 1062096] : Fin 3 → Nat) a + S1x1x2048.size a ≤ S1x1x2098176.size a
  inb_S1x1x2098176_S1x1x2048_0_0_1063535 : ∀ a, (![0, 0, 1063535] : Fin 3 → Nat) a + S1x1x2048.size a ≤ S1x1x2098176.size a
  inb_S1x1x2098176_S1x1x2048_0_0_1064973 : ∀ a, (![0, 0, 1064973] : Fin 3 → Nat) a + S1x1x2048.size a ≤ S1x1x2098176.size a
  inb_S1x1x2098176_S1x1x2048_0_0_1066410 : ∀ a, (![0, 0, 1066410] : Fin 3 → Nat) a + S1x1x2048.size a ≤ S1x1x2098176.size a
  inb_S1x1x2098176_S1x1x2048_0_0_1067846 : ∀ a, (![0, 0, 1067846] : Fin 3 → Nat) a + S1x1x2048.size a ≤ S1x1x2098176.size a
  inb_S1x1x2098176_S1x1x2048_0_0_1069281 : ∀ a, (![0, 0, 1069281] : Fin 3 → Nat) a + S1x1x2048.size a ≤ S1x1x2098176.size a
  inb_S1x1x2098176_S1x1x2048_0_0_1070715 : ∀ a, (![0, 0, 1070715] : Fin 3 → Nat) a + S1x1x2048.size a ≤ S1x1x2098176.size a
  inb_S1x1x2098176_S1x1x2048_0_0_1072148 : ∀ a, (![0, 0, 1072148] : Fin 3 → Nat) a + S1x1x2048.size a ≤ S1x1x2098176.size a
  inb_S1x1x2098176_S1x1x2048_0_0_1073580 : ∀ a, (![0, 0, 1073580] : Fin 3 → Nat) a + S1x1x2048.size a ≤ S1x1x2098176.size a
  inb_S1x1x2098176_S1x1x2048_0_0_1075011 : ∀ a, (![0, 0, 1075011] : Fin 3 → Nat) a + S1x1x2048.size a ≤ S1x1x2098176.size a
  inb_S1x1x2098176_S1x1x2048_0_0_1076441 : ∀ a, (![0, 0, 1076441] : Fin 3 → Nat) a + S1x1x2048.size a ≤ S1x1x2098176.size a
  inb_S1x1x2098176_S1x1x2048_0_0_1077870 : ∀ a, (![0, 0, 1077870] : Fin 3 → Nat) a + S1x1x2048.size a ≤ S1x1x2098176.size a
  inb_S1x1x2098176_S1x1x2048_0_0_1079298 : ∀ a, (![0, 0, 1079298] : Fin 3 → Nat) a + S1x1x2048.size a ≤ S1x1x2098176.size a
  inb_S1x1x2098176_S1x1x2048_0_0_1080725 : ∀ a, (![0, 0, 1080725] : Fin 3 → Nat) a + S1x1x2048.size a ≤ S1x1x2098176.size a
  inb_S1x1x2098176_S1x1x2048_0_0_1082151 : ∀ a, (![0, 0, 1082151] : Fin 3 → Nat) a + S1x1x2048.size a ≤ S1x1x2098176.size a
  inb_S1x1x2098176_S1x1x2048_0_0_1083576 : ∀ a, (![0, 0, 1083576] : Fin 3 → Nat) a + S1x1x2048.size a ≤ S1x1x2098176.size a
  inb_S1x1x2098176_S1x1x2048_0_0_1085000 : ∀ a, (![0, 0, 1085000] : Fin 3 → Nat) a + S1x1x2048.size a ≤ S1x1x2098176.size a
  inb_S1x1x2098176_S1x1x2048_0_0_1086423 : ∀ a, (![0, 0, 1086423] : Fin 3 → Nat) a + S1x1x2048.size a ≤ S1x1x2098176.size a
  inb_S1x1x2098176_S1x1x2048_0_0_1087845 : ∀ a, (![0, 0, 1087845] : Fin 3 → Nat) a + S1x1x2048.size a ≤ S1x1x2098176.size a
  inb_S1x1x2098176_S1x1x2048_0_0_1089266 : ∀ a, (![0, 0, 1089266] : Fin 3 → Nat) a + S1x1x2048.size a ≤ S1x1x2098176.size a
  inb_S1x1x2098176_S1x1x2048_0_0_1090686 : ∀ a, (![0, 0, 1090686] : Fin 3 → Nat) a + S1x1x2048.size a ≤ S1x1x2098176.size a
  inb_S1x1x2098176_S1x1x2048_0_0_1092105 : ∀ a, (![0, 0, 1092105] : Fin 3 → Nat) a + S1x1x2048.size a ≤ S1x1x2098176.size a
  inb_S1x1x2098176_S1x1x2048_0_0_1093523 : ∀ a, (![0, 0, 1093523] : Fin 3 → Nat) a + S1x1x2048.size a ≤ S1x1x2098176.size a
  inb_S1x1x2098176_S1x1x2048_0_0_1094940 : ∀ a, (![0, 0, 1094940] : Fin 3 → Nat) a + S1x1x2048.size a ≤ S1x1x2098176.size a
  inb_S1x1x2098176_S1x1x2048_0_0_1096356 : ∀ a, (![0, 0, 1096356] : Fin 3 → Nat) a + S1x1x2048.size a ≤ S1x1x2098176.size a
  inb_S1x1x2098176_S1x1x2048_0_0_1097771 : ∀ a, (![0, 0, 1097771] : Fin 3 → Nat) a + S1x1x2048.size a ≤ S1x1x2098176.size a
  inb_S1x1x2098176_S1x1x2048_0_0_1099185 : ∀ a, (![0, 0, 1099185] : Fin 3 → Nat) a + S1x1x2048.size a ≤ S1x1x2098176.size a
  inb_S1x1x2098176_S1x1x2048_0_0_1100598 : ∀ a, (![0, 0, 1100598] : Fin 3 → Nat) a + S1x1x2048.size a ≤ S1x1x2098176.size a
  inb_S1x1x2098176_S1x1x2048_0_0_1102010 : ∀ a, (![0, 0, 1102010] : Fin 3 → Nat) a + S1x1x2048.size a ≤ S1x1x2098176.size a
  inb_S1x1x2098176_S1x1x2048_0_0_1103421 : ∀ a, (![0, 0, 1103421] : Fin 3 → Nat) a + S1x1x2048.size a ≤ S1x1x2098176.size a
  inb_S1x1x2098176_S1x1x2048_0_0_1104831 : ∀ a, (![0, 0, 1104831] : Fin 3 → Nat) a + S1x1x2048.size a ≤ S1x1x2098176.size a
  inb_S1x1024x2048_S1x64x2048_0_576_0 : ∀ a, (![0, 576, 0] : Fin 3 → Nat) a + S1x64x2048.size a ≤ S1x1024x2048.size a
  inb_S1x1x2098176_S1x1x2048_0_0_1106240 : ∀ a, (![0, 0, 1106240] : Fin 3 → Nat) a + S1x1x2048.size a ≤ S1x1x2098176.size a
  inb_S1x1x2098176_S1x1x2048_0_0_1107648 : ∀ a, (![0, 0, 1107648] : Fin 3 → Nat) a + S1x1x2048.size a ≤ S1x1x2098176.size a
  inb_S1x1x2098176_S1x1x2048_0_0_1109055 : ∀ a, (![0, 0, 1109055] : Fin 3 → Nat) a + S1x1x2048.size a ≤ S1x1x2098176.size a
  inb_S1x1x2098176_S1x1x2048_0_0_1110461 : ∀ a, (![0, 0, 1110461] : Fin 3 → Nat) a + S1x1x2048.size a ≤ S1x1x2098176.size a
  inb_S1x1x2098176_S1x1x2048_0_0_1111866 : ∀ a, (![0, 0, 1111866] : Fin 3 → Nat) a + S1x1x2048.size a ≤ S1x1x2098176.size a
  inb_S1x1x2098176_S1x1x2048_0_0_1113270 : ∀ a, (![0, 0, 1113270] : Fin 3 → Nat) a + S1x1x2048.size a ≤ S1x1x2098176.size a
  inb_S1x1x2098176_S1x1x2048_0_0_1114673 : ∀ a, (![0, 0, 1114673] : Fin 3 → Nat) a + S1x1x2048.size a ≤ S1x1x2098176.size a
  inb_S1x1x2098176_S1x1x2048_0_0_1116075 : ∀ a, (![0, 0, 1116075] : Fin 3 → Nat) a + S1x1x2048.size a ≤ S1x1x2098176.size a
  inb_S1x1x2098176_S1x1x2048_0_0_1117476 : ∀ a, (![0, 0, 1117476] : Fin 3 → Nat) a + S1x1x2048.size a ≤ S1x1x2098176.size a
  inb_S1x1x2098176_S1x1x2048_0_0_1118876 : ∀ a, (![0, 0, 1118876] : Fin 3 → Nat) a + S1x1x2048.size a ≤ S1x1x2098176.size a
  inb_S1x1x2098176_S1x1x2048_0_0_1120275 : ∀ a, (![0, 0, 1120275] : Fin 3 → Nat) a + S1x1x2048.size a ≤ S1x1x2098176.size a
  inb_S1x1x2098176_S1x1x2048_0_0_1121673 : ∀ a, (![0, 0, 1121673] : Fin 3 → Nat) a + S1x1x2048.size a ≤ S1x1x2098176.size a
  inb_S1x1x2098176_S1x1x2048_0_0_1123070 : ∀ a, (![0, 0, 1123070] : Fin 3 → Nat) a + S1x1x2048.size a ≤ S1x1x2098176.size a
  inb_S1x1x2098176_S1x1x2048_0_0_1124466 : ∀ a, (![0, 0, 1124466] : Fin 3 → Nat) a + S1x1x2048.size a ≤ S1x1x2098176.size a
  inb_S1x1x2098176_S1x1x2048_0_0_1125861 : ∀ a, (![0, 0, 1125861] : Fin 3 → Nat) a + S1x1x2048.size a ≤ S1x1x2098176.size a
  inb_S1x1x2098176_S1x1x2048_0_0_1127255 : ∀ a, (![0, 0, 1127255] : Fin 3 → Nat) a + S1x1x2048.size a ≤ S1x1x2098176.size a
  inb_S1x1x2098176_S1x1x2048_0_0_1128648 : ∀ a, (![0, 0, 1128648] : Fin 3 → Nat) a + S1x1x2048.size a ≤ S1x1x2098176.size a
  inb_S1x1x2098176_S1x1x2048_0_0_1130040 : ∀ a, (![0, 0, 1130040] : Fin 3 → Nat) a + S1x1x2048.size a ≤ S1x1x2098176.size a
  inb_S1x1x2098176_S1x1x2048_0_0_1131431 : ∀ a, (![0, 0, 1131431] : Fin 3 → Nat) a + S1x1x2048.size a ≤ S1x1x2098176.size a
  inb_S1x1x2098176_S1x1x2048_0_0_1132821 : ∀ a, (![0, 0, 1132821] : Fin 3 → Nat) a + S1x1x2048.size a ≤ S1x1x2098176.size a
  inb_S1x1x2098176_S1x1x2048_0_0_1134210 : ∀ a, (![0, 0, 1134210] : Fin 3 → Nat) a + S1x1x2048.size a ≤ S1x1x2098176.size a
  inb_S1x1x2098176_S1x1x2048_0_0_1135598 : ∀ a, (![0, 0, 1135598] : Fin 3 → Nat) a + S1x1x2048.size a ≤ S1x1x2098176.size a
  inb_S1x1x2098176_S1x1x2048_0_0_1136985 : ∀ a, (![0, 0, 1136985] : Fin 3 → Nat) a + S1x1x2048.size a ≤ S1x1x2098176.size a
  inb_S1x1x2098176_S1x1x2048_0_0_1138371 : ∀ a, (![0, 0, 1138371] : Fin 3 → Nat) a + S1x1x2048.size a ≤ S1x1x2098176.size a
  inb_S1x1x2098176_S1x1x2048_0_0_1139756 : ∀ a, (![0, 0, 1139756] : Fin 3 → Nat) a + S1x1x2048.size a ≤ S1x1x2098176.size a
  inb_S1x1x2098176_S1x1x2048_0_0_1141140 : ∀ a, (![0, 0, 1141140] : Fin 3 → Nat) a + S1x1x2048.size a ≤ S1x1x2098176.size a
  inb_S1x1x2098176_S1x1x2048_0_0_1142523 : ∀ a, (![0, 0, 1142523] : Fin 3 → Nat) a + S1x1x2048.size a ≤ S1x1x2098176.size a
  inb_S1x1x2098176_S1x1x2048_0_0_1143905 : ∀ a, (![0, 0, 1143905] : Fin 3 → Nat) a + S1x1x2048.size a ≤ S1x1x2098176.size a
  inb_S1x1x2098176_S1x1x2048_0_0_1145286 : ∀ a, (![0, 0, 1145286] : Fin 3 → Nat) a + S1x1x2048.size a ≤ S1x1x2098176.size a
  inb_S1x1x2098176_S1x1x2048_0_0_1146666 : ∀ a, (![0, 0, 1146666] : Fin 3 → Nat) a + S1x1x2048.size a ≤ S1x1x2098176.size a
  inb_S1x1x2098176_S1x1x2048_0_0_1148045 : ∀ a, (![0, 0, 1148045] : Fin 3 → Nat) a + S1x1x2048.size a ≤ S1x1x2098176.size a
  inb_S1x1x2098176_S1x1x2048_0_0_1149423 : ∀ a, (![0, 0, 1149423] : Fin 3 → Nat) a + S1x1x2048.size a ≤ S1x1x2098176.size a
  inb_S1x1x2098176_S1x1x2048_0_0_1150800 : ∀ a, (![0, 0, 1150800] : Fin 3 → Nat) a + S1x1x2048.size a ≤ S1x1x2098176.size a
  inb_S1x1x2098176_S1x1x2048_0_0_1152176 : ∀ a, (![0, 0, 1152176] : Fin 3 → Nat) a + S1x1x2048.size a ≤ S1x1x2098176.size a
  inb_S1x1x2098176_S1x1x2048_0_0_1153551 : ∀ a, (![0, 0, 1153551] : Fin 3 → Nat) a + S1x1x2048.size a ≤ S1x1x2098176.size a
  inb_S1x1x2098176_S1x1x2048_0_0_1154925 : ∀ a, (![0, 0, 1154925] : Fin 3 → Nat) a + S1x1x2048.size a ≤ S1x1x2098176.size a
  inb_S1x1x2098176_S1x1x2048_0_0_1156298 : ∀ a, (![0, 0, 1156298] : Fin 3 → Nat) a + S1x1x2048.size a ≤ S1x1x2098176.size a
  inb_S1x1x2098176_S1x1x2048_0_0_1157670 : ∀ a, (![0, 0, 1157670] : Fin 3 → Nat) a + S1x1x2048.size a ≤ S1x1x2098176.size a
  inb_S1x1x2098176_S1x1x2048_0_0_1159041 : ∀ a, (![0, 0, 1159041] : Fin 3 → Nat) a + S1x1x2048.size a ≤ S1x1x2098176.size a
  inb_S1x1x2098176_S1x1x2048_0_0_1160411 : ∀ a, (![0, 0, 1160411] : Fin 3 → Nat) a + S1x1x2048.size a ≤ S1x1x2098176.size a
  inb_S1x1x2098176_S1x1x2048_0_0_1161780 : ∀ a, (![0, 0, 1161780] : Fin 3 → Nat) a + S1x1x2048.size a ≤ S1x1x2098176.size a
  inb_S1x1x2098176_S1x1x2048_0_0_1163148 : ∀ a, (![0, 0, 1163148] : Fin 3 → Nat) a + S1x1x2048.size a ≤ S1x1x2098176.size a
  inb_S1x1x2098176_S1x1x2048_0_0_1164515 : ∀ a, (![0, 0, 1164515] : Fin 3 → Nat) a + S1x1x2048.size a ≤ S1x1x2098176.size a
  inb_S1x1x2098176_S1x1x2048_0_0_1165881 : ∀ a, (![0, 0, 1165881] : Fin 3 → Nat) a + S1x1x2048.size a ≤ S1x1x2098176.size a
  inb_S1x1x2098176_S1x1x2048_0_0_1167246 : ∀ a, (![0, 0, 1167246] : Fin 3 → Nat) a + S1x1x2048.size a ≤ S1x1x2098176.size a
  inb_S1x1x2098176_S1x1x2048_0_0_1168610 : ∀ a, (![0, 0, 1168610] : Fin 3 → Nat) a + S1x1x2048.size a ≤ S1x1x2098176.size a
  inb_S1x1x2098176_S1x1x2048_0_0_1169973 : ∀ a, (![0, 0, 1169973] : Fin 3 → Nat) a + S1x1x2048.size a ≤ S1x1x2098176.size a
  inb_S1x1x2098176_S1x1x2048_0_0_1171335 : ∀ a, (![0, 0, 1171335] : Fin 3 → Nat) a + S1x1x2048.size a ≤ S1x1x2098176.size a
  inb_S1x1x2098176_S1x1x2048_0_0_1172696 : ∀ a, (![0, 0, 1172696] : Fin 3 → Nat) a + S1x1x2048.size a ≤ S1x1x2098176.size a
  inb_S1x1x2098176_S1x1x2048_0_0_1174056 : ∀ a, (![0, 0, 1174056] : Fin 3 → Nat) a + S1x1x2048.size a ≤ S1x1x2098176.size a
  inb_S1x1x2098176_S1x1x2048_0_0_1175415 : ∀ a, (![0, 0, 1175415] : Fin 3 → Nat) a + S1x1x2048.size a ≤ S1x1x2098176.size a
  inb_S1x1x2098176_S1x1x2048_0_0_1176773 : ∀ a, (![0, 0, 1176773] : Fin 3 → Nat) a + S1x1x2048.size a ≤ S1x1x2098176.size a
  inb_S1x1x2098176_S1x1x2048_0_0_1178130 : ∀ a, (![0, 0, 1178130] : Fin 3 → Nat) a + S1x1x2048.size a ≤ S1x1x2098176.size a
  inb_S1x1x2098176_S1x1x2048_0_0_1179486 : ∀ a, (![0, 0, 1179486] : Fin 3 → Nat) a + S1x1x2048.size a ≤ S1x1x2098176.size a
  inb_S1x1x2098176_S1x1x2048_0_0_1180841 : ∀ a, (![0, 0, 1180841] : Fin 3 → Nat) a + S1x1x2048.size a ≤ S1x1x2098176.size a
  inb_S1x1x2098176_S1x1x2048_0_0_1182195 : ∀ a, (![0, 0, 1182195] : Fin 3 → Nat) a + S1x1x2048.size a ≤ S1x1x2098176.size a
  inb_S1x1x2098176_S1x1x2048_0_0_1183548 : ∀ a, (![0, 0, 1183548] : Fin 3 → Nat) a + S1x1x2048.size a ≤ S1x1x2098176.size a
  inb_S1x1x2098176_S1x1x2048_0_0_1184900 : ∀ a, (![0, 0, 1184900] : Fin 3 → Nat) a + S1x1x2048.size a ≤ S1x1x2098176.size a
  inb_S1x1x2098176_S1x1x2048_0_0_1186251 : ∀ a, (![0, 0, 1186251] : Fin 3 → Nat) a + S1x1x2048.size a ≤ S1x1x2098176.size a
  inb_S1x1x2098176_S1x1x2048_0_0_1187601 : ∀ a, (![0, 0, 1187601] : Fin 3 → Nat) a + S1x1x2048.size a ≤ S1x1x2098176.size a
  inb_S1x1x2098176_S1x1x2048_0_0_1188950 : ∀ a, (![0, 0, 1188950] : Fin 3 → Nat) a + S1x1x2048.size a ≤ S1x1x2098176.size a
  inb_S1x1x2098176_S1x1x2048_0_0_1190298 : ∀ a, (![0, 0, 1190298] : Fin 3 → Nat) a + S1x1x2048.size a ≤ S1x1x2098176.size a
  inb_S1x1x2098176_S1x1x2048_0_0_1191645 : ∀ a, (![0, 0, 1191645] : Fin 3 → Nat) a + S1x1x2048.size a ≤ S1x1x2098176.size a
  inb_S1x1x2098176_S1x1x2048_0_0_1192991 : ∀ a, (![0, 0, 1192991] : Fin 3 → Nat) a + S1x1x2048.size a ≤ S1x1x2098176.size a
  inb_S1x1024x2048_S1x64x2048_0_640_0 : ∀ a, (![0, 640, 0] : Fin 3 → Nat) a + S1x64x2048.size a ≤ S1x1024x2048.size a
  inb_S1x1x2098176_S1x1x2048_0_0_1194336 : ∀ a, (![0, 0, 1194336] : Fin 3 → Nat) a + S1x1x2048.size a ≤ S1x1x2098176.size a
  inb_S1x1x2098176_S1x1x2048_0_0_1195680 : ∀ a, (![0, 0, 1195680] : Fin 3 → Nat) a + S1x1x2048.size a ≤ S1x1x2098176.size a
  inb_S1x1x2098176_S1x1x2048_0_0_1197023 : ∀ a, (![0, 0, 1197023] : Fin 3 → Nat) a + S1x1x2048.size a ≤ S1x1x2098176.size a
  inb_S1x1x2098176_S1x1x2048_0_0_1198365 : ∀ a, (![0, 0, 1198365] : Fin 3 → Nat) a + S1x1x2048.size a ≤ S1x1x2098176.size a
  inb_S1x1x2098176_S1x1x2048_0_0_1199706 : ∀ a, (![0, 0, 1199706] : Fin 3 → Nat) a + S1x1x2048.size a ≤ S1x1x2098176.size a
  inb_S1x1x2098176_S1x1x2048_0_0_1201046 : ∀ a, (![0, 0, 1201046] : Fin 3 → Nat) a + S1x1x2048.size a ≤ S1x1x2098176.size a
  inb_S1x1x2098176_S1x1x2048_0_0_1202385 : ∀ a, (![0, 0, 1202385] : Fin 3 → Nat) a + S1x1x2048.size a ≤ S1x1x2098176.size a
  inb_S1x1x2098176_S1x1x2048_0_0_1203723 : ∀ a, (![0, 0, 1203723] : Fin 3 → Nat) a + S1x1x2048.size a ≤ S1x1x2098176.size a
  inb_S1x1x2098176_S1x1x2048_0_0_1205060 : ∀ a, (![0, 0, 1205060] : Fin 3 → Nat) a + S1x1x2048.size a ≤ S1x1x2098176.size a
  inb_S1x1x2098176_S1x1x2048_0_0_1206396 : ∀ a, (![0, 0, 1206396] : Fin 3 → Nat) a + S1x1x2048.size a ≤ S1x1x2098176.size a
  inb_S1x1x2098176_S1x1x2048_0_0_1207731 : ∀ a, (![0, 0, 1207731] : Fin 3 → Nat) a + S1x1x2048.size a ≤ S1x1x2098176.size a
  inb_S1x1x2098176_S1x1x2048_0_0_1209065 : ∀ a, (![0, 0, 1209065] : Fin 3 → Nat) a + S1x1x2048.size a ≤ S1x1x2098176.size a
  inb_S1x1x2098176_S1x1x2048_0_0_1210398 : ∀ a, (![0, 0, 1210398] : Fin 3 → Nat) a + S1x1x2048.size a ≤ S1x1x2098176.size a
  inb_S1x1x2098176_S1x1x2048_0_0_1211730 : ∀ a, (![0, 0, 1211730] : Fin 3 → Nat) a + S1x1x2048.size a ≤ S1x1x2098176.size a
  inb_S1x1x2098176_S1x1x2048_0_0_1213061 : ∀ a, (![0, 0, 1213061] : Fin 3 → Nat) a + S1x1x2048.size a ≤ S1x1x2098176.size a
  inb_S1x1x2098176_S1x1x2048_0_0_1214391 : ∀ a, (![0, 0, 1214391] : Fin 3 → Nat) a + S1x1x2048.size a ≤ S1x1x2098176.size a
  inb_S1x1x2098176_S1x1x2048_0_0_1215720 : ∀ a, (![0, 0, 1215720] : Fin 3 → Nat) a + S1x1x2048.size a ≤ S1x1x2098176.size a
  inb_S1x1x2098176_S1x1x2048_0_0_1217048 : ∀ a, (![0, 0, 1217048] : Fin 3 → Nat) a + S1x1x2048.size a ≤ S1x1x2098176.size a
  inb_S1x1x2098176_S1x1x2048_0_0_1218375 : ∀ a, (![0, 0, 1218375] : Fin 3 → Nat) a + S1x1x2048.size a ≤ S1x1x2098176.size a
  inb_S1x1x2098176_S1x1x2048_0_0_1219701 : ∀ a, (![0, 0, 1219701] : Fin 3 → Nat) a + S1x1x2048.size a ≤ S1x1x2098176.size a
  inb_S1x1x2098176_S1x1x2048_0_0_1221026 : ∀ a, (![0, 0, 1221026] : Fin 3 → Nat) a + S1x1x2048.size a ≤ S1x1x2098176.size a
  inb_S1x1x2098176_S1x1x2048_0_0_1222350 : ∀ a, (![0, 0, 1222350] : Fin 3 → Nat) a + S1x1x2048.size a ≤ S1x1x2098176.size a
  inb_S1x1x2098176_S1x1x2048_0_0_1223673 : ∀ a, (![0, 0, 1223673] : Fin 3 → Nat) a + S1x1x2048.size a ≤ S1x1x2098176.size a
  inb_S1x1x2098176_S1x1x2048_0_0_1224995 : ∀ a, (![0, 0, 1224995] : Fin 3 → Nat) a + S1x1x2048.size a ≤ S1x1x2098176.size a
  inb_S1x1x2098176_S1x1x2048_0_0_1226316 : ∀ a, (![0, 0, 1226316] : Fin 3 → Nat) a + S1x1x2048.size a ≤ S1x1x2098176.size a
  inb_S1x1x2098176_S1x1x2048_0_0_1227636 : ∀ a, (![0, 0, 1227636] : Fin 3 → Nat) a + S1x1x2048.size a ≤ S1x1x2098176.size a
  inb_S1x1x2098176_S1x1x2048_0_0_1228955 : ∀ a, (![0, 0, 1228955] : Fin 3 → Nat) a + S1x1x2048.size a ≤ S1x1x2098176.size a
  inb_S1x1x2098176_S1x1x2048_0_0_1230273 : ∀ a, (![0, 0, 1230273] : Fin 3 → Nat) a + S1x1x2048.size a ≤ S1x1x2098176.size a
  inb_S1x1x2098176_S1x1x2048_0_0_1231590 : ∀ a, (![0, 0, 1231590] : Fin 3 → Nat) a + S1x1x2048.size a ≤ S1x1x2098176.size a
  inb_S1x1x2098176_S1x1x2048_0_0_1232906 : ∀ a, (![0, 0, 1232906] : Fin 3 → Nat) a + S1x1x2048.size a ≤ S1x1x2098176.size a
  inb_S1x1x2098176_S1x1x2048_0_0_1234221 : ∀ a, (![0, 0, 1234221] : Fin 3 → Nat) a + S1x1x2048.size a ≤ S1x1x2098176.size a
  inb_S1x1x2098176_S1x1x2048_0_0_1235535 : ∀ a, (![0, 0, 1235535] : Fin 3 → Nat) a + S1x1x2048.size a ≤ S1x1x2098176.size a
  inb_S1x1x2098176_S1x1x2048_0_0_1236848 : ∀ a, (![0, 0, 1236848] : Fin 3 → Nat) a + S1x1x2048.size a ≤ S1x1x2098176.size a
  inb_S1x1x2098176_S1x1x2048_0_0_1238160 : ∀ a, (![0, 0, 1238160] : Fin 3 → Nat) a + S1x1x2048.size a ≤ S1x1x2098176.size a
  inb_S1x1x2098176_S1x1x2048_0_0_1239471 : ∀ a, (![0, 0, 1239471] : Fin 3 → Nat) a + S1x1x2048.size a ≤ S1x1x2098176.size a
  inb_S1x1x2098176_S1x1x2048_0_0_1240781 : ∀ a, (![0, 0, 1240781] : Fin 3 → Nat) a + S1x1x2048.size a ≤ S1x1x2098176.size a
  inb_S1x1x2098176_S1x1x2048_0_0_1242090 : ∀ a, (![0, 0, 1242090] : Fin 3 → Nat) a + S1x1x2048.size a ≤ S1x1x2098176.size a
  inb_S1x1x2098176_S1x1x2048_0_0_1243398 : ∀ a, (![0, 0, 1243398] : Fin 3 → Nat) a + S1x1x2048.size a ≤ S1x1x2098176.size a
  inb_S1x1x2098176_S1x1x2048_0_0_1244705 : ∀ a, (![0, 0, 1244705] : Fin 3 → Nat) a + S1x1x2048.size a ≤ S1x1x2098176.size a
  inb_S1x1x2098176_S1x1x2048_0_0_1246011 : ∀ a, (![0, 0, 1246011] : Fin 3 → Nat) a + S1x1x2048.size a ≤ S1x1x2098176.size a
  inb_S1x1x2098176_S1x1x2048_0_0_1247316 : ∀ a, (![0, 0, 1247316] : Fin 3 → Nat) a + S1x1x2048.size a ≤ S1x1x2098176.size a
  inb_S1x1x2098176_S1x1x2048_0_0_1248620 : ∀ a, (![0, 0, 1248620] : Fin 3 → Nat) a + S1x1x2048.size a ≤ S1x1x2098176.size a
  inb_S1x1x2098176_S1x1x2048_0_0_1249923 : ∀ a, (![0, 0, 1249923] : Fin 3 → Nat) a + S1x1x2048.size a ≤ S1x1x2098176.size a
  inb_S1x1x2098176_S1x1x2048_0_0_1251225 : ∀ a, (![0, 0, 1251225] : Fin 3 → Nat) a + S1x1x2048.size a ≤ S1x1x2098176.size a
  inb_S1x1x2098176_S1x1x2048_0_0_1252526 : ∀ a, (![0, 0, 1252526] : Fin 3 → Nat) a + S1x1x2048.size a ≤ S1x1x2098176.size a
  inb_S1x1x2098176_S1x1x2048_0_0_1253826 : ∀ a, (![0, 0, 1253826] : Fin 3 → Nat) a + S1x1x2048.size a ≤ S1x1x2098176.size a
  inb_S1x1x2098176_S1x1x2048_0_0_1255125 : ∀ a, (![0, 0, 1255125] : Fin 3 → Nat) a + S1x1x2048.size a ≤ S1x1x2098176.size a
  inb_S1x1x2098176_S1x1x2048_0_0_1256423 : ∀ a, (![0, 0, 1256423] : Fin 3 → Nat) a + S1x1x2048.size a ≤ S1x1x2098176.size a
  inb_S1x1x2098176_S1x1x2048_0_0_1257720 : ∀ a, (![0, 0, 1257720] : Fin 3 → Nat) a + S1x1x2048.size a ≤ S1x1x2098176.size a
  inb_S1x1x2098176_S1x1x2048_0_0_1259016 : ∀ a, (![0, 0, 1259016] : Fin 3 → Nat) a + S1x1x2048.size a ≤ S1x1x2098176.size a
  inb_S1x1x2098176_S1x1x2048_0_0_1260311 : ∀ a, (![0, 0, 1260311] : Fin 3 → Nat) a + S1x1x2048.size a ≤ S1x1x2098176.size a
  inb_S1x1x2098176_S1x1x2048_0_0_1261605 : ∀ a, (![0, 0, 1261605] : Fin 3 → Nat) a + S1x1x2048.size a ≤ S1x1x2098176.size a
  inb_S1x1x2098176_S1x1x2048_0_0_1262898 : ∀ a, (![0, 0, 1262898] : Fin 3 → Nat) a + S1x1x2048.size a ≤ S1x1x2098176.size a
  inb_S1x1x2098176_S1x1x2048_0_0_1264190 : ∀ a, (![0, 0, 1264190] : Fin 3 → Nat) a + S1x1x2048.size a ≤ S1x1x2098176.size a
  inb_S1x1x2098176_S1x1x2048_0_0_1265481 : ∀ a, (![0, 0, 1265481] : Fin 3 → Nat) a + S1x1x2048.size a ≤ S1x1x2098176.size a
  inb_S1x1x2098176_S1x1x2048_0_0_1266771 : ∀ a, (![0, 0, 1266771] : Fin 3 → Nat) a + S1x1x2048.size a ≤ S1x1x2098176.size a
  inb_S1x1x2098176_S1x1x2048_0_0_1268060 : ∀ a, (![0, 0, 1268060] : Fin 3 → Nat) a + S1x1x2048.size a ≤ S1x1x2098176.size a
  inb_S1x1x2098176_S1x1x2048_0_0_1269348 : ∀ a, (![0, 0, 1269348] : Fin 3 → Nat) a + S1x1x2048.size a ≤ S1x1x2098176.size a
  inb_S1x1x2098176_S1x1x2048_0_0_1270635 : ∀ a, (![0, 0, 1270635] : Fin 3 → Nat) a + S1x1x2048.size a ≤ S1x1x2098176.size a
  inb_S1x1x2098176_S1x1x2048_0_0_1271921 : ∀ a, (![0, 0, 1271921] : Fin 3 → Nat) a + S1x1x2048.size a ≤ S1x1x2098176.size a
  inb_S1x1x2098176_S1x1x2048_0_0_1273206 : ∀ a, (![0, 0, 1273206] : Fin 3 → Nat) a + S1x1x2048.size a ≤ S1x1x2098176.size a
  inb_S1x1x2098176_S1x1x2048_0_0_1274490 : ∀ a, (![0, 0, 1274490] : Fin 3 → Nat) a + S1x1x2048.size a ≤ S1x1x2098176.size a
  inb_S1x1x2098176_S1x1x2048_0_0_1275773 : ∀ a, (![0, 0, 1275773] : Fin 3 → Nat) a + S1x1x2048.size a ≤ S1x1x2098176.size a
  inb_S1x1x2098176_S1x1x2048_0_0_1277055 : ∀ a, (![0, 0, 1277055] : Fin 3 → Nat) a + S1x1x2048.size a ≤ S1x1x2098176.size a
  inb_S1x1024x2048_S1x64x2048_0_704_0 : ∀ a, (![0, 704, 0] : Fin 3 → Nat) a + S1x64x2048.size a ≤ S1x1024x2048.size a
  inb_S1x1x2098176_S1x1x2048_0_0_1278336 : ∀ a, (![0, 0, 1278336] : Fin 3 → Nat) a + S1x1x2048.size a ≤ S1x1x2098176.size a
  inb_S1x1x2098176_S1x1x2048_0_0_1279616 : ∀ a, (![0, 0, 1279616] : Fin 3 → Nat) a + S1x1x2048.size a ≤ S1x1x2098176.size a
  inb_S1x1x2098176_S1x1x2048_0_0_1280895 : ∀ a, (![0, 0, 1280895] : Fin 3 → Nat) a + S1x1x2048.size a ≤ S1x1x2098176.size a
  inb_S1x1x2098176_S1x1x2048_0_0_1282173 : ∀ a, (![0, 0, 1282173] : Fin 3 → Nat) a + S1x1x2048.size a ≤ S1x1x2098176.size a
  inb_S1x1x2098176_S1x1x2048_0_0_1283450 : ∀ a, (![0, 0, 1283450] : Fin 3 → Nat) a + S1x1x2048.size a ≤ S1x1x2098176.size a
  inb_S1x1x2098176_S1x1x2048_0_0_1284726 : ∀ a, (![0, 0, 1284726] : Fin 3 → Nat) a + S1x1x2048.size a ≤ S1x1x2098176.size a
  inb_S1x1x2098176_S1x1x2048_0_0_1286001 : ∀ a, (![0, 0, 1286001] : Fin 3 → Nat) a + S1x1x2048.size a ≤ S1x1x2098176.size a
  inb_S1x1x2098176_S1x1x2048_0_0_1287275 : ∀ a, (![0, 0, 1287275] : Fin 3 → Nat) a + S1x1x2048.size a ≤ S1x1x2098176.size a
  inb_S1x1x2098176_S1x1x2048_0_0_1288548 : ∀ a, (![0, 0, 1288548] : Fin 3 → Nat) a + S1x1x2048.size a ≤ S1x1x2098176.size a
  inb_S1x1x2098176_S1x1x2048_0_0_1289820 : ∀ a, (![0, 0, 1289820] : Fin 3 → Nat) a + S1x1x2048.size a ≤ S1x1x2098176.size a
  inb_S1x1x2098176_S1x1x2048_0_0_1291091 : ∀ a, (![0, 0, 1291091] : Fin 3 → Nat) a + S1x1x2048.size a ≤ S1x1x2098176.size a
  inb_S1x1x2098176_S1x1x2048_0_0_1292361 : ∀ a, (![0, 0, 1292361] : Fin 3 → Nat) a + S1x1x2048.size a ≤ S1x1x2098176.size a
  inb_S1x1x2098176_S1x1x2048_0_0_1293630 : ∀ a, (![0, 0, 1293630] : Fin 3 → Nat) a + S1x1x2048.size a ≤ S1x1x2098176.size a
  inb_S1x1x2098176_S1x1x2048_0_0_1294898 : ∀ a, (![0, 0, 1294898] : Fin 3 → Nat) a + S1x1x2048.size a ≤ S1x1x2098176.size a
  inb_S1x1x2098176_S1x1x2048_0_0_1296165 : ∀ a, (![0, 0, 1296165] : Fin 3 → Nat) a + S1x1x2048.size a ≤ S1x1x2098176.size a
  inb_S1x1x2098176_S1x1x2048_0_0_1297431 : ∀ a, (![0, 0, 1297431] : Fin 3 → Nat) a + S1x1x2048.size a ≤ S1x1x2098176.size a
  inb_S1x1x2098176_S1x1x2048_0_0_1298696 : ∀ a, (![0, 0, 1298696] : Fin 3 → Nat) a + S1x1x2048.size a ≤ S1x1x2098176.size a
  inb_S1x1x2098176_S1x1x2048_0_0_1299960 : ∀ a, (![0, 0, 1299960] : Fin 3 → Nat) a + S1x1x2048.size a ≤ S1x1x2098176.size a
  inb_S1x1x2098176_S1x1x2048_0_0_1301223 : ∀ a, (![0, 0, 1301223] : Fin 3 → Nat) a + S1x1x2048.size a ≤ S1x1x2098176.size a
  inb_S1x1x2098176_S1x1x2048_0_0_1302485 : ∀ a, (![0, 0, 1302485] : Fin 3 → Nat) a + S1x1x2048.size a ≤ S1x1x2098176.size a
  inb_S1x1x2098176_S1x1x2048_0_0_1303746 : ∀ a, (![0, 0, 1303746] : Fin 3 → Nat) a + S1x1x2048.size a ≤ S1x1x2098176.size a
  inb_S1x1x2098176_S1x1x2048_0_0_1305006 : ∀ a, (![0, 0, 1305006] : Fin 3 → Nat) a + S1x1x2048.size a ≤ S1x1x2098176.size a
  inb_S1x1x2098176_S1x1x2048_0_0_1306265 : ∀ a, (![0, 0, 1306265] : Fin 3 → Nat) a + S1x1x2048.size a ≤ S1x1x2098176.size a
  inb_S1x1x2098176_S1x1x2048_0_0_1307523 : ∀ a, (![0, 0, 1307523] : Fin 3 → Nat) a + S1x1x2048.size a ≤ S1x1x2098176.size a
  inb_S1x1x2098176_S1x1x2048_0_0_1308780 : ∀ a, (![0, 0, 1308780] : Fin 3 → Nat) a + S1x1x2048.size a ≤ S1x1x2098176.size a
  inb_S1x1x2098176_S1x1x2048_0_0_1310036 : ∀ a, (![0, 0, 1310036] : Fin 3 → Nat) a + S1x1x2048.size a ≤ S1x1x2098176.size a
  inb_S1x1x2098176_S1x1x2048_0_0_1311291 : ∀ a, (![0, 0, 1311291] : Fin 3 → Nat) a + S1x1x2048.size a ≤ S1x1x2098176.size a
  inb_S1x1x2098176_S1x1x2048_0_0_1312545 : ∀ a, (![0, 0, 1312545] : Fin 3 → Nat) a + S1x1x2048.size a ≤ S1x1x2098176.size a
  inb_S1x1x2098176_S1x1x2048_0_0_1313798 : ∀ a, (![0, 0, 1313798] : Fin 3 → Nat) a + S1x1x2048.size a ≤ S1x1x2098176.size a
  inb_S1x1x2098176_S1x1x2048_0_0_1315050 : ∀ a, (![0, 0, 1315050] : Fin 3 → Nat) a + S1x1x2048.size a ≤ S1x1x2098176.size a
  inb_S1x1x2098176_S1x1x2048_0_0_1316301 : ∀ a, (![0, 0, 1316301] : Fin 3 → Nat) a + S1x1x2048.size a ≤ S1x1x2098176.size a
  inb_S1x1x2098176_S1x1x2048_0_0_1317551 : ∀ a, (![0, 0, 1317551] : Fin 3 → Nat) a + S1x1x2048.size a ≤ S1x1x2098176.size a
  inb_S1x1x2098176_S1x1x2048_0_0_1318800 : ∀ a, (![0, 0, 1318800] : Fin 3 → Nat) a + S1x1x2048.size a ≤ S1x1x2098176.size a
  inb_S1x1x2098176_S1x1x2048_0_0_1320048 : ∀ a, (![0, 0, 1320048] : Fin 3 → Nat) a + S1x1x2048.size a ≤ S1x1x2098176.size a
  inb_S1x1x2098176_S1x1x2048_0_0_1321295 : ∀ a, (![0, 0, 1321295] : Fin 3 → Nat) a + S1x1x2048.size a ≤ S1x1x2098176.size a
  inb_S1x1x2098176_S1x1x2048_0_0_1322541 : ∀ a, (![0, 0, 1322541] : Fin 3 → Nat) a + S1x1x2048.size a ≤ S1x1x2098176.size a
  inb_S1x1x2098176_S1x1x2048_0_0_1323786 : ∀ a, (![0, 0, 1323786] : Fin 3 → Nat) a + S1x1x2048.size a ≤ S1x1x2098176.size a
  inb_S1x1x2098176_S1x1x2048_0_0_1325030 : ∀ a, (![0, 0, 1325030] : Fin 3 → Nat) a + S1x1x2048.size a ≤ S1x1x2098176.size a
  inb_S1x1x2098176_S1x1x2048_0_0_1326273 : ∀ a, (![0, 0, 1326273] : Fin 3 → Nat) a + S1x1x2048.size a ≤ S1x1x2098176.size a
  inb_S1x1x2098176_S1x1x2048_0_0_1327515 : ∀ a, (![0, 0, 1327515] : Fin 3 → Nat) a + S1x1x2048.size a ≤ S1x1x2098176.size a
  inb_S1x1x2098176_S1x1x2048_0_0_1328756 : ∀ a, (![0, 0, 1328756] : Fin 3 → Nat) a + S1x1x2048.size a ≤ S1x1x2098176.size a
  inb_S1x1x2098176_S1x1x2048_0_0_1329996 : ∀ a, (![0, 0, 1329996] : Fin 3 → Nat) a + S1x1x2048.size a ≤ S1x1x2098176.size a
  inb_S1x1x2098176_S1x1x2048_0_0_1331235 : ∀ a, (![0, 0, 1331235] : Fin 3 → Nat) a + S1x1x2048.size a ≤ S1x1x2098176.size a
  inb_S1x1x2098176_S1x1x2048_0_0_1332473 : ∀ a, (![0, 0, 1332473] : Fin 3 → Nat) a + S1x1x2048.size a ≤ S1x1x2098176.size a
  inb_S1x1x2098176_S1x1x2048_0_0_1333710 : ∀ a, (![0, 0, 1333710] : Fin 3 → Nat) a + S1x1x2048.size a ≤ S1x1x2098176.size a
  inb_S1x1x2098176_S1x1x2048_0_0_1334946 : ∀ a, (![0, 0, 1334946] : Fin 3 → Nat) a + S1x1x2048.size a ≤ S1x1x2098176.size a
  inb_S1x1x2098176_S1x1x2048_0_0_1336181 : ∀ a, (![0, 0, 1336181] : Fin 3 → Nat) a + S1x1x2048.size a ≤ S1x1x2098176.size a
  inb_S1x1x2098176_S1x1x2048_0_0_1337415 : ∀ a, (![0, 0, 1337415] : Fin 3 → Nat) a + S1x1x2048.size a ≤ S1x1x2098176.size a
  inb_S1x1x2098176_S1x1x2048_0_0_1338648 : ∀ a, (![0, 0, 1338648] : Fin 3 → Nat) a + S1x1x2048.size a ≤ S1x1x2098176.size a
  inb_S1x1x2098176_S1x1x2048_0_0_1339880 : ∀ a, (![0, 0, 1339880] : Fin 3 → Nat) a + S1x1x2048.size a ≤ S1x1x2098176.size a
  inb_S1x1x2098176_S1x1x2048_0_0_1341111 : ∀ a, (![0, 0, 1341111] : Fin 3 → Nat) a + S1x1x2048.size a ≤ S1x1x2098176.size a
  inb_S1x1x2098176_S1x1x2048_0_0_1342341 : ∀ a, (![0, 0, 1342341] : Fin 3 → Nat) a + S1x1x2048.size a ≤ S1x1x2098176.size a
  inb_S1x1x2098176_S1x1x2048_0_0_1343570 : ∀ a, (![0, 0, 1343570] : Fin 3 → Nat) a + S1x1x2048.size a ≤ S1x1x2098176.size a
  inb_S1x1x2098176_S1x1x2048_0_0_1344798 : ∀ a, (![0, 0, 1344798] : Fin 3 → Nat) a + S1x1x2048.size a ≤ S1x1x2098176.size a
  inb_S1x1x2098176_S1x1x2048_0_0_1346025 : ∀ a, (![0, 0, 1346025] : Fin 3 → Nat) a + S1x1x2048.size a ≤ S1x1x2098176.size a
  inb_S1x1x2098176_S1x1x2048_0_0_1347251 : ∀ a, (![0, 0, 1347251] : Fin 3 → Nat) a + S1x1x2048.size a ≤ S1x1x2098176.size a
  inb_S1x1x2098176_S1x1x2048_0_0_1348476 : ∀ a, (![0, 0, 1348476] : Fin 3 → Nat) a + S1x1x2048.size a ≤ S1x1x2098176.size a
  inb_S1x1x2098176_S1x1x2048_0_0_1349700 : ∀ a, (![0, 0, 1349700] : Fin 3 → Nat) a + S1x1x2048.size a ≤ S1x1x2098176.size a
  inb_S1x1x2098176_S1x1x2048_0_0_1350923 : ∀ a, (![0, 0, 1350923] : Fin 3 → Nat) a + S1x1x2048.size a ≤ S1x1x2098176.size a
  inb_S1x1x2098176_S1x1x2048_0_0_1352145 : ∀ a, (![0, 0, 1352145] : Fin 3 → Nat) a + S1x1x2048.size a ≤ S1x1x2098176.size a
  inb_S1x1x2098176_S1x1x2048_0_0_1353366 : ∀ a, (![0, 0, 1353366] : Fin 3 → Nat) a + S1x1x2048.size a ≤ S1x1x2098176.size a
  inb_S1x1x2098176_S1x1x2048_0_0_1354586 : ∀ a, (![0, 0, 1354586] : Fin 3 → Nat) a + S1x1x2048.size a ≤ S1x1x2098176.size a
  inb_S1x1x2098176_S1x1x2048_0_0_1355805 : ∀ a, (![0, 0, 1355805] : Fin 3 → Nat) a + S1x1x2048.size a ≤ S1x1x2098176.size a
  inb_S1x1x2098176_S1x1x2048_0_0_1357023 : ∀ a, (![0, 0, 1357023] : Fin 3 → Nat) a + S1x1x2048.size a ≤ S1x1x2098176.size a
  inb_S1x1024x2048_S1x64x2048_0_768_0 : ∀ a, (![0, 768, 0] : Fin 3 → Nat) a + S1x64x2048.size a ≤ S1x1024x2048.size a
  inb_S1x1x2098176_S1x1x2048_0_0_1358240 : ∀ a, (![0, 0, 1358240] : Fin 3 → Nat) a + S1x1x2048.size a ≤ S1x1x2098176.size a
  inb_S1x1x2098176_S1x1x2048_0_0_1359456 : ∀ a, (![0, 0, 1359456] : Fin 3 → Nat) a + S1x1x2048.size a ≤ S1x1x2098176.size a
  inb_S1x1x2098176_S1x1x2048_0_0_1360671 : ∀ a, (![0, 0, 1360671] : Fin 3 → Nat) a + S1x1x2048.size a ≤ S1x1x2098176.size a
  inb_S1x1x2098176_S1x1x2048_0_0_1361885 : ∀ a, (![0, 0, 1361885] : Fin 3 → Nat) a + S1x1x2048.size a ≤ S1x1x2098176.size a
  inb_S1x1x2098176_S1x1x2048_0_0_1363098 : ∀ a, (![0, 0, 1363098] : Fin 3 → Nat) a + S1x1x2048.size a ≤ S1x1x2098176.size a
  inb_S1x1x2098176_S1x1x2048_0_0_1364310 : ∀ a, (![0, 0, 1364310] : Fin 3 → Nat) a + S1x1x2048.size a ≤ S1x1x2098176.size a
  inb_S1x1x2098176_S1x1x2048_0_0_1365521 : ∀ a, (![0, 0, 1365521] : Fin 3 → Nat) a + S1x1x2048.size a ≤ S1x1x2098176.size a
  inb_S1x1x2098176_S1x1x2048_0_0_1366731 : ∀ a, (![0, 0, 1366731] : Fin 3 → Nat) a + S1x1x2048.size a ≤ S1x1x2098176.size a
  inb_S1x1x2098176_S1x1x2048_0_0_1367940 : ∀ a, (![0, 0, 1367940] : Fin 3 → Nat) a + S1x1x2048.size a ≤ S1x1x2098176.size a
  inb_S1x1x2098176_S1x1x2048_0_0_1369148 : ∀ a, (![0, 0, 1369148] : Fin 3 → Nat) a + S1x1x2048.size a ≤ S1x1x2098176.size a
  inb_S1x1x2098176_S1x1x2048_0_0_1370355 : ∀ a, (![0, 0, 1370355] : Fin 3 → Nat) a + S1x1x2048.size a ≤ S1x1x2098176.size a
  inb_S1x1x2098176_S1x1x2048_0_0_1371561 : ∀ a, (![0, 0, 1371561] : Fin 3 → Nat) a + S1x1x2048.size a ≤ S1x1x2098176.size a
  inb_S1x1x2098176_S1x1x2048_0_0_1372766 : ∀ a, (![0, 0, 1372766] : Fin 3 → Nat) a + S1x1x2048.size a ≤ S1x1x2098176.size a
  inb_S1x1x2098176_S1x1x2048_0_0_1373970 : ∀ a, (![0, 0, 1373970] : Fin 3 → Nat) a + S1x1x2048.size a ≤ S1x1x2098176.size a
  inb_S1x1x2098176_S1x1x2048_0_0_1375173 : ∀ a, (![0, 0, 1375173] : Fin 3 → Nat) a + S1x1x2048.size a ≤ S1x1x2098176.size a
  inb_S1x1x2098176_S1x1x2048_0_0_1376375 : ∀ a, (![0, 0, 1376375] : Fin 3 → Nat) a + S1x1x2048.size a ≤ S1x1x2098176.size a
  inb_S1x1x2098176_S1x1x2048_0_0_1377576 : ∀ a, (![0, 0, 1377576] : Fin 3 → Nat) a + S1x1x2048.size a ≤ S1x1x2098176.size a
  inb_S1x1x2098176_S1x1x2048_0_0_1378776 : ∀ a, (![0, 0, 1378776] : Fin 3 → Nat) a + S1x1x2048.size a ≤ S1x1x2098176.size a
  inb_S1x1x2098176_S1x1x2048_0_0_1379975 : ∀ a, (![0, 0, 1379975] : Fin 3 → Nat) a + S1x1x2048.size a ≤ S1x1x2098176.size a
  inb_S1x1x2098176_S1x1x2048_0_0_1381173 : ∀ a, (![0, 0, 1381173] : Fin 3 → Nat) a + S1x1x2048.size a ≤ S1x1x2098176.size a
  inb_S1x1x2098176_S1x1x2048_0_0_1382370 : ∀ a, (![0, 0, 1382370] : Fin 3 → Nat) a + S1x1x2048.size a ≤ S1x1x2098176.size a
  inb_S1x1x2098176_S1x1x2048_0_0_1383566 : ∀ a, (![0, 0, 1383566] : Fin 3 → Nat) a + S1x1x2048.size a ≤ S1x1x2098176.size a
  inb_S1x1x2098176_S1x1x2048_0_0_1384761 : ∀ a, (![0, 0, 1384761] : Fin 3 → Nat) a + S1x1x2048.size a ≤ S1x1x2098176.size a
  inb_S1x1x2098176_S1x1x2048_0_0_1385955 : ∀ a, (![0, 0, 1385955] : Fin 3 → Nat) a + S1x1x2048.size a ≤ S1x1x2098176.size a
  inb_S1x1x2098176_S1x1x2048_0_0_1387148 : ∀ a, (![0, 0, 1387148] : Fin 3 → Nat) a + S1x1x2048.size a ≤ S1x1x2098176.size a
  inb_S1x1x2098176_S1x1x2048_0_0_1388340 : ∀ a, (![0, 0, 1388340] : Fin 3 → Nat) a + S1x1x2048.size a ≤ S1x1x2098176.size a
  inb_S1x1x2098176_S1x1x2048_0_0_1389531 : ∀ a, (![0, 0, 1389531] : Fin 3 → Nat) a + S1x1x2048.size a ≤ S1x1x2098176.size a
  inb_S1x1x2098176_S1x1x2048_0_0_1390721 : ∀ a, (![0, 0, 1390721] : Fin 3 → Nat) a + S1x1x2048.size a ≤ S1x1x2098176.size a
  inb_S1x1x2098176_S1x1x2048_0_0_1391910 : ∀ a, (![0, 0, 1391910] : Fin 3 → Nat) a + S1x1x2048.size a ≤ S1x1x2098176.size a
  inb_S1x1x2098176_S1x1x2048_0_0_1393098 : ∀ a, (![0, 0, 1393098] : Fin 3 → Nat) a + S1x1x2048.size a ≤ S1x1x2098176.size a
  inb_S1x1x2098176_S1x1x2048_0_0_1394285 : ∀ a, (![0, 0, 1394285] : Fin 3 → Nat) a + S1x1x2048.size a ≤ S1x1x2098176.size a
  inb_S1x1x2098176_S1x1x2048_0_0_1395471 : ∀ a, (![0, 0, 1395471] : Fin 3 → Nat) a + S1x1x2048.size a ≤ S1x1x2098176.size a
  inb_S1x1x2098176_S1x1x2048_0_0_1396656 : ∀ a, (![0, 0, 1396656] : Fin 3 → Nat) a + S1x1x2048.size a ≤ S1x1x2098176.size a
  inb_S1x1x2098176_S1x1x2048_0_0_1397840 : ∀ a, (![0, 0, 1397840] : Fin 3 → Nat) a + S1x1x2048.size a ≤ S1x1x2098176.size a
  inb_S1x1x2098176_S1x1x2048_0_0_1399023 : ∀ a, (![0, 0, 1399023] : Fin 3 → Nat) a + S1x1x2048.size a ≤ S1x1x2098176.size a
  inb_S1x1x2098176_S1x1x2048_0_0_1400205 : ∀ a, (![0, 0, 1400205] : Fin 3 → Nat) a + S1x1x2048.size a ≤ S1x1x2098176.size a
  inb_S1x1x2098176_S1x1x2048_0_0_1401386 : ∀ a, (![0, 0, 1401386] : Fin 3 → Nat) a + S1x1x2048.size a ≤ S1x1x2098176.size a
  inb_S1x1x2098176_S1x1x2048_0_0_1402566 : ∀ a, (![0, 0, 1402566] : Fin 3 → Nat) a + S1x1x2048.size a ≤ S1x1x2098176.size a
  inb_S1x1x2098176_S1x1x2048_0_0_1403745 : ∀ a, (![0, 0, 1403745] : Fin 3 → Nat) a + S1x1x2048.size a ≤ S1x1x2098176.size a
  inb_S1x1x2098176_S1x1x2048_0_0_1404923 : ∀ a, (![0, 0, 1404923] : Fin 3 → Nat) a + S1x1x2048.size a ≤ S1x1x2098176.size a
  inb_S1x1x2098176_S1x1x2048_0_0_1406100 : ∀ a, (![0, 0, 1406100] : Fin 3 → Nat) a + S1x1x2048.size a ≤ S1x1x2098176.size a
  inb_S1x1x2098176_S1x1x2048_0_0_1407276 : ∀ a, (![0, 0, 1407276] : Fin 3 → Nat) a + S1x1x2048.size a ≤ S1x1x2098176.size a
  inb_S1x1x2098176_S1x1x2048_0_0_1408451 : ∀ a, (![0, 0, 1408451] : Fin 3 → Nat) a + S1x1x2048.size a ≤ S1x1x2098176.size a
  inb_S1x1x2098176_S1x1x2048_0_0_1409625 : ∀ a, (![0, 0, 1409625] : Fin 3 → Nat) a + S1x1x2048.size a ≤ S1x1x2098176.size a
  inb_S1x1x2098176_S1x1x2048_0_0_1410798 : ∀ a, (![0, 0, 1410798] : Fin 3 → Nat) a + S1x1x2048.size a ≤ S1x1x2098176.size a
  inb_S1x1x2098176_S1x1x2048_0_0_1411970 : ∀ a, (![0, 0, 1411970] : Fin 3 → Nat) a + S1x1x2048.size a ≤ S1x1x2098176.size a
  inb_S1x1x2098176_S1x1x2048_0_0_1413141 : ∀ a, (![0, 0, 1413141] : Fin 3 → Nat) a + S1x1x2048.size a ≤ S1x1x2098176.size a
  inb_S1x1x2098176_S1x1x2048_0_0_1414311 : ∀ a, (![0, 0, 1414311] : Fin 3 → Nat) a + S1x1x2048.size a ≤ S1x1x2098176.size a
  inb_S1x1x2098176_S1x1x2048_0_0_1415480 : ∀ a, (![0, 0, 1415480] : Fin 3 → Nat) a + S1x1x2048.size a ≤ S1x1x2098176.size a
  inb_S1x1x2098176_S1x1x2048_0_0_1416648 : ∀ a, (![0, 0, 1416648] : Fin 3 → Nat) a + S1x1x2048.size a ≤ S1x1x2098176.size a
  inb_S1x1x2098176_S1x1x2048_0_0_1417815 : ∀ a, (![0, 0, 1417815] : Fin 3 → Nat) a + S1x1x2048.size a ≤ S1x1x2098176.size a
  inb_S1x1x2098176_S1x1x2048_0_0_1418981 : ∀ a, (![0, 0, 1418981] : Fin 3 → Nat) a + S1x1x2048.size a ≤ S1x1x2098176.size a
  inb_S1x1x2098176_S1x1x2048_0_0_1420146 : ∀ a, (![0, 0, 1420146] : Fin 3 → Nat) a + S1x1x2048.size a ≤ S1x1x2098176.size a
  inb_S1x1x2098176_S1x1x2048_0_0_1421310 : ∀ a, (![0, 0, 1421310] : Fin 3 → Nat) a + S1x1x2048.size a ≤ S1x1x2098176.size a
  inb_S1x1x2098176_S1x1x2048_0_0_1422473 : ∀ a, (![0, 0, 1422473] : Fin 3 → Nat) a + S1x1x2048.size a ≤ S1x1x2098176.size a
  inb_S1x1x2098176_S1x1x2048_0_0_1423635 : ∀ a, (![0, 0, 1423635] : Fin 3 → Nat) a + S1x1x2048.size a ≤ S1x1x2098176.size a
  inb_S1x1x2098176_S1x1x2048_0_0_1424796 : ∀ a, (![0, 0, 1424796] : Fin 3 → Nat) a + S1x1x2048.size a ≤ S1x1x2098176.size a
  inb_S1x1x2098176_S1x1x2048_0_0_1425956 : ∀ a, (![0, 0, 1425956] : Fin 3 → Nat) a + S1x1x2048.size a ≤ S1x1x2098176.size a
  inb_S1x1x2098176_S1x1x2048_0_0_1427115 : ∀ a, (![0, 0, 1427115] : Fin 3 → Nat) a + S1x1x2048.size a ≤ S1x1x2098176.size a
  inb_S1x1x2098176_S1x1x2048_0_0_1428273 : ∀ a, (![0, 0, 1428273] : Fin 3 → Nat) a + S1x1x2048.size a ≤ S1x1x2098176.size a
  inb_S1x1x2098176_S1x1x2048_0_0_1429430 : ∀ a, (![0, 0, 1429430] : Fin 3 → Nat) a + S1x1x2048.size a ≤ S1x1x2098176.size a
  inb_S1x1x2098176_S1x1x2048_0_0_1430586 : ∀ a, (![0, 0, 1430586] : Fin 3 → Nat) a + S1x1x2048.size a ≤ S1x1x2098176.size a
  inb_S1x1x2098176_S1x1x2048_0_0_1431741 : ∀ a, (![0, 0, 1431741] : Fin 3 → Nat) a + S1x1x2048.size a ≤ S1x1x2098176.size a
  inb_S1x1x2098176_S1x1x2048_0_0_1432895 : ∀ a, (![0, 0, 1432895] : Fin 3 → Nat) a + S1x1x2048.size a ≤ S1x1x2098176.size a
  inb_S1x1024x2048_S1x64x2048_0_832_0 : ∀ a, (![0, 832, 0] : Fin 3 → Nat) a + S1x64x2048.size a ≤ S1x1024x2048.size a
  inb_S1x1x2098176_S1x1x2048_0_0_1434048 : ∀ a, (![0, 0, 1434048] : Fin 3 → Nat) a + S1x1x2048.size a ≤ S1x1x2098176.size a
  inb_S1x1x2098176_S1x1x2048_0_0_1435200 : ∀ a, (![0, 0, 1435200] : Fin 3 → Nat) a + S1x1x2048.size a ≤ S1x1x2098176.size a
  inb_S1x1x2098176_S1x1x2048_0_0_1436351 : ∀ a, (![0, 0, 1436351] : Fin 3 → Nat) a + S1x1x2048.size a ≤ S1x1x2098176.size a
  inb_S1x1x2098176_S1x1x2048_0_0_1437501 : ∀ a, (![0, 0, 1437501] : Fin 3 → Nat) a + S1x1x2048.size a ≤ S1x1x2098176.size a
  inb_S1x1x2098176_S1x1x2048_0_0_1438650 : ∀ a, (![0, 0, 1438650] : Fin 3 → Nat) a + S1x1x2048.size a ≤ S1x1x2098176.size a
  inb_S1x1x2098176_S1x1x2048_0_0_1439798 : ∀ a, (![0, 0, 1439798] : Fin 3 → Nat) a + S1x1x2048.size a ≤ S1x1x2098176.size a
  inb_S1x1x2098176_S1x1x2048_0_0_1440945 : ∀ a, (![0, 0, 1440945] : Fin 3 → Nat) a + S1x1x2048.size a ≤ S1x1x2098176.size a
  inb_S1x1x2098176_S1x1x2048_0_0_1442091 : ∀ a, (![0, 0, 1442091] : Fin 3 → Nat) a + S1x1x2048.size a ≤ S1x1x2098176.size a
  inb_S1x1x2098176_S1x1x2048_0_0_1443236 : ∀ a, (![0, 0, 1443236] : Fin 3 → Nat) a + S1x1x2048.size a ≤ S1x1x2098176.size a
  inb_S1x1x2098176_S1x1x2048_0_0_1444380 : ∀ a, (![0, 0, 1444380] : Fin 3 → Nat) a + S1x1x2048.size a ≤ S1x1x2098176.size a
  inb_S1x1x2098176_S1x1x2048_0_0_1445523 : ∀ a, (![0, 0, 1445523] : Fin 3 → Nat) a + S1x1x2048.size a ≤ S1x1x2098176.size a
  inb_S1x1x2098176_S1x1x2048_0_0_1446665 : ∀ a, (![0, 0, 1446665] : Fin 3 → Nat) a + S1x1x2048.size a ≤ S1x1x2098176.size a
  inb_S1x1x2098176_S1x1x2048_0_0_1447806 : ∀ a, (![0, 0, 1447806] : Fin 3 → Nat) a + S1x1x2048.size a ≤ S1x1x2098176.size a
  inb_S1x1x2098176_S1x1x2048_0_0_1448946 : ∀ a, (![0, 0, 1448946] : Fin 3 → Nat) a + S1x1x2048.size a ≤ S1x1x2098176.size a
  inb_S1x1x2098176_S1x1x2048_0_0_1450085 : ∀ a, (![0, 0, 1450085] : Fin 3 → Nat) a + S1x1x2048.size a ≤ S1x1x2098176.size a
  inb_S1x1x2098176_S1x1x2048_0_0_1451223 : ∀ a, (![0, 0, 1451223] : Fin 3 → Nat) a + S1x1x2048.size a ≤ S1x1x2098176.size a
  inb_S1x1x2098176_S1x1x2048_0_0_1452360 : ∀ a, (![0, 0, 1452360] : Fin 3 → Nat) a + S1x1x2048.size a ≤ S1x1x2098176.size a
  inb_S1x1x2098176_S1x1x2048_0_0_1453496 : ∀ a, (![0, 0, 1453496] : Fin 3 → Nat) a + S1x1x2048.size a ≤ S1x1x2098176.size a
  inb_S1x1x2098176_S1x1x2048_0_0_1454631 : ∀ a, (![0, 0, 1454631] : Fin 3 → Nat) a + S1x1x2048.size a ≤ S1x1x2098176.size a
  inb_S1x1x2098176_S1x1x2048_0_0_1455765 : ∀ a, (![0, 0, 1455765] : Fin 3 → Nat) a + S1x1x2048.size a ≤ S1x1x2098176.size a
  inb_S1x1x2098176_S1x1x2048_0_0_1456898 : ∀ a, (![0, 0, 1456898] : Fin 3 → Nat) a + S1x1x2048.size a ≤ S1x1x2098176.size a
  inb_S1x1x2098176_S1x1x2048_0_0_1458030 : ∀ a, (![0, 0, 1458030] : Fin 3 → Nat) a + S1x1x2048.size a ≤ S1x1x2098176.size a
  inb_S1x1x2098176_S1x1x2048_0_0_1459161 : ∀ a, (![0, 0, 1459161] : Fin 3 → Nat) a + S1x1x2048.size a ≤ S1x1x2098176.size a
  inb_S1x1x2098176_S1x1x2048_0_0_1460291 : ∀ a, (![0, 0, 1460291] : Fin 3 → Nat) a + S1x1x2048.size a ≤ S1x1x2098176.size a
  inb_S1x1x2098176_S1x1x2048_0_0_1461420 : ∀ a, (![0, 0, 1461420] : Fin 3 → Nat) a + S1x1x2048.size a ≤ S1x1x2098176.size a
  inb_S1x1x2098176_S1x1x2048_0_0_1462548 : ∀ a, (![0, 0, 1462548] : Fin 3 → Nat) a + S1x1x2048.size a ≤ S1x1x2098176.size a
  inb_S1x1x2098176_S1x1x2048_0_0_1463675 : ∀ a, (![0, 0, 1463675] : Fin 3 → Nat) a + S1x1x2048.size a ≤ S1x1x2098176.size a
  inb_S1x1x2098176_S1x1x2048_0_0_1464801 : ∀ a, (![0, 0, 1464801] : Fin 3 → Nat) a + S1x1x2048.size a ≤ S1x1x2098176.size a
  inb_S1x1x2098176_S1x1x2048_0_0_1465926 : ∀ a, (![0, 0, 1465926] : Fin 3 → Nat) a + S1x1x2048.size a ≤ S1x1x2098176.size a
  inb_S1x1x2098176_S1x1x2048_0_0_1467050 : ∀ a, (![0, 0, 1467050] : Fin 3 → Nat) a + S1x1x2048.size a ≤ S1x1x2098176.size a
  inb_S1x1x2098176_S1x1x2048_0_0_1468173 : ∀ a, (![0, 0, 1468173] : Fin 3 → Nat) a + S1x1x2048.size a ≤ S1x1x2098176.size a
  inb_S1x1x2098176_S1x1x2048_0_0_1469295 : ∀ a, (![0, 0, 1469295] : Fin 3 → Nat) a + S1x1x2048.size a ≤ S1x1x2098176.size a
  inb_S1x1x2098176_S1x1x2048_0_0_1470416 : ∀ a, (![0, 0, 1470416] : Fin 3 → Nat) a + S1x1x2048.size a ≤ S1x1x2098176.size a
  inb_S1x1x2098176_S1x1x2048_0_0_1471536 : ∀ a, (![0, 0, 1471536] : Fin 3 → Nat) a + S1x1x2048.size a ≤ S1x1x2098176.size a
  inb_S1x1x2098176_S1x1x2048_0_0_1472655 : ∀ a, (![0, 0, 1472655] : Fin 3 → Nat) a + S1x1x2048.size a ≤ S1x1x2098176.size a
  inb_S1x1x2098176_S1x1x2048_0_0_1473773 : ∀ a, (![0, 0, 1473773] : Fin 3 → Nat) a + S1x1x2048.size a ≤ S1x1x2098176.size a
  inb_S1x1x2098176_S1x1x2048_0_0_1474890 : ∀ a, (![0, 0, 1474890] : Fin 3 → Nat) a + S1x1x2048.size a ≤ S1x1x2098176.size a
  inb_S1x1x2098176_S1x1x2048_0_0_1476006 : ∀ a, (![0, 0, 1476006] : Fin 3 → Nat) a + S1x1x2048.size a ≤ S1x1x2098176.size a
  inb_S1x1x2098176_S1x1x2048_0_0_1477121 : ∀ a, (![0, 0, 1477121] : Fin 3 → Nat) a + S1x1x2048.size a ≤ S1x1x2098176.size a
  inb_S1x1x2098176_S1x1x2048_0_0_1478235 : ∀ a, (![0, 0, 1478235] : Fin 3 → Nat) a + S1x1x2048.size a ≤ S1x1x2098176.size a
  inb_S1x1x2098176_S1x1x2048_0_0_1479348 : ∀ a, (![0, 0, 1479348] : Fin 3 → Nat) a + S1x1x2048.size a ≤ S1x1x2098176.size a
  inb_S1x1x2098176_S1x1x2048_0_0_1480460 : ∀ a, (![0, 0, 1480460] : Fin 3 → Nat) a + S1x1x2048.size a ≤ S1x1x2098176.size a
  inb_S1x1x2098176_S1x1x2048_0_0_1481571 : ∀ a, (![0, 0, 1481571] : Fin 3 → Nat) a + S1x1x2048.size a ≤ S1x1x2098176.size a
  inb_S1x1x2098176_S1x1x2048_0_0_1482681 : ∀ a, (![0, 0, 1482681] : Fin 3 → Nat) a + S1x1x2048.size a ≤ S1x1x2098176.size a
  inb_S1x1x2098176_S1x1x2048_0_0_1483790 : ∀ a, (![0, 0, 1483790] : Fin 3 → Nat) a + S1x1x2048.size a ≤ S1x1x2098176.size a
  inb_S1x1x2098176_S1x1x2048_0_0_1484898 : ∀ a, (![0, 0, 1484898] : Fin 3 → Nat) a + S1x1x2048.size a ≤ S1x1x2098176.size a
  inb_S1x1x2098176_S1x1x2048_0_0_1486005 : ∀ a, (![0, 0, 1486005] : Fin 3 → Nat) a + S1x1x2048.size a ≤ S1x1x2098176.size a
  inb_S1x1x2098176_S1x1x2048_0_0_1487111 : ∀ a, (![0, 0, 1487111] : Fin 3 → Nat) a + S1x1x2048.size a ≤ S1x1x2098176.size a
  inb_S1x1x2098176_S1x1x2048_0_0_1488216 : ∀ a, (![0, 0, 1488216] : Fin 3 → Nat) a + S1x1x2048.size a ≤ S1x1x2098176.size a
  inb_S1x1x2098176_S1x1x2048_0_0_1489320 : ∀ a, (![0, 0, 1489320] : Fin 3 → Nat) a + S1x1x2048.size a ≤ S1x1x2098176.size a
  inb_S1x1x2098176_S1x1x2048_0_0_1490423 : ∀ a, (![0, 0, 1490423] : Fin 3 → Nat) a + S1x1x2048.size a ≤ S1x1x2098176.size a
  inb_S1x1x2098176_S1x1x2048_0_0_1491525 : ∀ a, (![0, 0, 1491525] : Fin 3 → Nat) a + S1x1x2048.size a ≤ S1x1x2098176.size a
  inb_S1x1x2098176_S1x1x2048_0_0_1492626 : ∀ a, (![0, 0, 1492626] : Fin 3 → Nat) a + S1x1x2048.size a ≤ S1x1x2098176.size a
  inb_S1x1x2098176_S1x1x2048_0_0_1493726 : ∀ a, (![0, 0, 1493726] : Fin 3 → Nat) a + S1x1x2048.size a ≤ S1x1x2098176.size a
  inb_S1x1x2098176_S1x1x2048_0_0_1494825 : ∀ a, (![0, 0, 1494825] : Fin 3 → Nat) a + S1x1x2048.size a ≤ S1x1x2098176.size a
  inb_S1x1x2098176_S1x1x2048_0_0_1495923 : ∀ a, (![0, 0, 1495923] : Fin 3 → Nat) a + S1x1x2048.size a ≤ S1x1x2098176.size a
  inb_S1x1x2098176_S1x1x2048_0_0_1497020 : ∀ a, (![0, 0, 1497020] : Fin 3 → Nat) a + S1x1x2048.size a ≤ S1x1x2098176.size a
  inb_S1x1x2098176_S1x1x2048_0_0_1498116 : ∀ a, (![0, 0, 1498116] : Fin 3 → Nat) a + S1x1x2048.size a ≤ S1x1x2098176.size a
  inb_S1x1x2098176_S1x1x2048_0_0_1499211 : ∀ a, (![0, 0, 1499211] : Fin 3 → Nat) a + S1x1x2048.size a ≤ S1x1x2098176.size a
  inb_S1x1x2098176_S1x1x2048_0_0_1500305 : ∀ a, (![0, 0, 1500305] : Fin 3 → Nat) a + S1x1x2048.size a ≤ S1x1x2098176.size a
  inb_S1x1x2098176_S1x1x2048_0_0_1501398 : ∀ a, (![0, 0, 1501398] : Fin 3 → Nat) a + S1x1x2048.size a ≤ S1x1x2098176.size a
  inb_S1x1x2098176_S1x1x2048_0_0_1502490 : ∀ a, (![0, 0, 1502490] : Fin 3 → Nat) a + S1x1x2048.size a ≤ S1x1x2098176.size a
  inb_S1x1x2098176_S1x1x2048_0_0_1503581 : ∀ a, (![0, 0, 1503581] : Fin 3 → Nat) a + S1x1x2048.size a ≤ S1x1x2098176.size a
  inb_S1x1x2098176_S1x1x2048_0_0_1504671 : ∀ a, (![0, 0, 1504671] : Fin 3 → Nat) a + S1x1x2048.size a ≤ S1x1x2098176.size a
  inb_S1x1024x2048_S1x64x2048_0_896_0 : ∀ a, (![0, 896, 0] : Fin 3 → Nat) a + S1x64x2048.size a ≤ S1x1024x2048.size a
  inb_S1x1x2098176_S1x1x2048_0_0_1505760 : ∀ a, (![0, 0, 1505760] : Fin 3 → Nat) a + S1x1x2048.size a ≤ S1x1x2098176.size a
  inb_S1x1x2098176_S1x1x2048_0_0_1506848 : ∀ a, (![0, 0, 1506848] : Fin 3 → Nat) a + S1x1x2048.size a ≤ S1x1x2098176.size a
  inb_S1x1x2098176_S1x1x2048_0_0_1507935 : ∀ a, (![0, 0, 1507935] : Fin 3 → Nat) a + S1x1x2048.size a ≤ S1x1x2098176.size a
  inb_S1x1x2098176_S1x1x2048_0_0_1509021 : ∀ a, (![0, 0, 1509021] : Fin 3 → Nat) a + S1x1x2048.size a ≤ S1x1x2098176.size a
  inb_S1x1x2098176_S1x1x2048_0_0_1510106 : ∀ a, (![0, 0, 1510106] : Fin 3 → Nat) a + S1x1x2048.size a ≤ S1x1x2098176.size a
  inb_S1x1x2098176_S1x1x2048_0_0_1511190 : ∀ a, (![0, 0, 1511190] : Fin 3 → Nat) a + S1x1x2048.size a ≤ S1x1x2098176.size a
  inb_S1x1x2098176_S1x1x2048_0_0_1512273 : ∀ a, (![0, 0, 1512273] : Fin 3 → Nat) a + S1x1x2048.size a ≤ S1x1x2098176.size a
  inb_S1x1x2098176_S1x1x2048_0_0_1513355 : ∀ a, (![0, 0, 1513355] : Fin 3 → Nat) a + S1x1x2048.size a ≤ S1x1x2098176.size a
  inb_S1x1x2098176_S1x1x2048_0_0_1514436 : ∀ a, (![0, 0, 1514436] : Fin 3 → Nat) a + S1x1x2048.size a ≤ S1x1x2098176.size a
  inb_S1x1x2098176_S1x1x2048_0_0_1515516 : ∀ a, (![0, 0, 1515516] : Fin 3 → Nat) a + S1x1x2048.size a ≤ S1x1x2098176.size a
  inb_S1x1x2098176_S1x1x2048_0_0_1516595 : ∀ a, (![0, 0, 1516595] : Fin 3 → Nat) a + S1x1x2048.size a ≤ S1x1x2098176.size a
  inb_S1x1x2098176_S1x1x2048_0_0_1517673 : ∀ a, (![0, 0, 1517673] : Fin 3 → Nat) a + S1x1x2048.size a ≤ S1x1x2098176.size a
  inb_S1x1x2098176_S1x1x2048_0_0_1518750 : ∀ a, (![0, 0, 1518750] : Fin 3 → Nat) a + S1x1x2048.size a ≤ S1x1x2098176.size a
  inb_S1x1x2098176_S1x1x2048_0_0_1519826 : ∀ a, (![0, 0, 1519826] : Fin 3 → Nat) a + S1x1x2048.size a ≤ S1x1x2098176.size a
  inb_S1x1x2098176_S1x1x2048_0_0_1520901 : ∀ a, (![0, 0, 1520901] : Fin 3 → Nat) a + S1x1x2048.size a ≤ S1x1x2098176.size a
  inb_S1x1x2098176_S1x1x2048_0_0_1521975 : ∀ a, (![0, 0, 1521975] : Fin 3 → Nat) a + S1x1x2048.size a ≤ S1x1x2098176.size a
  inb_S1x1x2098176_S1x1x2048_0_0_1523048 : ∀ a, (![0, 0, 1523048] : Fin 3 → Nat) a + S1x1x2048.size a ≤ S1x1x2098176.size a

class Shapes2.Facts₀ : Prop where
  inb_S1x1x2098176_S1x1x2048_0_0_1524120 : ∀ a, (![0, 0, 1524120] : Fin 3 → Nat) a + S1x1x2048.size a ≤ S1x1x2098176.size a
  inb_S1x1x2098176_S1x1x2048_0_0_1525191 : ∀ a, (![0, 0, 1525191] : Fin 3 → Nat) a + S1x1x2048.size a ≤ S1x1x2098176.size a
  inb_S1x1x2098176_S1x1x2048_0_0_1526261 : ∀ a, (![0, 0, 1526261] : Fin 3 → Nat) a + S1x1x2048.size a ≤ S1x1x2098176.size a
  inb_S1x1x2098176_S1x1x2048_0_0_1527330 : ∀ a, (![0, 0, 1527330] : Fin 3 → Nat) a + S1x1x2048.size a ≤ S1x1x2098176.size a
  inb_S1x1x2098176_S1x1x2048_0_0_1528398 : ∀ a, (![0, 0, 1528398] : Fin 3 → Nat) a + S1x1x2048.size a ≤ S1x1x2098176.size a
  inb_S1x1x2098176_S1x1x2048_0_0_1529465 : ∀ a, (![0, 0, 1529465] : Fin 3 → Nat) a + S1x1x2048.size a ≤ S1x1x2098176.size a
  inb_S1x1x2098176_S1x1x2048_0_0_1530531 : ∀ a, (![0, 0, 1530531] : Fin 3 → Nat) a + S1x1x2048.size a ≤ S1x1x2098176.size a
  inb_S1x1x2098176_S1x1x2048_0_0_1531596 : ∀ a, (![0, 0, 1531596] : Fin 3 → Nat) a + S1x1x2048.size a ≤ S1x1x2098176.size a
  inb_S1x1x2098176_S1x1x2048_0_0_1532660 : ∀ a, (![0, 0, 1532660] : Fin 3 → Nat) a + S1x1x2048.size a ≤ S1x1x2098176.size a
  inb_S1x1x2098176_S1x1x2048_0_0_1533723 : ∀ a, (![0, 0, 1533723] : Fin 3 → Nat) a + S1x1x2048.size a ≤ S1x1x2098176.size a
  inb_S1x1x2098176_S1x1x2048_0_0_1534785 : ∀ a, (![0, 0, 1534785] : Fin 3 → Nat) a + S1x1x2048.size a ≤ S1x1x2098176.size a
  inb_S1x1x2098176_S1x1x2048_0_0_1535846 : ∀ a, (![0, 0, 1535846] : Fin 3 → Nat) a + S1x1x2048.size a ≤ S1x1x2098176.size a
  inb_S1x1x2098176_S1x1x2048_0_0_1536906 : ∀ a, (![0, 0, 1536906] : Fin 3 → Nat) a + S1x1x2048.size a ≤ S1x1x2098176.size a
  inb_S1x1x2098176_S1x1x2048_0_0_1537965 : ∀ a, (![0, 0, 1537965] : Fin 3 → Nat) a + S1x1x2048.size a ≤ S1x1x2098176.size a
  inb_S1x1x2098176_S1x1x2048_0_0_1539023 : ∀ a, (![0, 0, 1539023] : Fin 3 → Nat) a + S1x1x2048.size a ≤ S1x1x2098176.size a
  inb_S1x1x2098176_S1x1x2048_0_0_1540080 : ∀ a, (![0, 0, 1540080] : Fin 3 → Nat) a + S1x1x2048.size a ≤ S1x1x2098176.size a
  inb_S1x1x2098176_S1x1x2048_0_0_1541136 : ∀ a, (![0, 0, 1541136] : Fin 3 → Nat) a + S1x1x2048.size a ≤ S1x1x2098176.size a
  inb_S1x1x2098176_S1x1x2048_0_0_1542191 : ∀ a, (![0, 0, 1542191] : Fin 3 → Nat) a + S1x1x2048.size a ≤ S1x1x2098176.size a
  inb_S1x1x2098176_S1x1x2048_0_0_1543245 : ∀ a, (![0, 0, 1543245] : Fin 3 → Nat) a + S1x1x2048.size a ≤ S1x1x2098176.size a
  inb_S1x1x2098176_S1x1x2048_0_0_1544298 : ∀ a, (![0, 0, 1544298] : Fin 3 → Nat) a + S1x1x2048.size a ≤ S1x1x2098176.size a
  inb_S1x1x2098176_S1x1x2048_0_0_1545350 : ∀ a, (![0, 0, 1545350] : Fin 3 → Nat) a + S1x1x2048.size a ≤ S1x1x2098176.size a
  inb_S1x1x2098176_S1x1x2048_0_0_1546401 : ∀ a, (![0, 0, 1546401] : Fin 3 → Nat) a + S1x1x2048.size a ≤ S1x1x2098176.size a
  inb_S1x1x2098176_S1x1x2048_0_0_1547451 : ∀ a, (![0, 0, 1547451] : Fin 3 → Nat) a + S1x1x2048.size a ≤ S1x1x2098176.size a
  inb_S1x1x2098176_S1x1x2048_0_0_1548500 : ∀ a, (![0, 0, 1548500] : Fin 3 → Nat) a + S1x1x2048.size a ≤ S1x1x2098176.size a
  inb_S1x1x2098176_S1x1x2048_0_0_1549548 : ∀ a, (![0, 0, 1549548] : Fin 3 → Nat) a + S1x1x2048.size a ≤ S1x1x2098176.size a
  inb_S1x1x2098176_S1x1x2048_0_0_1550595 : ∀ a, (![0, 0, 1550595] : Fin 3 → Nat) a + S1x1x2048.size a ≤ S1x1x2098176.size a
  inb_S1x1x2098176_S1x1x2048_0_0_1551641 : ∀ a, (![0, 0, 1551641] : Fin 3 → Nat) a + S1x1x2048.size a ≤ S1x1x2098176.size a
  inb_S1x1x2098176_S1x1x2048_0_0_1552686 : ∀ a, (![0, 0, 1552686] : Fin 3 → Nat) a + S1x1x2048.size a ≤ S1x1x2098176.size a
  inb_S1x1x2098176_S1x1x2048_0_0_1553730 : ∀ a, (![0, 0, 1553730] : Fin 3 → Nat) a + S1x1x2048.size a ≤ S1x1x2098176.size a
  inb_S1x1x2098176_S1x1x2048_0_0_1554773 : ∀ a, (![0, 0, 1554773] : Fin 3 → Nat) a + S1x1x2048.size a ≤ S1x1x2098176.size a
  inb_S1x1x2098176_S1x1x2048_0_0_1555815 : ∀ a, (![0, 0, 1555815] : Fin 3 → Nat) a + S1x1x2048.size a ≤ S1x1x2098176.size a
  inb_S1x1x2098176_S1x1x2048_0_0_1556856 : ∀ a, (![0, 0, 1556856] : Fin 3 → Nat) a + S1x1x2048.size a ≤ S1x1x2098176.size a
  inb_S1x1x2098176_S1x1x2048_0_0_1557896 : ∀ a, (![0, 0, 1557896] : Fin 3 → Nat) a + S1x1x2048.size a ≤ S1x1x2098176.size a
  inb_S1x1x2098176_S1x1x2048_0_0_1558935 : ∀ a, (![0, 0, 1558935] : Fin 3 → Nat) a + S1x1x2048.size a ≤ S1x1x2098176.size a
  inb_S1x1x2098176_S1x1x2048_0_0_1559973 : ∀ a, (![0, 0, 1559973] : Fin 3 → Nat) a + S1x1x2048.size a ≤ S1x1x2098176.size a
  inb_S1x1x2098176_S1x1x2048_0_0_1561010 : ∀ a, (![0, 0, 1561010] : Fin 3 → Nat) a + S1x1x2048.size a ≤ S1x1x2098176.size a
  inb_S1x1x2098176_S1x1x2048_0_0_1562046 : ∀ a, (![0, 0, 1562046] : Fin 3 → Nat) a + S1x1x2048.size a ≤ S1x1x2098176.size a
  inb_S1x1x2098176_S1x1x2048_0_0_1563081 : ∀ a, (![0, 0, 1563081] : Fin 3 → Nat) a + S1x1x2048.size a ≤ S1x1x2098176.size a
  inb_S1x1x2098176_S1x1x2048_0_0_1564115 : ∀ a, (![0, 0, 1564115] : Fin 3 → Nat) a + S1x1x2048.size a ≤ S1x1x2098176.size a
  inb_S1x1x2098176_S1x1x2048_0_0_1565148 : ∀ a, (![0, 0, 1565148] : Fin 3 → Nat) a + S1x1x2048.size a ≤ S1x1x2098176.size a
  inb_S1x1x2098176_S1x1x2048_0_0_1566180 : ∀ a, (![0, 0, 1566180] : Fin 3 → Nat) a + S1x1x2048.size a ≤ S1x1x2098176.size a
  inb_S1x1x2098176_S1x1x2048_0_0_1567211 : ∀ a, (![0, 0, 1567211] : Fin 3 → Nat) a + S1x1x2048.size a ≤ S1x1x2098176.size a
  inb_S1x1x2098176_S1x1x2048_0_0_1568241 : ∀ a, (![0, 0, 1568241] : Fin 3 → Nat) a + S1x1x2048.size a ≤ S1x1x2098176.size a
  inb_S1x1x2098176_S1x1x2048_0_0_1569270 : ∀ a, (![0, 0, 1569270] : Fin 3 → Nat) a + S1x1x2048.size a ≤ S1x1x2098176.size a
  inb_S1x1x2098176_S1x1x2048_0_0_1570298 : ∀ a, (![0, 0, 1570298] : Fin 3 → Nat) a + S1x1x2048.size a ≤ S1x1x2098176.size a
  inb_S1x1x2098176_S1x1x2048_0_0_1571325 : ∀ a, (![0, 0, 1571325] : Fin 3 → Nat) a + S1x1x2048.size a ≤ S1x1x2098176.size a
  inb_S1x1x2098176_S1x1x2048_0_0_1572351 : ∀ a, (![0, 0, 1572351] : Fin 3 → Nat) a + S1x1x2048.size a ≤ S1x1x2098176.size a
  inb_S1x1024x2048_S1x64x2048_0_960_0 : ∀ a, (![0, 960, 0] : Fin 3 → Nat) a + S1x64x2048.size a ≤ S1x1024x2048.size a
  inb_S1x1x2098176_S1x1x2048_0_0_1573376 : ∀ a, (![0, 0, 1573376] : Fin 3 → Nat) a + S1x1x2048.size a ≤ S1x1x2098176.size a
  inb_S1x1x2098176_S1x1x2048_0_0_1574400 : ∀ a, (![0, 0, 1574400] : Fin 3 → Nat) a + S1x1x2048.size a ≤ S1x1x2098176.size a
  inb_S1x1x2098176_S1x1x2048_0_0_1575423 : ∀ a, (![0, 0, 1575423] : Fin 3 → Nat) a + S1x1x2048.size a ≤ S1x1x2098176.size a
  inb_S1x1x2098176_S1x1x2048_0_0_1576445 : ∀ a, (![0, 0, 1576445] : Fin 3 → Nat) a + S1x1x2048.size a ≤ S1x1x2098176.size a
  inb_S1x1x2098176_S1x1x2048_0_0_1577466 : ∀ a, (![0, 0, 1577466] : Fin 3 → Nat) a + S1x1x2048.size a ≤ S1x1x2098176.size a
  inb_S1x1x2098176_S1x1x2048_0_0_1578486 : ∀ a, (![0, 0, 1578486] : Fin 3 → Nat) a + S1x1x2048.size a ≤ S1x1x2098176.size a
  inb_S1x1x2098176_S1x1x2048_0_0_1579505 : ∀ a, (![0, 0, 1579505] : Fin 3 → Nat) a + S1x1x2048.size a ≤ S1x1x2098176.size a
  inb_S1x1x2098176_S1x1x2048_0_0_1580523 : ∀ a, (![0, 0, 1580523] : Fin 3 → Nat) a + S1x1x2048.size a ≤ S1x1x2098176.size a
  inb_S1x1x2098176_S1x1x2048_0_0_1581540 : ∀ a, (![0, 0, 1581540] : Fin 3 → Nat) a + S1x1x2048.size a ≤ S1x1x2098176.size a
  inb_S1x1x2098176_S1x1x2048_0_0_1582556 : ∀ a, (![0, 0, 1582556] : Fin 3 → Nat) a + S1x1x2048.size a ≤ S1x1x2098176.size a
  inb_S1x1x2098176_S1x1x2048_0_0_1583571 : ∀ a, (![0, 0, 1583571] : Fin 3 → Nat) a + S1x1x2048.size a ≤ S1x1x2098176.size a
  inb_S1x1x2098176_S1x1x2048_0_0_1584585 : ∀ a, (![0, 0, 1584585] : Fin 3 → Nat) a + S1x1x2048.size a ≤ S1x1x2098176.size a
  inb_S1x1x2098176_S1x1x2048_0_0_1585598 : ∀ a, (![0, 0, 1585598] : Fin 3 → Nat) a + S1x1x2048.size a ≤ S1x1x2098176.size a
  inb_S1x1x2098176_S1x1x2048_0_0_1586610 : ∀ a, (![0, 0, 1586610] : Fin 3 → Nat) a + S1x1x2048.size a ≤ S1x1x2098176.size a
  inb_S1x1x2098176_S1x1x2048_0_0_1587621 : ∀ a, (![0, 0, 1587621] : Fin 3 → Nat) a + S1x1x2048.size a ≤ S1x1x2098176.size a
  inb_S1x1x2098176_S1x1x2048_0_0_1588631 : ∀ a, (![0, 0, 1588631] : Fin 3 → Nat) a + S1x1x2048.size a ≤ S1x1x2098176.size a
  inb_S1x1x2098176_S1x1x2048_0_0_1589640 : ∀ a, (![0, 0, 1589640] : Fin 3 → Nat) a + S1x1x2048.size a ≤ S1x1x2098176.size a
  inb_S1x1x2098176_S1x1x2048_0_0_1590648 : ∀ a, (![0, 0, 1590648] : Fin 3 → Nat) a + S1x1x2048.size a ≤ S1x1x2098176.size a
  inb_S1x1x2098176_S1x1x2048_0_0_1591655 : ∀ a, (![0, 0, 1591655] : Fin 3 → Nat) a + S1x1x2048.size a ≤ S1x1x2098176.size a
  inb_S1x1x2098176_S1x1x2048_0_0_1592661 : ∀ a, (![0, 0, 1592661] : Fin 3 → Nat) a + S1x1x2048.size a ≤ S1x1x2098176.size a
  inb_S1x1x2098176_S1x1x2048_0_0_1593666 : ∀ a, (![0, 0, 1593666] : Fin 3 → Nat) a + S1x1x2048.size a ≤ S1x1x2098176.size a
  inb_S1x1x2098176_S1x1x2048_0_0_1594670 : ∀ a, (![0, 0, 1594670] : Fin 3 → Nat) a + S1x1x2048.size a ≤ S1x1x2098176.size a
  inb_S1x1x2098176_S1x1x2048_0_0_1595673 : ∀ a, (![0, 0, 1595673] : Fin 3 → Nat) a + S1x1x2048.size a ≤ S1x1x2098176.size a
  inb_S1x1x2098176_S1x1x2048_0_0_1596675 : ∀ a, (![0, 0, 1596675] : Fin 3 → Nat) a + S1x1x2048.size a ≤ S1x1x2098176.size a
  inb_S1x1x2098176_S1x1x2048_0_0_1597676 : ∀ a, (![0, 0, 1597676] : Fin 3 → Nat) a + S1x1x2048.size a ≤ S1x1x2098176.size a
  inb_S1x1x2098176_S1x1x2048_0_0_1598676 : ∀ a, (![0, 0, 1598676] : Fin 3 → Nat) a + S1x1x2048.size a ≤ S1x1x2098176.size a
  inb_S1x1x2098176_S1x1x2048_0_0_1599675 : ∀ a, (![0, 0, 1599675] : Fin 3 → Nat) a + S1x1x2048.size a ≤ S1x1x2098176.size a
  inb_S1x1x2098176_S1x1x2048_0_0_1600673 : ∀ a, (![0, 0, 1600673] : Fin 3 → Nat) a + S1x1x2048.size a ≤ S1x1x2098176.size a
  inb_S1x1x2098176_S1x1x2048_0_0_1601670 : ∀ a, (![0, 0, 1601670] : Fin 3 → Nat) a + S1x1x2048.size a ≤ S1x1x2098176.size a
  inb_S1x1x2098176_S1x1x2048_0_0_1602666 : ∀ a, (![0, 0, 1602666] : Fin 3 → Nat) a + S1x1x2048.size a ≤ S1x1x2098176.size a
  inb_S1x1x2098176_S1x1x2048_0_0_1603661 : ∀ a, (![0, 0, 1603661] : Fin 3 → Nat) a + S1x1x2048.size a ≤ S1x1x2098176.size a
  inb_S1x1x2098176_S1x1x2048_0_0_1604655 : ∀ a, (![0, 0, 1604655] : Fin 3 → Nat) a + S1x1x2048.size a ≤ S1x1x2098176.size a
  inb_S1x1x2098176_S1x1x2048_0_0_1605648 : ∀ a, (![0, 0, 1605648] : Fin 3 → Nat) a + S1x1x2048.size a ≤ S1x1x2098176.size a
  inb_S1x1x2098176_S1x1x2048_0_0_1606640 : ∀ a, (![0, 0, 1606640] : Fin 3 → Nat) a + S1x1x2048.size a ≤ S1x1x2098176.size a
  inb_S1x1x2098176_S1x1x2048_0_0_1607631 : ∀ a, (![0, 0, 1607631] : Fin 3 → Nat) a + S1x1x2048.size a ≤ S1x1x2098176.size a
  inb_S1x1x2098176_S1x1x2048_0_0_1608621 : ∀ a, (![0, 0, 1608621] : Fin 3 → Nat) a + S1x1x2048.size a ≤ S1x1x2098176.size a
  inb_S1x1x2098176_S1x1x2048_0_0_1609610 : ∀ a, (![0, 0, 1609610] : Fin 3 → Nat) a + S1x1x2048.size a ≤ S1x1x2098176.size a
  inb_S1x1x2098176_S1x1x2048_0_0_1610598 : ∀ a, (![0, 0, 1610598] : Fin 3 → Nat) a + S1x1x2048.size a ≤ S1x1x2098176.size a
  inb_S1x1x2098176_S1x1x2048_0_0_1611585 : ∀ a, (![0, 0, 1611585] : Fin 3 → Nat) a + S1x1x2048.size a ≤ S1x1x2098176.size a
  inb_S1x1x2098176_S1x1x2048_0_0_1612571 : ∀ a, (![0, 0, 1612571] : Fin 3 → Nat) a + S1x1x2048.size a ≤ S1x1x2098176.size a
  inb_S1x1x2098176_S1x1x2048_0_0_1613556 : ∀ a, (![0, 0, 1613556] : Fin 3 → Nat) a + S1x1x2048.size a ≤ S1x1x2098176.size a
  inb_S1x1x2098176_S1x1x2048_0_0_1614540 : ∀ a, (![0, 0, 1614540] : Fin 3 → Nat) a + S1x1x2048.size a ≤ S1x1x2098176.size a
  inb_S1x1x2098176_S1x1x2048_0_0_1615523 : ∀ a, (![0, 0, 1615523] : Fin 3 → Nat) a + S1x1x2048.size a ≤ S1x1x2098176.size a
  inb_S1x1x2098176_S1x1x2048_0_0_1616505 : ∀ a, (![0, 0, 1616505] : Fin 3 → Nat) a + S1x1x2048.size a ≤ S1x1x2098176.size a
  inb_S1x1x2098176_S1x1x2048_0_0_1617486 : ∀ a, (![0, 0, 1617486] : Fin 3 → Nat) a + S1x1x2048.size a ≤ S1x1x2098176.size a
  inb_S1x1x2098176_S1x1x2048_0_0_1618466 : ∀ a, (![0, 0, 1618466] : Fin 3 → Nat) a + S1x1x2048.size a ≤ S1x1x2098176.size a
  inb_S1x1x2098176_S1x1x2048_0_0_1619445 : ∀ a, (![0, 0, 1619445] : Fin 3 → Nat) a + S1x1x2048.size a ≤ S1x1x2098176.size a
  inb_S1x1x2098176_S1x1x2048_0_0_1620423 : ∀ a, (![0, 0, 1620423] : Fin 3 → Nat) a + S1x1x2048.size a ≤ S1x1x2098176.size a
  inb_S1x1x2098176_S1x1x2048_0_0_1621400 : ∀ a, (![0, 0, 1621400] : Fin 3 → Nat) a + S1x1x2048.size a ≤ S1x1x2098176.size a
  inb_S1x1x2098176_S1x1x2048_0_0_1622376 : ∀ a, (![0, 0, 1622376] : Fin 3 → Nat) a + S1x1x2048.size a ≤ S1x1x2098176.size a
  inb_S1x1x2098176_S1x1x2048_0_0_1623351 : ∀ a, (![0, 0, 1623351] : Fin 3 → Nat) a + S1x1x2048.size a ≤ S1x1x2098176.size a
  inb_S1x1x2098176_S1x1x2048_0_0_1624325 : ∀ a, (![0, 0, 1624325] : Fin 3 → Nat) a + S1x1x2048.size a ≤ S1x1x2098176.size a
  inb_S1x1x2098176_S1x1x2048_0_0_1625298 : ∀ a, (![0, 0, 1625298] : Fin 3 → Nat) a + S1x1x2048.size a ≤ S1x1x2098176.size a
  inb_S1x1x2098176_S1x1x2048_0_0_1626270 : ∀ a, (![0, 0, 1626270] : Fin 3 → Nat) a + S1x1x2048.size a ≤ S1x1x2098176.size a
  inb_S1x1x2098176_S1x1x2048_0_0_1627241 : ∀ a, (![0, 0, 1627241] : Fin 3 → Nat) a + S1x1x2048.size a ≤ S1x1x2098176.size a
  inb_S1x1x2098176_S1x1x2048_0_0_1628211 : ∀ a, (![0, 0, 1628211] : Fin 3 → Nat) a + S1x1x2048.size a ≤ S1x1x2098176.size a
  inb_S1x1x2098176_S1x1x2048_0_0_1629180 : ∀ a, (![0, 0, 1629180] : Fin 3 → Nat) a + S1x1x2048.size a ≤ S1x1x2098176.size a
  inb_S1x1x2098176_S1x1x2048_0_0_1630148 : ∀ a, (![0, 0, 1630148] : Fin 3 → Nat) a + S1x1x2048.size a ≤ S1x1x2098176.size a
  inb_S1x1x2098176_S1x1x2048_0_0_1631115 : ∀ a, (![0, 0, 1631115] : Fin 3 → Nat) a + S1x1x2048.size a ≤ S1x1x2098176.size a
  inb_S1x1x2098176_S1x1x2048_0_0_1632081 : ∀ a, (![0, 0, 1632081] : Fin 3 → Nat) a + S1x1x2048.size a ≤ S1x1x2098176.size a
  inb_S1x1x2098176_S1x1x2048_0_0_1633046 : ∀ a, (![0, 0, 1633046] : Fin 3 → Nat) a + S1x1x2048.size a ≤ S1x1x2098176.size a
  inb_S1x1x2098176_S1x1x2048_0_0_1634010 : ∀ a, (![0, 0, 1634010] : Fin 3 → Nat) a + S1x1x2048.size a ≤ S1x1x2098176.size a
  inb_S1x1x2098176_S1x1x2048_0_0_1634973 : ∀ a, (![0, 0, 1634973] : Fin 3 → Nat) a + S1x1x2048.size a ≤ S1x1x2098176.size a
  inb_S1x1x2098176_S1x1x2048_0_0_1635935 : ∀ a, (![0, 0, 1635935] : Fin 3 → Nat) a + S1x1x2048.size a ≤ S1x1x2098176.size a
  inb_S1x1x2098176_S1x1x2048_0_0_1636896 : ∀ a, (![0, 0, 1636896] : Fin 3 → Nat) a + S1x1x2048.size a ≤ S1x1x2098176.size a
  inb_S1x1x2098176_S1x1x2048_0_0_1637856 : ∀ a, (![0, 0, 1637856] : Fin 3 → Nat) a + S1x1x2048.size a ≤ S1x1x2098176.size a
  inb_S1x1x2098176_S1x1x2048_0_0_1638815 : ∀ a, (![0, 0, 1638815] : Fin 3 → Nat) a + S1x1x2048.size a ≤ S1x1x2098176.size a
  inb_S1x1x2098176_S1x1x2048_0_0_1639773 : ∀ a, (![0, 0, 1639773] : Fin 3 → Nat) a + S1x1x2048.size a ≤ S1x1x2098176.size a
  inb_S1x1x2098176_S1x1x2048_0_0_1640730 : ∀ a, (![0, 0, 1640730] : Fin 3 → Nat) a + S1x1x2048.size a ≤ S1x1x2098176.size a
  inb_S1x1x2098176_S1x1x2048_0_0_1641686 : ∀ a, (![0, 0, 1641686] : Fin 3 → Nat) a + S1x1x2048.size a ≤ S1x1x2098176.size a
  inb_S1x1x2098176_S1x1x2048_0_0_1642641 : ∀ a, (![0, 0, 1642641] : Fin 3 → Nat) a + S1x1x2048.size a ≤ S1x1x2098176.size a
  inb_S1x1x2098176_S1x1x2048_0_0_1643595 : ∀ a, (![0, 0, 1643595] : Fin 3 → Nat) a + S1x1x2048.size a ≤ S1x1x2098176.size a
  inb_S1x1x2098176_S1x1x2048_0_0_1644548 : ∀ a, (![0, 0, 1644548] : Fin 3 → Nat) a + S1x1x2048.size a ≤ S1x1x2098176.size a
  inb_S1x1x2098176_S1x1x2048_0_0_1645500 : ∀ a, (![0, 0, 1645500] : Fin 3 → Nat) a + S1x1x2048.size a ≤ S1x1x2098176.size a
  inb_S1x1x2098176_S1x1x2048_0_0_1646451 : ∀ a, (![0, 0, 1646451] : Fin 3 → Nat) a + S1x1x2048.size a ≤ S1x1x2098176.size a
  inb_S1x1x2098176_S1x1x2048_0_0_1647401 : ∀ a, (![0, 0, 1647401] : Fin 3 → Nat) a + S1x1x2048.size a ≤ S1x1x2098176.size a
  inb_S1x1x2098176_S1x1x2048_0_0_1648350 : ∀ a, (![0, 0, 1648350] : Fin 3 → Nat) a + S1x1x2048.size a ≤ S1x1x2098176.size a
  inb_S1x1x2098176_S1x1x2048_0_0_1649298 : ∀ a, (![0, 0, 1649298] : Fin 3 → Nat) a + S1x1x2048.size a ≤ S1x1x2098176.size a
  inb_S1x1x2098176_S1x1x2048_0_0_1650245 : ∀ a, (![0, 0, 1650245] : Fin 3 → Nat) a + S1x1x2048.size a ≤ S1x1x2098176.size a
  inb_S1x1x2098176_S1x1x2048_0_0_1651191 : ∀ a, (![0, 0, 1651191] : Fin 3 → Nat) a + S1x1x2048.size a ≤ S1x1x2098176.size a
  inb_S1x1x2098176_S1x1x2048_0_0_1652136 : ∀ a, (![0, 0, 1652136] : Fin 3 → Nat) a + S1x1x2048.size a ≤ S1x1x2098176.size a
  inb_S1x1x2098176_S1x1x2048_0_0_1653080 : ∀ a, (![0, 0, 1653080] : Fin 3 → Nat) a + S1x1x2048.size a ≤ S1x1x2098176.size a
  inb_S1x1x2098176_S1x1x2048_0_0_1654023 : ∀ a, (![0, 0, 1654023] : Fin 3 → Nat) a + S1x1x2048.size a ≤ S1x1x2098176.size a
  inb_S1x1x2098176_S1x1x2048_0_0_1654965 : ∀ a, (![0, 0, 1654965] : Fin 3 → Nat) a + S1x1x2048.size a ≤ S1x1x2098176.size a
  inb_S1x1x2098176_S1x1x2048_0_0_1655906 : ∀ a, (![0, 0, 1655906] : Fin 3 → Nat) a + S1x1x2048.size a ≤ S1x1x2098176.size a
  inb_S1x1x2098176_S1x1x2048_0_0_1656846 : ∀ a, (![0, 0, 1656846] : Fin 3 → Nat) a + S1x1x2048.size a ≤ S1x1x2098176.size a
  inb_S1x1x2098176_S1x1x2048_0_0_1657785 : ∀ a, (![0, 0, 1657785] : Fin 3 → Nat) a + S1x1x2048.size a ≤ S1x1x2098176.size a
  inb_S1x1x2098176_S1x1x2048_0_0_1658723 : ∀ a, (![0, 0, 1658723] : Fin 3 → Nat) a + S1x1x2048.size a ≤ S1x1x2098176.size a
  inb_S1x1x2098176_S1x1x2048_0_0_1659660 : ∀ a, (![0, 0, 1659660] : Fin 3 → Nat) a + S1x1x2048.size a ≤ S1x1x2098176.size a
  inb_S1x1x2098176_S1x1x2048_0_0_1660596 : ∀ a, (![0, 0, 1660596] : Fin 3 → Nat) a + S1x1x2048.size a ≤ S1x1x2098176.size a
  inb_S1x1x2098176_S1x1x2048_0_0_1661531 : ∀ a, (![0, 0, 1661531] : Fin 3 → Nat) a + S1x1x2048.size a ≤ S1x1x2098176.size a
  inb_S1x1x2098176_S1x1x2048_0_0_1662465 : ∀ a, (![0, 0, 1662465] : Fin 3 → Nat) a + S1x1x2048.size a ≤ S1x1x2098176.size a
  inb_S1x1x2098176_S1x1x2048_0_0_1663398 : ∀ a, (![0, 0, 1663398] : Fin 3 → Nat) a + S1x1x2048.size a ≤ S1x1x2098176.size a
  inb_S1x1x2098176_S1x1x2048_0_0_1664330 : ∀ a, (![0, 0, 1664330] : Fin 3 → Nat) a + S1x1x2048.size a ≤ S1x1x2098176.size a
  inb_S1x1x2098176_S1x1x2048_0_0_1665261 : ∀ a, (![0, 0, 1665261] : Fin 3 → Nat) a + S1x1x2048.size a ≤ S1x1x2098176.size a
  inb_S1x1x2098176_S1x1x2048_0_0_1666191 : ∀ a, (![0, 0, 1666191] : Fin 3 → Nat) a + S1x1x2048.size a ≤ S1x1x2098176.size a
  inb_S1x1x2098176_S1x1x2048_0_0_1667120 : ∀ a, (![0, 0, 1667120] : Fin 3 → Nat) a + S1x1x2048.size a ≤ S1x1x2098176.size a
  inb_S1x1x2098176_S1x1x2048_0_0_1668048 : ∀ a, (![0, 0, 1668048] : Fin 3 → Nat) a + S1x1x2048.size a ≤ S1x1x2098176.size a
  inb_S1x1x2098176_S1x1x2048_0_0_1668975 : ∀ a, (![0, 0, 1668975] : Fin 3 → Nat) a + S1x1x2048.size a ≤ S1x1x2098176.size a
  inb_S1x1x2098176_S1x1x2048_0_0_1669901 : ∀ a, (![0, 0, 1669901] : Fin 3 → Nat) a + S1x1x2048.size a ≤ S1x1x2098176.size a
  inb_S1x1x2098176_S1x1x2048_0_0_1670826 : ∀ a, (![0, 0, 1670826] : Fin 3 → Nat) a + S1x1x2048.size a ≤ S1x1x2098176.size a
  inb_S1x1x2098176_S1x1x2048_0_0_1671750 : ∀ a, (![0, 0, 1671750] : Fin 3 → Nat) a + S1x1x2048.size a ≤ S1x1x2098176.size a
  inb_S1x1x2098176_S1x1x2048_0_0_1672673 : ∀ a, (![0, 0, 1672673] : Fin 3 → Nat) a + S1x1x2048.size a ≤ S1x1x2098176.size a
  inb_S1x1x2098176_S1x1x2048_0_0_1673595 : ∀ a, (![0, 0, 1673595] : Fin 3 → Nat) a + S1x1x2048.size a ≤ S1x1x2098176.size a
  inb_S1x1x2098176_S1x1x2048_0_0_1674516 : ∀ a, (![0, 0, 1674516] : Fin 3 → Nat) a + S1x1x2048.size a ≤ S1x1x2098176.size a
  inb_S1x1x2098176_S1x1x2048_0_0_1675436 : ∀ a, (![0, 0, 1675436] : Fin 3 → Nat) a + S1x1x2048.size a ≤ S1x1x2098176.size a
  inb_S1x1x2098176_S1x1x2048_0_0_1676355 : ∀ a, (![0, 0, 1676355] : Fin 3 → Nat) a + S1x1x2048.size a ≤ S1x1x2098176.size a
  inb_S1x1x2098176_S1x1x2048_0_0_1677273 : ∀ a, (![0, 0, 1677273] : Fin 3 → Nat) a + S1x1x2048.size a ≤ S1x1x2098176.size a
  inb_S1x1x2098176_S1x1x2048_0_0_1678190 : ∀ a, (![0, 0, 1678190] : Fin 3 → Nat) a + S1x1x2048.size a ≤ S1x1x2098176.size a
  inb_S1x1x2098176_S1x1x2048_0_0_1679106 : ∀ a, (![0, 0, 1679106] : Fin 3 → Nat) a + S1x1x2048.size a ≤ S1x1x2098176.size a
  inb_S1x1x2098176_S1x1x2048_0_0_1680021 : ∀ a, (![0, 0, 1680021] : Fin 3 → Nat) a + S1x1x2048.size a ≤ S1x1x2098176.size a
  inb_S1x1x2098176_S1x1x2048_0_0_1680935 : ∀ a, (![0, 0, 1680935] : Fin 3 → Nat) a + S1x1x2048.size a ≤ S1x1x2098176.size a
  inb_S1x1x2098176_S1x1x2048_0_0_1681848 : ∀ a, (![0, 0, 1681848] : Fin 3 → Nat) a + S1x1x2048.size a ≤ S1x1x2098176.size a
  inb_S1x1x2098176_S1x1x2048_0_0_1682760 : ∀ a, (![0, 0, 1682760] : Fin 3 → Nat) a + S1x1x2048.size a ≤ S1x1x2098176.size a
  inb_S1x1x2098176_S1x1x2048_0_0_1683671 : ∀ a, (![0, 0, 1683671] : Fin 3 → Nat) a + S1x1x2048.size a ≤ S1x1x2098176.size a
  inb_S1x1x2098176_S1x1x2048_0_0_1684581 : ∀ a, (![0, 0, 1684581] : Fin 3 → Nat) a + S1x1x2048.size a ≤ S1x1x2098176.size a
  inb_S1x1x2098176_S1x1x2048_0_0_1685490 : ∀ a, (![0, 0, 1685490] : Fin 3 → Nat) a + S1x1x2048.size a ≤ S1x1x2098176.size a
  inb_S1x1x2098176_S1x1x2048_0_0_1686398 : ∀ a, (![0, 0, 1686398] : Fin 3 → Nat) a + S1x1x2048.size a ≤ S1x1x2098176.size a
  inb_S1x1x2098176_S1x1x2048_0_0_1687305 : ∀ a, (![0, 0, 1687305] : Fin 3 → Nat) a + S1x1x2048.size a ≤ S1x1x2098176.size a
  inb_S1x1x2098176_S1x1x2048_0_0_1688211 : ∀ a, (![0, 0, 1688211] : Fin 3 → Nat) a + S1x1x2048.size a ≤ S1x1x2098176.size a
  inb_S1x1x2098176_S1x1x2048_0_0_1689116 : ∀ a, (![0, 0, 1689116] : Fin 3 → Nat) a + S1x1x2048.size a ≤ S1x1x2098176.size a
  inb_S1x1x2098176_S1x1x2048_0_0_1690020 : ∀ a, (![0, 0, 1690020] : Fin 3 → Nat) a + S1x1x2048.size a ≤ S1x1x2098176.size a
  inb_S1x1x2098176_S1x1x2048_0_0_1690923 : ∀ a, (![0, 0, 1690923] : Fin 3 → Nat) a + S1x1x2048.size a ≤ S1x1x2098176.size a
  inb_S1x1x2098176_S1x1x2048_0_0_1691825 : ∀ a, (![0, 0, 1691825] : Fin 3 → Nat) a + S1x1x2048.size a ≤ S1x1x2098176.size a
  inb_S1x1x2098176_S1x1x2048_0_0_1692726 : ∀ a, (![0, 0, 1692726] : Fin 3 → Nat) a + S1x1x2048.size a ≤ S1x1x2098176.size a
  inb_S1x1x2098176_S1x1x2048_0_0_1693626 : ∀ a, (![0, 0, 1693626] : Fin 3 → Nat) a + S1x1x2048.size a ≤ S1x1x2098176.size a
  inb_S1x1x2098176_S1x1x2048_0_0_1694525 : ∀ a, (![0, 0, 1694525] : Fin 3 → Nat) a + S1x1x2048.size a ≤ S1x1x2098176.size a
  inb_S1x1x2098176_S1x1x2048_0_0_1695423 : ∀ a, (![0, 0, 1695423] : Fin 3 → Nat) a + S1x1x2048.size a ≤ S1x1x2098176.size a
  inb_S1x1x2098176_S1x1x2048_0_0_1696320 : ∀ a, (![0, 0, 1696320] : Fin 3 → Nat) a + S1x1x2048.size a ≤ S1x1x2098176.size a
  inb_S1x1x2098176_S1x1x2048_0_0_1697216 : ∀ a, (![0, 0, 1697216] : Fin 3 → Nat) a + S1x1x2048.size a ≤ S1x1x2098176.size a
  inb_S1x1x2098176_S1x1x2048_0_0_1698111 : ∀ a, (![0, 0, 1698111] : Fin 3 → Nat) a + S1x1x2048.size a ≤ S1x1x2098176.size a
  inb_S1x1x2098176_S1x1x2048_0_0_1699005 : ∀ a, (![0, 0, 1699005] : Fin 3 → Nat) a + S1x1x2048.size a ≤ S1x1x2098176.size a
  inb_S1x1x2098176_S1x1x2048_0_0_1699898 : ∀ a, (![0, 0, 1699898] : Fin 3 → Nat) a + S1x1x2048.size a ≤ S1x1x2098176.size a
  inb_S1x1x2098176_S1x1x2048_0_0_1700790 : ∀ a, (![0, 0, 1700790] : Fin 3 → Nat) a + S1x1x2048.size a ≤ S1x1x2098176.size a
  inb_S1x1x2098176_S1x1x2048_0_0_1701681 : ∀ a, (![0, 0, 1701681] : Fin 3 → Nat) a + S1x1x2048.size a ≤ S1x1x2098176.size a
  inb_S1x1x2098176_S1x1x2048_0_0_1702571 : ∀ a, (![0, 0, 1702571] : Fin 3 → Nat) a + S1x1x2048.size a ≤ S1x1x2098176.size a
  inb_S1x1x2098176_S1x1x2048_0_0_1703460 : ∀ a, (![0, 0, 1703460] : Fin 3 → Nat) a + S1x1x2048.size a ≤ S1x1x2098176.size a
  inb_S1x1x2098176_S1x1x2048_0_0_1704348 : ∀ a, (![0, 0, 1704348] : Fin 3 → Nat) a + S1x1x2048.size a ≤ S1x1x2098176.size a
  inb_S1x1x2098176_S1x1x2048_0_0_1705235 : ∀ a, (![0, 0, 1705235] : Fin 3 → Nat) a + S1x1x2048.size a ≤ S1x1x2098176.size a
  inb_S1x1x2098176_S1x1x2048_0_0_1706121 : ∀ a, (![0, 0, 1706121] : Fin 3 → Nat) a + S1x1x2048.size a ≤ S1x1x2098176.size a
  inb_S1x1x2098176_S1x1x2048_0_0_1707006 : ∀ a, (![0, 0, 1707006] : Fin 3 → Nat) a + S1x1x2048.size a ≤ S1x1x2098176.size a
  inb_S1x1x2098176_S1x1x2048_0_0_1707890 : ∀ a, (![0, 0, 1707890] : Fin 3 → Nat) a + S1x1x2048.size a ≤ S1x1x2098176.size a
  inb_S1x1x2098176_S1x1x2048_0_0_1708773 : ∀ a, (![0, 0, 1708773] : Fin 3 → Nat) a + S1x1x2048.size a ≤ S1x1x2098176.size a
  inb_S1x1x2098176_S1x1x2048_0_0_1709655 : ∀ a, (![0, 0, 1709655] : Fin 3 → Nat) a + S1x1x2048.size a ≤ S1x1x2098176.size a
  inb_S1x1x2098176_S1x1x2048_0_0_1710536 : ∀ a, (![0, 0, 1710536] : Fin 3 → Nat) a + S1x1x2048.size a ≤ S1x1x2098176.size a
  inb_S1x1x2098176_S1x1x2048_0_0_1711416 : ∀ a, (![0, 0, 1711416] : Fin 3 → Nat) a + S1x1x2048.size a ≤ S1x1x2098176.size a
  inb_S1x1x2098176_S1x1x2048_0_0_1712295 : ∀ a, (![0, 0, 1712295] : Fin 3 → Nat) a + S1x1x2048.size a ≤ S1x1x2098176.size a
  inb_S1x1x2098176_S1x1x2048_0_0_1713173 : ∀ a, (![0, 0, 1713173] : Fin 3 → Nat) a + S1x1x2048.size a ≤ S1x1x2098176.size a
  inb_S1x1x2098176_S1x1x2048_0_0_1714050 : ∀ a, (![0, 0, 1714050] : Fin 3 → Nat) a + S1x1x2048.size a ≤ S1x1x2098176.size a
  inb_S1x1x2098176_S1x1x2048_0_0_1714926 : ∀ a, (![0, 0, 1714926] : Fin 3 → Nat) a + S1x1x2048.size a ≤ S1x1x2098176.size a
  inb_S1x1x2098176_S1x1x2048_0_0_1715801 : ∀ a, (![0, 0, 1715801] : Fin 3 → Nat) a + S1x1x2048.size a ≤ S1x1x2098176.size a
  inb_S1x1x2098176_S1x1x2048_0_0_1716675 : ∀ a, (![0, 0, 1716675] : Fin 3 → Nat) a + S1x1x2048.size a ≤ S1x1x2098176.size a
  inb_S1x1x2098176_S1x1x2048_0_0_1717548 : ∀ a, (![0, 0, 1717548] : Fin 3 → Nat) a + S1x1x2048.size a ≤ S1x1x2098176.size a
  inb_S1x1x2098176_S1x1x2048_0_0_1718420 : ∀ a, (![0, 0, 1718420] : Fin 3 → Nat) a + S1x1x2048.size a ≤ S1x1x2098176.size a
  inb_S1x1x2098176_S1x1x2048_0_0_1719291 : ∀ a, (![0, 0, 1719291] : Fin 3 → Nat) a + S1x1x2048.size a ≤ S1x1x2098176.size a
  inb_S1x1x2098176_S1x1x2048_0_0_1720161 : ∀ a, (![0, 0, 1720161] : Fin 3 → Nat) a + S1x1x2048.size a ≤ S1x1x2098176.size a
  inb_S1x1x2098176_S1x1x2048_0_0_1721030 : ∀ a, (![0, 0, 1721030] : Fin 3 → Nat) a + S1x1x2048.size a ≤ S1x1x2098176.size a
  inb_S1x1x2098176_S1x1x2048_0_0_1721898 : ∀ a, (![0, 0, 1721898] : Fin 3 → Nat) a + S1x1x2048.size a ≤ S1x1x2098176.size a
  inb_S1x1x2098176_S1x1x2048_0_0_1722765 : ∀ a, (![0, 0, 1722765] : Fin 3 → Nat) a + S1x1x2048.size a ≤ S1x1x2098176.size a
  inb_S1x1x2098176_S1x1x2048_0_0_1723631 : ∀ a, (![0, 0, 1723631] : Fin 3 → Nat) a + S1x1x2048.size a ≤ S1x1x2098176.size a
  inb_S1x1x2098176_S1x1x2048_0_0_1724496 : ∀ a, (![0, 0, 1724496] : Fin 3 → Nat) a + S1x1x2048.size a ≤ S1x1x2098176.size a
  inb_S1x1x2098176_S1x1x2048_0_0_1725360 : ∀ a, (![0, 0, 1725360] : Fin 3 → Nat) a + S1x1x2048.size a ≤ S1x1x2098176.size a
  inb_S1x1x2098176_S1x1x2048_0_0_1726223 : ∀ a, (![0, 0, 1726223] : Fin 3 → Nat) a + S1x1x2048.size a ≤ S1x1x2098176.size a
  inb_S1x1x2098176_S1x1x2048_0_0_1727085 : ∀ a, (![0, 0, 1727085] : Fin 3 → Nat) a + S1x1x2048.size a ≤ S1x1x2098176.size a
  inb_S1x1x2098176_S1x1x2048_0_0_1727946 : ∀ a, (![0, 0, 1727946] : Fin 3 → Nat) a + S1x1x2048.size a ≤ S1x1x2098176.size a
  inb_S1x1x2098176_S1x1x2048_0_0_1728806 : ∀ a, (![0, 0, 1728806] : Fin 3 → Nat) a + S1x1x2048.size a ≤ S1x1x2098176.size a
  inb_S1x1x2098176_S1x1x2048_0_0_1729665 : ∀ a, (![0, 0, 1729665] : Fin 3 → Nat) a + S1x1x2048.size a ≤ S1x1x2098176.size a
  inb_S1x1x2098176_S1x1x2048_0_0_1730523 : ∀ a, (![0, 0, 1730523] : Fin 3 → Nat) a + S1x1x2048.size a ≤ S1x1x2098176.size a
  inb_S1x1x2098176_S1x1x2048_0_0_1731380 : ∀ a, (![0, 0, 1731380] : Fin 3 → Nat) a + S1x1x2048.size a ≤ S1x1x2098176.size a
  inb_S1x1x2098176_S1x1x2048_0_0_1732236 : ∀ a, (![0, 0, 1732236] : Fin 3 → Nat) a + S1x1x2048.size a ≤ S1x1x2098176.size a
  inb_S1x1x2098176_S1x1x2048_0_0_1733091 : ∀ a, (![0, 0, 1733091] : Fin 3 → Nat) a + S1x1x2048.size a ≤ S1x1x2098176.size a
  inb_S1x1x2098176_S1x1x2048_0_0_1733945 : ∀ a, (![0, 0, 1733945] : Fin 3 → Nat) a + S1x1x2048.size a ≤ S1x1x2098176.size a
  inb_S1x1x2098176_S1x1x2048_0_0_1734798 : ∀ a, (![0, 0, 1734798] : Fin 3 → Nat) a + S1x1x2048.size a ≤ S1x1x2098176.size a
  inb_S1x1x2098176_S1x1x2048_0_0_1735650 : ∀ a, (![0, 0, 1735650] : Fin 3 → Nat) a + S1x1x2048.size a ≤ S1x1x2098176.size a
  inb_S1x1x2098176_S1x1x2048_0_0_1736501 : ∀ a, (![0, 0, 1736501] : Fin 3 → Nat) a + S1x1x2048.size a ≤ S1x1x2098176.size a
  inb_S1x1x2098176_S1x1x2048_0_0_1737351 : ∀ a, (![0, 0, 1737351] : Fin 3 → Nat) a + S1x1x2048.size a ≤ S1x1x2098176.size a
  inb_S1x1x2098176_S1x1x2048_0_0_1738200 : ∀ a, (![0, 0, 1738200] : Fin 3 → Nat) a + S1x1x2048.size a ≤ S1x1x2098176.size a
  inb_S1x1x2098176_S1x1x2048_0_0_1739048 : ∀ a, (![0, 0, 1739048] : Fin 3 → Nat) a + S1x1x2048.size a ≤ S1x1x2098176.size a
  inb_S1x1x2098176_S1x1x2048_0_0_1739895 : ∀ a, (![0, 0, 1739895] : Fin 3 → Nat) a + S1x1x2048.size a ≤ S1x1x2098176.size a
  inb_S1x1x2098176_S1x1x2048_0_0_1740741 : ∀ a, (![0, 0, 1740741] : Fin 3 → Nat) a + S1x1x2048.size a ≤ S1x1x2098176.size a
  inb_S1x1x2098176_S1x1x2048_0_0_1741586 : ∀ a, (![0, 0, 1741586] : Fin 3 → Nat) a + S1x1x2048.size a ≤ S1x1x2098176.size a
  inb_S1x1x2098176_S1x1x2048_0_0_1742430 : ∀ a, (![0, 0, 1742430] : Fin 3 → Nat) a + S1x1x2048.size a ≤ S1x1x2098176.size a
  inb_S1x1x2098176_S1x1x2048_0_0_1743273 : ∀ a, (![0, 0, 1743273] : Fin 3 → Nat) a + S1x1x2048.size a ≤ S1x1x2098176.size a
  inb_S1x1x2098176_S1x1x2048_0_0_1744115 : ∀ a, (![0, 0, 1744115] : Fin 3 → Nat) a + S1x1x2048.size a ≤ S1x1x2098176.size a
  inb_S1x1x2098176_S1x1x2048_0_0_1744956 : ∀ a, (![0, 0, 1744956] : Fin 3 → Nat) a + S1x1x2048.size a ≤ S1x1x2098176.size a
  inb_S1x1x2098176_S1x1x2048_0_0_1745796 : ∀ a, (![0, 0, 1745796] : Fin 3 → Nat) a + S1x1x2048.size a ≤ S1x1x2098176.size a
  inb_S1x1x2098176_S1x1x2048_0_0_1746635 : ∀ a, (![0, 0, 1746635] : Fin 3 → Nat) a + S1x1x2048.size a ≤ S1x1x2098176.size a
  inb_S1x1x2098176_S1x1x2048_0_0_1747473 : ∀ a, (![0, 0, 1747473] : Fin 3 → Nat) a + S1x1x2048.size a ≤ S1x1x2098176.size a
  inb_S1x1x2098176_S1x1x2048_0_0_1748310 : ∀ a, (![0, 0, 1748310] : Fin 3 → Nat) a + S1x1x2048.size a ≤ S1x1x2098176.size a
  inb_S1x1x2098176_S1x1x2048_0_0_1749146 : ∀ a, (![0, 0, 1749146] : Fin 3 → Nat) a + S1x1x2048.size a ≤ S1x1x2098176.size a
  inb_S1x1x2098176_S1x1x2048_0_0_1749981 : ∀ a, (![0, 0, 1749981] : Fin 3 → Nat) a + S1x1x2048.size a ≤ S1x1x2098176.size a
  inb_S1x1x2098176_S1x1x2048_0_0_1750815 : ∀ a, (![0, 0, 1750815] : Fin 3 → Nat) a + S1x1x2048.size a ≤ S1x1x2098176.size a
  inb_S1x1x2098176_S1x1x2048_0_0_1751648 : ∀ a, (![0, 0, 1751648] : Fin 3 → Nat) a + S1x1x2048.size a ≤ S1x1x2098176.size a
  inb_S1x1x2098176_S1x1x2048_0_0_1752480 : ∀ a, (![0, 0, 1752480] : Fin 3 → Nat) a + S1x1x2048.size a ≤ S1x1x2098176.size a
  inb_S1x1x2098176_S1x1x2048_0_0_1753311 : ∀ a, (![0, 0, 1753311] : Fin 3 → Nat) a + S1x1x2048.size a ≤ S1x1x2098176.size a
  inb_S1x1x2098176_S1x1x2048_0_0_1754141 : ∀ a, (![0, 0, 1754141] : Fin 3 → Nat) a + S1x1x2048.size a ≤ S1x1x2098176.size a
  inb_S1x1x2098176_S1x1x2048_0_0_1754970 : ∀ a, (![0, 0, 1754970] : Fin 3 → Nat) a + S1x1x2048.size a ≤ S1x1x2098176.size a
  inb_S1x1x2098176_S1x1x2048_0_0_1755798 : ∀ a, (![0, 0, 1755798] : Fin 3 → Nat) a + S1x1x2048.size a ≤ S1x1x2098176.size a
  inb_S1x1x2098176_S1x1x2048_0_0_1756625 : ∀ a, (![0, 0, 1756625] : Fin 3 → Nat) a + S1x1x2048.size a ≤ S1x1x2098176.size a
  inb_S1x1x2098176_S1x1x2048_0_0_1757451 : ∀ a, (![0, 0, 1757451] : Fin 3 → Nat) a + S1x1x2048.size a ≤ S1x1x2098176.size a
  inb_S1x1x2098176_S1x1x2048_0_0_1758276 : ∀ a, (![0, 0, 1758276] : Fin 3 → Nat) a + S1x1x2048.size a ≤ S1x1x2098176.size a
  inb_S1x1x2098176_S1x1x2048_0_0_1759100 : ∀ a, (![0, 0, 1759100] : Fin 3 → Nat) a + S1x1x2048.size a ≤ S1x1x2098176.size a
  inb_S1x1x2098176_S1x1x2048_0_0_1759923 : ∀ a, (![0, 0, 1759923] : Fin 3 → Nat) a + S1x1x2048.size a ≤ S1x1x2098176.size a
  inb_S1x1x2098176_S1x1x2048_0_0_1760745 : ∀ a, (![0, 0, 1760745] : Fin 3 → Nat) a + S1x1x2048.size a ≤ S1x1x2098176.size a
  inb_S1x1x2098176_S1x1x2048_0_0_1761566 : ∀ a, (![0, 0, 1761566] : Fin 3 → Nat) a + S1x1x2048.size a ≤ S1x1x2098176.size a
  inb_S1x1x2098176_S1x1x2048_0_0_1762386 : ∀ a, (![0, 0, 1762386] : Fin 3 → Nat) a + S1x1x2048.size a ≤ S1x1x2098176.size a
  inb_S1x1x2098176_S1x1x2048_0_0_1763205 : ∀ a, (![0, 0, 1763205] : Fin 3 → Nat) a + S1x1x2048.size a ≤ S1x1x2098176.size a
  inb_S1x1x2098176_S1x1x2048_0_0_1764023 : ∀ a, (![0, 0, 1764023] : Fin 3 → Nat) a + S1x1x2048.size a ≤ S1x1x2098176.size a
  inb_S1x1x2098176_S1x1x2048_0_0_1764840 : ∀ a, (![0, 0, 1764840] : Fin 3 → Nat) a + S1x1x2048.size a ≤ S1x1x2098176.size a
  inb_S1x1x2098176_S1x1x2048_0_0_1765656 : ∀ a, (![0, 0, 1765656] : Fin 3 → Nat) a + S1x1x2048.size a ≤ S1x1x2098176.size a
  inb_S1x1x2098176_S1x1x2048_0_0_1766471 : ∀ a, (![0, 0, 1766471] : Fin 3 → Nat) a + S1x1x2048.size a ≤ S1x1x2098176.size a
  inb_S1x1x2098176_S1x1x2048_0_0_1767285 : ∀ a, (![0, 0, 1767285] : Fin 3 → Nat) a + S1x1x2048.size a ≤ S1x1x2098176.size a
  inb_S1x1x2098176_S1x1x2048_0_0_1768098 : ∀ a, (![0, 0, 1768098] : Fin 3 → Nat) a + S1x1x2048.size a ≤ S1x1x2098176.size a
  inb_S1x1x2098176_S1x1x2048_0_0_1768910 : ∀ a, (![0, 0, 1768910] : Fin 3 → Nat) a + S1x1x2048.size a ≤ S1x1x2098176.size a
  inb_S1x1x2098176_S1x1x2048_0_0_1769721 : ∀ a, (![0, 0, 1769721] : Fin 3 → Nat) a + S1x1x2048.size a ≤ S1x1x2098176.size a
  inb_S1x1x2098176_S1x1x2048_0_0_1770531 : ∀ a, (![0, 0, 1770531] : Fin 3 → Nat) a + S1x1x2048.size a ≤ S1x1x2098176.size a
  inb_S1x1x2098176_S1x1x2048_0_0_1771340 : ∀ a, (![0, 0, 1771340] : Fin 3 → Nat) a + S1x1x2048.size a ≤ S1x1x2098176.size a
  inb_S1x1x2098176_S1x1x2048_0_0_1772148 : ∀ a, (![0, 0, 1772148] : Fin 3 → Nat) a + S1x1x2048.size a ≤ S1x1x2098176.size a
  inb_S1x1x2098176_S1x1x2048_0_0_1772955 : ∀ a, (![0, 0, 1772955] : Fin 3 → Nat) a + S1x1x2048.size a ≤ S1x1x2098176.size a
  inb_S1x1x2098176_S1x1x2048_0_0_1773761 : ∀ a, (![0, 0, 1773761] : Fin 3 → Nat) a + S1x1x2048.size a ≤ S1x1x2098176.size a
  inb_S1x1x2098176_S1x1x2048_0_0_1774566 : ∀ a, (![0, 0, 1774566] : Fin 3 → Nat) a + S1x1x2048.size a ≤ S1x1x2098176.size a
  inb_S1x1x2098176_S1x1x2048_0_0_1775370 : ∀ a, (![0, 0, 1775370] : Fin 3 → Nat) a + S1x1x2048.size a ≤ S1x1x2098176.size a
  inb_S1x1x2098176_S1x1x2048_0_0_1776173 : ∀ a, (![0, 0, 1776173] : Fin 3 → Nat) a + S1x1x2048.size a ≤ S1x1x2098176.size a
  inb_S1x1x2098176_S1x1x2048_0_0_1776975 : ∀ a, (![0, 0, 1776975] : Fin 3 → Nat) a + S1x1x2048.size a ≤ S1x1x2098176.size a
  inb_S1x1x2098176_S1x1x2048_0_0_1777776 : ∀ a, (![0, 0, 1777776] : Fin 3 → Nat) a + S1x1x2048.size a ≤ S1x1x2098176.size a
  inb_S1x1x2098176_S1x1x2048_0_0_1778576 : ∀ a, (![0, 0, 1778576] : Fin 3 → Nat) a + S1x1x2048.size a ≤ S1x1x2098176.size a
  inb_S1x1x2098176_S1x1x2048_0_0_1779375 : ∀ a, (![0, 0, 1779375] : Fin 3 → Nat) a + S1x1x2048.size a ≤ S1x1x2098176.size a
  inb_S1x1x2098176_S1x1x2048_0_0_1780173 : ∀ a, (![0, 0, 1780173] : Fin 3 → Nat) a + S1x1x2048.size a ≤ S1x1x2098176.size a
  inb_S1x1x2098176_S1x1x2048_0_0_1780970 : ∀ a, (![0, 0, 1780970] : Fin 3 → Nat) a + S1x1x2048.size a ≤ S1x1x2098176.size a
  inb_S1x1x2098176_S1x1x2048_0_0_1781766 : ∀ a, (![0, 0, 1781766] : Fin 3 → Nat) a + S1x1x2048.size a ≤ S1x1x2098176.size a
  inb_S1x1x2098176_S1x1x2048_0_0_1782561 : ∀ a, (![0, 0, 1782561] : Fin 3 → Nat) a + S1x1x2048.size a ≤ S1x1x2098176.size a
  inb_S1x1x2098176_S1x1x2048_0_0_1783355 : ∀ a, (![0, 0, 1783355] : Fin 3 → Nat) a + S1x1x2048.size a ≤ S1x1x2098176.size a
  inb_S1x1x2098176_S1x1x2048_0_0_1784148 : ∀ a, (![0, 0, 1784148] : Fin 3 → Nat) a + S1x1x2048.size a ≤ S1x1x2098176.size a
  inb_S1x1x2098176_S1x1x2048_0_0_1784940 : ∀ a, (![0, 0, 1784940] : Fin 3 → Nat) a + S1x1x2048.size a ≤ S1x1x2098176.size a
  inb_S1x1x2098176_S1x1x2048_0_0_1785731 : ∀ a, (![0, 0, 1785731] : Fin 3 → Nat) a + S1x1x2048.size a ≤ S1x1x2098176.size a
  inb_S1x1x2098176_S1x1x2048_0_0_1786521 : ∀ a, (![0, 0, 1786521] : Fin 3 → Nat) a + S1x1x2048.size a ≤ S1x1x2098176.size a
  inb_S1x1x2098176_S1x1x2048_0_0_1787310 : ∀ a, (![0, 0, 1787310] : Fin 3 → Nat) a + S1x1x2048.size a ≤ S1x1x2098176.size a
  inb_S1x1x2098176_S1x1x2048_0_0_1788098 : ∀ a, (![0, 0, 1788098] : Fin 3 → Nat) a + S1x1x2048.size a ≤ S1x1x2098176.size a
  inb_S1x1x2098176_S1x1x2048_0_0_1788885 : ∀ a, (![0, 0, 1788885] : Fin 3 → Nat) a + S1x1x2048.size a ≤ S1x1x2098176.size a
  inb_S1x1x2098176_S1x1x2048_0_0_1789671 : ∀ a, (![0, 0, 1789671] : Fin 3 → Nat) a + S1x1x2048.size a ≤ S1x1x2098176.size a
  inb_S1x1x2098176_S1x1x2048_0_0_1790456 : ∀ a, (![0, 0, 1790456] : Fin 3 → Nat) a + S1x1x2048.size a ≤ S1x1x2098176.size a
  inb_S1x1x2098176_S1x1x2048_0_0_1791240 : ∀ a, (![0, 0, 1791240] : Fin 3 → Nat) a + S1x1x2048.size a ≤ S1x1x2098176.size a
  inb_S1x1x2098176_S1x1x2048_0_0_1792023 : ∀ a, (![0, 0, 1792023] : Fin 3 → Nat) a + S1x1x2048.size a ≤ S1x1x2098176.size a
  inb_S1x1x2098176_S1x1x2048_0_0_1792805 : ∀ a, (![0, 0, 1792805] : Fin 3 → Nat) a + S1x1x2048.size a ≤ S1x1x2098176.size a
  inb_S1x1x2098176_S1x1x2048_0_0_1793586 : ∀ a, (![0, 0, 1793586] : Fin 3 → Nat) a + S1x1x2048.size a ≤ S1x1x2098176.size a
  inb_S1x1x2098176_S1x1x2048_0_0_1794366 : ∀ a, (![0, 0, 1794366] : Fin 3 → Nat) a + S1x1x2048.size a ≤ S1x1x2098176.size a
  inb_S1x1x2098176_S1x1x2048_0_0_1795145 : ∀ a, (![0, 0, 1795145] : Fin 3 → Nat) a + S1x1x2048.size a ≤ S1x1x2098176.size a
  inb_S1x1x2098176_S1x1x2048_0_0_1795923 : ∀ a, (![0, 0, 1795923] : Fin 3 → Nat) a + S1x1x2048.size a ≤ S1x1x2098176.size a
  inb_S1x1x2098176_S1x1x2048_0_0_1796700 : ∀ a, (![0, 0, 1796700] : Fin 3 → Nat) a + S1x1x2048.size a ≤ S1x1x2098176.size a
  inb_S1x1x2098176_S1x1x2048_0_0_1797476 : ∀ a, (![0, 0, 1797476] : Fin 3 → Nat) a + S1x1x2048.size a ≤ S1x1x2098176.size a
  inb_S1x1x2098176_S1x1x2048_0_0_1798251 : ∀ a, (![0, 0, 1798251] : Fin 3 → Nat) a + S1x1x2048.size a ≤ S1x1x2098176.size a
  inb_S1x1x2098176_S1x1x2048_0_0_1799025 : ∀ a, (![0, 0, 1799025] : Fin 3 → Nat) a + S1x1x2048.size a ≤ S1x1x2098176.size a
  inb_S1x1x2098176_S1x1x2048_0_0_1799798 : ∀ a, (![0, 0, 1799798] : Fin 3 → Nat) a + S1x1x2048.size a ≤ S1x1x2098176.size a
  inb_S1x1x2098176_S1x1x2048_0_0_1800570 : ∀ a, (![0, 0, 1800570] : Fin 3 → Nat) a + S1x1x2048.size a ≤ S1x1x2098176.size a
  inb_S1x1x2098176_S1x1x2048_0_0_1801341 : ∀ a, (![0, 0, 1801341] : Fin 3 → Nat) a + S1x1x2048.size a ≤ S1x1x2098176.size a
  inb_S1x1x2098176_S1x1x2048_0_0_1802111 : ∀ a, (![0, 0, 1802111] : Fin 3 → Nat) a + S1x1x2048.size a ≤ S1x1x2098176.size a
  inb_S1x1x2098176_S1x1x2048_0_0_1802880 : ∀ a, (![0, 0, 1802880] : Fin 3 → Nat) a + S1x1x2048.size a ≤ S1x1x2098176.size a
  inb_S1x1x2098176_S1x1x2048_0_0_1803648 : ∀ a, (![0, 0, 1803648] : Fin 3 → Nat) a + S1x1x2048.size a ≤ S1x1x2098176.size a
  inb_S1x1x2098176_S1x1x2048_0_0_1804415 : ∀ a, (![0, 0, 1804415] : Fin 3 → Nat) a + S1x1x2048.size a ≤ S1x1x2098176.size a
  inb_S1x1x2098176_S1x1x2048_0_0_1805181 : ∀ a, (![0, 0, 1805181] : Fin 3 → Nat) a + S1x1x2048.size a ≤ S1x1x2098176.size a
  inb_S1x1x2098176_S1x1x2048_0_0_1805946 : ∀ a, (![0, 0, 1805946] : Fin 3 → Nat) a + S1x1x2048.size a ≤ S1x1x2098176.size a
  inb_S1x1x2098176_S1x1x2048_0_0_1806710 : ∀ a, (![0, 0, 1806710] : Fin 3 → Nat) a + S1x1x2048.size a ≤ S1x1x2098176.size a
  inb_S1x1x2098176_S1x1x2048_0_0_1807473 : ∀ a, (![0, 0, 1807473] : Fin 3 → Nat) a + S1x1x2048.size a ≤ S1x1x2098176.size a
  inb_S1x1x2098176_S1x1x2048_0_0_1808235 : ∀ a, (![0, 0, 1808235] : Fin 3 → Nat) a + S1x1x2048.size a ≤ S1x1x2098176.size a
  inb_S1x1x2098176_S1x1x2048_0_0_1808996 : ∀ a, (![0, 0, 1808996] : Fin 3 → Nat) a + S1x1x2048.size a ≤ S1x1x2098176.size a
  inb_S1x1x2098176_S1x1x2048_0_0_1809756 : ∀ a, (![0, 0, 1809756] : Fin 3 → Nat) a + S1x1x2048.size a ≤ S1x1x2098176.size a
  inb_S1x1x2098176_S1x1x2048_0_0_1810515 : ∀ a, (![0, 0, 1810515] : Fin 3 → Nat) a + S1x1x2048.size a ≤ S1x1x2098176.size a
  inb_S1x1x2098176_S1x1x2048_0_0_1811273 : ∀ a, (![0, 0, 1811273] : Fin 3 → Nat) a + S1x1x2048.size a ≤ S1x1x2098176.size a
  inb_S1x1x2098176_S1x1x2048_0_0_1812030 : ∀ a, (![0, 0, 1812030] : Fin 3 → Nat) a + S1x1x2048.size a ≤ S1x1x2098176.size a
  inb_S1x1x2098176_S1x1x2048_0_0_1812786 : ∀ a, (![0, 0, 1812786] : Fin 3 → Nat) a + S1x1x2048.size a ≤ S1x1x2098176.size a
  inb_S1x1x2098176_S1x1x2048_0_0_1813541 : ∀ a, (![0, 0, 1813541] : Fin 3 → Nat) a + S1x1x2048.size a ≤ S1x1x2098176.size a
  inb_S1x1x2098176_S1x1x2048_0_0_1814295 : ∀ a, (![0, 0, 1814295] : Fin 3 → Nat) a + S1x1x2048.size a ≤ S1x1x2098176.size a
  inb_S1x1x2098176_S1x1x2048_0_0_1815048 : ∀ a, (![0, 0, 1815048] : Fin 3 → Nat) a + S1x1x2048.size a ≤ S1x1x2098176.size a
  inb_S1x1x2098176_S1x1x2048_0_0_1815800 : ∀ a, (![0, 0, 1815800] : Fin 3 → Nat) a + S1x1x2048.size a ≤ S1x1x2098176.size a
  inb_S1x1x2098176_S1x1x2048_0_0_1816551 : ∀ a, (![0, 0, 1816551] : Fin 3 → Nat) a + S1x1x2048.size a ≤ S1x1x2098176.size a
  inb_S1x1x2098176_S1x1x2048_0_0_1817301 : ∀ a, (![0, 0, 1817301] : Fin 3 → Nat) a + S1x1x2048.size a ≤ S1x1x2098176.size a
  inb_S1x1x2098176_S1x1x2048_0_0_1818050 : ∀ a, (![0, 0, 1818050] : Fin 3 → Nat) a + S1x1x2048.size a ≤ S1x1x2098176.size a
  inb_S1x1x2098176_S1x1x2048_0_0_1818798 : ∀ a, (![0, 0, 1818798] : Fin 3 → Nat) a + S1x1x2048.size a ≤ S1x1x2098176.size a
  inb_S1x1x2098176_S1x1x2048_0_0_1819545 : ∀ a, (![0, 0, 1819545] : Fin 3 → Nat) a + S1x1x2048.size a ≤ S1x1x2098176.size a
  inb_S1x1x2098176_S1x1x2048_0_0_1820291 : ∀ a, (![0, 0, 1820291] : Fin 3 → Nat) a + S1x1x2048.size a ≤ S1x1x2098176.size a
  inb_S1x1x2098176_S1x1x2048_0_0_1821036 : ∀ a, (![0, 0, 1821036] : Fin 3 → Nat) a + S1x1x2048.size a ≤ S1x1x2098176.size a
  inb_S1x1x2098176_S1x1x2048_0_0_1821780 : ∀ a, (![0, 0, 1821780] : Fin 3 → Nat) a + S1x1x2048.size a ≤ S1x1x2098176.size a
  inb_S1x1x2098176_S1x1x2048_0_0_1822523 : ∀ a, (![0, 0, 1822523] : Fin 3 → Nat) a + S1x1x2048.size a ≤ S1x1x2098176.size a
  inb_S1x1x2098176_S1x1x2048_0_0_1823265 : ∀ a, (![0, 0, 1823265] : Fin 3 → Nat) a + S1x1x2048.size a ≤ S1x1x2098176.size a
  inb_S1x1x2098176_S1x1x2048_0_0_1824006 : ∀ a, (![0, 0, 1824006] : Fin 3 → Nat) a + S1x1x2048.size a ≤ S1x1x2098176.size a
  inb_S1x1x2098176_S1x1x2048_0_0_1824746 : ∀ a, (![0, 0, 1824746] : Fin 3 → Nat) a + S1x1x2048.size a ≤ S1x1x2098176.size a
  inb_S1x1x2098176_S1x1x2048_0_0_1825485 : ∀ a, (![0, 0, 1825485] : Fin 3 → Nat) a + S1x1x2048.size a ≤ S1x1x2098176.size a
  inb_S1x1x2098176_S1x1x2048_0_0_1826223 : ∀ a, (![0, 0, 1826223] : Fin 3 → Nat) a + S1x1x2048.size a ≤ S1x1x2098176.size a
  inb_S1x1x2098176_S1x1x2048_0_0_1826960 : ∀ a, (![0, 0, 1826960] : Fin 3 → Nat) a + S1x1x2048.size a ≤ S1x1x2098176.size a
  inb_S1x1x2098176_S1x1x2048_0_0_1827696 : ∀ a, (![0, 0, 1827696] : Fin 3 → Nat) a + S1x1x2048.size a ≤ S1x1x2098176.size a
  inb_S1x1x2098176_S1x1x2048_0_0_1828431 : ∀ a, (![0, 0, 1828431] : Fin 3 → Nat) a + S1x1x2048.size a ≤ S1x1x2098176.size a
  inb_S1x1x2098176_S1x1x2048_0_0_1829165 : ∀ a, (![0, 0, 1829165] : Fin 3 → Nat) a + S1x1x2048.size a ≤ S1x1x2098176.size a
  inb_S1x1x2098176_S1x1x2048_0_0_1829898 : ∀ a, (![0, 0, 1829898] : Fin 3 → Nat) a + S1x1x2048.size a ≤ S1x1x2098176.size a
  inb_S1x1x2098176_S1x1x2048_0_0_1830630 : ∀ a, (![0, 0, 1830630] : Fin 3 → Nat) a + S1x1x2048.size a ≤ S1x1x2098176.size a
  inb_S1x1x2098176_S1x1x2048_0_0_1831361 : ∀ a, (![0, 0, 1831361] : Fin 3 → Nat) a + S1x1x2048.size a ≤ S1x1x2098176.size a
  inb_S1x1x2098176_S1x1x2048_0_0_1832091 : ∀ a, (![0, 0, 1832091] : Fin 3 → Nat) a + S1x1x2048.size a ≤ S1x1x2098176.size a
  inb_S1x1x2098176_S1x1x2048_0_0_1832820 : ∀ a, (![0, 0, 1832820] : Fin 3 → Nat) a + S1x1x2048.size a ≤ S1x1x2098176.size a
  inb_S1x1x2098176_S1x1x2048_0_0_1833548 : ∀ a, (![0, 0, 1833548] : Fin 3 → Nat) a + S1x1x2048.size a ≤ S1x1x2098176.size a
  inb_S1x1x2098176_S1x1x2048_0_0_1834275 : ∀ a, (![0, 0, 1834275] : Fin 3 → Nat) a + S1x1x2048.size a ≤ S1x1x2098176.size a
  inb_S1x1x2098176_S1x1x2048_0_0_1835001 : ∀ a, (![0, 0, 1835001] : Fin 3 → Nat) a + S1x1x2048.size a ≤ S1x1x2098176.size a
  inb_S1x1x2098176_S1x1x2048_0_0_1835726 : ∀ a, (![0, 0, 1835726] : Fin 3 → Nat) a + S1x1x2048.size a ≤ S1x1x2098176.size a
  inb_S1x1x2098176_S1x1x2048_0_0_1836450 : ∀ a, (![0, 0, 1836450] : Fin 3 → Nat) a + S1x1x2048.size a ≤ S1x1x2098176.size a
  inb_S1x1x2098176_S1x1x2048_0_0_1837173 : ∀ a, (![0, 0, 1837173] : Fin 3 → Nat) a + S1x1x2048.size a ≤ S1x1x2098176.size a
  inb_S1x1x2098176_S1x1x2048_0_0_1837895 : ∀ a, (![0, 0, 1837895] : Fin 3 → Nat) a + S1x1x2048.size a ≤ S1x1x2098176.size a
  inb_S1x1x2098176_S1x1x2048_0_0_1838616 : ∀ a, (![0, 0, 1838616] : Fin 3 → Nat) a + S1x1x2048.size a ≤ S1x1x2098176.size a
  inb_S1x1x2098176_S1x1x2048_0_0_1839336 : ∀ a, (![0, 0, 1839336] : Fin 3 → Nat) a + S1x1x2048.size a ≤ S1x1x2098176.size a
  inb_S1x1x2098176_S1x1x2048_0_0_1840055 : ∀ a, (![0, 0, 1840055] : Fin 3 → Nat) a + S1x1x2048.size a ≤ S1x1x2098176.size a
  inb_S1x1x2098176_S1x1x2048_0_0_1840773 : ∀ a, (![0, 0, 1840773] : Fin 3 → Nat) a + S1x1x2048.size a ≤ S1x1x2098176.size a
  inb_S1x1x2098176_S1x1x2048_0_0_1841490 : ∀ a, (![0, 0, 1841490] : Fin 3 → Nat) a + S1x1x2048.size a ≤ S1x1x2098176.size a
  inb_S1x1x2098176_S1x1x2048_0_0_1842206 : ∀ a, (![0, 0, 1842206] : Fin 3 → Nat) a + S1x1x2048.size a ≤ S1x1x2098176.size a
  inb_S1x1x2098176_S1x1x2048_0_0_1842921 : ∀ a, (![0, 0, 1842921] : Fin 3 → Nat) a + S1x1x2048.size a ≤ S1x1x2098176.size a
  inb_S1x1x2098176_S1x1x2048_0_0_1843635 : ∀ a, (![0, 0, 1843635] : Fin 3 → Nat) a + S1x1x2048.size a ≤ S1x1x2098176.size a
  inb_S1x1x2098176_S1x1x2048_0_0_1844348 : ∀ a, (![0, 0, 1844348] : Fin 3 → Nat) a + S1x1x2048.size a ≤ S1x1x2098176.size a
  inb_S1x1x2098176_S1x1x2048_0_0_1845060 : ∀ a, (![0, 0, 1845060] : Fin 3 → Nat) a + S1x1x2048.size a ≤ S1x1x2098176.size a
  inb_S1x1x2098176_S1x1x2048_0_0_1845771 : ∀ a, (![0, 0, 1845771] : Fin 3 → Nat) a + S1x1x2048.size a ≤ S1x1x2098176.size a
  inb_S1x1x2098176_S1x1x2048_0_0_1846481 : ∀ a, (![0, 0, 1846481] : Fin 3 → Nat) a + S1x1x2048.size a ≤ S1x1x2098176.size a
  inb_S1x1x2098176_S1x1x2048_0_0_1847190 : ∀ a, (![0, 0, 1847190] : Fin 3 → Nat) a + S1x1x2048.size a ≤ S1x1x2098176.size a
  inb_S1x1x2098176_S1x1x2048_0_0_1847898 : ∀ a, (![0, 0, 1847898] : Fin 3 → Nat) a + S1x1x2048.size a ≤ S1x1x2098176.size a
  inb_S1x1x2098176_S1x1x2048_0_0_1848605 : ∀ a, (![0, 0, 1848605] : Fin 3 → Nat) a + S1x1x2048.size a ≤ S1x1x2098176.size a
  inb_S1x1x2098176_S1x1x2048_0_0_1849311 : ∀ a, (![0, 0, 1849311] : Fin 3 → Nat) a + S1x1x2048.size a ≤ S1x1x2098176.size a
  inb_S1x1x2098176_S1x1x2048_0_0_1850016 : ∀ a, (![0, 0, 1850016] : Fin 3 → Nat) a + S1x1x2048.size a ≤ S1x1x2098176.size a
  inb_S1x1x2098176_S1x1x2048_0_0_1850720 : ∀ a, (![0, 0, 1850720] : Fin 3 → Nat) a + S1x1x2048.size a ≤ S1x1x2098176.size a
  inb_S1x1x2098176_S1x1x2048_0_0_1851423 : ∀ a, (![0, 0, 1851423] : Fin 3 → Nat) a + S1x1x2048.size a ≤ S1x1x2098176.size a
  inb_S1x1x2098176_S1x1x2048_0_0_1852125 : ∀ a, (![0, 0, 1852125] : Fin 3 → Nat) a + S1x1x2048.size a ≤ S1x1x2098176.size a
  inb_S1x1x2098176_S1x1x2048_0_0_1852826 : ∀ a, (![0, 0, 1852826] : Fin 3 → Nat) a + S1x1x2048.size a ≤ S1x1x2098176.size a
  inb_S1x1x2098176_S1x1x2048_0_0_1853526 : ∀ a, (![0, 0, 1853526] : Fin 3 → Nat) a + S1x1x2048.size a ≤ S1x1x2098176.size a
  inb_S1x1x2098176_S1x1x2048_0_0_1854225 : ∀ a, (![0, 0, 1854225] : Fin 3 → Nat) a + S1x1x2048.size a ≤ S1x1x2098176.size a
  inb_S1x1x2098176_S1x1x2048_0_0_1854923 : ∀ a, (![0, 0, 1854923] : Fin 3 → Nat) a + S1x1x2048.size a ≤ S1x1x2098176.size a
  inb_S1x1x2098176_S1x1x2048_0_0_1855620 : ∀ a, (![0, 0, 1855620] : Fin 3 → Nat) a + S1x1x2048.size a ≤ S1x1x2098176.size a
  inb_S1x1x2098176_S1x1x2048_0_0_1856316 : ∀ a, (![0, 0, 1856316] : Fin 3 → Nat) a + S1x1x2048.size a ≤ S1x1x2098176.size a
  inb_S1x1x2098176_S1x1x2048_0_0_1857011 : ∀ a, (![0, 0, 1857011] : Fin 3 → Nat) a + S1x1x2048.size a ≤ S1x1x2098176.size a
  inb_S1x1x2098176_S1x1x2048_0_0_1857705 : ∀ a, (![0, 0, 1857705] : Fin 3 → Nat) a + S1x1x2048.size a ≤ S1x1x2098176.size a
  inb_S1x1x2098176_S1x1x2048_0_0_1858398 : ∀ a, (![0, 0, 1858398] : Fin 3 → Nat) a + S1x1x2048.size a ≤ S1x1x2098176.size a
  inb_S1x1x2098176_S1x1x2048_0_0_1859090 : ∀ a, (![0, 0, 1859090] : Fin 3 → Nat) a + S1x1x2048.size a ≤ S1x1x2098176.size a
  inb_S1x1x2098176_S1x1x2048_0_0_1859781 : ∀ a, (![0, 0, 1859781] : Fin 3 → Nat) a + S1x1x2048.size a ≤ S1x1x2098176.size a
  inb_S1x1x2098176_S1x1x2048_0_0_1860471 : ∀ a, (![0, 0, 1860471] : Fin 3 → Nat) a + S1x1x2048.size a ≤ S1x1x2098176.size a
  inb_S1x1x2098176_S1x1x2048_0_0_1861160 : ∀ a, (![0, 0, 1861160] : Fin 3 → Nat) a + S1x1x2048.size a ≤ S1x1x2098176.size a
  inb_S1x1x2098176_S1x1x2048_0_0_1861848 : ∀ a, (![0, 0, 1861848] : Fin 3 → Nat) a + S1x1x2048.size a ≤ S1x1x2098176.size a
  inb_S1x1x2098176_S1x1x2048_0_0_1862535 : ∀ a, (![0, 0, 1862535] : Fin 3 → Nat) a + S1x1x2048.size a ≤ S1x1x2098176.size a
  inb_S1x1x2098176_S1x1x2048_0_0_1863221 : ∀ a, (![0, 0, 1863221] : Fin 3 → Nat) a + S1x1x2048.size a ≤ S1x1x2098176.size a
  inb_S1x1x2098176_S1x1x2048_0_0_1863906 : ∀ a, (![0, 0, 1863906] : Fin 3 → Nat) a + S1x1x2048.size a ≤ S1x1x2098176.size a
  inb_S1x1x2098176_S1x1x2048_0_0_1864590 : ∀ a, (![0, 0, 1864590] : Fin 3 → Nat) a + S1x1x2048.size a ≤ S1x1x2098176.size a
  inb_S1x1x2098176_S1x1x2048_0_0_1865273 : ∀ a, (![0, 0, 1865273] : Fin 3 → Nat) a + S1x1x2048.size a ≤ S1x1x2098176.size a
  inb_S1x1x2098176_S1x1x2048_0_0_1865955 : ∀ a, (![0, 0, 1865955] : Fin 3 → Nat) a + S1x1x2048.size a ≤ S1x1x2098176.size a
  inb_S1x1x2098176_S1x1x2048_0_0_1866636 : ∀ a, (![0, 0, 1866636] : Fin 3 → Nat) a + S1x1x2048.size a ≤ S1x1x2098176.size a
  inb_S1x1x2098176_S1x1x2048_0_0_1867316 : ∀ a, (![0, 0, 1867316] : Fin 3 → Nat) a + S1x1x2048.size a ≤ S1x1x2098176.size a
  inb_S1x1x2098176_S1x1x2048_0_0_1867995 : ∀ a, (![0, 0, 1867995] : Fin 3 → Nat) a + S1x1x2048.size a ≤ S1x1x2098176.size a
  inb_S1x1x2098176_S1x1x2048_0_0_1868673 : ∀ a, (![0, 0, 1868673] : Fin 3 → Nat) a + S1x1x2048.size a ≤ S1x1x2098176.size a
  inb_S1x1x2098176_S1x1x2048_0_0_1869350 : ∀ a, (![0, 0, 1869350] : Fin 3 → Nat) a + S1x1x2048.size a ≤ S1x1x2098176.size a
  inb_S1x1x2098176_S1x1x2048_0_0_1870026 : ∀ a, (![0, 0, 1870026] : Fin 3 → Nat) a + S1x1x2048.size a ≤ S1x1x2098176.size a
  inb_S1x1x2098176_S1x1x2048_0_0_1870701 : ∀ a, (![0, 0, 1870701] : Fin 3 → Nat) a + S1x1x2048.size a ≤ S1x1x2098176.size a
  inb_S1x1x2098176_S1x1x2048_0_0_1871375 : ∀ a, (![0, 0, 1871375] : Fin 3 → Nat) a + S1x1x2048.size a ≤ S1x1x2098176.size a
  inb_S1x1x2098176_S1x1x2048_0_0_1872048 : ∀ a, (![0, 0, 1872048] : Fin 3 → Nat) a + S1x1x2048.size a ≤ S1x1x2098176.size a
  inb_S1x1x2098176_S1x1x2048_0_0_1872720 : ∀ a, (![0, 0, 1872720] : Fin 3 → Nat) a + S1x1x2048.size a ≤ S1x1x2098176.size a
  inb_S1x1x2098176_S1x1x2048_0_0_1873391 : ∀ a, (![0, 0, 1873391] : Fin 3 → Nat) a + S1x1x2048.size a ≤ S1x1x2098176.size a
  inb_S1x1x2098176_S1x1x2048_0_0_1874061 : ∀ a, (![0, 0, 1874061] : Fin 3 → Nat) a + S1x1x2048.size a ≤ S1x1x2098176.size a
  inb_S1x1x2098176_S1x1x2048_0_0_1874730 : ∀ a, (![0, 0, 1874730] : Fin 3 → Nat) a + S1x1x2048.size a ≤ S1x1x2098176.size a
  inb_S1x1x2098176_S1x1x2048_0_0_1875398 : ∀ a, (![0, 0, 1875398] : Fin 3 → Nat) a + S1x1x2048.size a ≤ S1x1x2098176.size a
  inb_S1x1x2098176_S1x1x2048_0_0_1876065 : ∀ a, (![0, 0, 1876065] : Fin 3 → Nat) a + S1x1x2048.size a ≤ S1x1x2098176.size a
  inb_S1x1x2098176_S1x1x2048_0_0_1876731 : ∀ a, (![0, 0, 1876731] : Fin 3 → Nat) a + S1x1x2048.size a ≤ S1x1x2098176.size a
  inb_S1x1x2098176_S1x1x2048_0_0_1877396 : ∀ a, (![0, 0, 1877396] : Fin 3 → Nat) a + S1x1x2048.size a ≤ S1x1x2098176.size a
  inb_S1x1x2098176_S1x1x2048_0_0_1878060 : ∀ a, (![0, 0, 1878060] : Fin 3 → Nat) a + S1x1x2048.size a ≤ S1x1x2098176.size a
  inb_S1x1x2098176_S1x1x2048_0_0_1878723 : ∀ a, (![0, 0, 1878723] : Fin 3 → Nat) a + S1x1x2048.size a ≤ S1x1x2098176.size a
  inb_S1x1x2098176_S1x1x2048_0_0_1879385 : ∀ a, (![0, 0, 1879385] : Fin 3 → Nat) a + S1x1x2048.size a ≤ S1x1x2098176.size a
  inb_S1x1x2098176_S1x1x2048_0_0_1880046 : ∀ a, (![0, 0, 1880046] : Fin 3 → Nat) a + S1x1x2048.size a ≤ S1x1x2098176.size a
  inb_S1x1x2098176_S1x1x2048_0_0_1880706 : ∀ a, (![0, 0, 1880706] : Fin 3 → Nat) a + S1x1x2048.size a ≤ S1x1x2098176.size a
  inb_S1x1x2098176_S1x1x2048_0_0_1881365 : ∀ a, (![0, 0, 1881365] : Fin 3 → Nat) a + S1x1x2048.size a ≤ S1x1x2098176.size a
  inb_S1x1x2098176_S1x1x2048_0_0_1882023 : ∀ a, (![0, 0, 1882023] : Fin 3 → Nat) a + S1x1x2048.size a ≤ S1x1x2098176.size a
  inb_S1x1x2098176_S1x1x2048_0_0_1882680 : ∀ a, (![0, 0, 1882680] : Fin 3 → Nat) a + S1x1x2048.size a ≤ S1x1x2098176.size a
  inb_S1x1x2098176_S1x1x2048_0_0_1883336 : ∀ a, (![0, 0, 1883336] : Fin 3 → Nat) a + S1x1x2048.size a ≤ S1x1x2098176.size a
  inb_S1x1x2098176_S1x1x2048_0_0_1883991 : ∀ a, (![0, 0, 1883991] : Fin 3 → Nat) a + S1x1x2048.size a ≤ S1x1x2098176.size a
  inb_S1x1x2098176_S1x1x2048_0_0_1884645 : ∀ a, (![0, 0, 1884645] : Fin 3 → Nat) a + S1x1x2048.size a ≤ S1x1x2098176.size a
  inb_S1x1x2098176_S1x1x2048_0_0_1885298 : ∀ a, (![0, 0, 1885298] : Fin 3 → Nat) a + S1x1x2048.size a ≤ S1x1x2098176.size a
  inb_S1x1x2098176_S1x1x2048_0_0_1885950 : ∀ a, (![0, 0, 1885950] : Fin 3 → Nat) a + S1x1x2048.size a ≤ S1x1x2098176.size a
  inb_S1x1x2098176_S1x1x2048_0_0_1886601 : ∀ a, (![0, 0, 1886601] : Fin 3 → Nat) a + S1x1x2048.size a ≤ S1x1x2098176.size a
  inb_S1x1x2098176_S1x1x2048_0_0_1887251 : ∀ a, (![0, 0, 1887251] : Fin 3 → Nat) a + S1x1x2048.size a ≤ S1x1x2098176.size a
  inb_S1x1x2098176_S1x1x2048_0_0_1887900 : ∀ a, (![0, 0, 1887900] : Fin 3 → Nat) a + S1x1x2048.size a ≤ S1x1x2098176.size a
  inb_S1x1x2098176_S1x1x2048_0_0_1888548 : ∀ a, (![0, 0, 1888548] : Fin 3 → Nat) a + S1x1x2048.size a ≤ S1x1x2098176.size a
  inb_S1x1x2098176_S1x1x2048_0_0_1889195 : ∀ a, (![0, 0, 1889195] : Fin 3 → Nat) a + S1x1x2048.size a ≤ S1x1x2098176.size a
  inb_S1x1x2098176_S1x1x2048_0_0_1889841 : ∀ a, (![0, 0, 1889841] : Fin 3 → Nat) a + S1x1x2048.size a ≤ S1x1x2098176.size a
  inb_S1x1x2098176_S1x1x2048_0_0_1890486 : ∀ a, (![0, 0, 1890486] : Fin 3 → Nat) a + S1x1x2048.size a ≤ S1x1x2098176.size a
  inb_S1x1x2098176_S1x1x2048_0_0_1891130 : ∀ a, (![0, 0, 1891130] : Fin 3 → Nat) a + S1x1x2048.size a ≤ S1x1x2098176.size a
  inb_S1x1x2098176_S1x1x2048_0_0_1891773 : ∀ a, (![0, 0, 1891773] : Fin 3 → Nat) a + S1x1x2048.size a ≤ S1x1x2098176.size a
  inb_S1x1x2098176_S1x1x2048_0_0_1892415 : ∀ a, (![0, 0, 1892415] : Fin 3 → Nat) a + S1x1x2048.size a ≤ S1x1x2098176.size a
  inb_S1x1x2098176_S1x1x2048_0_0_1893056 : ∀ a, (![0, 0, 1893056] : Fin 3 → Nat) a + S1x1x2048.size a ≤ S1x1x2098176.size a
  inb_S1x1x2098176_S1x1x2048_0_0_1893696 : ∀ a, (![0, 0, 1893696] : Fin 3 → Nat) a + S1x1x2048.size a ≤ S1x1x2098176.size a
  inb_S1x1x2098176_S1x1x2048_0_0_1894335 : ∀ a, (![0, 0, 1894335] : Fin 3 → Nat) a + S1x1x2048.size a ≤ S1x1x2098176.size a
  inb_S1x1x2098176_S1x1x2048_0_0_1894973 : ∀ a, (![0, 0, 1894973] : Fin 3 → Nat) a + S1x1x2048.size a ≤ S1x1x2098176.size a
  inb_S1x1x2098176_S1x1x2048_0_0_1895610 : ∀ a, (![0, 0, 1895610] : Fin 3 → Nat) a + S1x1x2048.size a ≤ S1x1x2098176.size a
  inb_S1x1x2098176_S1x1x2048_0_0_1896246 : ∀ a, (![0, 0, 1896246] : Fin 3 → Nat) a + S1x1x2048.size a ≤ S1x1x2098176.size a
  inb_S1x1x2098176_S1x1x2048_0_0_1896881 : ∀ a, (![0, 0, 1896881] : Fin 3 → Nat) a + S1x1x2048.size a ≤ S1x1x2098176.size a
  inb_S1x1x2098176_S1x1x2048_0_0_1897515 : ∀ a, (![0, 0, 1897515] : Fin 3 → Nat) a + S1x1x2048.size a ≤ S1x1x2098176.size a
  inb_S1x1x2098176_S1x1x2048_0_0_1898148 : ∀ a, (![0, 0, 1898148] : Fin 3 → Nat) a + S1x1x2048.size a ≤ S1x1x2098176.size a
  inb_S1x1x2098176_S1x1x2048_0_0_1898780 : ∀ a, (![0, 0, 1898780] : Fin 3 → Nat) a + S1x1x2048.size a ≤ S1x1x2098176.size a
  inb_S1x1x2098176_S1x1x2048_0_0_1899411 : ∀ a, (![0, 0, 1899411] : Fin 3 → Nat) a + S1x1x2048.size a ≤ S1x1x2098176.size a
  inb_S1x1x2098176_S1x1x2048_0_0_1900041 : ∀ a, (![0, 0, 1900041] : Fin 3 → Nat) a + S1x1x2048.size a ≤ S1x1x2098176.size a
  inb_S1x1x2098176_S1x1x2048_0_0_1900670 : ∀ a, (![0, 0, 1900670] : Fin 3 → Nat) a + S1x1x2048.size a ≤ S1x1x2098176.size a
  inb_S1x1x2098176_S1x1x2048_0_0_1901298 : ∀ a, (![0, 0, 1901298] : Fin 3 → Nat) a + S1x1x2048.size a ≤ S1x1x2098176.size a
  inb_S1x1x2098176_S1x1x2048_0_0_1901925 : ∀ a, (![0, 0, 1901925] : Fin 3 → Nat) a + S1x1x2048.size a ≤ S1x1x2098176.size a
  inb_S1x1x2098176_S1x1x2048_0_0_1902551 : ∀ a, (![0, 0, 1902551] : Fin 3 → Nat) a + S1x1x2048.size a ≤ S1x1x2098176.size a
  inb_S1x1x2098176_S1x1x2048_0_0_1903176 : ∀ a, (![0, 0, 1903176] : Fin 3 → Nat) a + S1x1x2048.size a ≤ S1x1x2098176.size a
  inb_S1x1x2098176_S1x1x2048_0_0_1903800 : ∀ a, (![0, 0, 1903800] : Fin 3 → Nat) a + S1x1x2048.size a ≤ S1x1x2098176.size a
  inb_S1x1x2098176_S1x1x2048_0_0_1904423 : ∀ a, (![0, 0, 1904423] : Fin 3 → Nat) a + S1x1x2048.size a ≤ S1x1x2098176.size a
  inb_S1x1x2098176_S1x1x2048_0_0_1905045 : ∀ a, (![0, 0, 1905045] : Fin 3 → Nat) a + S1x1x2048.size a ≤ S1x1x2098176.size a
  inb_S1x1x2098176_S1x1x2048_0_0_1905666 : ∀ a, (![0, 0, 1905666] : Fin 3 → Nat) a + S1x1x2048.size a ≤ S1x1x2098176.size a
  inb_S1x1x2098176_S1x1x2048_0_0_1906286 : ∀ a, (![0, 0, 1906286] : Fin 3 → Nat) a + S1x1x2048.size a ≤ S1x1x2098176.size a
  inb_S1x1x2098176_S1x1x2048_0_0_1906905 : ∀ a, (![0, 0, 1906905] : Fin 3 → Nat) a + S1x1x2048.size a ≤ S1x1x2098176.size a
  inb_S1x1x2098176_S1x1x2048_0_0_1907523 : ∀ a, (![0, 0, 1907523] : Fin 3 → Nat) a + S1x1x2048.size a ≤ S1x1x2098176.size a
  inb_S1x1x2098176_S1x1x2048_0_0_1908140 : ∀ a, (![0, 0, 1908140] : Fin 3 → Nat) a + S1x1x2048.size a ≤ S1x1x2098176.size a
  inb_S1x1x2098176_S1x1x2048_0_0_1908756 : ∀ a, (![0, 0, 1908756] : Fin 3 → Nat) a + S1x1x2048.size a ≤ S1x1x2098176.size a
  inb_S1x1x2098176_S1x1x2048_0_0_1909371 : ∀ a, (![0, 0, 1909371] : Fin 3 → Nat) a + S1x1x2048.size a ≤ S1x1x2098176.size a
  inb_S1x1x2098176_S1x1x2048_0_0_1909985 : ∀ a, (![0, 0, 1909985] : Fin 3 → Nat) a + S1x1x2048.size a ≤ S1x1x2098176.size a
  inb_S1x1x2098176_S1x1x2048_0_0_1910598 : ∀ a, (![0, 0, 1910598] : Fin 3 → Nat) a + S1x1x2048.size a ≤ S1x1x2098176.size a
  inb_S1x1x2098176_S1x1x2048_0_0_1911210 : ∀ a, (![0, 0, 1911210] : Fin 3 → Nat) a + S1x1x2048.size a ≤ S1x1x2098176.size a
  inb_S1x1x2098176_S1x1x2048_0_0_1911821 : ∀ a, (![0, 0, 1911821] : Fin 3 → Nat) a + S1x1x2048.size a ≤ S1x1x2098176.size a
  inb_S1x1x2098176_S1x1x2048_0_0_1912431 : ∀ a, (![0, 0, 1912431] : Fin 3 → Nat) a + S1x1x2048.size a ≤ S1x1x2098176.size a
  inb_S1x1x2098176_S1x1x2048_0_0_1913040 : ∀ a, (![0, 0, 1913040] : Fin 3 → Nat) a + S1x1x2048.size a ≤ S1x1x2098176.size a
  inb_S1x1x2098176_S1x1x2048_0_0_1913648 : ∀ a, (![0, 0, 1913648] : Fin 3 → Nat) a + S1x1x2048.size a ≤ S1x1x2098176.size a
  inb_S1x1x2098176_S1x1x2048_0_0_1914255 : ∀ a, (![0, 0, 1914255] : Fin 3 → Nat) a + S1x1x2048.size a ≤ S1x1x2098176.size a
  inb_S1x1x2098176_S1x1x2048_0_0_1914861 : ∀ a, (![0, 0, 1914861] : Fin 3 → Nat) a + S1x1x2048.size a ≤ S1x1x2098176.size a
  inb_S1x1x2098176_S1x1x2048_0_0_1915466 : ∀ a, (![0, 0, 1915466] : Fin 3 → Nat) a + S1x1x2048.size a ≤ S1x1x2098176.size a
  inb_S1x1x2098176_S1x1x2048_0_0_1916070 : ∀ a, (![0, 0, 1916070] : Fin 3 → Nat) a + S1x1x2048.size a ≤ S1x1x2098176.size a
  inb_S1x1x2098176_S1x1x2048_0_0_1916673 : ∀ a, (![0, 0, 1916673] : Fin 3 → Nat) a + S1x1x2048.size a ≤ S1x1x2098176.size a
  inb_S1x1x2098176_S1x1x2048_0_0_1917275 : ∀ a, (![0, 0, 1917275] : Fin 3 → Nat) a + S1x1x2048.size a ≤ S1x1x2098176.size a
  inb_S1x1x2098176_S1x1x2048_0_0_1917876 : ∀ a, (![0, 0, 1917876] : Fin 3 → Nat) a + S1x1x2048.size a ≤ S1x1x2098176.size a
  inb_S1x1x2098176_S1x1x2048_0_0_1918476 : ∀ a, (![0, 0, 1918476] : Fin 3 → Nat) a + S1x1x2048.size a ≤ S1x1x2098176.size a
  inb_S1x1x2098176_S1x1x2048_0_0_1919075 : ∀ a, (![0, 0, 1919075] : Fin 3 → Nat) a + S1x1x2048.size a ≤ S1x1x2098176.size a
  inb_S1x1x2098176_S1x1x2048_0_0_1919673 : ∀ a, (![0, 0, 1919673] : Fin 3 → Nat) a + S1x1x2048.size a ≤ S1x1x2098176.size a
  inb_S1x1x2098176_S1x1x2048_0_0_1920270 : ∀ a, (![0, 0, 1920270] : Fin 3 → Nat) a + S1x1x2048.size a ≤ S1x1x2098176.size a
  inb_S1x1x2098176_S1x1x2048_0_0_1920866 : ∀ a, (![0, 0, 1920866] : Fin 3 → Nat) a + S1x1x2048.size a ≤ S1x1x2098176.size a
  inb_S1x1x2098176_S1x1x2048_0_0_1921461 : ∀ a, (![0, 0, 1921461] : Fin 3 → Nat) a + S1x1x2048.size a ≤ S1x1x2098176.size a
  inb_S1x1x2098176_S1x1x2048_0_0_1922055 : ∀ a, (![0, 0, 1922055] : Fin 3 → Nat) a + S1x1x2048.size a ≤ S1x1x2098176.size a
  inb_S1x1x2098176_S1x1x2048_0_0_1922648 : ∀ a, (![0, 0, 1922648] : Fin 3 → Nat) a + S1x1x2048.size a ≤ S1x1x2098176.size a
  inb_S1x1x2098176_S1x1x2048_0_0_1923240 : ∀ a, (![0, 0, 1923240] : Fin 3 → Nat) a + S1x1x2048.size a ≤ S1x1x2098176.size a
  inb_S1x1x2098176_S1x1x2048_0_0_1923831 : ∀ a, (![0, 0, 1923831] : Fin 3 → Nat) a + S1x1x2048.size a ≤ S1x1x2098176.size a
  inb_S1x1x2098176_S1x1x2048_0_0_1924421 : ∀ a, (![0, 0, 1924421] : Fin 3 → Nat) a + S1x1x2048.size a ≤ S1x1x2098176.size a
  inb_S1x1x2098176_S1x1x2048_0_0_1925010 : ∀ a, (![0, 0, 1925010] : Fin 3 → Nat) a + S1x1x2048.size a ≤ S1x1x2098176.size a
  inb_S1x1x2098176_S1x1x2048_0_0_1925598 : ∀ a, (![0, 0, 1925598] : Fin 3 → Nat) a + S1x1x2048.size a ≤ S1x1x2098176.size a
  inb_S1x1x2098176_S1x1x2048_0_0_1926185 : ∀ a, (![0, 0, 1926185] : Fin 3 → Nat) a + S1x1x2048.size a ≤ S1x1x2098176.size a
  inb_S1x1x2098176_S1x1x2048_0_0_1926771 : ∀ a, (![0, 0, 1926771] : Fin 3 → Nat) a + S1x1x2048.size a ≤ S1x1x2098176.size a
  inb_S1x1x2098176_S1x1x2048_0_0_1927356 : ∀ a, (![0, 0, 1927356] : Fin 3 → Nat) a + S1x1x2048.size a ≤ S1x1x2098176.size a
  inb_S1x1x2098176_S1x1x2048_0_0_1927940 : ∀ a, (![0, 0, 1927940] : Fin 3 → Nat) a + S1x1x2048.size a ≤ S1x1x2098176.size a
  inb_S1x1x2098176_S1x1x2048_0_0_1928523 : ∀ a, (![0, 0, 1928523] : Fin 3 → Nat) a + S1x1x2048.size a ≤ S1x1x2098176.size a
  inb_S1x1x2098176_S1x1x2048_0_0_1929105 : ∀ a, (![0, 0, 1929105] : Fin 3 → Nat) a + S1x1x2048.size a ≤ S1x1x2098176.size a
  inb_S1x1x2098176_S1x1x2048_0_0_1929686 : ∀ a, (![0, 0, 1929686] : Fin 3 → Nat) a + S1x1x2048.size a ≤ S1x1x2098176.size a
  inb_S1x1x2098176_S1x1x2048_0_0_1930266 : ∀ a, (![0, 0, 1930266] : Fin 3 → Nat) a + S1x1x2048.size a ≤ S1x1x2098176.size a
  inb_S1x1x2098176_S1x1x2048_0_0_1930845 : ∀ a, (![0, 0, 1930845] : Fin 3 → Nat) a + S1x1x2048.size a ≤ S1x1x2098176.size a
  inb_S1x1x2098176_S1x1x2048_0_0_1931423 : ∀ a, (![0, 0, 1931423] : Fin 3 → Nat) a + S1x1x2048.size a ≤ S1x1x2098176.size a
  inb_S1x1x2098176_S1x1x2048_0_0_1932000 : ∀ a, (![0, 0, 1932000] : Fin 3 → Nat) a + S1x1x2048.size a ≤ S1x1x2098176.size a
  inb_S1x1x2098176_S1x1x2048_0_0_1932576 : ∀ a, (![0, 0, 1932576] : Fin 3 → Nat) a + S1x1x2048.size a ≤ S1x1x2098176.size a
  inb_S1x1x2098176_S1x1x2048_0_0_1933151 : ∀ a, (![0, 0, 1933151] : Fin 3 → Nat) a + S1x1x2048.size a ≤ S1x1x2098176.size a
  inb_S1x1x2098176_S1x1x2048_0_0_1933725 : ∀ a, (![0, 0, 1933725] : Fin 3 → Nat) a + S1x1x2048.size a ≤ S1x1x2098176.size a
  inb_S1x1x2098176_S1x1x2048_0_0_1934298 : ∀ a, (![0, 0, 1934298] : Fin 3 → Nat) a + S1x1x2048.size a ≤ S1x1x2098176.size a
  inb_S1x1x2098176_S1x1x2048_0_0_1934870 : ∀ a, (![0, 0, 1934870] : Fin 3 → Nat) a + S1x1x2048.size a ≤ S1x1x2098176.size a
  inb_S1x1x2098176_S1x1x2048_0_0_1935441 : ∀ a, (![0, 0, 1935441] : Fin 3 → Nat) a + S1x1x2048.size a ≤ S1x1x2098176.size a
  inb_S1x1x2098176_S1x1x2048_0_0_1936011 : ∀ a, (![0, 0, 1936011] : Fin 3 → Nat) a + S1x1x2048.size a ≤ S1x1x2098176.size a
  inb_S1x1x2098176_S1x1x2048_0_0_1936580 : ∀ a, (![0, 0, 1936580] : Fin 3 → Nat) a + S1x1x2048.size a ≤ S1x1x2098176.size a
  inb_S1x1x2098176_S1x1x2048_0_0_1937148 : ∀ a, (![0, 0, 1937148] : Fin 3 → Nat) a + S1x1x2048.size a ≤ S1x1x2098176.size a
  inb_S1x1x2098176_S1x1x2048_0_0_1937715 : ∀ a, (![0, 0, 1937715] : Fin 3 → Nat) a + S1x1x2048.size a ≤ S1x1x2098176.size a
  inb_S1x1x2098176_S1x1x2048_0_0_1938281 : ∀ a, (![0, 0, 1938281] : Fin 3 → Nat) a + S1x1x2048.size a ≤ S1x1x2098176.size a
  inb_S1x1x2098176_S1x1x2048_0_0_1938846 : ∀ a, (![0, 0, 1938846] : Fin 3 → Nat) a + S1x1x2048.size a ≤ S1x1x2098176.size a
  inb_S1x1x2098176_S1x1x2048_0_0_1939410 : ∀ a, (![0, 0, 1939410] : Fin 3 → Nat) a + S1x1x2048.size a ≤ S1x1x2098176.size a
  inb_S1x1x2098176_S1x1x2048_0_0_1939973 : ∀ a, (![0, 0, 1939973] : Fin 3 → Nat) a + S1x1x2048.size a ≤ S1x1x2098176.size a
  inb_S1x1x2098176_S1x1x2048_0_0_1940535 : ∀ a, (![0, 0, 1940535] : Fin 3 → Nat) a + S1x1x2048.size a ≤ S1x1x2098176.size a
  inb_S1x1x2098176_S1x1x2048_0_0_1941096 : ∀ a, (![0, 0, 1941096] : Fin 3 → Nat) a + S1x1x2048.size a ≤ S1x1x2098176.size a
  inb_S1x1x2098176_S1x1x2048_0_0_1941656 : ∀ a, (![0, 0, 1941656] : Fin 3 → Nat) a + S1x1x2048.size a ≤ S1x1x2098176.size a
  inb_S1x1x2098176_S1x1x2048_0_0_1942215 : ∀ a, (![0, 0, 1942215] : Fin 3 → Nat) a + S1x1x2048.size a ≤ S1x1x2098176.size a
  inb_S1x1x2098176_S1x1x2048_0_0_1942773 : ∀ a, (![0, 0, 1942773] : Fin 3 → Nat) a + S1x1x2048.size a ≤ S1x1x2098176.size a
  inb_S1x1x2098176_S1x1x2048_0_0_1943330 : ∀ a, (![0, 0, 1943330] : Fin 3 → Nat) a + S1x1x2048.size a ≤ S1x1x2098176.size a
  inb_S1x1x2098176_S1x1x2048_0_0_1943886 : ∀ a, (![0, 0, 1943886] : Fin 3 → Nat) a + S1x1x2048.size a ≤ S1x1x2098176.size a
  inb_S1x1x2098176_S1x1x2048_0_0_1944441 : ∀ a, (![0, 0, 1944441] : Fin 3 → Nat) a + S1x1x2048.size a ≤ S1x1x2098176.size a
  inb_S1x1x2098176_S1x1x2048_0_0_1944995 : ∀ a, (![0, 0, 1944995] : Fin 3 → Nat) a + S1x1x2048.size a ≤ S1x1x2098176.size a
  inb_S1x1x2098176_S1x1x2048_0_0_1945548 : ∀ a, (![0, 0, 1945548] : Fin 3 → Nat) a + S1x1x2048.size a ≤ S1x1x2098176.size a
  inb_S1x1x2098176_S1x1x2048_0_0_1946100 : ∀ a, (![0, 0, 1946100] : Fin 3 → Nat) a + S1x1x2048.size a ≤ S1x1x2098176.size a
  inb_S1x1x2098176_S1x1x2048_0_0_1946651 : ∀ a, (![0, 0, 1946651] : Fin 3 → Nat) a + S1x1x2048.size a ≤ S1x1x2098176.size a
  inb_S1x1x2098176_S1x1x2048_0_0_1947201 : ∀ a, (![0, 0, 1947201] : Fin 3 → Nat) a + S1x1x2048.size a ≤ S1x1x2098176.size a
  inb_S1x1x2098176_S1x1x2048_0_0_1947750 : ∀ a, (![0, 0, 1947750] : Fin 3 → Nat) a + S1x1x2048.size a ≤ S1x1x2098176.size a
  inb_S1x1x2098176_S1x1x2048_0_0_1948298 : ∀ a, (![0, 0, 1948298] : Fin 3 → Nat) a + S1x1x2048.size a ≤ S1x1x2098176.size a
  inb_S1x1x2098176_S1x1x2048_0_0_1948845 : ∀ a, (![0, 0, 1948845] : Fin 3 → Nat) a + S1x1x2048.size a ≤ S1x1x2098176.size a
  inb_S1x1x2098176_S1x1x2048_0_0_1949391 : ∀ a, (![0, 0, 1949391] : Fin 3 → Nat) a + S1x1x2048.size a ≤ S1x1x2098176.size a
  inb_S1x1x2098176_S1x1x2048_0_0_1949936 : ∀ a, (![0, 0, 1949936] : Fin 3 → Nat) a + S1x1x2048.size a ≤ S1x1x2098176.size a
  inb_S1x1x2098176_S1x1x2048_0_0_1950480 : ∀ a, (![0, 0, 1950480] : Fin 3 → Nat) a + S1x1x2048.size a ≤ S1x1x2098176.size a
  inb_S1x1x2098176_S1x1x2048_0_0_1951023 : ∀ a, (![0, 0, 1951023] : Fin 3 → Nat) a + S1x1x2048.size a ≤ S1x1x2098176.size a
  inb_S1x1x2098176_S1x1x2048_0_0_1951565 : ∀ a, (![0, 0, 1951565] : Fin 3 → Nat) a + S1x1x2048.size a ≤ S1x1x2098176.size a
  inb_S1x1x2098176_S1x1x2048_0_0_1952106 : ∀ a, (![0, 0, 1952106] : Fin 3 → Nat) a + S1x1x2048.size a ≤ S1x1x2098176.size a
  inb_S1x1x2098176_S1x1x2048_0_0_1952646 : ∀ a, (![0, 0, 1952646] : Fin 3 → Nat) a + S1x1x2048.size a ≤ S1x1x2098176.size a
  inb_S1x1x2098176_S1x1x2048_0_0_1953185 : ∀ a, (![0, 0, 1953185] : Fin 3 → Nat) a + S1x1x2048.size a ≤ S1x1x2098176.size a
  inb_S1x1x2098176_S1x1x2048_0_0_1953723 : ∀ a, (![0, 0, 1953723] : Fin 3 → Nat) a + S1x1x2048.size a ≤ S1x1x2098176.size a
  inb_S1x1x2098176_S1x1x2048_0_0_1954260 : ∀ a, (![0, 0, 1954260] : Fin 3 → Nat) a + S1x1x2048.size a ≤ S1x1x2098176.size a
  inb_S1x1x2098176_S1x1x2048_0_0_1954796 : ∀ a, (![0, 0, 1954796] : Fin 3 → Nat) a + S1x1x2048.size a ≤ S1x1x2098176.size a
  inb_S1x1x2098176_S1x1x2048_0_0_1955331 : ∀ a, (![0, 0, 1955331] : Fin 3 → Nat) a + S1x1x2048.size a ≤ S1x1x2098176.size a
  inb_S1x1x2098176_S1x1x2048_0_0_1955865 : ∀ a, (![0, 0, 1955865] : Fin 3 → Nat) a + S1x1x2048.size a ≤ S1x1x2098176.size a
  inb_S1x1x2098176_S1x1x2048_0_0_1956398 : ∀ a, (![0, 0, 1956398] : Fin 3 → Nat) a + S1x1x2048.size a ≤ S1x1x2098176.size a
  inb_S1x1x2098176_S1x1x2048_0_0_1956930 : ∀ a, (![0, 0, 1956930] : Fin 3 → Nat) a + S1x1x2048.size a ≤ S1x1x2098176.size a
  inb_S1x1x2098176_S1x1x2048_0_0_1957461 : ∀ a, (![0, 0, 1957461] : Fin 3 → Nat) a + S1x1x2048.size a ≤ S1x1x2098176.size a
  inb_S1x1x2098176_S1x1x2048_0_0_1957991 : ∀ a, (![0, 0, 1957991] : Fin 3 → Nat) a + S1x1x2048.size a ≤ S1x1x2098176.size a
  inb_S1x1x2098176_S1x1x2048_0_0_1958520 : ∀ a, (![0, 0, 1958520] : Fin 3 → Nat) a + S1x1x2048.size a ≤ S1x1x2098176.size a
  inb_S1x1x2098176_S1x1x2048_0_0_1959048 : ∀ a, (![0, 0, 1959048] : Fin 3 → Nat) a + S1x1x2048.size a ≤ S1x1x2098176.size a
  inb_S1x1x2098176_S1x1x2048_0_0_1959575 : ∀ a, (![0, 0, 1959575] : Fin 3 → Nat) a + S1x1x2048.size a ≤ S1x1x2098176.size a
  inb_S1x1x2098176_S1x1x2048_0_0_1960101 : ∀ a, (![0, 0, 1960101] : Fin 3 → Nat) a + S1x1x2048.size a ≤ S1x1x2098176.size a
  inb_S1x1x2098176_S1x1x2048_0_0_1960626 : ∀ a, (![0, 0, 1960626] : Fin 3 → Nat) a + S1x1x2048.size a ≤ S1x1x2098176.size a
  inb_S1x1x2098176_S1x1x2048_0_0_1961150 : ∀ a, (![0, 0, 1961150] : Fin 3 → Nat) a + S1x1x2048.size a ≤ S1x1x2098176.size a
  inb_S1x1x2098176_S1x1x2048_0_0_1961673 : ∀ a, (![0, 0, 1961673] : Fin 3 → Nat) a + S1x1x2048.size a ≤ S1x1x2098176.size a
  inb_S1x1x2098176_S1x1x2048_0_0_1962195 : ∀ a, (![0, 0, 1962195] : Fin 3 → Nat) a + S1x1x2048.size a ≤ S1x1x2098176.size a
  inb_S1x1x2098176_S1x1x2048_0_0_1962716 : ∀ a, (![0, 0, 1962716] : Fin 3 → Nat) a + S1x1x2048.size a ≤ S1x1x2098176.size a
  inb_S1x1x2098176_S1x1x2048_0_0_1963236 : ∀ a, (![0, 0, 1963236] : Fin 3 → Nat) a + S1x1x2048.size a ≤ S1x1x2098176.size a
  inb_S1x1x2098176_S1x1x2048_0_0_1963755 : ∀ a, (![0, 0, 1963755] : Fin 3 → Nat) a + S1x1x2048.size a ≤ S1x1x2098176.size a
  inb_S1x1x2098176_S1x1x2048_0_0_1964273 : ∀ a, (![0, 0, 1964273] : Fin 3 → Nat) a + S1x1x2048.size a ≤ S1x1x2098176.size a
  inb_S1x1x2098176_S1x1x2048_0_0_1964790 : ∀ a, (![0, 0, 1964790] : Fin 3 → Nat) a + S1x1x2048.size a ≤ S1x1x2098176.size a
  inb_S1x1x2098176_S1x1x2048_0_0_1965306 : ∀ a, (![0, 0, 1965306] : Fin 3 → Nat) a + S1x1x2048.size a ≤ S1x1x2098176.size a
  inb_S1x1x2098176_S1x1x2048_0_0_1965821 : ∀ a, (![0, 0, 1965821] : Fin 3 → Nat) a + S1x1x2048.size a ≤ S1x1x2098176.size a
  inb_S1x1x2098176_S1x1x2048_0_0_1966335 : ∀ a, (![0, 0, 1966335] : Fin 3 → Nat) a + S1x1x2048.size a ≤ S1x1x2098176.size a
  inb_S1x1x2098176_S1x1x2048_0_0_1966848 : ∀ a, (![0, 0, 1966848] : Fin 3 → Nat) a + S1x1x2048.size a ≤ S1x1x2098176.size a
  inb_S1x1x2098176_S1x1x2048_0_0_1967360 : ∀ a, (![0, 0, 1967360] : Fin 3 → Nat) a + S1x1x2048.size a ≤ S1x1x2098176.size a
  inb_S1x1x2098176_S1x1x2048_0_0_1967871 : ∀ a, (![0, 0, 1967871] : Fin 3 → Nat) a + S1x1x2048.size a ≤ S1x1x2098176.size a
  inb_S1x1x2098176_S1x1x2048_0_0_1968381 : ∀ a, (![0, 0, 1968381] : Fin 3 → Nat) a + S1x1x2048.size a ≤ S1x1x2098176.size a
  inb_S1x1x2098176_S1x1x2048_0_0_1968890 : ∀ a, (![0, 0, 1968890] : Fin 3 → Nat) a + S1x1x2048.size a ≤ S1x1x2098176.size a
  inb_S1x1x2098176_S1x1x2048_0_0_1969398 : ∀ a, (![0, 0, 1969398] : Fin 3 → Nat) a + S1x1x2048.size a ≤ S1x1x2098176.size a
  inb_S1x1x2098176_S1x1x2048_0_0_1969905 : ∀ a, (![0, 0, 1969905] : Fin 3 → Nat) a + S1x1x2048.size a ≤ S1x1x2098176.size a
  inb_S1x1x2098176_S1x1x2048_0_0_1970411 : ∀ a, (![0, 0, 1970411] : Fin 3 → Nat) a + S1x1x2048.size a ≤ S1x1x2098176.size a
  inb_S1x1x2098176_S1x1x2048_0_0_1970916 : ∀ a, (![0, 0, 1970916] : Fin 3 → Nat) a + S1x1x2048.size a ≤ S1x1x2098176.size a
  inb_S1x1x2098176_S1x1x2048_0_0_1971420 : ∀ a, (![0, 0, 1971420] : Fin 3 → Nat) a + S1x1x2048.size a ≤ S1x1x2098176.size a
  inb_S1x1x2098176_S1x1x2048_0_0_1971923 : ∀ a, (![0, 0, 1971923] : Fin 3 → Nat) a + S1x1x2048.size a ≤ S1x1x2098176.size a
  inb_S1x1x2098176_S1x1x2048_0_0_1972425 : ∀ a, (![0, 0, 1972425] : Fin 3 → Nat) a + S1x1x2048.size a ≤ S1x1x2098176.size a
  inb_S1x1x2098176_S1x1x2048_0_0_1972926 : ∀ a, (![0, 0, 1972926] : Fin 3 → Nat) a + S1x1x2048.size a ≤ S1x1x2098176.size a
  inb_S1x1x2098176_S1x1x2048_0_0_1973426 : ∀ a, (![0, 0, 1973426] : Fin 3 → Nat) a + S1x1x2048.size a ≤ S1x1x2098176.size a
  inb_S1x1x2098176_S1x1x2048_0_0_1973925 : ∀ a, (![0, 0, 1973925] : Fin 3 → Nat) a + S1x1x2048.size a ≤ S1x1x2098176.size a
  inb_S1x1x2098176_S1x1x2048_0_0_1974423 : ∀ a, (![0, 0, 1974423] : Fin 3 → Nat) a + S1x1x2048.size a ≤ S1x1x2098176.size a
  inb_S1x1x2098176_S1x1x2048_0_0_1974920 : ∀ a, (![0, 0, 1974920] : Fin 3 → Nat) a + S1x1x2048.size a ≤ S1x1x2098176.size a
  inb_S1x1x2098176_S1x1x2048_0_0_1975416 : ∀ a, (![0, 0, 1975416] : Fin 3 → Nat) a + S1x1x2048.size a ≤ S1x1x2098176.size a
  inb_S1x1x2098176_S1x1x2048_0_0_1975911 : ∀ a, (![0, 0, 1975911] : Fin 3 → Nat) a + S1x1x2048.size a ≤ S1x1x2098176.size a
  inb_S1x1x2098176_S1x1x2048_0_0_1976405 : ∀ a, (![0, 0, 1976405] : Fin 3 → Nat) a + S1x1x2048.size a ≤ S1x1x2098176.size a
  inb_S1x1x2098176_S1x1x2048_0_0_1976898 : ∀ a, (![0, 0, 1976898] : Fin 3 → Nat) a + S1x1x2048.size a ≤ S1x1x2098176.size a
  inb_S1x1x2098176_S1x1x2048_0_0_1977390 : ∀ a, (![0, 0, 1977390] : Fin 3 → Nat) a + S1x1x2048.size a ≤ S1x1x2098176.size a
  inb_S1x1x2098176_S1x1x2048_0_0_1977881 : ∀ a, (![0, 0, 1977881] : Fin 3 → Nat) a + S1x1x2048.size a ≤ S1x1x2098176.size a
  inb_S1x1x2098176_S1x1x2048_0_0_1978371 : ∀ a, (![0, 0, 1978371] : Fin 3 → Nat) a + S1x1x2048.size a ≤ S1x1x2098176.size a
  inb_S1x1x2098176_S1x1x2048_0_0_1978860 : ∀ a, (![0, 0, 1978860] : Fin 3 → Nat) a + S1x1x2048.size a ≤ S1x1x2098176.size a
  inb_S1x1x2098176_S1x1x2048_0_0_1979348 : ∀ a, (![0, 0, 1979348] : Fin 3 → Nat) a + S1x1x2048.size a ≤ S1x1x2098176.size a
  inb_S1x1x2098176_S1x1x2048_0_0_1979835 : ∀ a, (![0, 0, 1979835] : Fin 3 → Nat) a + S1x1x2048.size a ≤ S1x1x2098176.size a
  inb_S1x1x2098176_S1x1x2048_0_0_1980321 : ∀ a, (![0, 0, 1980321] : Fin 3 → Nat) a + S1x1x2048.size a ≤ S1x1x2098176.size a
  inb_S1x1x2098176_S1x1x2048_0_0_1980806 : ∀ a, (![0, 0, 1980806] : Fin 3 → Nat) a + S1x1x2048.size a ≤ S1x1x2098176.size a
  inb_S1x1x2098176_S1x1x2048_0_0_1981290 : ∀ a, (![0, 0, 1981290] : Fin 3 → Nat) a + S1x1x2048.size a ≤ S1x1x2098176.size a
  inb_S1x1x2098176_S1x1x2048_0_0_1981773 : ∀ a, (![0, 0, 1981773] : Fin 3 → Nat) a + S1x1x2048.size a ≤ S1x1x2098176.size a
  inb_S1x1x2098176_S1x1x2048_0_0_1982255 : ∀ a, (![0, 0, 1982255] : Fin 3 → Nat) a + S1x1x2048.size a ≤ S1x1x2098176.size a
  inb_S1x1x2098176_S1x1x2048_0_0_1982736 : ∀ a, (![0, 0, 1982736] : Fin 3 → Nat) a + S1x1x2048.size a ≤ S1x1x2098176.size a
  inb_S1x1x2098176_S1x1x2048_0_0_1983216 : ∀ a, (![0, 0, 1983216] : Fin 3 → Nat) a + S1x1x2048.size a ≤ S1x1x2098176.size a
  inb_S1x1x2098176_S1x1x2048_0_0_1983695 : ∀ a, (![0, 0, 1983695] : Fin 3 → Nat) a + S1x1x2048.size a ≤ S1x1x2098176.size a
  inb_S1x1x2098176_S1x1x2048_0_0_1984173 : ∀ a, (![0, 0, 1984173] : Fin 3 → Nat) a + S1x1x2048.size a ≤ S1x1x2098176.size a
  inb_S1x1x2098176_S1x1x2048_0_0_1984650 : ∀ a, (![0, 0, 1984650] : Fin 3 → Nat) a + S1x1x2048.size a ≤ S1x1x2098176.size a
  inb_S1x1x2098176_S1x1x2048_0_0_1985126 : ∀ a, (![0, 0, 1985126] : Fin 3 → Nat) a + S1x1x2048.size a ≤ S1x1x2098176.size a
  inb_S1x1x2098176_S1x1x2048_0_0_1985601 : ∀ a, (![0, 0, 1985601] : Fin 3 → Nat) a + S1x1x2048.size a ≤ S1x1x2098176.size a
  inb_S1x1x2098176_S1x1x2048_0_0_1986075 : ∀ a, (![0, 0, 1986075] : Fin 3 → Nat) a + S1x1x2048.size a ≤ S1x1x2098176.size a
  inb_S1x1x2098176_S1x1x2048_0_0_1986548 : ∀ a, (![0, 0, 1986548] : Fin 3 → Nat) a + S1x1x2048.size a ≤ S1x1x2098176.size a
  inb_S1x1x2098176_S1x1x2048_0_0_1987020 : ∀ a, (![0, 0, 1987020] : Fin 3 → Nat) a + S1x1x2048.size a ≤ S1x1x2098176.size a
  inb_S1x1x2098176_S1x1x2048_0_0_1987491 : ∀ a, (![0, 0, 1987491] : Fin 3 → Nat) a + S1x1x2048.size a ≤ S1x1x2098176.size a
  inb_S1x1x2098176_S1x1x2048_0_0_1987961 : ∀ a, (![0, 0, 1987961] : Fin 3 → Nat) a + S1x1x2048.size a ≤ S1x1x2098176.size a
  inb_S1x1x2098176_S1x1x2048_0_0_1988430 : ∀ a, (![0, 0, 1988430] : Fin 3 → Nat) a + S1x1x2048.size a ≤ S1x1x2098176.size a
  inb_S1x1x2098176_S1x1x2048_0_0_1988898 : ∀ a, (![0, 0, 1988898] : Fin 3 → Nat) a + S1x1x2048.size a ≤ S1x1x2098176.size a
  inb_S1x1x2098176_S1x1x2048_0_0_1989365 : ∀ a, (![0, 0, 1989365] : Fin 3 → Nat) a + S1x1x2048.size a ≤ S1x1x2098176.size a
  inb_S1x1x2098176_S1x1x2048_0_0_1989831 : ∀ a, (![0, 0, 1989831] : Fin 3 → Nat) a + S1x1x2048.size a ≤ S1x1x2098176.size a
  inb_S1x1x2098176_S1x1x2048_0_0_1990296 : ∀ a, (![0, 0, 1990296] : Fin 3 → Nat) a + S1x1x2048.size a ≤ S1x1x2098176.size a
  inb_S1x1x2098176_S1x1x2048_0_0_1990760 : ∀ a, (![0, 0, 1990760] : Fin 3 → Nat) a + S1x1x2048.size a ≤ S1x1x2098176.size a
  inb_S1x1x2098176_S1x1x2048_0_0_1991223 : ∀ a, (![0, 0, 1991223] : Fin 3 → Nat) a + S1x1x2048.size a ≤ S1x1x2098176.size a
  inb_S1x1x2098176_S1x1x2048_0_0_1991685 : ∀ a, (![0, 0, 1991685] : Fin 3 → Nat) a + S1x1x2048.size a ≤ S1x1x2098176.size a
  inb_S1x1x2098176_S1x1x2048_0_0_1992146 : ∀ a, (![0, 0, 1992146] : Fin 3 → Nat) a + S1x1x2048.size a ≤ S1x1x2098176.size a
  inb_S1x1x2098176_S1x1x2048_0_0_1992606 : ∀ a, (![0, 0, 1992606] : Fin 3 → Nat) a + S1x1x2048.size a ≤ S1x1x2098176.size a
  inb_S1x1x2098176_S1x1x2048_0_0_1993065 : ∀ a, (![0, 0, 1993065] : Fin 3 → Nat) a + S1x1x2048.size a ≤ S1x1x2098176.size a
  inb_S1x1x2098176_S1x1x2048_0_0_1993523 : ∀ a, (![0, 0, 1993523] : Fin 3 → Nat) a + S1x1x2048.size a ≤ S1x1x2098176.size a
  inb_S1x1x2098176_S1x1x2048_0_0_1993980 : ∀ a, (![0, 0, 1993980] : Fin 3 → Nat) a + S1x1x2048.size a ≤ S1x1x2098176.size a
  inb_S1x1x2098176_S1x1x2048_0_0_1994436 : ∀ a, (![0, 0, 1994436] : Fin 3 → Nat) a + S1x1x2048.size a ≤ S1x1x2098176.size a
  inb_S1x1x2098176_S1x1x2048_0_0_1994891 : ∀ a, (![0, 0, 1994891] : Fin 3 → Nat) a + S1x1x2048.size a ≤ S1x1x2098176.size a
  inb_S1x1x2098176_S1x1x2048_0_0_1995345 : ∀ a, (![0, 0, 1995345] : Fin 3 → Nat) a + S1x1x2048.size a ≤ S1x1x2098176.size a
  inb_S1x1x2098176_S1x1x2048_0_0_1995798 : ∀ a, (![0, 0, 1995798] : Fin 3 → Nat) a + S1x1x2048.size a ≤ S1x1x2098176.size a
  inb_S1x1x2098176_S1x1x2048_0_0_1996250 : ∀ a, (![0, 0, 1996250] : Fin 3 → Nat) a + S1x1x2048.size a ≤ S1x1x2098176.size a
  inb_S1x1x2098176_S1x1x2048_0_0_1996701 : ∀ a, (![0, 0, 1996701] : Fin 3 → Nat) a + S1x1x2048.size a ≤ S1x1x2098176.size a
  inb_S1x1x2098176_S1x1x2048_0_0_1997151 : ∀ a, (![0, 0, 1997151] : Fin 3 → Nat) a + S1x1x2048.size a ≤ S1x1x2098176.size a
  inb_S1x1x2098176_S1x1x2048_0_0_1997600 : ∀ a, (![0, 0, 1997600] : Fin 3 → Nat) a + S1x1x2048.size a ≤ S1x1x2098176.size a
  inb_S1x1x2098176_S1x1x2048_0_0_1998048 : ∀ a, (![0, 0, 1998048] : Fin 3 → Nat) a + S1x1x2048.size a ≤ S1x1x2098176.size a
  inb_S1x1x2098176_S1x1x2048_0_0_1998495 : ∀ a, (![0, 0, 1998495] : Fin 3 → Nat) a + S1x1x2048.size a ≤ S1x1x2098176.size a
  inb_S1x1x2098176_S1x1x2048_0_0_1998941 : ∀ a, (![0, 0, 1998941] : Fin 3 → Nat) a + S1x1x2048.size a ≤ S1x1x2098176.size a
  inb_S1x1x2098176_S1x1x2048_0_0_1999386 : ∀ a, (![0, 0, 1999386] : Fin 3 → Nat) a + S1x1x2048.size a ≤ S1x1x2098176.size a
  inb_S1x1x2098176_S1x1x2048_0_0_1999830 : ∀ a, (![0, 0, 1999830] : Fin 3 → Nat) a + S1x1x2048.size a ≤ S1x1x2098176.size a
  inb_S1x1x2098176_S1x1x2048_0_0_2000273 : ∀ a, (![0, 0, 2000273] : Fin 3 → Nat) a + S1x1x2048.size a ≤ S1x1x2098176.size a
  inb_S1x1x2098176_S1x1x2048_0_0_2000715 : ∀ a, (![0, 0, 2000715] : Fin 3 → Nat) a + S1x1x2048.size a ≤ S1x1x2098176.size a
  inb_S1x1x2098176_S1x1x2048_0_0_2001156 : ∀ a, (![0, 0, 2001156] : Fin 3 → Nat) a + S1x1x2048.size a ≤ S1x1x2098176.size a
  inb_S1x1x2098176_S1x1x2048_0_0_2001596 : ∀ a, (![0, 0, 2001596] : Fin 3 → Nat) a + S1x1x2048.size a ≤ S1x1x2098176.size a
  inb_S1x1x2098176_S1x1x2048_0_0_2002035 : ∀ a, (![0, 0, 2002035] : Fin 3 → Nat) a + S1x1x2048.size a ≤ S1x1x2098176.size a
  inb_S1x1x2098176_S1x1x2048_0_0_2002473 : ∀ a, (![0, 0, 2002473] : Fin 3 → Nat) a + S1x1x2048.size a ≤ S1x1x2098176.size a
  inb_S1x1x2098176_S1x1x2048_0_0_2002910 : ∀ a, (![0, 0, 2002910] : Fin 3 → Nat) a + S1x1x2048.size a ≤ S1x1x2098176.size a
  inb_S1x1x2098176_S1x1x2048_0_0_2003346 : ∀ a, (![0, 0, 2003346] : Fin 3 → Nat) a + S1x1x2048.size a ≤ S1x1x2098176.size a
  inb_S1x1x2098176_S1x1x2048_0_0_2003781 : ∀ a, (![0, 0, 2003781] : Fin 3 → Nat) a + S1x1x2048.size a ≤ S1x1x2098176.size a
  inb_S1x1x2098176_S1x1x2048_0_0_2004215 : ∀ a, (![0, 0, 2004215] : Fin 3 → Nat) a + S1x1x2048.size a ≤ S1x1x2098176.size a
  inb_S1x1x2098176_S1x1x2048_0_0_2004648 : ∀ a, (![0, 0, 2004648] : Fin 3 → Nat) a + S1x1x2048.size a ≤ S1x1x2098176.size a
  inb_S1x1x2098176_S1x1x2048_0_0_2005080 : ∀ a, (![0, 0, 2005080] : Fin 3 → Nat) a + S1x1x2048.size a ≤ S1x1x2098176.size a
  inb_S1x1x2098176_S1x1x2048_0_0_2005511 : ∀ a, (![0, 0, 2005511] : Fin 3 → Nat) a + S1x1x2048.size a ≤ S1x1x2098176.size a
  inb_S1x1x2098176_S1x1x2048_0_0_2005941 : ∀ a, (![0, 0, 2005941] : Fin 3 → Nat) a + S1x1x2048.size a ≤ S1x1x2098176.size a
  inb_S1x1x2098176_S1x1x2048_0_0_2006370 : ∀ a, (![0, 0, 2006370] : Fin 3 → Nat) a + S1x1x2048.size a ≤ S1x1x2098176.size a
  inb_S1x1x2098176_S1x1x2048_0_0_2006798 : ∀ a, (![0, 0, 2006798] : Fin 3 → Nat) a + S1x1x2048.size a ≤ S1x1x2098176.size a
  inb_S1x1x2098176_S1x1x2048_0_0_2007225 : ∀ a, (![0, 0, 2007225] : Fin 3 → Nat) a + S1x1x2048.size a ≤ S1x1x2098176.size a
  inb_S1x1x2098176_S1x1x2048_0_0_2007651 : ∀ a, (![0, 0, 2007651] : Fin 3 → Nat) a + S1x1x2048.size a ≤ S1x1x2098176.size a
  inb_S1x1x2098176_S1x1x2048_0_0_2008076 : ∀ a, (![0, 0, 2008076] : Fin 3 → Nat) a + S1x1x2048.size a ≤ S1x1x2098176.size a
  inb_S1x1x2098176_S1x1x2048_0_0_2008500 : ∀ a, (![0, 0, 2008500] : Fin 3 → Nat) a + S1x1x2048.size a ≤ S1x1x2098176.size a
  inb_S1x1x2098176_S1x1x2048_0_0_2008923 : ∀ a, (![0, 0, 2008923] : Fin 3 → Nat) a + S1x1x2048.size a ≤ S1x1x2098176.size a
  inb_S1x1x2098176_S1x1x2048_0_0_2009345 : ∀ a, (![0, 0, 2009345] : Fin 3 → Nat) a + S1x1x2048.size a ≤ S1x1x2098176.size a
  inb_S1x1x2098176_S1x1x2048_0_0_2009766 : ∀ a, (![0, 0, 2009766] : Fin 3 → Nat) a + S1x1x2048.size a ≤ S1x1x2098176.size a
  inb_S1x1x2098176_S1x1x2048_0_0_2010186 : ∀ a, (![0, 0, 2010186] : Fin 3 → Nat) a + S1x1x2048.size a ≤ S1x1x2098176.size a
  inb_S1x1x2098176_S1x1x2048_0_0_2010605 : ∀ a, (![0, 0, 2010605] : Fin 3 → Nat) a + S1x1x2048.size a ≤ S1x1x2098176.size a
  inb_S1x1x2098176_S1x1x2048_0_0_2011023 : ∀ a, (![0, 0, 2011023] : Fin 3 → Nat) a + S1x1x2048.size a ≤ S1x1x2098176.size a
  inb_S1x1x2098176_S1x1x2048_0_0_2011440 : ∀ a, (![0, 0, 2011440] : Fin 3 → Nat) a + S1x1x2048.size a ≤ S1x1x2098176.size a
  inb_S1x1x2098176_S1x1x2048_0_0_2011856 : ∀ a, (![0, 0, 2011856] : Fin 3 → Nat) a + S1x1x2048.size a ≤ S1x1x2098176.size a
  inb_S1x1x2098176_S1x1x2048_0_0_2012271 : ∀ a, (![0, 0, 2012271] : Fin 3 → Nat) a + S1x1x2048.size a ≤ S1x1x2098176.size a
  inb_S1x1x2098176_S1x1x2048_0_0_2012685 : ∀ a, (![0, 0, 2012685] : Fin 3 → Nat) a + S1x1x2048.size a ≤ S1x1x2098176.size a
  inb_S1x1x2098176_S1x1x2048_0_0_2013098 : ∀ a, (![0, 0, 2013098] : Fin 3 → Nat) a + S1x1x2048.size a ≤ S1x1x2098176.size a
  inb_S1x1x2098176_S1x1x2048_0_0_2013510 : ∀ a, (![0, 0, 2013510] : Fin 3 → Nat) a + S1x1x2048.size a ≤ S1x1x2098176.size a
  inb_S1x1x2098176_S1x1x2048_0_0_2013921 : ∀ a, (![0, 0, 2013921] : Fin 3 → Nat) a + S1x1x2048.size a ≤ S1x1x2098176.size a
  inb_S1x1x2098176_S1x1x2048_0_0_2014331 : ∀ a, (![0, 0, 2014331] : Fin 3 → Nat) a + S1x1x2048.size a ≤ S1x1x2098176.size a
  inb_S1x1x2098176_S1x1x2048_0_0_2014740 : ∀ a, (![0, 0, 2014740] : Fin 3 → Nat) a + S1x1x2048.size a ≤ S1x1x2098176.size a
  inb_S1x1x2098176_S1x1x2048_0_0_2015148 : ∀ a, (![0, 0, 2015148] : Fin 3 → Nat) a + S1x1x2048.size a ≤ S1x1x2098176.size a
  inb_S1x1x2098176_S1x1x2048_0_0_2015555 : ∀ a, (![0, 0, 2015555] : Fin 3 → Nat) a + S1x1x2048.size a ≤ S1x1x2098176.size a
  inb_S1x1x2098176_S1x1x2048_0_0_2015961 : ∀ a, (![0, 0, 2015961] : Fin 3 → Nat) a + S1x1x2048.size a ≤ S1x1x2098176.size a
  inb_S1x1x2098176_S1x1x2048_0_0_2016366 : ∀ a, (![0, 0, 2016366] : Fin 3 → Nat) a + S1x1x2048.size a ≤ S1x1x2098176.size a
  inb_S1x1x2098176_S1x1x2048_0_0_2016770 : ∀ a, (![0, 0, 2016770] : Fin 3 → Nat) a + S1x1x2048.size a ≤ S1x1x2098176.size a
  inb_S1x1x2098176_S1x1x2048_0_0_2017173 : ∀ a, (![0, 0, 2017173] : Fin 3 → Nat) a + S1x1x2048.size a ≤ S1x1x2098176.size a
  inb_S1x1x2098176_S1x1x2048_0_0_2017575 : ∀ a, (![0, 0, 2017575] : Fin 3 → Nat) a + S1x1x2048.size a ≤ S1x1x2098176.size a
  inb_S1x1x2098176_S1x1x2048_0_0_2017976 : ∀ a, (![0, 0, 2017976] : Fin 3 → Nat) a + S1x1x2048.size a ≤ S1x1x2098176.size a
  inb_S1x1x2098176_S1x1x2048_0_0_2018376 : ∀ a, (![0, 0, 2018376] : Fin 3 → Nat) a + S1x1x2048.size a ≤ S1x1x2098176.size a
  inb_S1x1x2098176_S1x1x2048_0_0_2018775 : ∀ a, (![0, 0, 2018775] : Fin 3 → Nat) a + S1x1x2048.size a ≤ S1x1x2098176.size a
  inb_S1x1x2098176_S1x1x2048_0_0_2019173 : ∀ a, (![0, 0, 2019173] : Fin 3 → Nat) a + S1x1x2048.size a ≤ S1x1x2098176.size a
  inb_S1x1x2098176_S1x1x2048_0_0_2019570 : ∀ a, (![0, 0, 2019570] : Fin 3 → Nat) a + S1x1x2048.size a ≤ S1x1x2098176.size a
  inb_S1x1x2098176_S1x1x2048_0_0_2019966 : ∀ a, (![0, 0, 2019966] : Fin 3 → Nat) a + S1x1x2048.size a ≤ S1x1x2098176.size a
  inb_S1x1x2098176_S1x1x2048_0_0_2020361 : ∀ a, (![0, 0, 2020361] : Fin 3 → Nat) a + S1x1x2048.size a ≤ S1x1x2098176.size a
  inb_S1x1x2098176_S1x1x2048_0_0_2020755 : ∀ a, (![0, 0, 2020755] : Fin 3 → Nat) a + S1x1x2048.size a ≤ S1x1x2098176.size a
  inb_S1x1x2098176_S1x1x2048_0_0_2021148 : ∀ a, (![0, 0, 2021148] : Fin 3 → Nat) a + S1x1x2048.size a ≤ S1x1x2098176.size a
  inb_S1x1x2098176_S1x1x2048_0_0_2021540 : ∀ a, (![0, 0, 2021540] : Fin 3 → Nat) a + S1x1x2048.size a ≤ S1x1x2098176.size a
  inb_S1x1x2098176_S1x1x2048_0_0_2021931 : ∀ a, (![0, 0, 2021931] : Fin 3 → Nat) a + S1x1x2048.size a ≤ S1x1x2098176.size a
  inb_S1x1x2098176_S1x1x2048_0_0_2022321 : ∀ a, (![0, 0, 2022321] : Fin 3 → Nat) a + S1x1x2048.size a ≤ S1x1x2098176.size a
  inb_S1x1x2098176_S1x1x2048_0_0_2022710 : ∀ a, (![0, 0, 2022710] : Fin 3 → Nat) a + S1x1x2048.size a ≤ S1x1x2098176.size a
  inb_S1x1x2098176_S1x1x2048_0_0_2023098 : ∀ a, (![0, 0, 2023098] : Fin 3 → Nat) a + S1x1x2048.size a ≤ S1x1x2098176.size a
  inb_S1x1x2098176_S1x1x2048_0_0_2023485 : ∀ a, (![0, 0, 2023485] : Fin 3 → Nat) a + S1x1x2048.size a ≤ S1x1x2098176.size a
  inb_S1x1x2098176_S1x1x2048_0_0_2023871 : ∀ a, (![0, 0, 2023871] : Fin 3 → Nat) a + S1x1x2048.size a ≤ S1x1x2098176.size a
  inb_S1x1x2098176_S1x1x2048_0_0_2024256 : ∀ a, (![0, 0, 2024256] : Fin 3 → Nat) a + S1x1x2048.size a ≤ S1x1x2098176.size a
  inb_S1x1x2098176_S1x1x2048_0_0_2024640 : ∀ a, (![0, 0, 2024640] : Fin 3 → Nat) a + S1x1x2048.size a ≤ S1x1x2098176.size a
  inb_S1x1x2098176_S1x1x2048_0_0_2025023 : ∀ a, (![0, 0, 2025023] : Fin 3 → Nat) a + S1x1x2048.size a ≤ S1x1x2098176.size a
  inb_S1x1x2098176_S1x1x2048_0_0_2025405 : ∀ a, (![0, 0, 2025405] : Fin 3 → Nat) a + S1x1x2048.size a ≤ S1x1x2098176.size a
  inb_S1x1x2098176_S1x1x2048_0_0_2025786 : ∀ a, (![0, 0, 2025786] : Fin 3 → Nat) a + S1x1x2048.size a ≤ S1x1x2098176.size a
  inb_S1x1x2098176_S1x1x2048_0_0_2026166 : ∀ a, (![0, 0, 2026166] : Fin 3 → Nat) a + S1x1x2048.size a ≤ S1x1x2098176.size a
  inb_S1x1x2098176_S1x1x2048_0_0_2026545 : ∀ a, (![0, 0, 2026545] : Fin 3 → Nat) a + S1x1x2048.size a ≤ S1x1x2098176.size a
  inb_S1x1x2098176_S1x1x2048_0_0_2026923 : ∀ a, (![0, 0, 2026923] : Fin 3 → Nat) a + S1x1x2048.size a ≤ S1x1x2098176.size a
  inb_S1x1x2098176_S1x1x2048_0_0_2027300 : ∀ a, (![0, 0, 2027300] : Fin 3 → Nat) a + S1x1x2048.size a ≤ S1x1x2098176.size a
  inb_S1x1x2098176_S1x1x2048_0_0_2027676 : ∀ a, (![0, 0, 2027676] : Fin 3 → Nat) a + S1x1x2048.size a ≤ S1x1x2098176.size a
  inb_S1x1x2098176_S1x1x2048_0_0_2028051 : ∀ a, (![0, 0, 2028051] : Fin 3 → Nat) a + S1x1x2048.size a ≤ S1x1x2098176.size a
  inb_S1x1x2098176_S1x1x2048_0_0_2028425 : ∀ a, (![0, 0, 2028425] : Fin 3 → Nat) a + S1x1x2048.size a ≤ S1x1x2098176.size a
  inb_S1x1x2098176_S1x1x2048_0_0_2028798 : ∀ a, (![0, 0, 2028798] : Fin 3 → Nat) a + S1x1x2048.size a ≤ S1x1x2098176.size a
  inb_S1x1x2098176_S1x1x2048_0_0_2029170 : ∀ a, (![0, 0, 2029170] : Fin 3 → Nat) a + S1x1x2048.size a ≤ S1x1x2098176.size a
  inb_S1x1x2098176_S1x1x2048_0_0_2029541 : ∀ a, (![0, 0, 2029541] : Fin 3 → Nat) a + S1x1x2048.size a ≤ S1x1x2098176.size a
  inb_S1x1x2098176_S1x1x2048_0_0_2029911 : ∀ a, (![0, 0, 2029911] : Fin 3 → Nat) a + S1x1x2048.size a ≤ S1x1x2098176.size a
  inb_S1x1x2098176_S1x1x2048_0_0_2030280 : ∀ a, (![0, 0, 2030280] : Fin 3 → Nat) a + S1x1x2048.size a ≤ S1x1x2098176.size a
  inb_S1x1x2098176_S1x1x2048_0_0_2030648 : ∀ a, (![0, 0, 2030648] : Fin 3 → Nat) a + S1x1x2048.size a ≤ S1x1x2098176.size a
  inb_S1x1x2098176_S1x1x2048_0_0_2031015 : ∀ a, (![0, 0, 2031015] : Fin 3 → Nat) a + S1x1x2048.size a ≤ S1x1x2098176.size a
  inb_S1x1x2098176_S1x1x2048_0_0_2031381 : ∀ a, (![0, 0, 2031381] : Fin 3 → Nat) a + S1x1x2048.size a ≤ S1x1x2098176.size a
  inb_S1x1x2098176_S1x1x2048_0_0_2031746 : ∀ a, (![0, 0, 2031746] : Fin 3 → Nat) a + S1x1x2048.size a ≤ S1x1x2098176.size a
  inb_S1x1x2098176_S1x1x2048_0_0_2032110 : ∀ a, (![0, 0, 2032110] : Fin 3 → Nat) a + S1x1x2048.size a ≤ S1x1x2098176.size a
  inb_S1x1x2098176_S1x1x2048_0_0_2032473 : ∀ a, (![0, 0, 2032473] : Fin 3 → Nat) a + S1x1x2048.size a ≤ S1x1x2098176.size a
  inb_S1x1x2098176_S1x1x2048_0_0_2032835 : ∀ a, (![0, 0, 2032835] : Fin 3 → Nat) a + S1x1x2048.size a ≤ S1x1x2098176.size a
  inb_S1x1x2098176_S1x1x2048_0_0_2033196 : ∀ a, (![0, 0, 2033196] : Fin 3 → Nat) a + S1x1x2048.size a ≤ S1x1x2098176.size a
  inb_S1x1x2098176_S1x1x2048_0_0_2033556 : ∀ a, (![0, 0, 2033556] : Fin 3 → Nat) a + S1x1x2048.size a ≤ S1x1x2098176.size a
  inb_S1x1x2098176_S1x1x2048_0_0_2033915 : ∀ a, (![0, 0, 2033915] : Fin 3 → Nat) a + S1x1x2048.size a ≤ S1x1x2098176.size a
  inb_S1x1x2098176_S1x1x2048_0_0_2034273 : ∀ a, (![0, 0, 2034273] : Fin 3 → Nat) a + S1x1x2048.size a ≤ S1x1x2098176.size a
  inb_S1x1x2098176_S1x1x2048_0_0_2034630 : ∀ a, (![0, 0, 2034630] : Fin 3 → Nat) a + S1x1x2048.size a ≤ S1x1x2098176.size a
  inb_S1x1x2098176_S1x1x2048_0_0_2034986 : ∀ a, (![0, 0, 2034986] : Fin 3 → Nat) a + S1x1x2048.size a ≤ S1x1x2098176.size a
  inb_S1x1x2098176_S1x1x2048_0_0_2035341 : ∀ a, (![0, 0, 2035341] : Fin 3 → Nat) a + S1x1x2048.size a ≤ S1x1x2098176.size a
  inb_S1x1x2098176_S1x1x2048_0_0_2035695 : ∀ a, (![0, 0, 2035695] : Fin 3 → Nat) a + S1x1x2048.size a ≤ S1x1x2098176.size a
  inb_S1x1x2098176_S1x1x2048_0_0_2036048 : ∀ a, (![0, 0, 2036048] : Fin 3 → Nat) a + S1x1x2048.size a ≤ S1x1x2098176.size a
  inb_S1x1x2098176_S1x1x2048_0_0_2036400 : ∀ a, (![0, 0, 2036400] : Fin 3 → Nat) a + S1x1x2048.size a ≤ S1x1x2098176.size a
  inb_S1x1x2098176_S1x1x2048_0_0_2036751 : ∀ a, (![0, 0, 2036751] : Fin 3 → Nat) a + S1x1x2048.size a ≤ S1x1x2098176.size a
  inb_S1x1x2098176_S1x1x2048_0_0_2037101 : ∀ a, (![0, 0, 2037101] : Fin 3 → Nat) a + S1x1x2048.size a ≤ S1x1x2098176.size a
  inb_S1x1x2098176_S1x1x2048_0_0_2037450 : ∀ a, (![0, 0, 2037450] : Fin 3 → Nat) a + S1x1x2048.size a ≤ S1x1x2098176.size a
  inb_S1x1x2098176_S1x1x2048_0_0_2037798 : ∀ a, (![0, 0, 2037798] : Fin 3 → Nat) a + S1x1x2048.size a ≤ S1x1x2098176.size a
  inb_S1x1x2098176_S1x1x2048_0_0_2038145 : ∀ a, (![0, 0, 2038145] : Fin 3 → Nat) a + S1x1x2048.size a ≤ S1x1x2098176.size a
  inb_S1x1x2098176_S1x1x2048_0_0_2038491 : ∀ a, (![0, 0, 2038491] : Fin 3 → Nat) a + S1x1x2048.size a ≤ S1x1x2098176.size a
  inb_S1x1x2098176_S1x1x2048_0_0_2038836 : ∀ a, (![0, 0, 2038836] : Fin 3 → Nat) a + S1x1x2048.size a ≤ S1x1x2098176.size a
  inb_S1x1x2098176_S1x1x2048_0_0_2039180 : ∀ a, (![0, 0, 2039180] : Fin 3 → Nat) a + S1x1x2048.size a ≤ S1x1x2098176.size a
  inb_S1x1x2098176_S1x1x2048_0_0_2039523 : ∀ a, (![0, 0, 2039523] : Fin 3 → Nat) a + S1x1x2048.size a ≤ S1x1x2098176.size a
  inb_S1x1x2098176_S1x1x2048_0_0_2039865 : ∀ a, (![0, 0, 2039865] : Fin 3 → Nat) a + S1x1x2048.size a ≤ S1x1x2098176.size a
  inb_S1x1x2098176_S1x1x2048_0_0_2040206 : ∀ a, (![0, 0, 2040206] : Fin 3 → Nat) a + S1x1x2048.size a ≤ S1x1x2098176.size a
  inb_S1x1x2098176_S1x1x2048_0_0_2040546 : ∀ a, (![0, 0, 2040546] : Fin 3 → Nat) a + S1x1x2048.size a ≤ S1x1x2098176.size a
  inb_S1x1x2098176_S1x1x2048_0_0_2040885 : ∀ a, (![0, 0, 2040885] : Fin 3 → Nat) a + S1x1x2048.size a ≤ S1x1x2098176.size a
  inb_S1x1x2098176_S1x1x2048_0_0_2041223 : ∀ a, (![0, 0, 2041223] : Fin 3 → Nat) a + S1x1x2048.size a ≤ S1x1x2098176.size a
  inb_S1x1x2098176_S1x1x2048_0_0_2041560 : ∀ a, (![0, 0, 2041560] : Fin 3 → Nat) a + S1x1x2048.size a ≤ S1x1x2098176.size a
  inb_S1x1x2098176_S1x1x2048_0_0_2041896 : ∀ a, (![0, 0, 2041896] : Fin 3 → Nat) a + S1x1x2048.size a ≤ S1x1x2098176.size a
  inb_S1x1x2098176_S1x1x2048_0_0_2042231 : ∀ a, (![0, 0, 2042231] : Fin 3 → Nat) a + S1x1x2048.size a ≤ S1x1x2098176.size a
  inb_S1x1x2098176_S1x1x2048_0_0_2042565 : ∀ a, (![0, 0, 2042565] : Fin 3 → Nat) a + S1x1x2048.size a ≤ S1x1x2098176.size a
  inb_S1x1x2098176_S1x1x2048_0_0_2042898 : ∀ a, (![0, 0, 2042898] : Fin 3 → Nat) a + S1x1x2048.size a ≤ S1x1x2098176.size a
  inb_S1x1x2098176_S1x1x2048_0_0_2043230 : ∀ a, (![0, 0, 2043230] : Fin 3 → Nat) a + S1x1x2048.size a ≤ S1x1x2098176.size a
  inb_S1x1x2098176_S1x1x2048_0_0_2043561 : ∀ a, (![0, 0, 2043561] : Fin 3 → Nat) a + S1x1x2048.size a ≤ S1x1x2098176.size a
  inb_S1x1x2098176_S1x1x2048_0_0_2043891 : ∀ a, (![0, 0, 2043891] : Fin 3 → Nat) a + S1x1x2048.size a ≤ S1x1x2098176.size a
  inb_S1x1x2098176_S1x1x2048_0_0_2044220 : ∀ a, (![0, 0, 2044220] : Fin 3 → Nat) a + S1x1x2048.size a ≤ S1x1x2098176.size a
  inb_S1x1x2098176_S1x1x2048_0_0_2044548 : ∀ a, (![0, 0, 2044548] : Fin 3 → Nat) a + S1x1x2048.size a ≤ S1x1x2098176.size a
  inb_S1x1x2098176_S1x1x2048_0_0_2044875 : ∀ a, (![0, 0, 2044875] : Fin 3 → Nat) a + S1x1x2048.size a ≤ S1x1x2098176.size a
  inb_S1x1x2098176_S1x1x2048_0_0_2045201 : ∀ a, (![0, 0, 2045201] : Fin 3 → Nat) a + S1x1x2048.size a ≤ S1x1x2098176.size a
  inb_S1x1x2098176_S1x1x2048_0_0_2045526 : ∀ a, (![0, 0, 2045526] : Fin 3 → Nat) a + S1x1x2048.size a ≤ S1x1x2098176.size a
  inb_S1x1x2098176_S1x1x2048_0_0_2045850 : ∀ a, (![0, 0, 2045850] : Fin 3 → Nat) a + S1x1x2048.size a ≤ S1x1x2098176.size a
  inb_S1x1x2098176_S1x1x2048_0_0_2046173 : ∀ a, (![0, 0, 2046173] : Fin 3 → Nat) a + S1x1x2048.size a ≤ S1x1x2098176.size a
  inb_S1x1x2098176_S1x1x2048_0_0_2046495 : ∀ a, (![0, 0, 2046495] : Fin 3 → Nat) a + S1x1x2048.size a ≤ S1x1x2098176.size a
  inb_S1x1x2098176_S1x1x2048_0_0_2046816 : ∀ a, (![0, 0, 2046816] : Fin 3 → Nat) a + S1x1x2048.size a ≤ S1x1x2098176.size a
  inb_S1x1x2098176_S1x1x2048_0_0_2047136 : ∀ a, (![0, 0, 2047136] : Fin 3 → Nat) a + S1x1x2048.size a ≤ S1x1x2098176.size a
  inb_S1x1x2098176_S1x1x2048_0_0_2047455 : ∀ a, (![0, 0, 2047455] : Fin 3 → Nat) a + S1x1x2048.size a ≤ S1x1x2098176.size a
  inb_S1x1x2098176_S1x1x2048_0_0_2047773 : ∀ a, (![0, 0, 2047773] : Fin 3 → Nat) a + S1x1x2048.size a ≤ S1x1x2098176.size a
  inb_S1x1x2098176_S1x1x2048_0_0_2048090 : ∀ a, (![0, 0, 2048090] : Fin 3 → Nat) a + S1x1x2048.size a ≤ S1x1x2098176.size a
  inb_S1x1x2098176_S1x1x2048_0_0_2048406 : ∀ a, (![0, 0, 2048406] : Fin 3 → Nat) a + S1x1x2048.size a ≤ S1x1x2098176.size a
  inb_S1x1x2098176_S1x1x2048_0_0_2048721 : ∀ a, (![0, 0, 2048721] : Fin 3 → Nat) a + S1x1x2048.size a ≤ S1x1x2098176.size a
  inb_S1x1x2098176_S1x1x2048_0_0_2049035 : ∀ a, (![0, 0, 2049035] : Fin 3 → Nat) a + S1x1x2048.size a ≤ S1x1x2098176.size a
  inb_S1x1x2098176_S1x1x2048_0_0_2049348 : ∀ a, (![0, 0, 2049348] : Fin 3 → Nat) a + S1x1x2048.size a ≤ S1x1x2098176.size a
  inb_S1x1x2098176_S1x1x2048_0_0_2049660 : ∀ a, (![0, 0, 2049660] : Fin 3 → Nat) a + S1x1x2048.size a ≤ S1x1x2098176.size a
  inb_S1x1x2098176_S1x1x2048_0_0_2049971 : ∀ a, (![0, 0, 2049971] : Fin 3 → Nat) a + S1x1x2048.size a ≤ S1x1x2098176.size a
  inb_S1x1x2098176_S1x1x2048_0_0_2050281 : ∀ a, (![0, 0, 2050281] : Fin 3 → Nat) a + S1x1x2048.size a ≤ S1x1x2098176.size a
  inb_S1x1x2098176_S1x1x2048_0_0_2050590 : ∀ a, (![0, 0, 2050590] : Fin 3 → Nat) a + S1x1x2048.size a ≤ S1x1x2098176.size a
  inb_S1x1x2098176_S1x1x2048_0_0_2050898 : ∀ a, (![0, 0, 2050898] : Fin 3 → Nat) a + S1x1x2048.size a ≤ S1x1x2098176.size a
  inb_S1x1x2098176_S1x1x2048_0_0_2051205 : ∀ a, (![0, 0, 2051205] : Fin 3 → Nat) a + S1x1x2048.size a ≤ S1x1x2098176.size a
  inb_S1x1x2098176_S1x1x2048_0_0_2051511 : ∀ a, (![0, 0, 2051511] : Fin 3 → Nat) a + S1x1x2048.size a ≤ S1x1x2098176.size a
  inb_S1x1x2098176_S1x1x2048_0_0_2051816 : ∀ a, (![0, 0, 2051816] : Fin 3 → Nat) a + S1x1x2048.size a ≤ S1x1x2098176.size a
  inb_S1x1x2098176_S1x1x2048_0_0_2052120 : ∀ a, (![0, 0, 2052120] : Fin 3 → Nat) a + S1x1x2048.size a ≤ S1x1x2098176.size a
  inb_S1x1x2098176_S1x1x2048_0_0_2052423 : ∀ a, (![0, 0, 2052423] : Fin 3 → Nat) a + S1x1x2048.size a ≤ S1x1x2098176.size a
  inb_S1x1x2098176_S1x1x2048_0_0_2052725 : ∀ a, (![0, 0, 2052725] : Fin 3 → Nat) a + S1x1x2048.size a ≤ S1x1x2098176.size a
  inb_S1x1x2098176_S1x1x2048_0_0_2053026 : ∀ a, (![0, 0, 2053026] : Fin 3 → Nat) a + S1x1x2048.size a ≤ S1x1x2098176.size a
  inb_S1x1x2098176_S1x1x2048_0_0_2053326 : ∀ a, (![0, 0, 2053326] : Fin 3 → Nat) a + S1x1x2048.size a ≤ S1x1x2098176.size a
  inb_S1x1x2098176_S1x1x2048_0_0_2053625 : ∀ a, (![0, 0, 2053625] : Fin 3 → Nat) a + S1x1x2048.size a ≤ S1x1x2098176.size a
  inb_S1x1x2098176_S1x1x2048_0_0_2053923 : ∀ a, (![0, 0, 2053923] : Fin 3 → Nat) a + S1x1x2048.size a ≤ S1x1x2098176.size a
  inb_S1x1x2098176_S1x1x2048_0_0_2054220 : ∀ a, (![0, 0, 2054220] : Fin 3 → Nat) a + S1x1x2048.size a ≤ S1x1x2098176.size a
  inb_S1x1x2098176_S1x1x2048_0_0_2054516 : ∀ a, (![0, 0, 2054516] : Fin 3 → Nat) a + S1x1x2048.size a ≤ S1x1x2098176.size a
  inb_S1x1x2098176_S1x1x2048_0_0_2054811 : ∀ a, (![0, 0, 2054811] : Fin 3 → Nat) a + S1x1x2048.size a ≤ S1x1x2098176.size a
  inb_S1x1x2098176_S1x1x2048_0_0_2055105 : ∀ a, (![0, 0, 2055105] : Fin 3 → Nat) a + S1x1x2048.size a ≤ S1x1x2098176.size a
  inb_S1x1x2098176_S1x1x2048_0_0_2055398 : ∀ a, (![0, 0, 2055398] : Fin 3 → Nat) a + S1x1x2048.size a ≤ S1x1x2098176.size a
  inb_S1x1x2098176_S1x1x2048_0_0_2055690 : ∀ a, (![0, 0, 2055690] : Fin 3 → Nat) a + S1x1x2048.size a ≤ S1x1x2098176.size a
  inb_S1x1x2098176_S1x1x2048_0_0_2055981 : ∀ a, (![0, 0, 2055981] : Fin 3 → Nat) a + S1x1x2048.size a ≤ S1x1x2098176.size a
  inb_S1x1x2098176_S1x1x2048_0_0_2056271 : ∀ a, (![0, 0, 2056271] : Fin 3 → Nat) a + S1x1x2048.size a ≤ S1x1x2098176.size a
  inb_S1x1x2098176_S1x1x2048_0_0_2056560 : ∀ a, (![0, 0, 2056560] : Fin 3 → Nat) a + S1x1x2048.size a ≤ S1x1x2098176.size a
  inb_S1x1x2098176_S1x1x2048_0_0_2056848 : ∀ a, (![0, 0, 2056848] : Fin 3 → Nat) a + S1x1x2048.size a ≤ S1x1x2098176.size a
  inb_S1x1x2098176_S1x1x2048_0_0_2057135 : ∀ a, (![0, 0, 2057135] : Fin 3 → Nat) a + S1x1x2048.size a ≤ S1x1x2098176.size a
  inb_S1x1x2098176_S1x1x2048_0_0_2057421 : ∀ a, (![0, 0, 2057421] : Fin 3 → Nat) a + S1x1x2048.size a ≤ S1x1x2098176.size a
  inb_S1x1x2098176_S1x1x2048_0_0_2057706 : ∀ a, (![0, 0, 2057706] : Fin 3 → Nat) a + S1x1x2048.size a ≤ S1x1x2098176.size a
  inb_S1x1x2098176_S1x1x2048_0_0_2057990 : ∀ a, (![0, 0, 2057990] : Fin 3 → Nat) a + S1x1x2048.size a ≤ S1x1x2098176.size a
  inb_S1x1x2098176_S1x1x2048_0_0_2058273 : ∀ a, (![0, 0, 2058273] : Fin 3 → Nat) a + S1x1x2048.size a ≤ S1x1x2098176.size a
  inb_S1x1x2098176_S1x1x2048_0_0_2058555 : ∀ a, (![0, 0, 2058555] : Fin 3 → Nat) a + S1x1x2048.size a ≤ S1x1x2098176.size a
  inb_S1x1x2098176_S1x1x2048_0_0_2058836 : ∀ a, (![0, 0, 2058836] : Fin 3 → Nat) a + S1x1x2048.size a ≤ S1x1x2098176.size a
  inb_S1x1x2098176_S1x1x2048_0_0_2059116 : ∀ a, (![0, 0, 2059116] : Fin 3 → Nat) a + S1x1x2048.size a ≤ S1x1x2098176.size a
  inb_S1x1x2098176_S1x1x2048_0_0_2059395 : ∀ a, (![0, 0, 2059395] : Fin 3 → Nat) a + S1x1x2048.size a ≤ S1x1x2098176.size a
  inb_S1x1x2098176_S1x1x2048_0_0_2059673 : ∀ a, (![0, 0, 2059673] : Fin 3 → Nat) a + S1x1x2048.size a ≤ S1x1x2098176.size a
  inb_S1x1x2098176_S1x1x2048_0_0_2059950 : ∀ a, (![0, 0, 2059950] : Fin 3 → Nat) a + S1x1x2048.size a ≤ S1x1x2098176.size a
  inb_S1x1x2098176_S1x1x2048_0_0_2060226 : ∀ a, (![0, 0, 2060226] : Fin 3 → Nat) a + S1x1x2048.size a ≤ S1x1x2098176.size a
  inb_S1x1x2098176_S1x1x2048_0_0_2060501 : ∀ a, (![0, 0, 2060501] : Fin 3 → Nat) a + S1x1x2048.size a ≤ S1x1x2098176.size a
  inb_S1x1x2098176_S1x1x2048_0_0_2060775 : ∀ a, (![0, 0, 2060775] : Fin 3 → Nat) a + S1x1x2048.size a ≤ S1x1x2098176.size a
  inb_S1x1x2098176_S1x1x2048_0_0_2061048 : ∀ a, (![0, 0, 2061048] : Fin 3 → Nat) a + S1x1x2048.size a ≤ S1x1x2098176.size a
  inb_S1x1x2098176_S1x1x2048_0_0_2061320 : ∀ a, (![0, 0, 2061320] : Fin 3 → Nat) a + S1x1x2048.size a ≤ S1x1x2098176.size a
  inb_S1x1x2098176_S1x1x2048_0_0_2061591 : ∀ a, (![0, 0, 2061591] : Fin 3 → Nat) a + S1x1x2048.size a ≤ S1x1x2098176.size a
  inb_S1x1x2098176_S1x1x2048_0_0_2061861 : ∀ a, (![0, 0, 2061861] : Fin 3 → Nat) a + S1x1x2048.size a ≤ S1x1x2098176.size a
  inb_S1x1x2098176_S1x1x2048_0_0_2062130 : ∀ a, (![0, 0, 2062130] : Fin 3 → Nat) a + S1x1x2048.size a ≤ S1x1x2098176.size a
  inb_S1x1x2098176_S1x1x2048_0_0_2062398 : ∀ a, (![0, 0, 2062398] : Fin 3 → Nat) a + S1x1x2048.size a ≤ S1x1x2098176.size a
  inb_S1x1x2098176_S1x1x2048_0_0_2062665 : ∀ a, (![0, 0, 2062665] : Fin 3 → Nat) a + S1x1x2048.size a ≤ S1x1x2098176.size a
  inb_S1x1x2098176_S1x1x2048_0_0_2062931 : ∀ a, (![0, 0, 2062931] : Fin 3 → Nat) a + S1x1x2048.size a ≤ S1x1x2098176.size a
  inb_S1x1x2098176_S1x1x2048_0_0_2063196 : ∀ a, (![0, 0, 2063196] : Fin 3 → Nat) a + S1x1x2048.size a ≤ S1x1x2098176.size a
  inb_S1x1x2098176_S1x1x2048_0_0_2063460 : ∀ a, (![0, 0, 2063460] : Fin 3 → Nat) a + S1x1x2048.size a ≤ S1x1x2098176.size a
  inb_S1x1x2098176_S1x1x2048_0_0_2063723 : ∀ a, (![0, 0, 2063723] : Fin 3 → Nat) a + S1x1x2048.size a ≤ S1x1x2098176.size a
  inb_S1x1x2098176_S1x1x2048_0_0_2063985 : ∀ a, (![0, 0, 2063985] : Fin 3 → Nat) a + S1x1x2048.size a ≤ S1x1x2098176.size a
  inb_S1x1x2098176_S1x1x2048_0_0_2064246 : ∀ a, (![0, 0, 2064246] : Fin 3 → Nat) a + S1x1x2048.size a ≤ S1x1x2098176.size a
  inb_S1x1x2098176_S1x1x2048_0_0_2064506 : ∀ a, (![0, 0, 2064506] : Fin 3 → Nat) a + S1x1x2048.size a ≤ S1x1x2098176.size a
  inb_S1x1x2098176_S1x1x2048_0_0_2064765 : ∀ a, (![0, 0, 2064765] : Fin 3 → Nat) a + S1x1x2048.size a ≤ S1x1x2098176.size a
  inb_S1x1x2098176_S1x1x2048_0_0_2065023 : ∀ a, (![0, 0, 2065023] : Fin 3 → Nat) a + S1x1x2048.size a ≤ S1x1x2098176.size a
  inb_S1x1x2098176_S1x1x2048_0_0_2065280 : ∀ a, (![0, 0, 2065280] : Fin 3 → Nat) a + S1x1x2048.size a ≤ S1x1x2098176.size a
  inb_S1x1x2098176_S1x1x2048_0_0_2065536 : ∀ a, (![0, 0, 2065536] : Fin 3 → Nat) a + S1x1x2048.size a ≤ S1x1x2098176.size a
  inb_S1x1x2098176_S1x1x2048_0_0_2065791 : ∀ a, (![0, 0, 2065791] : Fin 3 → Nat) a + S1x1x2048.size a ≤ S1x1x2098176.size a
  inb_S1x1x2098176_S1x1x2048_0_0_2066045 : ∀ a, (![0, 0, 2066045] : Fin 3 → Nat) a + S1x1x2048.size a ≤ S1x1x2098176.size a
  inb_S1x1x2098176_S1x1x2048_0_0_2066298 : ∀ a, (![0, 0, 2066298] : Fin 3 → Nat) a + S1x1x2048.size a ≤ S1x1x2098176.size a
  inb_S1x1x2098176_S1x1x2048_0_0_2066550 : ∀ a, (![0, 0, 2066550] : Fin 3 → Nat) a + S1x1x2048.size a ≤ S1x1x2098176.size a
  inb_S1x1x2098176_S1x1x2048_0_0_2066801 : ∀ a, (![0, 0, 2066801] : Fin 3 → Nat) a + S1x1x2048.size a ≤ S1x1x2098176.size a
  inb_S1x1x2098176_S1x1x2048_0_0_2067051 : ∀ a, (![0, 0, 2067051] : Fin 3 → Nat) a + S1x1x2048.size a ≤ S1x1x2098176.size a
  inb_S1x1x2098176_S1x1x2048_0_0_2067300 : ∀ a, (![0, 0, 2067300] : Fin 3 → Nat) a + S1x1x2048.size a ≤ S1x1x2098176.size a
  inb_S1x1x2098176_S1x1x2048_0_0_2067548 : ∀ a, (![0, 0, 2067548] : Fin 3 → Nat) a + S1x1x2048.size a ≤ S1x1x2098176.size a
  inb_S1x1x2098176_S1x1x2048_0_0_2067795 : ∀ a, (![0, 0, 2067795] : Fin 3 → Nat) a + S1x1x2048.size a ≤ S1x1x2098176.size a
  inb_S1x1x2098176_S1x1x2048_0_0_2068041 : ∀ a, (![0, 0, 2068041] : Fin 3 → Nat) a + S1x1x2048.size a ≤ S1x1x2098176.size a
  inb_S1x1x2098176_S1x1x2048_0_0_2068286 : ∀ a, (![0, 0, 2068286] : Fin 3 → Nat) a + S1x1x2048.size a ≤ S1x1x2098176.size a
  inb_S1x1x2098176_S1x1x2048_0_0_2068530 : ∀ a, (![0, 0, 2068530] : Fin 3 → Nat) a + S1x1x2048.size a ≤ S1x1x2098176.size a
  inb_S1x1x2098176_S1x1x2048_0_0_2068773 : ∀ a, (![0, 0, 2068773] : Fin 3 → Nat) a + S1x1x2048.size a ≤ S1x1x2098176.size a
  inb_S1x1x2098176_S1x1x2048_0_0_2069015 : ∀ a, (![0, 0, 2069015] : Fin 3 → Nat) a + S1x1x2048.size a ≤ S1x1x2098176.size a
  inb_S1x1x2098176_S1x1x2048_0_0_2069256 : ∀ a, (![0, 0, 2069256] : Fin 3 → Nat) a + S1x1x2048.size a ≤ S1x1x2098176.size a
  inb_S1x1x2098176_S1x1x2048_0_0_2069496 : ∀ a, (![0, 0, 2069496] : Fin 3 → Nat) a + S1x1x2048.size a ≤ S1x1x2098176.size a
  inb_S1x1x2098176_S1x1x2048_0_0_2069735 : ∀ a, (![0, 0, 2069735] : Fin 3 → Nat) a + S1x1x2048.size a ≤ S1x1x2098176.size a
  inb_S1x1x2098176_S1x1x2048_0_0_2069973 : ∀ a, (![0, 0, 2069973] : Fin 3 → Nat) a + S1x1x2048.size a ≤ S1x1x2098176.size a
  inb_S1x1x2098176_S1x1x2048_0_0_2070210 : ∀ a, (![0, 0, 2070210] : Fin 3 → Nat) a + S1x1x2048.size a ≤ S1x1x2098176.size a
  inb_S1x1x2098176_S1x1x2048_0_0_2070446 : ∀ a, (![0, 0, 2070446] : Fin 3 → Nat) a + S1x1x2048.size a ≤ S1x1x2098176.size a
  inb_S1x1x2098176_S1x1x2048_0_0_2070681 : ∀ a, (![0, 0, 2070681] : Fin 3 → Nat) a + S1x1x2048.size a ≤ S1x1x2098176.size a
  inb_S1x1x2098176_S1x1x2048_0_0_2070915 : ∀ a, (![0, 0, 2070915] : Fin 3 → Nat) a + S1x1x2048.size a ≤ S1x1x2098176.size a
  inb_S1x1x2098176_S1x1x2048_0_0_2071148 : ∀ a, (![0, 0, 2071148] : Fin 3 → Nat) a + S1x1x2048.size a ≤ S1x1x2098176.size a
  inb_S1x1x2098176_S1x1x2048_0_0_2071380 : ∀ a, (![0, 0, 2071380] : Fin 3 → Nat) a + S1x1x2048.size a ≤ S1x1x2098176.size a
  inb_S1x1x2098176_S1x1x2048_0_0_2071611 : ∀ a, (![0, 0, 2071611] : Fin 3 → Nat) a + S1x1x2048.size a ≤ S1x1x2098176.size a
  inb_S1x1x2098176_S1x1x2048_0_0_2071841 : ∀ a, (![0, 0, 2071841] : Fin 3 → Nat) a + S1x1x2048.size a ≤ S1x1x2098176.size a
  inb_S1x1x2098176_S1x1x2048_0_0_2072070 : ∀ a, (![0, 0, 2072070] : Fin 3 → Nat) a + S1x1x2048.size a ≤ S1x1x2098176.size a
  inb_S1x1x2098176_S1x1x2048_0_0_2072298 : ∀ a, (![0, 0, 2072298] : Fin 3 → Nat) a + S1x1x2048.size a ≤ S1x1x2098176.size a
  inb_S1x1x2098176_S1x1x2048_0_0_2072525 : ∀ a, (![0, 0, 2072525] : Fin 3 → Nat) a + S1x1x2048.size a ≤ S1x1x2098176.size a
  inb_S1x1x2098176_S1x1x2048_0_0_2072751 : ∀ a, (![0, 0, 2072751] : Fin 3 → Nat) a + S1x1x2048.size a ≤ S1x1x2098176.size a
  inb_S1x1x2098176_S1x1x2048_0_0_2072976 : ∀ a, (![0, 0, 2072976] : Fin 3 → Nat) a + S1x1x2048.size a ≤ S1x1x2098176.size a
  inb_S1x1x2098176_S1x1x2048_0_0_2073200 : ∀ a, (![0, 0, 2073200] : Fin 3 → Nat) a + S1x1x2048.size a ≤ S1x1x2098176.size a
  inb_S1x1x2098176_S1x1x2048_0_0_2073423 : ∀ a, (![0, 0, 2073423] : Fin 3 → Nat) a + S1x1x2048.size a ≤ S1x1x2098176.size a
  inb_S1x1x2098176_S1x1x2048_0_0_2073645 : ∀ a, (![0, 0, 2073645] : Fin 3 → Nat) a + S1x1x2048.size a ≤ S1x1x2098176.size a
  inb_S1x1x2098176_S1x1x2048_0_0_2073866 : ∀ a, (![0, 0, 2073866] : Fin 3 → Nat) a + S1x1x2048.size a ≤ S1x1x2098176.size a
  inb_S1x1x2098176_S1x1x2048_0_0_2074086 : ∀ a, (![0, 0, 2074086] : Fin 3 → Nat) a + S1x1x2048.size a ≤ S1x1x2098176.size a
  inb_S1x1x2098176_S1x1x2048_0_0_2074305 : ∀ a, (![0, 0, 2074305] : Fin 3 → Nat) a + S1x1x2048.size a ≤ S1x1x2098176.size a
  inb_S1x1x2098176_S1x1x2048_0_0_2074523 : ∀ a, (![0, 0, 2074523] : Fin 3 → Nat) a + S1x1x2048.size a ≤ S1x1x2098176.size a
  inb_S1x1x2098176_S1x1x2048_0_0_2074740 : ∀ a, (![0, 0, 2074740] : Fin 3 → Nat) a + S1x1x2048.size a ≤ S1x1x2098176.size a
  inb_S1x1x2098176_S1x1x2048_0_0_2074956 : ∀ a, (![0, 0, 2074956] : Fin 3 → Nat) a + S1x1x2048.size a ≤ S1x1x2098176.size a
  inb_S1x1x2098176_S1x1x2048_0_0_2075171 : ∀ a, (![0, 0, 2075171] : Fin 3 → Nat) a + S1x1x2048.size a ≤ S1x1x2098176.size a
  inb_S1x1x2098176_S1x1x2048_0_0_2075385 : ∀ a, (![0, 0, 2075385] : Fin 3 → Nat) a + S1x1x2048.size a ≤ S1x1x2098176.size a
  inb_S1x1x2098176_S1x1x2048_0_0_2075598 : ∀ a, (![0, 0, 2075598] : Fin 3 → Nat) a + S1x1x2048.size a ≤ S1x1x2098176.size a
  inb_S1x1x2098176_S1x1x2048_0_0_2075810 : ∀ a, (![0, 0, 2075810] : Fin 3 → Nat) a + S1x1x2048.size a ≤ S1x1x2098176.size a
  inb_S1x1x2098176_S1x1x2048_0_0_2076021 : ∀ a, (![0, 0, 2076021] : Fin 3 → Nat) a + S1x1x2048.size a ≤ S1x1x2098176.size a
  inb_S1x1x2098176_S1x1x2048_0_0_2076231 : ∀ a, (![0, 0, 2076231] : Fin 3 → Nat) a + S1x1x2048.size a ≤ S1x1x2098176.size a
  inb_S1x1x2098176_S1x1x2048_0_0_2076440 : ∀ a, (![0, 0, 2076440] : Fin 3 → Nat) a + S1x1x2048.size a ≤ S1x1x2098176.size a
  inb_S1x1x2098176_S1x1x2048_0_0_2076648 : ∀ a, (![0, 0, 2076648] : Fin 3 → Nat) a + S1x1x2048.size a ≤ S1x1x2098176.size a
  inb_S1x1x2098176_S1x1x2048_0_0_2076855 : ∀ a, (![0, 0, 2076855] : Fin 3 → Nat) a + S1x1x2048.size a ≤ S1x1x2098176.size a
  inb_S1x1x2098176_S1x1x2048_0_0_2077061 : ∀ a, (![0, 0, 2077061] : Fin 3 → Nat) a + S1x1x2048.size a ≤ S1x1x2098176.size a
  inb_S1x1x2098176_S1x1x2048_0_0_2077266 : ∀ a, (![0, 0, 2077266] : Fin 3 → Nat) a + S1x1x2048.size a ≤ S1x1x2098176.size a
  inb_S1x1x2098176_S1x1x2048_0_0_2077470 : ∀ a, (![0, 0, 2077470] : Fin 3 → Nat) a + S1x1x2048.size a ≤ S1x1x2098176.size a
  inb_S1x1x2098176_S1x1x2048_0_0_2077673 : ∀ a, (![0, 0, 2077673] : Fin 3 → Nat) a + S1x1x2048.size a ≤ S1x1x2098176.size a
  inb_S1x1x2098176_S1x1x2048_0_0_2077875 : ∀ a, (![0, 0, 2077875] : Fin 3 → Nat) a + S1x1x2048.size a ≤ S1x1x2098176.size a
  inb_S1x1x2098176_S1x1x2048_0_0_2078076 : ∀ a, (![0, 0, 2078076] : Fin 3 → Nat) a + S1x1x2048.size a ≤ S1x1x2098176.size a
  inb_S1x1x2098176_S1x1x2048_0_0_2078276 : ∀ a, (![0, 0, 2078276] : Fin 3 → Nat) a + S1x1x2048.size a ≤ S1x1x2098176.size a
  inb_S1x1x2098176_S1x1x2048_0_0_2078475 : ∀ a, (![0, 0, 2078475] : Fin 3 → Nat) a + S1x1x2048.size a ≤ S1x1x2098176.size a
  inb_S1x1x2098176_S1x1x2048_0_0_2078673 : ∀ a, (![0, 0, 2078673] : Fin 3 → Nat) a + S1x1x2048.size a ≤ S1x1x2098176.size a
  inb_S1x1x2098176_S1x1x2048_0_0_2078870 : ∀ a, (![0, 0, 2078870] : Fin 3 → Nat) a + S1x1x2048.size a ≤ S1x1x2098176.size a
  inb_S1x1x2098176_S1x1x2048_0_0_2079066 : ∀ a, (![0, 0, 2079066] : Fin 3 → Nat) a + S1x1x2048.size a ≤ S1x1x2098176.size a
  inb_S1x1x2098176_S1x1x2048_0_0_2079261 : ∀ a, (![0, 0, 2079261] : Fin 3 → Nat) a + S1x1x2048.size a ≤ S1x1x2098176.size a
  inb_S1x1x2098176_S1x1x2048_0_0_2079455 : ∀ a, (![0, 0, 2079455] : Fin 3 → Nat) a + S1x1x2048.size a ≤ S1x1x2098176.size a
  inb_S1x1x2098176_S1x1x2048_0_0_2079648 : ∀ a, (![0, 0, 2079648] : Fin 3 → Nat) a + S1x1x2048.size a ≤ S1x1x2098176.size a
  inb_S1x1x2098176_S1x1x2048_0_0_2079840 : ∀ a, (![0, 0, 2079840] : Fin 3 → Nat) a + S1x1x2048.size a ≤ S1x1x2098176.size a
  inb_S1x1x2098176_S1x1x2048_0_0_2080031 : ∀ a, (![0, 0, 2080031] : Fin 3 → Nat) a + S1x1x2048.size a ≤ S1x1x2098176.size a
  inb_S1x1x2098176_S1x1x2048_0_0_2080221 : ∀ a, (![0, 0, 2080221] : Fin 3 → Nat) a + S1x1x2048.size a ≤ S1x1x2098176.size a
  inb_S1x1x2098176_S1x1x2048_0_0_2080410 : ∀ a, (![0, 0, 2080410] : Fin 3 → Nat) a + S1x1x2048.size a ≤ S1x1x2098176.size a
  inb_S1x1x2098176_S1x1x2048_0_0_2080598 : ∀ a, (![0, 0, 2080598] : Fin 3 → Nat) a + S1x1x2048.size a ≤ S1x1x2098176.size a
  inb_S1x1x2098176_S1x1x2048_0_0_2080785 : ∀ a, (![0, 0, 2080785] : Fin 3 → Nat) a + S1x1x2048.size a ≤ S1x1x2098176.size a
  inb_S1x1x2098176_S1x1x2048_0_0_2080971 : ∀ a, (![0, 0, 2080971] : Fin 3 → Nat) a + S1x1x2048.size a ≤ S1x1x2098176.size a
  inb_S1x1x2098176_S1x1x2048_0_0_2081156 : ∀ a, (![0, 0, 2081156] : Fin 3 → Nat) a + S1x1x2048.size a ≤ S1x1x2098176.size a
  inb_S1x1x2098176_S1x1x2048_0_0_2081340 : ∀ a, (![0, 0, 2081340] : Fin 3 → Nat) a + S1x1x2048.size a ≤ S1x1x2098176.size a
  inb_S1x1x2098176_S1x1x2048_0_0_2081523 : ∀ a, (![0, 0, 2081523] : Fin 3 → Nat) a + S1x1x2048.size a ≤ S1x1x2098176.size a
  inb_S1x1x2098176_S1x1x2048_0_0_2081705 : ∀ a, (![0, 0, 2081705] : Fin 3 → Nat) a + S1x1x2048.size a ≤ S1x1x2098176.size a
  inb_S1x1x2098176_S1x1x2048_0_0_2081886 : ∀ a, (![0, 0, 2081886] : Fin 3 → Nat) a + S1x1x2048.size a ≤ S1x1x2098176.size a
  inb_S1x1x2098176_S1x1x2048_0_0_2082066 : ∀ a, (![0, 0, 2082066] : Fin 3 → Nat) a + S1x1x2048.size a ≤ S1x1x2098176.size a
  inb_S1x1x2098176_S1x1x2048_0_0_2082245 : ∀ a, (![0, 0, 2082245] : Fin 3 → Nat) a + S1x1x2048.size a ≤ S1x1x2098176.size a
  inb_S1x1x2098176_S1x1x2048_0_0_2082423 : ∀ a, (![0, 0, 2082423] : Fin 3 → Nat) a + S1x1x2048.size a ≤ S1x1x2098176.size a
  inb_S1x1x2098176_S1x1x2048_0_0_2082600 : ∀ a, (![0, 0, 2082600] : Fin 3 → Nat) a + S1x1x2048.size a ≤ S1x1x2098176.size a
  inb_S1x1x2098176_S1x1x2048_0_0_2082776 : ∀ a, (![0, 0, 2082776] : Fin 3 → Nat) a + S1x1x2048.size a ≤ S1x1x2098176.size a
  inb_S1x1x2098176_S1x1x2048_0_0_2082951 : ∀ a, (![0, 0, 2082951] : Fin 3 → Nat) a + S1x1x2048.size a ≤ S1x1x2098176.size a
  inb_S1x1x2098176_S1x1x2048_0_0_2083125 : ∀ a, (![0, 0, 2083125] : Fin 3 → Nat) a + S1x1x2048.size a ≤ S1x1x2098176.size a
  inb_S1x1x2098176_S1x1x2048_0_0_2083298 : ∀ a, (![0, 0, 2083298] : Fin 3 → Nat) a + S1x1x2048.size a ≤ S1x1x2098176.size a
  inb_S1x1x2098176_S1x1x2048_0_0_2083470 : ∀ a, (![0, 0, 2083470] : Fin 3 → Nat) a + S1x1x2048.size a ≤ S1x1x2098176.size a
  inb_S1x1x2098176_S1x1x2048_0_0_2083641 : ∀ a, (![0, 0, 2083641] : Fin 3 → Nat) a + S1x1x2048.size a ≤ S1x1x2098176.size a
  inb_S1x1x2098176_S1x1x2048_0_0_2083811 : ∀ a, (![0, 0, 2083811] : Fin 3 → Nat) a + S1x1x2048.size a ≤ S1x1x2098176.size a
  inb_S1x1x2098176_S1x1x2048_0_0_2083980 : ∀ a, (![0, 0, 2083980] : Fin 3 → Nat) a + S1x1x2048.size a ≤ S1x1x2098176.size a
  inb_S1x1x2098176_S1x1x2048_0_0_2084148 : ∀ a, (![0, 0, 2084148] : Fin 3 → Nat) a + S1x1x2048.size a ≤ S1x1x2098176.size a
  inb_S1x1x2098176_S1x1x2048_0_0_2084315 : ∀ a, (![0, 0, 2084315] : Fin 3 → Nat) a + S1x1x2048.size a ≤ S1x1x2098176.size a
  inb_S1x1x2098176_S1x1x2048_0_0_2084481 : ∀ a, (![0, 0, 2084481] : Fin 3 → Nat) a + S1x1x2048.size a ≤ S1x1x2098176.size a
  inb_S1x1x2098176_S1x1x2048_0_0_2084646 : ∀ a, (![0, 0, 2084646] : Fin 3 → Nat) a + S1x1x2048.size a ≤ S1x1x2098176.size a
  inb_S1x1x2098176_S1x1x2048_0_0_2084810 : ∀ a, (![0, 0, 2084810] : Fin 3 → Nat) a + S1x1x2048.size a ≤ S1x1x2098176.size a
  inb_S1x1x2098176_S1x1x2048_0_0_2084973 : ∀ a, (![0, 0, 2084973] : Fin 3 → Nat) a + S1x1x2048.size a ≤ S1x1x2098176.size a
  inb_S1x1x2098176_S1x1x2048_0_0_2085135 : ∀ a, (![0, 0, 2085135] : Fin 3 → Nat) a + S1x1x2048.size a ≤ S1x1x2098176.size a
  inb_S1x1x2098176_S1x1x2048_0_0_2085296 : ∀ a, (![0, 0, 2085296] : Fin 3 → Nat) a + S1x1x2048.size a ≤ S1x1x2098176.size a
  inb_S1x1x2098176_S1x1x2048_0_0_2085456 : ∀ a, (![0, 0, 2085456] : Fin 3 → Nat) a + S1x1x2048.size a ≤ S1x1x2098176.size a
  inb_S1x1x2098176_S1x1x2048_0_0_2085615 : ∀ a, (![0, 0, 2085615] : Fin 3 → Nat) a + S1x1x2048.size a ≤ S1x1x2098176.size a
  inb_S1x1x2098176_S1x1x2048_0_0_2085773 : ∀ a, (![0, 0, 2085773] : Fin 3 → Nat) a + S1x1x2048.size a ≤ S1x1x2098176.size a
  inb_S1x1x2098176_S1x1x2048_0_0_2085930 : ∀ a, (![0, 0, 2085930] : Fin 3 → Nat) a + S1x1x2048.size a ≤ S1x1x2098176.size a
  inb_S1x1x2098176_S1x1x2048_0_0_2086086 : ∀ a, (![0, 0, 2086086] : Fin 3 → Nat) a + S1x1x2048.size a ≤ S1x1x2098176.size a
  inb_S1x1x2098176_S1x1x2048_0_0_2086241 : ∀ a, (![0, 0, 2086241] : Fin 3 → Nat) a + S1x1x2048.size a ≤ S1x1x2098176.size a
  inb_S1x1x2098176_S1x1x2048_0_0_2086395 : ∀ a, (![0, 0, 2086395] : Fin 3 → Nat) a + S1x1x2048.size a ≤ S1x1x2098176.size a
  inb_S1x1x2098176_S1x1x2048_0_0_2086548 : ∀ a, (![0, 0, 2086548] : Fin 3 → Nat) a + S1x1x2048.size a ≤ S1x1x2098176.size a
  inb_S1x1x2098176_S1x1x2048_0_0_2086700 : ∀ a, (![0, 0, 2086700] : Fin 3 → Nat) a + S1x1x2048.size a ≤ S1x1x2098176.size a
  inb_S1x1x2098176_S1x1x2048_0_0_2086851 : ∀ a, (![0, 0, 2086851] : Fin 3 → Nat) a + S1x1x2048.size a ≤ S1x1x2098176.size a
  inb_S1x1x2098176_S1x1x2048_0_0_2087001 : ∀ a, (![0, 0, 2087001] : Fin 3 → Nat) a + S1x1x2048.size a ≤ S1x1x2098176.size a
  inb_S1x1x2098176_S1x1x2048_0_0_2087150 : ∀ a, (![0, 0, 2087150] : Fin 3 → Nat) a + S1x1x2048.size a ≤ S1x1x2098176.size a
  inb_S1x1x2098176_S1x1x2048_0_0_2087298 : ∀ a, (![0, 0, 2087298] : Fin 3 → Nat) a + S1x1x2048.size a ≤ S1x1x2098176.size a
  inb_S1x1x2098176_S1x1x2048_0_0_2087445 : ∀ a, (![0, 0, 2087445] : Fin 3 → Nat) a + S1x1x2048.size a ≤ S1x1x2098176.size a
  inb_S1x1x2098176_S1x1x2048_0_0_2087591 : ∀ a, (![0, 0, 2087591] : Fin 3 → Nat) a + S1x1x2048.size a ≤ S1x1x2098176.size a
  inb_S1x1x2098176_S1x1x2048_0_0_2087736 : ∀ a, (![0, 0, 2087736] : Fin 3 → Nat) a + S1x1x2048.size a ≤ S1x1x2098176.size a
  inb_S1x1x2098176_S1x1x2048_0_0_2087880 : ∀ a, (![0, 0, 2087880] : Fin 3 → Nat) a + S1x1x2048.size a ≤ S1x1x2098176.size a
  inb_S1x1x2098176_S1x1x2048_0_0_2088023 : ∀ a, (![0, 0, 2088023] : Fin 3 → Nat) a + S1x1x2048.size a ≤ S1x1x2098176.size a
  inb_S1x1x2098176_S1x1x2048_0_0_2088165 : ∀ a, (![0, 0, 2088165] : Fin 3 → Nat) a + S1x1x2048.size a ≤ S1x1x2098176.size a
  inb_S1x1x2098176_S1x1x2048_0_0_2088306 : ∀ a, (![0, 0, 2088306] : Fin 3 → Nat) a + S1x1x2048.size a ≤ S1x1x2098176.size a
  inb_S1x1x2098176_S1x1x2048_0_0_2088446 : ∀ a, (![0, 0, 2088446] : Fin 3 → Nat) a + S1x1x2048.size a ≤ S1x1x2098176.size a
  inb_S1x1x2098176_S1x1x2048_0_0_2088585 : ∀ a, (![0, 0, 2088585] : Fin 3 → Nat) a + S1x1x2048.size a ≤ S1x1x2098176.size a
  inb_S1x1x2098176_S1x1x2048_0_0_2088723 : ∀ a, (![0, 0, 2088723] : Fin 3 → Nat) a + S1x1x2048.size a ≤ S1x1x2098176.size a
  inb_S1x1x2098176_S1x1x2048_0_0_2088860 : ∀ a, (![0, 0, 2088860] : Fin 3 → Nat) a + S1x1x2048.size a ≤ S1x1x2098176.size a
  inb_S1x1x2098176_S1x1x2048_0_0_2088996 : ∀ a, (![0, 0, 2088996] : Fin 3 → Nat) a + S1x1x2048.size a ≤ S1x1x2098176.size a
  inb_S1x1x2098176_S1x1x2048_0_0_2089131 : ∀ a, (![0, 0, 2089131] : Fin 3 → Nat) a + S1x1x2048.size a ≤ S1x1x2098176.size a
  inb_S1x1x2098176_S1x1x2048_0_0_2089265 : ∀ a, (![0, 0, 2089265] : Fin 3 → Nat) a + S1x1x2048.size a ≤ S1x1x2098176.size a
  inb_S1x1x2098176_S1x1x2048_0_0_2089398 : ∀ a, (![0, 0, 2089398] : Fin 3 → Nat) a + S1x1x2048.size a ≤ S1x1x2098176.size a
  inb_S1x1x2098176_S1x1x2048_0_0_2089530 : ∀ a, (![0, 0, 2089530] : Fin 3 → Nat) a + S1x1x2048.size a ≤ S1x1x2098176.size a
  inb_S1x1x2098176_S1x1x2048_0_0_2089661 : ∀ a, (![0, 0, 2089661] : Fin 3 → Nat) a + S1x1x2048.size a ≤ S1x1x2098176.size a
  inb_S1x1x2098176_S1x1x2048_0_0_2089791 : ∀ a, (![0, 0, 2089791] : Fin 3 → Nat) a + S1x1x2048.size a ≤ S1x1x2098176.size a
  inb_S1x1x2098176_S1x1x2048_0_0_2089920 : ∀ a, (![0, 0, 2089920] : Fin 3 → Nat) a + S1x1x2048.size a ≤ S1x1x2098176.size a
  inb_S1x1x2098176_S1x1x2048_0_0_2090048 : ∀ a, (![0, 0, 2090048] : Fin 3 → Nat) a + S1x1x2048.size a ≤ S1x1x2098176.size a
  inb_S1x1x2098176_S1x1x2048_0_0_2090175 : ∀ a, (![0, 0, 2090175] : Fin 3 → Nat) a + S1x1x2048.size a ≤ S1x1x2098176.size a
  inb_S1x1x2098176_S1x1x2048_0_0_2090301 : ∀ a, (![0, 0, 2090301] : Fin 3 → Nat) a + S1x1x2048.size a ≤ S1x1x2098176.size a
  inb_S1x1x2098176_S1x1x2048_0_0_2090426 : ∀ a, (![0, 0, 2090426] : Fin 3 → Nat) a + S1x1x2048.size a ≤ S1x1x2098176.size a
  inb_S1x1x2098176_S1x1x2048_0_0_2090550 : ∀ a, (![0, 0, 2090550] : Fin 3 → Nat) a + S1x1x2048.size a ≤ S1x1x2098176.size a
  inb_S1x1x2098176_S1x1x2048_0_0_2090673 : ∀ a, (![0, 0, 2090673] : Fin 3 → Nat) a + S1x1x2048.size a ≤ S1x1x2098176.size a
  inb_S1x1x2098176_S1x1x2048_0_0_2090795 : ∀ a, (![0, 0, 2090795] : Fin 3 → Nat) a + S1x1x2048.size a ≤ S1x1x2098176.size a
  inb_S1x1x2098176_S1x1x2048_0_0_2090916 : ∀ a, (![0, 0, 2090916] : Fin 3 → Nat) a + S1x1x2048.size a ≤ S1x1x2098176.size a
  inb_S1x1x2098176_S1x1x2048_0_0_2091036 : ∀ a, (![0, 0, 2091036] : Fin 3 → Nat) a + S1x1x2048.size a ≤ S1x1x2098176.size a
  inb_S1x1x2098176_S1x1x2048_0_0_2091155 : ∀ a, (![0, 0, 2091155] : Fin 3 → Nat) a + S1x1x2048.size a ≤ S1x1x2098176.size a
  inb_S1x1x2098176_S1x1x2048_0_0_2091273 : ∀ a, (![0, 0, 2091273] : Fin 3 → Nat) a + S1x1x2048.size a ≤ S1x1x2098176.size a
  inb_S1x1x2098176_S1x1x2048_0_0_2091390 : ∀ a, (![0, 0, 2091390] : Fin 3 → Nat) a + S1x1x2048.size a ≤ S1x1x2098176.size a
  inb_S1x1x2098176_S1x1x2048_0_0_2091506 : ∀ a, (![0, 0, 2091506] : Fin 3 → Nat) a + S1x1x2048.size a ≤ S1x1x2098176.size a
  inb_S1x1x2098176_S1x1x2048_0_0_2091621 : ∀ a, (![0, 0, 2091621] : Fin 3 → Nat) a + S1x1x2048.size a ≤ S1x1x2098176.size a
  inb_S1x1x2098176_S1x1x2048_0_0_2091735 : ∀ a, (![0, 0, 2091735] : Fin 3 → Nat) a + S1x1x2048.size a ≤ S1x1x2098176.size a
  inb_S1x1x2098176_S1x1x2048_0_0_2091848 : ∀ a, (![0, 0, 2091848] : Fin 3 → Nat) a + S1x1x2048.size a ≤ S1x1x2098176.size a
  inb_S1x1x2098176_S1x1x2048_0_0_2091960 : ∀ a, (![0, 0, 2091960] : Fin 3 → Nat) a + S1x1x2048.size a ≤ S1x1x2098176.size a
  inb_S1x1x2098176_S1x1x2048_0_0_2092071 : ∀ a, (![0, 0, 2092071] : Fin 3 → Nat) a + S1x1x2048.size a ≤ S1x1x2098176.size a
  inb_S1x1x2098176_S1x1x2048_0_0_2092181 : ∀ a, (![0, 0, 2092181] : Fin 3 → Nat) a + S1x1x2048.size a ≤ S1x1x2098176.size a
  inb_S1x1x2098176_S1x1x2048_0_0_2092290 : ∀ a, (![0, 0, 2092290] : Fin 3 → Nat) a + S1x1x2048.size a ≤ S1x1x2098176.size a
  inb_S1x1x2098176_S1x1x2048_0_0_2092398 : ∀ a, (![0, 0, 2092398] : Fin 3 → Nat) a + S1x1x2048.size a ≤ S1x1x2098176.size a
  inb_S1x1x2098176_S1x1x2048_0_0_2092505 : ∀ a, (![0, 0, 2092505] : Fin 3 → Nat) a + S1x1x2048.size a ≤ S1x1x2098176.size a
  inb_S1x1x2098176_S1x1x2048_0_0_2092611 : ∀ a, (![0, 0, 2092611] : Fin 3 → Nat) a + S1x1x2048.size a ≤ S1x1x2098176.size a
  inb_S1x1x2098176_S1x1x2048_0_0_2092716 : ∀ a, (![0, 0, 2092716] : Fin 3 → Nat) a + S1x1x2048.size a ≤ S1x1x2098176.size a
  inb_S1x1x2098176_S1x1x2048_0_0_2092820 : ∀ a, (![0, 0, 2092820] : Fin 3 → Nat) a + S1x1x2048.size a ≤ S1x1x2098176.size a
  inb_S1x1x2098176_S1x1x2048_0_0_2092923 : ∀ a, (![0, 0, 2092923] : Fin 3 → Nat) a + S1x1x2048.size a ≤ S1x1x2098176.size a
  inb_S1x1x2098176_S1x1x2048_0_0_2093025 : ∀ a, (![0, 0, 2093025] : Fin 3 → Nat) a + S1x1x2048.size a ≤ S1x1x2098176.size a
  inb_S1x1x2098176_S1x1x2048_0_0_2093126 : ∀ a, (![0, 0, 2093126] : Fin 3 → Nat) a + S1x1x2048.size a ≤ S1x1x2098176.size a
  inb_S1x1x2098176_S1x1x2048_0_0_2093226 : ∀ a, (![0, 0, 2093226] : Fin 3 → Nat) a + S1x1x2048.size a ≤ S1x1x2098176.size a
  inb_S1x1x2098176_S1x1x2048_0_0_2093325 : ∀ a, (![0, 0, 2093325] : Fin 3 → Nat) a + S1x1x2048.size a ≤ S1x1x2098176.size a
  inb_S1x1x2098176_S1x1x2048_0_0_2093423 : ∀ a, (![0, 0, 2093423] : Fin 3 → Nat) a + S1x1x2048.size a ≤ S1x1x2098176.size a
  inb_S1x1x2098176_S1x1x2048_0_0_2093520 : ∀ a, (![0, 0, 2093520] : Fin 3 → Nat) a + S1x1x2048.size a ≤ S1x1x2098176.size a
  inb_S1x1x2098176_S1x1x2048_0_0_2093616 : ∀ a, (![0, 0, 2093616] : Fin 3 → Nat) a + S1x1x2048.size a ≤ S1x1x2098176.size a
  inb_S1x1x2098176_S1x1x2048_0_0_2093711 : ∀ a, (![0, 0, 2093711] : Fin 3 → Nat) a + S1x1x2048.size a ≤ S1x1x2098176.size a
  inb_S1x1x2098176_S1x1x2048_0_0_2093805 : ∀ a, (![0, 0, 2093805] : Fin 3 → Nat) a + S1x1x2048.size a ≤ S1x1x2098176.size a
  inb_S1x1x2098176_S1x1x2048_0_0_2093898 : ∀ a, (![0, 0, 2093898] : Fin 3 → Nat) a + S1x1x2048.size a ≤ S1x1x2098176.size a
  inb_S1x1x2098176_S1x1x2048_0_0_2093990 : ∀ a, (![0, 0, 2093990] : Fin 3 → Nat) a + S1x1x2048.size a ≤ S1x1x2098176.size a
  inb_S1x1x2098176_S1x1x2048_0_0_2094081 : ∀ a, (![0, 0, 2094081] : Fin 3 → Nat) a + S1x1x2048.size a ≤ S1x1x2098176.size a
  inb_S1x1x2098176_S1x1x2048_0_0_2094171 : ∀ a, (![0, 0, 2094171] : Fin 3 → Nat) a + S1x1x2048.size a ≤ S1x1x2098176.size a
  inb_S1x1x2098176_S1x1x2048_0_0_2094260 : ∀ a, (![0, 0, 2094260] : Fin 3 → Nat) a + S1x1x2048.size a ≤ S1x1x2098176.size a
  inb_S1x1x2098176_S1x1x2048_0_0_2094348 : ∀ a, (![0, 0, 2094348] : Fin 3 → Nat) a + S1x1x2048.size a ≤ S1x1x2098176.size a
  inb_S1x1x2098176_S1x1x2048_0_0_2094435 : ∀ a, (![0, 0, 2094435] : Fin 3 → Nat) a + S1x1x2048.size a ≤ S1x1x2098176.size a
  inb_S1x1x2098176_S1x1x2048_0_0_2094521 : ∀ a, (![0, 0, 2094521] : Fin 3 → Nat) a + S1x1x2048.size a ≤ S1x1x2098176.size a
  inb_S1x1x2098176_S1x1x2048_0_0_2094606 : ∀ a, (![0, 0, 2094606] : Fin 3 → Nat) a + S1x1x2048.size a ≤ S1x1x2098176.size a
  inb_S1x1x2098176_S1x1x2048_0_0_2094690 : ∀ a, (![0, 0, 2094690] : Fin 3 → Nat) a + S1x1x2048.size a ≤ S1x1x2098176.size a
  inb_S1x1x2098176_S1x1x2048_0_0_2094773 : ∀ a, (![0, 0, 2094773] : Fin 3 → Nat) a + S1x1x2048.size a ≤ S1x1x2098176.size a
  inb_S1x1x2098176_S1x1x2048_0_0_2094855 : ∀ a, (![0, 0, 2094855] : Fin 3 → Nat) a + S1x1x2048.size a ≤ S1x1x2098176.size a
  inb_S1x1x2098176_S1x1x2048_0_0_2094936 : ∀ a, (![0, 0, 2094936] : Fin 3 → Nat) a + S1x1x2048.size a ≤ S1x1x2098176.size a
  inb_S1x1x2098176_S1x1x2048_0_0_2095016 : ∀ a, (![0, 0, 2095016] : Fin 3 → Nat) a + S1x1x2048.size a ≤ S1x1x2098176.size a
  inb_S1x1x2098176_S1x1x2048_0_0_2095095 : ∀ a, (![0, 0, 2095095] : Fin 3 → Nat) a + S1x1x2048.size a ≤ S1x1x2098176.size a
  inb_S1x1x2098176_S1x1x2048_0_0_2095173 : ∀ a, (![0, 0, 2095173] : Fin 3 → Nat) a + S1x1x2048.size a ≤ S1x1x2098176.size a
  inb_S1x1x2098176_S1x1x2048_0_0_2095250 : ∀ a, (![0, 0, 2095250] : Fin 3 → Nat) a + S1x1x2048.size a ≤ S1x1x2098176.size a
  inb_S1x1x2098176_S1x1x2048_0_0_2095326 : ∀ a, (![0, 0, 2095326] : Fin 3 → Nat) a + S1x1x2048.size a ≤ S1x1x2098176.size a
  inb_S1x1x2098176_S1x1x2048_0_0_2095401 : ∀ a, (![0, 0, 2095401] : Fin 3 → Nat) a + S1x1x2048.size a ≤ S1x1x2098176.size a
  inb_S1x1x2098176_S1x1x2048_0_0_2095475 : ∀ a, (![0, 0, 2095475] : Fin 3 → Nat) a + S1x1x2048.size a ≤ S1x1x2098176.size a

class Shapes3.Facts₀ : Prop where
  inb_S1x1x2098176_S1x1x2048_0_0_2095548 : ∀ a, (![0, 0, 2095548] : Fin 3 → Nat) a + S1x1x2048.size a ≤ S1x1x2098176.size a
  inb_S1x1x2098176_S1x1x2048_0_0_2095620 : ∀ a, (![0, 0, 2095620] : Fin 3 → Nat) a + S1x1x2048.size a ≤ S1x1x2098176.size a
  inb_S1x1x2098176_S1x1x2048_0_0_2095691 : ∀ a, (![0, 0, 2095691] : Fin 3 → Nat) a + S1x1x2048.size a ≤ S1x1x2098176.size a
  inb_S1x1x2098176_S1x1x2048_0_0_2095761 : ∀ a, (![0, 0, 2095761] : Fin 3 → Nat) a + S1x1x2048.size a ≤ S1x1x2098176.size a
  inb_S1x1x2098176_S1x1x2048_0_0_2095830 : ∀ a, (![0, 0, 2095830] : Fin 3 → Nat) a + S1x1x2048.size a ≤ S1x1x2098176.size a
  inb_S1x1x2098176_S1x1x2048_0_0_2095898 : ∀ a, (![0, 0, 2095898] : Fin 3 → Nat) a + S1x1x2048.size a ≤ S1x1x2098176.size a
  inb_S1x1x2098176_S1x1x2048_0_0_2095965 : ∀ a, (![0, 0, 2095965] : Fin 3 → Nat) a + S1x1x2048.size a ≤ S1x1x2098176.size a
  inb_S1x1x2098176_S1x1x2048_0_0_2096031 : ∀ a, (![0, 0, 2096031] : Fin 3 → Nat) a + S1x1x2048.size a ≤ S1x1x2098176.size a
  inb_S1x1x2098176_S1x1x2048_0_0_2096096 : ∀ a, (![0, 0, 2096096] : Fin 3 → Nat) a + S1x1x2048.size a ≤ S1x1x2098176.size a
  inb_S1x1x2098176_S1x1x2016_0_0_2096160 : ∀ a, (![0, 0, 2096160] : Fin 3 → Nat) a + S1x1x2016.size a ≤ S1x1x2098176.size a
  h_S1x1x2016 : 0 < S1x1x2016.numel
  shapeCasts_S1x1x2016_S2016 : S1x1x2016.ShapeCasts S2016
  slices_S2048_o0_S32 : S2048.Slices ![0] S32
  concatenates_S2016_S32_S2048_d0 : Shape.Concatenates [S2016, S32] S2048 0
  inb_S1x1x2098176_S1x1x1953_0_0_2096223 : ∀ a, (![0, 0, 2096223] : Fin 3 → Nat) a + S1x1x1953.size a ≤ S1x1x2098176.size a
  h_S1x1x1953 : 0 < S1x1x1953.numel
  shapeCasts_S1x1x1953_S1953 : S1x1x1953.ShapeCasts S1953
  slices_S2048_o0_S95 : S2048.Slices ![0] S95
  concatenates_S1953_S95_S2048_d0 : Shape.Concatenates [S1953, S95] S2048 0
  inb_S1x1x2098176_S1x1x1891_0_0_2096285 : ∀ a, (![0, 0, 2096285] : Fin 3 → Nat) a + S1x1x1891.size a ≤ S1x1x2098176.size a
  h_S1x1x1891 : 0 < S1x1x1891.numel
  shapeCasts_S1x1x1891_S1891 : S1x1x1891.ShapeCasts S1891
  slices_S2048_o0_S157 : S2048.Slices ![0] S157
  concatenates_S1891_S157_S2048_d0 : Shape.Concatenates [S1891, S157] S2048 0
  inb_S1x1x2098176_S1x1x1830_0_0_2096346 : ∀ a, (![0, 0, 2096346] : Fin 3 → Nat) a + S1x1x1830.size a ≤ S1x1x2098176.size a
  h_S1x1x1830 : 0 < S1x1x1830.numel
  shapeCasts_S1x1x1830_S1830 : S1x1x1830.ShapeCasts S1830
  slices_S2048_o0_S218 : S2048.Slices ![0] S218
  concatenates_S1830_S218_S2048_d0 : Shape.Concatenates [S1830, S218] S2048 0
  inb_S1x1x2098176_S1x1x1770_0_0_2096406 : ∀ a, (![0, 0, 2096406] : Fin 3 → Nat) a + S1x1x1770.size a ≤ S1x1x2098176.size a
  h_S1x1x1770 : 0 < S1x1x1770.numel
  shapeCasts_S1x1x1770_S1770 : S1x1x1770.ShapeCasts S1770
  slices_S2048_o0_S278 : S2048.Slices ![0] S278
  concatenates_S1770_S278_S2048_d0 : Shape.Concatenates [S1770, S278] S2048 0
  inb_S1x1x2098176_S1x1x1711_0_0_2096465 : ∀ a, (![0, 0, 2096465] : Fin 3 → Nat) a + S1x1x1711.size a ≤ S1x1x2098176.size a
  h_S1x1x1711 : 0 < S1x1x1711.numel
  shapeCasts_S1x1x1711_S1711 : S1x1x1711.ShapeCasts S1711
  slices_S2048_o0_S337 : S2048.Slices ![0] S337
  concatenates_S1711_S337_S2048_d0 : Shape.Concatenates [S1711, S337] S2048 0
  inb_S1x1x2098176_S1x1x1653_0_0_2096523 : ∀ a, (![0, 0, 2096523] : Fin 3 → Nat) a + S1x1x1653.size a ≤ S1x1x2098176.size a
  h_S1x1x1653 : 0 < S1x1x1653.numel
  shapeCasts_S1x1x1653_S1653 : S1x1x1653.ShapeCasts S1653
  slices_S2048_o0_S395 : S2048.Slices ![0] S395
  concatenates_S1653_S395_S2048_d0 : Shape.Concatenates [S1653, S395] S2048 0
  inb_S1x1x2098176_S1x1x1596_0_0_2096580 : ∀ a, (![0, 0, 2096580] : Fin 3 → Nat) a + S1x1x1596.size a ≤ S1x1x2098176.size a
  h_S1x1x1596 : 0 < S1x1x1596.numel
  shapeCasts_S1x1x1596_S1596 : S1x1x1596.ShapeCasts S1596
  slices_S2048_o0_S452 : S2048.Slices ![0] S452
  concatenates_S1596_S452_S2048_d0 : Shape.Concatenates [S1596, S452] S2048 0
  inb_S1x1x2098176_S1x1x1540_0_0_2096636 : ∀ a, (![0, 0, 2096636] : Fin 3 → Nat) a + S1x1x1540.size a ≤ S1x1x2098176.size a
  h_S1x1x1540 : 0 < S1x1x1540.numel
  shapeCasts_S1x1x1540_S1540 : S1x1x1540.ShapeCasts S1540
  slices_S2048_o0_S508 : S2048.Slices ![0] S508
  concatenates_S1540_S508_S2048_d0 : Shape.Concatenates [S1540, S508] S2048 0
  inb_S1x1x2098176_S1x1x1485_0_0_2096691 : ∀ a, (![0, 0, 2096691] : Fin 3 → Nat) a + S1x1x1485.size a ≤ S1x1x2098176.size a
  h_S1x1x1485 : 0 < S1x1x1485.numel
  shapeCasts_S1x1x1485_S1485 : S1x1x1485.ShapeCasts S1485
  slices_S2048_o0_S563 : S2048.Slices ![0] S563
  concatenates_S1485_S563_S2048_d0 : Shape.Concatenates [S1485, S563] S2048 0
  inb_S1x1x2098176_S1x1x1431_0_0_2096745 : ∀ a, (![0, 0, 2096745] : Fin 3 → Nat) a + S1x1x1431.size a ≤ S1x1x2098176.size a
  h_S1x1x1431 : 0 < S1x1x1431.numel
  shapeCasts_S1x1x1431_S1431 : S1x1x1431.ShapeCasts S1431
  slices_S2048_o0_S617 : S2048.Slices ![0] S617
  concatenates_S1431_S617_S2048_d0 : Shape.Concatenates [S1431, S617] S2048 0
  inb_S1x1x2098176_S1x1x1378_0_0_2096798 : ∀ a, (![0, 0, 2096798] : Fin 3 → Nat) a + S1x1x1378.size a ≤ S1x1x2098176.size a
  h_S1x1x1378 : 0 < S1x1x1378.numel
  shapeCasts_S1x1x1378_S1378 : S1x1x1378.ShapeCasts S1378
  slices_S2048_o0_S670 : S2048.Slices ![0] S670
  concatenates_S1378_S670_S2048_d0 : Shape.Concatenates [S1378, S670] S2048 0
  inb_S1x1x2098176_S1x1x1326_0_0_2096850 : ∀ a, (![0, 0, 2096850] : Fin 3 → Nat) a + S1x1x1326.size a ≤ S1x1x2098176.size a
  h_S1x1x1326 : 0 < S1x1x1326.numel
  shapeCasts_S1x1x1326_S1326 : S1x1x1326.ShapeCasts S1326
  slices_S2048_o0_S722 : S2048.Slices ![0] S722
  concatenates_S1326_S722_S2048_d0 : Shape.Concatenates [S1326, S722] S2048 0
  inb_S1x1x2098176_S1x1x1275_0_0_2096901 : ∀ a, (![0, 0, 2096901] : Fin 3 → Nat) a + S1x1x1275.size a ≤ S1x1x2098176.size a
  h_S1x1x1275 : 0 < S1x1x1275.numel
  shapeCasts_S1x1x1275_S1275 : S1x1x1275.ShapeCasts S1275
  slices_S2048_o0_S773 : S2048.Slices ![0] S773
  concatenates_S1275_S773_S2048_d0 : Shape.Concatenates [S1275, S773] S2048 0
  inb_S1x1x2098176_S1x1x1225_0_0_2096951 : ∀ a, (![0, 0, 2096951] : Fin 3 → Nat) a + S1x1x1225.size a ≤ S1x1x2098176.size a
  h_S1x1x1225 : 0 < S1x1x1225.numel
  shapeCasts_S1x1x1225_S1225 : S1x1x1225.ShapeCasts S1225
  slices_S2048_o0_S823 : S2048.Slices ![0] S823
  concatenates_S1225_S823_S2048_d0 : Shape.Concatenates [S1225, S823] S2048 0
  inb_S1x1x2098176_S1x1x1176_0_0_2097000 : ∀ a, (![0, 0, 2097000] : Fin 3 → Nat) a + S1x1x1176.size a ≤ S1x1x2098176.size a
  h_S1x1x1176 : 0 < S1x1x1176.numel
  shapeCasts_S1x1x1176_S1176 : S1x1x1176.ShapeCasts S1176
  slices_S2048_o0_S872 : S2048.Slices ![0] S872
  concatenates_S1176_S872_S2048_d0 : Shape.Concatenates [S1176, S872] S2048 0
  inb_S1x1x2098176_S1x1x1128_0_0_2097048 : ∀ a, (![0, 0, 2097048] : Fin 3 → Nat) a + S1x1x1128.size a ≤ S1x1x2098176.size a
  h_S1x1x1128 : 0 < S1x1x1128.numel
  shapeCasts_S1x1x1128_S1128 : S1x1x1128.ShapeCasts S1128
  slices_S2048_o0_S920 : S2048.Slices ![0] S920
  concatenates_S1128_S920_S2048_d0 : Shape.Concatenates [S1128, S920] S2048 0
  inb_S1x1x2098176_S1x1x1081_0_0_2097095 : ∀ a, (![0, 0, 2097095] : Fin 3 → Nat) a + S1x1x1081.size a ≤ S1x1x2098176.size a
  h_S1x1x1081 : 0 < S1x1x1081.numel
  shapeCasts_S1x1x1081_S1081 : S1x1x1081.ShapeCasts S1081
  slices_S2048_o0_S967 : S2048.Slices ![0] S967
  concatenates_S1081_S967_S2048_d0 : Shape.Concatenates [S1081, S967] S2048 0
  inb_S1x1x2098176_S1x1x1035_0_0_2097141 : ∀ a, (![0, 0, 2097141] : Fin 3 → Nat) a + S1x1x1035.size a ≤ S1x1x2098176.size a
  h_S1x1x1035 : 0 < S1x1x1035.numel
  shapeCasts_S1x1x1035_S1035 : S1x1x1035.ShapeCasts S1035
  slices_S2048_o0_S1013 : S2048.Slices ![0] S1013
  concatenates_S1035_S1013_S2048_d0 : Shape.Concatenates [S1035, S1013] S2048 0
  inb_S1x1x2098176_S1x1x990_0_0_2097186 : ∀ a, (![0, 0, 2097186] : Fin 3 → Nat) a + S1x1x990.size a ≤ S1x1x2098176.size a
  h_S1x1x990 : 0 < S1x1x990.numel
  shapeCasts_S1x1x990_S990 : S1x1x990.ShapeCasts S990
  slices_S2048_o0_S1058 : S2048.Slices ![0] S1058
  concatenates_S990_S1058_S2048_d0 : Shape.Concatenates [S990, S1058] S2048 0
  inb_S1x1x2098176_S1x1x946_0_0_2097230 : ∀ a, (![0, 0, 2097230] : Fin 3 → Nat) a + S1x1x946.size a ≤ S1x1x2098176.size a
  h_S1x1x946 : 0 < S1x1x946.numel
  shapeCasts_S1x1x946_S946 : S1x1x946.ShapeCasts S946
  slices_S2048_o0_S1102 : S2048.Slices ![0] S1102
  concatenates_S946_S1102_S2048_d0 : Shape.Concatenates [S946, S1102] S2048 0
  inb_S1x1x2098176_S1x1x903_0_0_2097273 : ∀ a, (![0, 0, 2097273] : Fin 3 → Nat) a + S1x1x903.size a ≤ S1x1x2098176.size a
  h_S1x1x903 : 0 < S1x1x903.numel
  shapeCasts_S1x1x903_S903 : S1x1x903.ShapeCasts S903
  slices_S2048_o0_S1145 : S2048.Slices ![0] S1145
  concatenates_S903_S1145_S2048_d0 : Shape.Concatenates [S903, S1145] S2048 0
  inb_S1x1x2098176_S1x1x861_0_0_2097315 : ∀ a, (![0, 0, 2097315] : Fin 3 → Nat) a + S1x1x861.size a ≤ S1x1x2098176.size a
  h_S1x1x861 : 0 < S1x1x861.numel
  shapeCasts_S1x1x861_S861 : S1x1x861.ShapeCasts S861
  slices_S2048_o0_S1187 : S2048.Slices ![0] S1187
  concatenates_S861_S1187_S2048_d0 : Shape.Concatenates [S861, S1187] S2048 0
  inb_S1x1x2098176_S1x1x820_0_0_2097356 : ∀ a, (![0, 0, 2097356] : Fin 3 → Nat) a + S1x1x820.size a ≤ S1x1x2098176.size a
  h_S1x1x820 : 0 < S1x1x820.numel
  shapeCasts_S1x1x820_S820 : S1x1x820.ShapeCasts S820
  slices_S2048_o0_S1228 : S2048.Slices ![0] S1228
  concatenates_S820_S1228_S2048_d0 : Shape.Concatenates [S820, S1228] S2048 0
  inb_S1x1x2098176_S1x1x780_0_0_2097396 : ∀ a, (![0, 0, 2097396] : Fin 3 → Nat) a + S1x1x780.size a ≤ S1x1x2098176.size a
  h_S1x1x780 : 0 < S1x1x780.numel
  shapeCasts_S1x1x780_S780 : S1x1x780.ShapeCasts S780
  slices_S2048_o0_S1268 : S2048.Slices ![0] S1268
  concatenates_S780_S1268_S2048_d0 : Shape.Concatenates [S780, S1268] S2048 0
  inb_S1x1x2098176_S1x1x741_0_0_2097435 : ∀ a, (![0, 0, 2097435] : Fin 3 → Nat) a + S1x1x741.size a ≤ S1x1x2098176.size a
  h_S1x1x741 : 0 < S1x1x741.numel
  shapeCasts_S1x1x741_S741 : S1x1x741.ShapeCasts S741
  slices_S2048_o0_S1307 : S2048.Slices ![0] S1307
  concatenates_S741_S1307_S2048_d0 : Shape.Concatenates [S741, S1307] S2048 0
  inb_S1x1x2098176_S1x1x703_0_0_2097473 : ∀ a, (![0, 0, 2097473] : Fin 3 → Nat) a + S1x1x703.size a ≤ S1x1x2098176.size a
  h_S1x1x703 : 0 < S1x1x703.numel
  shapeCasts_S1x1x703_S703 : S1x1x703.ShapeCasts S703
  slices_S2048_o0_S1345 : S2048.Slices ![0] S1345
  concatenates_S703_S1345_S2048_d0 : Shape.Concatenates [S703, S1345] S2048 0
  inb_S1x1x2098176_S1x1x666_0_0_2097510 : ∀ a, (![0, 0, 2097510] : Fin 3 → Nat) a + S1x1x666.size a ≤ S1x1x2098176.size a
  h_S1x1x666 : 0 < S1x1x666.numel
  shapeCasts_S1x1x666_S666 : S1x1x666.ShapeCasts S666
  slices_S2048_o0_S1382 : S2048.Slices ![0] S1382
  concatenates_S666_S1382_S2048_d0 : Shape.Concatenates [S666, S1382] S2048 0
  inb_S1x1x2098176_S1x1x630_0_0_2097546 : ∀ a, (![0, 0, 2097546] : Fin 3 → Nat) a + S1x1x630.size a ≤ S1x1x2098176.size a
  h_S1x1x630 : 0 < S1x1x630.numel
  shapeCasts_S1x1x630_S630 : S1x1x630.ShapeCasts S630
  slices_S2048_o0_S1418 : S2048.Slices ![0] S1418
  concatenates_S630_S1418_S2048_d0 : Shape.Concatenates [S630, S1418] S2048 0
  inb_S1x1x2098176_S1x1x595_0_0_2097581 : ∀ a, (![0, 0, 2097581] : Fin 3 → Nat) a + S1x1x595.size a ≤ S1x1x2098176.size a
  h_S1x1x595 : 0 < S1x1x595.numel
  shapeCasts_S1x1x595_S595 : S1x1x595.ShapeCasts S595
  slices_S2048_o0_S1453 : S2048.Slices ![0] S1453
  concatenates_S595_S1453_S2048_d0 : Shape.Concatenates [S595, S1453] S2048 0
  inb_S1x1x2098176_S1x1x561_0_0_2097615 : ∀ a, (![0, 0, 2097615] : Fin 3 → Nat) a + S1x1x561.size a ≤ S1x1x2098176.size a
  h_S1x1x561 : 0 < S1x1x561.numel
  shapeCasts_S1x1x561_S561 : S1x1x561.ShapeCasts S561
  slices_S2048_o0_S1487 : S2048.Slices ![0] S1487
  concatenates_S561_S1487_S2048_d0 : Shape.Concatenates [S561, S1487] S2048 0
  inb_S1x1x2098176_S1x1x528_0_0_2097648 : ∀ a, (![0, 0, 2097648] : Fin 3 → Nat) a + S1x1x528.size a ≤ S1x1x2098176.size a
  h_S1x1x528 : 0 < S1x1x528.numel
  shapeCasts_S1x1x528_S528 : S1x1x528.ShapeCasts S528
  slices_S2048_o0_S1520 : S2048.Slices ![0] S1520
  concatenates_S528_S1520_S2048_d0 : Shape.Concatenates [S528, S1520] S2048 0
  inb_S1x1x2098176_S1x1x496_0_0_2097680 : ∀ a, (![0, 0, 2097680] : Fin 3 → Nat) a + S1x1x496.size a ≤ S1x1x2098176.size a
  h_S1x1x496 : 0 < S1x1x496.numel
  shapeCasts_S1x1x496_S496 : S1x1x496.ShapeCasts S496
  slices_S2048_o0_S1552 : S2048.Slices ![0] S1552
  concatenates_S496_S1552_S2048_d0 : Shape.Concatenates [S496, S1552] S2048 0
  inb_S1x1x2098176_S1x1x465_0_0_2097711 : ∀ a, (![0, 0, 2097711] : Fin 3 → Nat) a + S1x1x465.size a ≤ S1x1x2098176.size a
  h_S1x1x465 : 0 < S1x1x465.numel
  shapeCasts_S1x1x465_S465 : S1x1x465.ShapeCasts S465
  slices_S2048_o0_S1583 : S2048.Slices ![0] S1583
  concatenates_S465_S1583_S2048_d0 : Shape.Concatenates [S465, S1583] S2048 0
  inb_S1x1x2098176_S1x1x435_0_0_2097741 : ∀ a, (![0, 0, 2097741] : Fin 3 → Nat) a + S1x1x435.size a ≤ S1x1x2098176.size a
  h_S1x1x435 : 0 < S1x1x435.numel
  shapeCasts_S1x1x435_S435 : S1x1x435.ShapeCasts S435
  slices_S2048_o0_S1613 : S2048.Slices ![0] S1613
  concatenates_S435_S1613_S2048_d0 : Shape.Concatenates [S435, S1613] S2048 0
  inb_S1x1x2098176_S1x1x406_0_0_2097770 : ∀ a, (![0, 0, 2097770] : Fin 3 → Nat) a + S1x1x406.size a ≤ S1x1x2098176.size a
  h_S1x1x406 : 0 < S1x1x406.numel
  shapeCasts_S1x1x406_S406 : S1x1x406.ShapeCasts S406
  slices_S2048_o0_S1642 : S2048.Slices ![0] S1642
  concatenates_S406_S1642_S2048_d0 : Shape.Concatenates [S406, S1642] S2048 0
  inb_S1x1x2098176_S1x1x378_0_0_2097798 : ∀ a, (![0, 0, 2097798] : Fin 3 → Nat) a + S1x1x378.size a ≤ S1x1x2098176.size a
  h_S1x1x378 : 0 < S1x1x378.numel
  shapeCasts_S1x1x378_S378 : S1x1x378.ShapeCasts S378
  slices_S2048_o0_S1670 : S2048.Slices ![0] S1670
  concatenates_S378_S1670_S2048_d0 : Shape.Concatenates [S378, S1670] S2048 0
  inb_S1x1x2098176_S1x1x351_0_0_2097825 : ∀ a, (![0, 0, 2097825] : Fin 3 → Nat) a + S1x1x351.size a ≤ S1x1x2098176.size a
  h_S1x1x351 : 0 < S1x1x351.numel
  shapeCasts_S1x1x351_S351 : S1x1x351.ShapeCasts S351
  slices_S2048_o0_S1697 : S2048.Slices ![0] S1697
  concatenates_S351_S1697_S2048_d0 : Shape.Concatenates [S351, S1697] S2048 0
  inb_S1x1x2098176_S1x1x325_0_0_2097851 : ∀ a, (![0, 0, 2097851] : Fin 3 → Nat) a + S1x1x325.size a ≤ S1x1x2098176.size a
  h_S1x1x325 : 0 < S1x1x325.numel
  shapeCasts_S1x1x325_S325 : S1x1x325.ShapeCasts S325
  slices_S2048_o0_S1723 : S2048.Slices ![0] S1723
  concatenates_S325_S1723_S2048_d0 : Shape.Concatenates [S325, S1723] S2048 0
  inb_S1x1x2098176_S1x1x300_0_0_2097876 : ∀ a, (![0, 0, 2097876] : Fin 3 → Nat) a + S1x1x300.size a ≤ S1x1x2098176.size a
  h_S1x1x300 : 0 < S1x1x300.numel
  shapeCasts_S1x1x300_S300 : S1x1x300.ShapeCasts S300
  slices_S2048_o0_S1748 : S2048.Slices ![0] S1748
  concatenates_S300_S1748_S2048_d0 : Shape.Concatenates [S300, S1748] S2048 0
  inb_S1x1x2098176_S1x1x276_0_0_2097900 : ∀ a, (![0, 0, 2097900] : Fin 3 → Nat) a + S1x1x276.size a ≤ S1x1x2098176.size a
  h_S1x1x276 : 0 < S1x1x276.numel
  shapeCasts_S1x1x276_S276 : S1x1x276.ShapeCasts S276
  slices_S2048_o0_S1772 : S2048.Slices ![0] S1772
  concatenates_S276_S1772_S2048_d0 : Shape.Concatenates [S276, S1772] S2048 0
  inb_S1x1x2098176_S1x1x253_0_0_2097923 : ∀ a, (![0, 0, 2097923] : Fin 3 → Nat) a + S1x1x253.size a ≤ S1x1x2098176.size a
  h_S1x1x253 : 0 < S1x1x253.numel
  shapeCasts_S1x1x253_S253 : S1x1x253.ShapeCasts S253
  slices_S2048_o0_S1795 : S2048.Slices ![0] S1795
  concatenates_S253_S1795_S2048_d0 : Shape.Concatenates [S253, S1795] S2048 0
  inb_S1x1x2098176_S1x1x231_0_0_2097945 : ∀ a, (![0, 0, 2097945] : Fin 3 → Nat) a + S1x1x231.size a ≤ S1x1x2098176.size a
  h_S1x1x231 : 0 < S1x1x231.numel
  shapeCasts_S1x1x231_S231 : S1x1x231.ShapeCasts S231
  slices_S2048_o0_S1817 : S2048.Slices ![0] S1817
  concatenates_S231_S1817_S2048_d0 : Shape.Concatenates [S231, S1817] S2048 0
  inb_S1x1x2098176_S1x1x210_0_0_2097966 : ∀ a, (![0, 0, 2097966] : Fin 3 → Nat) a + S1x1x210.size a ≤ S1x1x2098176.size a
  h_S1x1x210 : 0 < S1x1x210.numel
  shapeCasts_S1x1x210_S210 : S1x1x210.ShapeCasts S210
  slices_S2048_o0_S1838 : S2048.Slices ![0] S1838
  concatenates_S210_S1838_S2048_d0 : Shape.Concatenates [S210, S1838] S2048 0
  inb_S1x1x2098176_S1x1x190_0_0_2097986 : ∀ a, (![0, 0, 2097986] : Fin 3 → Nat) a + S1x1x190.size a ≤ S1x1x2098176.size a
  h_S1x1x190 : 0 < S1x1x190.numel
  shapeCasts_S1x1x190_S190 : S1x1x190.ShapeCasts S190
  slices_S2048_o0_S1858 : S2048.Slices ![0] S1858
  concatenates_S190_S1858_S2048_d0 : Shape.Concatenates [S190, S1858] S2048 0
  inb_S1x1x2098176_S1x1x171_0_0_2098005 : ∀ a, (![0, 0, 2098005] : Fin 3 → Nat) a + S1x1x171.size a ≤ S1x1x2098176.size a
  h_S1x1x171 : 0 < S1x1x171.numel
  shapeCasts_S1x1x171_S171 : S1x1x171.ShapeCasts S171
  slices_S2048_o0_S1877 : S2048.Slices ![0] S1877
  concatenates_S171_S1877_S2048_d0 : Shape.Concatenates [S171, S1877] S2048 0
  inb_S1x1x2098176_S1x1x153_0_0_2098023 : ∀ a, (![0, 0, 2098023] : Fin 3 → Nat) a + S1x1x153.size a ≤ S1x1x2098176.size a
  h_S1x1x153 : 0 < S1x1x153.numel
  shapeCasts_S1x1x153_S153 : S1x1x153.ShapeCasts S153
  slices_S2048_o0_S1895 : S2048.Slices ![0] S1895
  concatenates_S153_S1895_S2048_d0 : Shape.Concatenates [S153, S1895] S2048 0
  inb_S1x1x2098176_S1x1x136_0_0_2098040 : ∀ a, (![0, 0, 2098040] : Fin 3 → Nat) a + S1x1x136.size a ≤ S1x1x2098176.size a
  h_S1x1x136 : 0 < S1x1x136.numel
  shapeCasts_S1x1x136_S136 : S1x1x136.ShapeCasts S136
  slices_S2048_o0_S1912 : S2048.Slices ![0] S1912
  concatenates_S136_S1912_S2048_d0 : Shape.Concatenates [S136, S1912] S2048 0
  inb_S1x1x2098176_S1x1x120_0_0_2098056 : ∀ a, (![0, 0, 2098056] : Fin 3 → Nat) a + S1x1x120.size a ≤ S1x1x2098176.size a
  h_S1x1x120 : 0 < S1x1x120.numel
  shapeCasts_S1x1x120_S120 : S1x1x120.ShapeCasts S120
  slices_S2048_o0_S1928 : S2048.Slices ![0] S1928
  concatenates_S120_S1928_S2048_d0 : Shape.Concatenates [S120, S1928] S2048 0
  inb_S1x1x2098176_S1x1x105_0_0_2098071 : ∀ a, (![0, 0, 2098071] : Fin 3 → Nat) a + S1x1x105.size a ≤ S1x1x2098176.size a
  h_S1x1x105 : 0 < S1x1x105.numel
  shapeCasts_S1x1x105_S105 : S1x1x105.ShapeCasts S105
  slices_S2048_o0_S1943 : S2048.Slices ![0] S1943
  concatenates_S105_S1943_S2048_d0 : Shape.Concatenates [S105, S1943] S2048 0
  inb_S1x1x2098176_S1x1x91_0_0_2098085 : ∀ a, (![0, 0, 2098085] : Fin 3 → Nat) a + S1x1x91.size a ≤ S1x1x2098176.size a
  h_S1x1x91 : 0 < S1x1x91.numel
  shapeCasts_S1x1x91_S91 : S1x1x91.ShapeCasts S91
  slices_S2048_o0_S1957 : S2048.Slices ![0] S1957
  concatenates_S91_S1957_S2048_d0 : Shape.Concatenates [S91, S1957] S2048 0
  inb_S1x1x2098176_S1x1x78_0_0_2098098 : ∀ a, (![0, 0, 2098098] : Fin 3 → Nat) a + S1x1x78.size a ≤ S1x1x2098176.size a
  h_S1x1x78 : 0 < S1x1x78.numel
  shapeCasts_S1x1x78_S78 : S1x1x78.ShapeCasts S78
  slices_S2048_o0_S1970 : S2048.Slices ![0] S1970
  concatenates_S78_S1970_S2048_d0 : Shape.Concatenates [S78, S1970] S2048 0
  inb_S1x1x2098176_S1x1x66_0_0_2098110 : ∀ a, (![0, 0, 2098110] : Fin 3 → Nat) a + S1x1x66.size a ≤ S1x1x2098176.size a
  h_S1x1x66 : 0 < S1x1x66.numel
  shapeCasts_S1x1x66_S66 : S1x1x66.ShapeCasts S66
  slices_S2048_o0_S1982 : S2048.Slices ![0] S1982
  concatenates_S66_S1982_S2048_d0 : Shape.Concatenates [S66, S1982] S2048 0
  inb_S1x1x2098176_S1x1x55_0_0_2098121 : ∀ a, (![0, 0, 2098121] : Fin 3 → Nat) a + S1x1x55.size a ≤ S1x1x2098176.size a
  h_S1x1x55 : 0 < S1x1x55.numel
  shapeCasts_S1x1x55_S55 : S1x1x55.ShapeCasts S55
  slices_S2048_o0_S1993 : S2048.Slices ![0] S1993
  concatenates_S55_S1993_S2048_d0 : Shape.Concatenates [S55, S1993] S2048 0
  inb_S1x1x2098176_S1x1x45_0_0_2098131 : ∀ a, (![0, 0, 2098131] : Fin 3 → Nat) a + S1x1x45.size a ≤ S1x1x2098176.size a
  h_S1x1x45 : 0 < S1x1x45.numel
  shapeCasts_S1x1x45_S45 : S1x1x45.ShapeCasts S45
  slices_S2048_o0_S2003 : S2048.Slices ![0] S2003
  concatenates_S45_S2003_S2048_d0 : Shape.Concatenates [S45, S2003] S2048 0
  inb_S1x1x2098176_S1x1x36_0_0_2098140 : ∀ a, (![0, 0, 2098140] : Fin 3 → Nat) a + S1x1x36.size a ≤ S1x1x2098176.size a
  h_S1x1x36 : 0 < S1x1x36.numel
  shapeCasts_S1x1x36_S36 : S1x1x36.ShapeCasts S36
  slices_S2048_o0_S2012 : S2048.Slices ![0] S2012
  concatenates_S36_S2012_S2048_d0 : Shape.Concatenates [S36, S2012] S2048 0
  inb_S1x1x2098176_S1x1x28_0_0_2098148 : ∀ a, (![0, 0, 2098148] : Fin 3 → Nat) a + S1x1x28.size a ≤ S1x1x2098176.size a
  h_S1x1x28 : 0 < S1x1x28.numel
  shapeCasts_S1x1x28_S28 : S1x1x28.ShapeCasts S28
  slices_S2048_o0_S2020 : S2048.Slices ![0] S2020
  concatenates_S28_S2020_S2048_d0 : Shape.Concatenates [S28, S2020] S2048 0
  inb_S1x1x2098176_S1x1x21_0_0_2098155 : ∀ a, (![0, 0, 2098155] : Fin 3 → Nat) a + S1x1x21.size a ≤ S1x1x2098176.size a
  h_S1x1x21 : 0 < S1x1x21.numel
  shapeCasts_S1x1x21_S21 : S1x1x21.ShapeCasts S21
  slices_S2048_o0_S2027 : S2048.Slices ![0] S2027
  concatenates_S21_S2027_S2048_d0 : Shape.Concatenates [S21, S2027] S2048 0
  inb_S1x1x2098176_S1x1x15_0_0_2098161 : ∀ a, (![0, 0, 2098161] : Fin 3 → Nat) a + S1x1x15.size a ≤ S1x1x2098176.size a
  h_S1x1x15 : 0 < S1x1x15.numel
  shapeCasts_S1x1x15_S15 : S1x1x15.ShapeCasts S15
  slices_S2048_o0_S2033 : S2048.Slices ![0] S2033
  concatenates_S15_S2033_S2048_d0 : Shape.Concatenates [S15, S2033] S2048 0
  inb_S1x1x2098176_S1x1x10_0_0_2098166 : ∀ a, (![0, 0, 2098166] : Fin 3 → Nat) a + S1x1x10.size a ≤ S1x1x2098176.size a
  h_S1x1x10 : 0 < S1x1x10.numel
  shapeCasts_S1x1x10_S10 : S1x1x10.ShapeCasts S10
  slices_S2048_o0_S2038 : S2048.Slices ![0] S2038
  concatenates_S10_S2038_S2048_d0 : Shape.Concatenates [S10, S2038] S2048 0
  inb_S1x1x2098176_S1x1x6_0_0_2098170 : ∀ a, (![0, 0, 2098170] : Fin 3 → Nat) a + S1x1x6.size a ≤ S1x1x2098176.size a
  h_S1x1x6 : 0 < S1x1x6.numel
  shapeCasts_S1x1x6_S6 : S1x1x6.ShapeCasts S6
  slices_S2048_o0_S2042 : S2048.Slices ![0] S2042
  concatenates_S6_S2042_S2048_d0 : Shape.Concatenates [S6, S2042] S2048 0
  inb_S1x1x2098176_S1x1x3_0_0_2098173 : ∀ a, (![0, 0, 2098173] : Fin 3 → Nat) a + S1x1x3.size a ≤ S1x1x2098176.size a
  h_S1x1x3 : 0 < S1x1x3.numel
  shapeCasts_S1x1x3_S3 : S1x1x3.ShapeCasts S3
  slices_S2048_o0_S2045 : S2048.Slices ![0] S2045
  concatenates_S3_S2045_S2048_d0 : Shape.Concatenates [S3, S2045] S2048 0
  inb_S1x1x2098176_S1x1x1_0_0_2098175 : ∀ a, (![0, 0, 2098175] : Fin 3 → Nat) a + S1x1x1.size a ≤ S1x1x2098176.size a
  h_S1x1x1 : 0 < S1x1x1.numel
  shapeCasts_S1x1x1_S1 : S1x1x1.ShapeCasts S1
  slices_S2048_o0_S2047 : S2048.Slices ![0] S2047
  concatenates_S1_S2047_S2048_d0 : Shape.Concatenates [S1, S2047] S2048 0

class Facts₀ : Prop where
  k0 : K0.Facts₀
  shapes1 : Shapes1.Facts₀
  shapes2 : Shapes2.Facts₀
  shapes3 : Shapes3.Facts₀
attribute [instance] Facts₀.k0 Facts₀.shapes1 Facts₀.shapes2 Facts₀.shapes3

variable [Facts₀]

abbrev win0_0 : Pipeline.Window sig grid0 :=
  Pipeline.Window.ofSpec (Memref.whole main_v0) S1x1x2098176.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S32x2098176 : Shape := ⟨2, ![32, 2098176]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S1 : Shape := ⟨1, ![1]⟩
abbrev S1x1x1 : Shape := ⟨3, ![1, 1, 1]⟩
abbrev S32x2048x2048 : Shape := ⟨3, ![32, 2048, 2048]⟩

abbrev nBuf : Space → Nat
  | .hbm => 57
  | .vmem => 0
  | .smem => 0
  | _ => 0

abbrev bufTy : (tb : Table) → Fin (tcTables nBuf tb) → BufTy
  | .hbm, ⟨0, _⟩ => ⟨S32x2098176, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S2048, .i32⟩
  | .hbm, ⟨30, _⟩ => ⟨S1x2048, .i32⟩
  | .hbm, ⟨31, _⟩ => ⟨S2048x2048, .i32⟩
  | .hbm, ⟨32, _⟩ => ⟨S2048x2048, .i32⟩
  | .hbm, ⟨33, _⟩ => ⟨S2048x2048, .i32⟩
  | .hbm, ⟨34, _⟩ => ⟨S_, .i32⟩
  | .hbm, ⟨35, _⟩ => ⟨S2048x2048, .i32⟩
  | .hbm, ⟨36, _⟩ => ⟨S2048x2048, .i1⟩
  | .hbm, ⟨37, _⟩ => ⟨S_, .i32⟩
  | .hbm, ⟨38, _⟩ => ⟨S2048x2048, .i32⟩
  | .hbm, ⟨39, _⟩ => ⟨S2048x2048, .i32⟩
  | .hbm, ⟨40, _⟩ => ⟨S2048x2048, .i32⟩
  | .hbm, ⟨41, _⟩ => ⟨S2048x2048x1, .i32⟩
  | .hbm, ⟨42, _⟩ => ⟨S1, .i32⟩
  | .hbm, ⟨43, _⟩ => ⟨S_, .i32⟩
  | .hbm, ⟨44, _⟩ => ⟨S2048x2048x1, .i32⟩
  | .hbm, ⟨45, _⟩ => ⟨S2048x2048x1, .i1⟩
  | .hbm, ⟨46, _⟩ => ⟨S1x1x1, .i32⟩
  | .hbm, ⟨47, _⟩ => ⟨S2048x2048x1, .i32⟩
  | .hbm, ⟨48, _⟩ => ⟨S2048x2048x1, .i1⟩
  | .hbm, ⟨49, _⟩ => ⟨S2048x2048x1, .i1⟩
  | .hbm, ⟨50, _⟩ => ⟨S_, .i1⟩
  | .hbm, ⟨51, _⟩ => ⟨S2048x2048, .i1⟩
  | .hbm, ⟨52, _⟩ => ⟨S32x2048x2048, .f32⟩
  | .hbm, ⟨53, _⟩ => ⟨S32x2048x2048, .i1⟩
  | .hbm, ⟨54, _⟩ => ⟨S_, .f32⟩
  | .hbm, ⟨55, _⟩ => ⟨S32x2048x2048, .f32⟩
  | .hbm, ⟨56, _⟩ => ⟨S32x2048x2048, .f32⟩
  | _, _ => ⟨S32x2098176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v14 : Ref sig .tc := ⟨.hbm, 56, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S_S2048x2048x1 : S_.BroadcastsInDim S2048x2048x1 (![] : Fin 0 → Fin S2048x2048x1.rank)
  bcast_S1_S1x1x1_2 : S1.BroadcastsInDim S1x1x1 (![2] : Fin 1 → Fin S1x1x1.rank)
  bcast_S1x1x1_S2048x2048x1_0_1_2 : S1x1x1.BroadcastsInDim S2048x2048x1 (![0, 1, 2] : Fin 3 → Fin S2048x2048x1.rank)
  reducesTo_S2048x2048x1_S2048x2048_d2 : S2048x2048x1.ReducesTo [2] S2048x2048
  h_S_ : 0 < S_.numel
  bcast_S2048x2048_S32x2048x2048_1_2 : S2048x2048.BroadcastsInDim S32x2048x2048 (![1, 2] : Fin 2 → Fin S32x2048x2048.rank)
  bcast_S_S32x2048x2048 : S_.BroadcastsInDim S32x2048x2048 (![] : Fin 0 → Fin S32x2048x2048.rank)
  gather_S32x2098176_S2048x2048x1_S32x2048x2048_0_1_n_n_1_2_321_wf : GatherDims.WF S32x2098176 S2048x2048x1 S32x2048x2048 [0] [1] [] [1] [] 2 ![32, 1]

variable [Facts₀]

def gather_S32x2098176_S2048x2048x1_S32x2048x2048_0_1_n_n_1_2_321 : GatherDims S32x2098176 S2048x2048x1 S32x2048x2048 where
  offsetDims := [0]
  collapsedSliceDims := [1]
  operandBatchingDims := []
  startIndicesBatchingDims := []
  startIndexMap := [1]
  indexVectorDim := 2
  sliceSizes := ![32, 1]
  wf := gather_S32x2098176_S2048x2048x1_S32x2048x2048_0_1_n_n_1_2_321_wf

class Facts : Prop extends Facts₀ where

variable [Facts]
-- ==== Proof.Staircase.lean ====
/-
  The staircase layout. A symmetric-packed vector of length 2048 * 2049 / 2 = 2098176 holds rows of lengths
  2048, 2047, ..., 1 one after the other; row `i` begins at offset `start i = 2048 * i - i * (i - 1) / 2`.
  The result reads, for each batch entry, the 2048 positions that follow `start i` into row `i` of a
  2048 x 2048 matrix; a position past the end of the vector (they occur only in the last 63 rows, where
  fewer than 2048 positions remain) holds the quiet-NaN word instead.
-/
import Idealize.ShloMosaic.PureOps.Ideal
import Idealize.ShloMosaic.Lib.ValueIdx

noncomputable section

namespace Cert.Staircase

open Idealize.ShloMosaic Idealize.ShloMosaic.ValueIdx

/-- The offset in the packed vector at which row `i` of the staircase begins. -/
def start (i : Nat) : Nat := 2048 * i - i * (i - 1) / 2

/-- The packed vectors, one per batch entry. -/
abbrev SIn : Shape := ⟨2, ![32, 2098176]⟩
/-- The staircase matrices, one per batch entry. -/
abbrev SOut : Shape := ⟨3, ![32, 2048, 2048]⟩

/-- The staircase of a batch of packed vectors: entry `(b, i, j)` is the packed vector `b` at position
    `start i + j` when that position exists, and the quiet-NaN word otherwise. -/
def G (x : FVec Ideal SIn .f32) : FVec Ideal SOut .f32 := fun y =>
  if h : start (y 1).val + (y 2).val < 2098176 then
    x (ix2 (⟨(y 0).val, (y 0).isLt⟩ : Fin 32) (⟨start (y 1).val + (y 2).val, h⟩ : Fin 2098176))
  else Ideal.ofBits .f32 0x7FC00000#32

end Cert.Staircase

end
-- ==== Proof.LibRows.lean ====
/-
  Rows cut out of a packed vector and stacked into a matrix, read at an index.

  A block of shape [1, 1, N] is a packed vector. A window of `n` consecutive positions starting at `s`,
  flattened to a vector of length `n`, holds at `j` the packed vector's entry `s + j`. Such a vector laid
  out as a one-row matrix [1, n] holds at `(0, j)` the vector's entry `j`, and a stack of one-row matrices
  along axis 0 holds at `(k, j)` entry `(0, j)` of its `k`-th row.
-/
import Idealize.ShloMosaic.Lib.Pipeline.Value
import Idealize.ShloMosaic.Lib.Pipeline.FrameBody
import Idealize.ShloMosaic.Lib.ValueIdx

noncomputable section

namespace Cert.Staircase.Rows

open Idealize.ShloMosaic Idealize.ShloMosaic.ValueIdx

variable {α : Type} {Val : EltTy → Type} {e : EltTy}

/-- A packed vector of length `N` as a block. -/
abbrev SBlk (N : Nat) : Shape := ⟨3, ![1, 1, N]⟩
/-- A vector of length `n`. -/
abbrev SVec (n : Nat) : Shape := ⟨1, ![n]⟩
/-- A one-row matrix. -/
abbrev SRow (n : Nat) : Shape := ⟨2, ![1, n]⟩
/-- A matrix of `r` rows. -/
abbrev SMat (r n : Nat) : Shape := ⟨2, ![r, n]⟩

/-- The window of `n` positions from `s` on of a packed vector, flattened, holds at `j` the packed vector's
    entry `s + j`. -/
theorem window_apply {N n : Nat} (x : (SBlk N).Idx → Val e) (s : Nat)
    (inb : ∀ a, (![0, 0, s] : Fin 3 → Nat) a + (SBlk n).size a ≤ (SBlk N).size a)
    (h : (⟨3, (SBlk n).size⟩ : Shape).ShapeCasts (SVec n)) (hN : s + n ≤ N) (j : Fin n) :
    shapeCast (SVec n) (View.ld x (Rect.unit (s := SBlk N) ![0, 0, s] (SBlk n).size inb)) h (ix1 j)
      = x (ix3 (0 : Fin 1) (0 : Fin 1) (⟨s + j.val, by have := j.isLt; omega⟩ : Fin N)) := by
  refine (shapeCast_apply _ h (ix1 j) (ix3 (0 : Fin 1) (0 : Fin 1) j) ?_).trans ?_
  · rw [Shape.rowMajor_val_three, Shape.rowMajor_val_one]
    show ((0 * 1 + 0) * n + j.val) = j.val
    omega
  · show x ((Rect.unit (s := SBlk N) ![0, 0, s] (SBlk n).size inb).idx (ix3 (0 : Fin 1) (0 : Fin 1) j)) = _
    refine congrArg x (funext fun a => Fin.ext ?_)
    match a with
    | ⟨0, _⟩ => show 0 + 1 * 0 = 0; rfl
    | ⟨1, _⟩ => show 0 + 1 * 0 = 0; rfl
    | ⟨2, _⟩ => show s + 1 * j.val = s + j.val; omega

/-- The same window read through a view of a buffer whose contents, read whole, are the packed vector `x`. -/
theorem window_readAt {sig : RefSig} {κ : Kind} {sp : Space} {N n : Nat} (vw : View sig κ sp (SBlk N) e)
    (f : vw.ty.Contents Val) (x : (SBlk N).Idx → Val e) (hx : vw.read Val f = x) (s : Nat)
    (inb : ∀ a, (![0, 0, s] : Fin 3 → Nat) a + (SBlk n).size a ≤ (SBlk N).size a)
    (h : (⟨3, (SBlk n).size⟩ : Shape).ShapeCasts (SVec n)) (hN : s + n ≤ N) (j : Fin n) :
    shapeCast (SVec n) (vw.readAt Val (Rect.unit (s := SBlk N) ![0, 0, s] (SBlk n).size inb).toLoadRect f) h (ix1 j)
      = x (ix3 (0 : Fin 1) (0 : Fin 1) (⟨s + j.val, by have := j.isLt; omega⟩ : Fin N)) := by
  rw [View.readAt_eq_ld, hx]
  exact window_apply x s inb h hN j

/-- A row whose first `v` positions are the window of the packed vector from `s` on and whose other `w`
    positions all hold one value `c`: at `j` it is the packed vector's entry `s + j` while `j < v`, and `c`
    from there on. -/
theorem tail_row_apply {N v w n : Nat} (x : (SBlk N).Idx → Val e) (s : Nat)
    (inb : ∀ a, (![0, 0, s] : Fin 3 → Nat) a + (SBlk v).size a ≤ (SBlk N).size a)
    (h : (⟨3, (SBlk v).size⟩ : Shape).ShapeCasts (SVec v)) (c : Val e) (y : (SVec w).Idx → Val e)
    (hy : ∀ i, y i = c) (hc : Shape.Concatenates [SVec v, SVec w] (SVec n) 0) (hn : v + w = n)
    (hN : s + v ≤ N) (j : Fin n) :
    concatenate (SVec n) 0
        [⟨SVec v, shapeCast (SVec v) (View.ld x (Rect.unit (s := SBlk N) ![0, 0, s] (SBlk v).size inb)) h⟩,
          ⟨SVec w, y⟩] hc (ix1 j)
      = if hj : j.val < v then x (ix3 (0 : Fin 1) (0 : Fin 1) (⟨s + j.val, by omega⟩ : Fin N)) else c := by
  split
  · rename_i hj
    refine (concatenate_pair_apply_left (0 : Fin (SVec n).rank) _ _ hc (ix1 j) rfl (ix1 (⟨j.val, hj⟩ : Fin v))
      (fun b => ?_)).trans ?_
    · match b with
      | ⟨0, _⟩ => rfl
    · exact window_apply x s inb h hN ⟨j.val, hj⟩
  · rename_i hj
    refine (concatenate_pair_apply_right (0 : Fin (SVec n).rank) _ _ hc (ix1 j) rfl rfl
      (ix1 (⟨j.val - v, by have := j.isLt; omega⟩ : Fin w)) (fun b hb => ?_) ?_).trans (hy _)
    · match b with
      | ⟨0, _⟩ => exact absurd rfl hb
    · show (j.val - v) + v = j.val
      omega

/-- The same row read through a view of a buffer whose contents, read whole, are the packed vector `x`. -/
theorem tail_row_readAt {sig : RefSig} {κ : Kind} {sp : Space} {N v w n : Nat} (vw : View sig κ sp (SBlk N) e)
    (f : vw.ty.Contents Val) (x : (SBlk N).Idx → Val e) (hx : vw.read Val f = x) (s : Nat)
    (inb : ∀ a, (![0, 0, s] : Fin 3 → Nat) a + (SBlk v).size a ≤ (SBlk N).size a)
    (h : (⟨3, (SBlk v).size⟩ : Shape).ShapeCasts (SVec v)) (c : Val e) (y : (SVec w).Idx → Val e)
    (hy : ∀ i, y i = c) (hc : Shape.Concatenates [SVec v, SVec w] (SVec n) 0) (hn : v + w = n)
    (hN : s + v ≤ N) (j : Fin n) :
    concatenate (SVec n) 0
        [⟨SVec v, shapeCast (SVec v)
            (vw.readAt Val (Rect.unit (s := SBlk N) ![0, 0, s] (SBlk v).size inb).toLoadRect f) h⟩,
          ⟨SVec w, y⟩] hc (ix1 j)
      = if hj : j.val < v then x (ix3 (0 : Fin 1) (0 : Fin 1) (⟨s + j.val, by omega⟩ : Fin N)) else c := by
  rw [View.readAt_eq_ld, hx]
  exact tail_row_apply x s inb h c y hy hc hn hN j

/-- A vector laid out as a one-row matrix holds at `(0, j)` the vector's entry `j`. -/
theorem one_row_apply {n : Nat} (v : (SVec n).Idx → α) (h : (SVec n).ShapeCasts (SRow n)) (j : Fin n) :
    shapeCast (SRow n) v h (ix2 (0 : Fin 1) j) = v (ix1 j) := by
  refine shapeCast_apply v h _ (ix1 j) ?_
  rw [Shape.rowMajor_val_two, Shape.rowMajor_val_one]
  show j.val = 0 * n + j.val
  omega

/-- A stack of one-row matrices along axis 0, read at `(k, j)`: the `k`-th row at `(0, j)`. -/
theorem stack_row_at {R C : Nat} (xs : List ((s : Shape) × (s.Idx → α)))
    (h : Shape.Concatenates (xs.map (·.1)) (SMat R C) 0) (k : Nat) (hk : k < R) (j : Fin C)
    (v : (SRow C).Idx → α) (hlen : xs.length = R) (hxk : xs[k]'(hlen ▸ hk) = ⟨SRow C, v⟩)
    (hpre : (((xs.take k).map (·.1)).map fun s =>
      if h : s.rank = (SMat R C).rank then s.size ((0 : Fin (SMat R C).rank).cast h.symm) else 0).sum = k) :
    concatenate (SMat R C) 0 xs h (ix2 (⟨k, hk⟩ : Fin R) j) = v (ix2 (0 : Fin 1) j) := by
  refine concatenate_apply_piece (0 : Fin (SMat R C).rank) xs h _ k (hlen ▸ hk) (SRow C) v hxk rfl k hpre
    (ix2 (0 : Fin 1) j) (fun b hb => ?_) ?_
  · match b with
    | ⟨0, _⟩ => exact absurd rfl hb
    | ⟨1, _⟩ => rfl
  · show k + 0 = k
    omega

/-- The pieces a concatenation takes for a stack of one-row matrices. -/
def rowPieces {C : Nat} (vs : List ((SRow C).Idx → α)) : List ((s : Shape) × (s.Idx → α)) :=
  vs.map fun v => ⟨SRow C, v⟩

/-- The shapes of the pieces of a stack of one-row matrices. -/
theorem rowPieces_shapes {C : Nat} (vs : List ((SRow C).Idx → α)) :
    (rowPieces vs).map (·.1) = List.replicate vs.length (SRow C) := by
  induction vs with
  | nil => rfl
  | cons v vs ih =>
    show SRow C :: (rowPieces vs).map (·.1) = List.replicate (vs.length + 1) (SRow C)
    rw [ih, List.replicate_succ]

/-- Sixty-four one-row matrices of 2048 columns stack to a 64 x 2048 matrix. -/
theorem concatenates_rows64 (vs : List ((SRow 2048).Idx → α)) (hlen : vs.length = 64) :
    Shape.Concatenates ((rowPieces vs).map (·.1)) (SMat 64 2048) 0 := by
  rw [rowPieces_shapes, hlen]
  decide

/-- The extents along axis 0 of a stack of one-row matrices add up to their number. -/
theorem rowPieces_extents {R C : Nat} (l : List ((SRow C).Idx → α)) :
    (((rowPieces l).map (·.1)).map fun s =>
      if h : s.rank = (SMat R C).rank then s.size ((0 : Fin (SMat R C).rank).cast h.symm) else 0).sum = l.length := by
  induction l with
  | nil => rfl
  | cons v l ih =>
    have e : (((rowPieces (v :: l)).map (·.1)).map fun s =>
        if h : s.rank = (SMat R C).rank then s.size ((0 : Fin (SMat R C).rank).cast h.symm) else 0).sum
        = 1 + (((rowPieces l).map (·.1)).map fun s =>
          if h : s.rank = (SMat R C).rank then s.size ((0 : Fin (SMat R C).rank).cast h.symm) else 0).sum := rfl
    rw [e, ih, List.length_cons]
    omega

/-- A stack of the one-row matrices `vs` along axis 0, read at `(k, j)`: entry `(0, j)` of the `k`-th of
    them — for any row `k`. -/
theorem stack_rows_getElem {R C : Nat} (vs : List ((SRow C).Idx → α))
    (h : Shape.Concatenates ((rowPieces vs).map (·.1)) (SMat R C) 0) (hlen : vs.length = R)
    (k : Nat) (hk : k < R) (j : Fin C) :
    concatenate (SMat R C) 0 (rowPieces vs) h (ix2 (⟨k, hk⟩ : Fin R) j)
      = (vs[k]'(hlen ▸ hk)) (ix2 (0 : Fin 1) j) := by
  have hk' : k < (rowPieces vs).length := by rw [rowPieces, List.length_map, hlen]; exact hk
  refine concatenate_apply_piece (0 : Fin (SMat R C).rank) (rowPieces vs) h _ k hk' (SRow C)
    (vs[k]'(hlen ▸ hk)) ?_ rfl k ?_ (ix2 (0 : Fin 1) j) (fun b hb => ?_) ?_
  · simp only [rowPieces, List.getElem_map]
  · have et : (rowPieces vs).take k = rowPieces (vs.take k) := by simp only [rowPieces, List.map_take]
    rw [et, rowPieces_extents, List.length_take]
    have : k ≤ vs.length := by omega
    omega
  · match b with
    | ⟨0, _⟩ => exact absurd rfl hb
    | ⟨1, _⟩ => rfl
  · show k + 0 = k
    omega

end Cert.Staircase.Rows

end
-- ==== Proof.HalfBlock.lean ====
/-
  One half of one batch entry's staircase, as a function of that entry's packed vector.

  The result matrix of a batch entry is produced in two halves of 1024 rows. Half `h` (0 or 1), as a
  [1, 1024, 2048] block, holds at `(0, r, j)` the packed vector's entry `start (1024 h + r) + j` when that
  position exists and a fixed value `c` (the quiet-NaN word) otherwise. Each half is written as sixteen
  blocks of 64 rows; a block that starts at row `off` of the half and whose rows are the right windows of
  the packed vector is the restriction of the half to rows `off .. off + 63`.
-/
import proofs.«102620_j26792005992501_2_alg».proof.Proof.Staircase
import proofs.«102620_j26792005992501_2_alg».proof.Proof.LibRows

noncomputable section

namespace Cert.Staircase

open Idealize.ShloMosaic Idealize.ShloMosaic.ValueIdx Cert.Staircase.Rows

variable {Val : EltTy → Type} {e : EltTy}

/-- A half of a staircase matrix, as a block. -/
abbrev SHalf : Shape := ⟨3, ![1, 1024, 2048]⟩
/-- Sixty-four rows of it, as a block. -/
abbrev SPiece : Shape := ⟨3, ![1, 64, 2048]⟩

/-- Half `h` of the staircase of the packed vector `x`. -/
def half (c : Val e) (h : Nat) (x : (SBlk 2098176).Idx → Val e) : SHalf.Idx → Val e := fun y =>
  if hlt : start (1024 * h + (y 1).val) + (y 2).val < 2098176 then
    x (ix3 (0 : Fin 1) (0 : Fin 1) (⟨start (1024 * h + (y 1).val) + (y 2).val, hlt⟩ : Fin 2098176))
  else c

/-- A row of the half all of whose 2048 positions exist. -/
theorem half_full (c : Val e) (h r : Nat) (hr : r < 1024) (x : (SBlk 2098176).Idx → Val e) (j : Fin 2048)
    (s : Nat) (hs : start (1024 * h + r) = s) (hfull : s + 2048 ≤ 2098176) :
    half c h x (ix3 (0 : Fin 1) (⟨r, hr⟩ : Fin 1024) j)
      = x (ix3 (0 : Fin 1) (0 : Fin 1) (⟨s + j.val, by have := j.isLt; omega⟩ : Fin 2098176)) := by
  subst hs
  exact dif_pos (show start (1024 * h + r) + j.val < 2098176 by have := j.isLt; omega)

/-- A row of the half of which only the first `v` positions exist. -/
theorem half_tail (c : Val e) (h r : Nat) (hr : r < 1024) (x : (SBlk 2098176).Idx → Val e) (j : Fin 2048)
    (s v : Nat) (hs : start (1024 * h + r) = s) (hv : s + v = 2098176) :
    half c h x (ix3 (0 : Fin 1) (⟨r, hr⟩ : Fin 1024) j)
      = if hj : j.val < v then x (ix3 (0 : Fin 1) (0 : Fin 1) (⟨s + j.val, by omega⟩ : Fin 2098176)) else c := by
  subst hs
  by_cases hj : j.val < v
  · rw [dif_pos hj]
    exact dif_pos (show start (1024 * h + r) + j.val < 2098176 by omega)
  · rw [dif_neg hj]
    exact dif_neg (show ¬start (1024 * h + r) + j.val < 2098176 by omega)

/-- Sixty-four rows stored from row `off` of the half on: when each row is the corresponding row of the
    half, the stored block is the half read through the block's place. -/
theorem piece_of_rows (c : Val e) (h off : Nat) (hoff : off + 64 ≤ 1024) (x : (SBlk 2098176).Idx → Val e)
    (rows : (SMat 64 2048).Idx → Val e) (hc : (SMat 64 2048).ShapeCasts SPiece)
    (inb : ∀ a, (![0, off, 0] : Fin 3 → Nat) a + SPiece.size a ≤ SHalf.size a)
    (hrows : ∀ (k : Nat) (hk : k < 64) (j : Fin 2048),
      rows (ix2 (⟨k, hk⟩ : Fin 64) j) = half c h x (ix3 (0 : Fin 1) (⟨off + k, by omega⟩ : Fin 1024) j))
    (z : SPiece.Idx) :
    shapeCast SPiece rows hc z = half c h x ((Rect.unit (s := SHalf) ![0, off, 0] SPiece.size inb).emb z) := by
  refine (shapeCast_addUnit_apply ![64, 2048] rows hc z).trans ?_
  have e1 : (fun a : Fin 2 => z a.succ) = ix2 (⟨(z 1).val, (z 1).isLt⟩ : Fin 64) (⟨(z 2).val, (z 2).isLt⟩ : Fin 2048) := by
    funext a
    match a with
    | ⟨0, _⟩ => rfl
    | ⟨1, _⟩ => rfl
  have e2 : (Rect.unit (s := SHalf) ![0, off, 0] SPiece.size inb).emb z
      = ix3 (0 : Fin 1) (⟨off + (z 1).val, by have h1 : (z 1).val < 64 := (z 1).isLt; omega⟩ : Fin 1024) (⟨(z 2).val, (z 2).isLt⟩ : Fin 2048) := by
    funext a
    apply Fin.ext
    match a with
    | ⟨0, _⟩ => show 0 + 1 * (z 0).val = 0; have h0 : (z 0).val < 1 := (z 0).isLt; omega
    | ⟨1, _⟩ => show off + 1 * (z 1).val = off + (z 1).val; omega
    | ⟨2, _⟩ => show 0 + 1 * (z 2).val = (z 2).val; omega
  rw [e1, e2]
  exact hrows (z 1).val (z 1).isLt ⟨(z 2).val, (z 2).isLt⟩

/-- A half block of the packed vector of batch entry `b` is the staircase `G` read where the half sits: an
    index `i` of the whole result whose batch coordinate is `b`, whose row is row `y 1` of half `h`, and whose
    column is `y 2`. -/
theorem half_eq_G (xa : FVec Ideal SIn .f32) (xb : (SBlk 2098176).Idx → Elt Ideal .f32) (b : Fin 32)
    (hxb : ∀ p : Fin 2098176, xb (ix3 (0 : Fin 1) (0 : Fin 1) p) = xa (ix2 b p))
    (h : Nat) (y : SHalf.Idx) (i : SOut.Idx) (hi0 : (i 0).val = b.val)
    (hi1 : (i 1).val = 1024 * h + (y 1).val) (hi2 : (i 2).val = (y 2).val) :
    half (Val := Elt Ideal) (e := .f32) (Ideal.ofBits .f32 0x7FC00000#32) h xb y = G xa i := by
  have hs : start (i 1).val + (i 2).val = start (1024 * h + (y 1).val) + (y 2).val := by rw [hi1, hi2]
  unfold half G
  by_cases hlt : start (1024 * h + (y 1).val) + (y 2).val < 2098176
  · rw [dif_pos hlt, dif_pos (hs ▸ hlt), hxb]
    refine congrArg xa (funext fun a => Fin.ext ?_)
    match a with
    | ⟨0, _⟩ => exact hi0.symm
    | ⟨1, _⟩ => exact hs.symm
  · rw [dif_neg hlt, dif_neg (hs ▸ hlt)]

end Cert.Staircase

end
-- ==== Proof.PiecesA1.lean ====
/-
  Blocks 0 to 3 of the sixteen blocks of 64 rows that a grid point of half 0 stores.

  Each stored block is a stack of 64 one-row matrices; row `k` of the block that starts at row `off` of the half is
  the window of 2048 positions of the packed vector from `start (0 + off + k)` on (for the last 63 rows of
  the matrix: the positions that exist, then the quiet-NaN word). Each theorem lists the block's rows, reads the
  stack at a row `k` (any `k`), and checks the 64 rows one by one against the half of the staircase.
-/
import proofs.«102620_j26792005992501_2_alg».proof.Proof.Gen.KernelIdeal.Frame.RunA
import proofs.«102620_j26792005992501_2_alg».proof.Proof.HalfBlock
import Idealize.ShloMosaic.PureOps.Ideal

noncomputable section

namespace Cert.KernelIdeal.Stairs

open Idealize.ShloMosaic Idealize.ShloMosaic.TcCoe Idealize.SL.Sem Cert.KernelIdeal Cert.KernelIdeal.Gen
open Idealize.ShloMosaic.ValueIdx Cert.Staircase Cert.Staircase.Rows

set_option maxHeartbeats 4000000 in
/-- Rows 0 to 63 of half 0: row `k` of the stored block is the window of the packed vector that
    starts at `start (0 + 0 + k)`. -/
theorem pieceA_0 (c : Dev nD) (arg2 : Memref sig .tc .vmem S1x1x2098176 .f32) (harg2 : arg2.IsWhole)
    (x0 : Vec Ideal S1x1x2098176 .f32) (inb) (z : SPiece.Idx) :
    kernelRun0_A.sl.v201 (F := Ideal) c arg2 harg2 x0 z
      = half (Val := Elt Ideal) (e := .f32) (Ideal.ofBits .f32 0x7FC00000#32) 0 x0
          ((Rect.unit (s := SHalf) ![0, 0, 0] SPiece.size inb).emb z) := by
  have hcat : kernelRun0_A.sl.v198 (F := Ideal) c arg2 harg2 x0
      = concatenate S64x2048 0 (rowPieces (C := 2048) [
        kernelRun0_A.sl.v134 c arg2 harg2 x0,
        kernelRun0_A.sl.v135 c arg2 harg2 x0,
        kernelRun0_A.sl.v136 c arg2 harg2 x0,
        kernelRun0_A.sl.v137 c arg2 harg2 x0,
        kernelRun0_A.sl.v138 c arg2 harg2 x0,
        kernelRun0_A.sl.v139 c arg2 harg2 x0,
        kernelRun0_A.sl.v140 c arg2 harg2 x0,
        kernelRun0_A.sl.v141 c arg2 harg2 x0,
        kernelRun0_A.sl.v142 c arg2 harg2 x0,
        kernelRun0_A.sl.v143 c arg2 harg2 x0,
        kernelRun0_A.sl.v144 c arg2 harg2 x0,
        kernelRun0_A.sl.v145 c arg2 harg2 x0,
        kernelRun0_A.sl.v146 c arg2 harg2 x0,
        kernelRun0_A.sl.v147 c arg2 harg2 x0,
        kernelRun0_A.sl.v148 c arg2 harg2 x0,
        kernelRun0_A.sl.v149 c arg2 harg2 x0,
        kernelRun0_A.sl.v150 c arg2 harg2 x0,
        kernelRun0_A.sl.v151 c arg2 harg2 x0,
        kernelRun0_A.sl.v152 c arg2 harg2 x0,
        kernelRun0_A.sl.v153 c arg2 harg2 x0,
        kernelRun0_A.sl.v154 c arg2 harg2 x0,
        kernelRun0_A.sl.v155 c arg2 harg2 x0,
        kernelRun0_A.sl.v156 c arg2 harg2 x0,
        kernelRun0_A.sl.v157 c arg2 harg2 x0,
        kernelRun0_A.sl.v158 c arg2 harg2 x0,
        kernelRun0_A.sl.v159 c arg2 harg2 x0,
        kernelRun0_A.sl.v160 c arg2 harg2 x0,
        kernelRun0_A.sl.v161 c arg2 harg2 x0,
        kernelRun0_A.sl.v162 c arg2 harg2 x0,
        kernelRun0_A.sl.v163 c arg2 harg2 x0,
        kernelRun0_A.sl.v164 c arg2 harg2 x0,
        kernelRun0_A.sl.v165 c arg2 harg2 x0,
        kernelRun0_A.sl.v166 c arg2 harg2 x0,
        kernelRun0_A.sl.v167 c arg2 harg2 x0,
        kernelRun0_A.sl.v168 c arg2 harg2 x0,
        kernelRun0_A.sl.v169 c arg2 harg2 x0,
        kernelRun0_A.sl.v170 c arg2 harg2 x0,
        kernelRun0_A.sl.v171 c arg2 harg2 x0,
        kernelRun0_A.sl.v172 c arg2 harg2 x0,
        kernelRun0_A.sl.v173 c arg2 harg2 x0,
        kernelRun0_A.sl.v174 c arg2 harg2 x0,
        kernelRun0_A.sl.v175 c arg2 harg2 x0,
        kernelRun0_A.sl.v176 c arg2 harg2 x0,
        kernelRun0_A.sl.v177 c arg2 harg2 x0,
        kernelRun0_A.sl.v178 c arg2 harg2 x0,
        kernelRun0_A.sl.v179 c arg2 harg2 x0,
        kernelRun0_A.sl.v180 c arg2 harg2 x0,
        kernelRun0_A.sl.v181 c arg2 harg2 x0,
        kernelRun0_A.sl.v182 c arg2 harg2 x0,
        kernelRun0_A.sl.v183 c arg2 harg2 x0,
        kernelRun0_A.sl.v184 c arg2 harg2 x0,
        kernelRun0_A.sl.v185 c arg2 harg2 x0,
        kernelRun0_A.sl.v186 c arg2 harg2 x0,
        kernelRun0_A.sl.v187 c arg2 harg2 x0,
        kernelRun0_A.sl.v188 c arg2 harg2 x0,
        kernelRun0_A.sl.v189 c arg2 harg2 x0,
        kernelRun0_A.sl.v190 c arg2 harg2 x0,
        kernelRun0_A.sl.v191 c arg2 harg2 x0,
        kernelRun0_A.sl.v192 c arg2 harg2 x0,
        kernelRun0_A.sl.v193 c arg2 harg2 x0,
        kernelRun0_A.sl.v194 c arg2 harg2 x0,
        kernelRun0_A.sl.v195 c arg2 harg2 x0,
        kernelRun0_A.sl.v196 c arg2 harg2 x0,
        kernelRun0_A.sl.v197 c arg2 harg2 x0]) (concatenates_rows64 _ rfl) := rfl
  refine piece_of_rows _ 0 0 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 64 to 127 of half 0: row `k` of the stored block is the window of the packed vector that
    starts at `start (0 + 64 + k)`. -/
theorem pieceA_1 (c : Dev nD) (arg2 : Memref sig .tc .vmem S1x1x2098176 .f32) (harg2 : arg2.IsWhole)
    (x0 : Vec Ideal S1x1x2098176 .f32) (inb) (z : SPiece.Idx) :
    kernelRun0_A.sl.v397 (F := Ideal) c arg2 harg2 x0 z
      = half (Val := Elt Ideal) (e := .f32) (Ideal.ofBits .f32 0x7FC00000#32) 0 x0
          ((Rect.unit (s := SHalf) ![0, 64, 0] SPiece.size inb).emb z) := by
  have hcat : kernelRun0_A.sl.v394 (F := Ideal) c arg2 harg2 x0
      = concatenate S64x2048 0 (rowPieces (C := 2048) [
        kernelRun0_A.sl.v330 c arg2 harg2 x0,
        kernelRun0_A.sl.v331 c arg2 harg2 x0,
        kernelRun0_A.sl.v332 c arg2 harg2 x0,
        kernelRun0_A.sl.v333 c arg2 harg2 x0,
        kernelRun0_A.sl.v334 c arg2 harg2 x0,
        kernelRun0_A.sl.v335 c arg2 harg2 x0,
        kernelRun0_A.sl.v336 c arg2 harg2 x0,
        kernelRun0_A.sl.v337 c arg2 harg2 x0,
        kernelRun0_A.sl.v338 c arg2 harg2 x0,
        kernelRun0_A.sl.v339 c arg2 harg2 x0,
        kernelRun0_A.sl.v340 c arg2 harg2 x0,
        kernelRun0_A.sl.v341 c arg2 harg2 x0,
        kernelRun0_A.sl.v342 c arg2 harg2 x0,
        kernelRun0_A.sl.v343 c arg2 harg2 x0,
        kernelRun0_A.sl.v344 c arg2 harg2 x0,
        kernelRun0_A.sl.v345 c arg2 harg2 x0,
        kernelRun0_A.sl.v346 c arg2 harg2 x0,
        kernelRun0_A.sl.v347 c arg2 harg2 x0,
        kernelRun0_A.sl.v348 c arg2 harg2 x0,
        kernelRun0_A.sl.v349 c arg2 harg2 x0,
        kernelRun0_A.sl.v350 c arg2 harg2 x0,
        kernelRun0_A.sl.v351 c arg2 harg2 x0,
        kernelRun0_A.sl.v352 c arg2 harg2 x0,
        kernelRun0_A.sl.v353 c arg2 harg2 x0,
        kernelRun0_A.sl.v354 c arg2 harg2 x0,
        kernelRun0_A.sl.v355 c arg2 harg2 x0,
        kernelRun0_A.sl.v356 c arg2 harg2 x0,
        kernelRun0_A.sl.v357 c arg2 harg2 x0,
        kernelRun0_A.sl.v358 c arg2 harg2 x0,
        kernelRun0_A.sl.v359 c arg2 harg2 x0,
        kernelRun0_A.sl.v360 c arg2 harg2 x0,
        kernelRun0_A.sl.v361 c arg2 harg2 x0,
        kernelRun0_A.sl.v362 c arg2 harg2 x0,
        kernelRun0_A.sl.v363 c arg2 harg2 x0,
        kernelRun0_A.sl.v364 c arg2 harg2 x0,
        kernelRun0_A.sl.v365 c arg2 harg2 x0,
        kernelRun0_A.sl.v366 c arg2 harg2 x0,
        kernelRun0_A.sl.v367 c arg2 harg2 x0,
        kernelRun0_A.sl.v368 c arg2 harg2 x0,
        kernelRun0_A.sl.v369 c arg2 harg2 x0,
        kernelRun0_A.sl.v370 c arg2 harg2 x0,
        kernelRun0_A.sl.v371 c arg2 harg2 x0,
        kernelRun0_A.sl.v372 c arg2 harg2 x0,
        kernelRun0_A.sl.v373 c arg2 harg2 x0,
        kernelRun0_A.sl.v374 c arg2 harg2 x0,
        kernelRun0_A.sl.v375 c arg2 harg2 x0,
        kernelRun0_A.sl.v376 c arg2 harg2 x0,
        kernelRun0_A.sl.v377 c arg2 harg2 x0,
        kernelRun0_A.sl.v378 c arg2 harg2 x0,
        kernelRun0_A.sl.v379 c arg2 harg2 x0,
        kernelRun0_A.sl.v380 c arg2 harg2 x0,
        kernelRun0_A.sl.v381 c arg2 harg2 x0,
        kernelRun0_A.sl.v382 c arg2 harg2 x0,
        kernelRun0_A.sl.v383 c arg2 harg2 x0,
        kernelRun0_A.sl.v384 c arg2 harg2 x0,
        kernelRun0_A.sl.v385 c arg2 harg2 x0,
        kernelRun0_A.sl.v386 c arg2 harg2 x0,
        kernelRun0_A.sl.v387 c arg2 harg2 x0,
        kernelRun0_A.sl.v388 c arg2 harg2 x0,
        kernelRun0_A.sl.v389 c arg2 harg2 x0,
        kernelRun0_A.sl.v390 c arg2 harg2 x0,
        kernelRun0_A.sl.v391 c arg2 harg2 x0,
        kernelRun0_A.sl.v392 c arg2 harg2 x0,
        kernelRun0_A.sl.v393 c arg2 harg2 x0]) (concatenates_rows64 _ rfl) := rfl
  refine piece_of_rows _ 0 64 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 128 to 191 of half 0: row `k` of the stored block is the window of the packed vector that
    starts at `start (0 + 128 + k)`. -/
theorem pieceA_2 (c : Dev nD) (arg2 : Memref sig .tc .vmem S1x1x2098176 .f32) (harg2 : arg2.IsWhole)
    (x0 : Vec Ideal S1x1x2098176 .f32) (inb) (z : SPiece.Idx) :
    kernelRun0_A.sl.v593 (F := Ideal) c arg2 harg2 x0 z
      = half (Val := Elt Ideal) (e := .f32) (Ideal.ofBits .f32 0x7FC00000#32) 0 x0
          ((Rect.unit (s := SHalf) ![0, 128, 0] SPiece.size inb).emb z) := by
  have hcat : kernelRun0_A.sl.v590 (F := Ideal) c arg2 harg2 x0
      = concatenate S64x2048 0 (rowPieces (C := 2048) [
        kernelRun0_A.sl.v526 c arg2 harg2 x0,
        kernelRun0_A.sl.v527 c arg2 harg2 x0,
        kernelRun0_A.sl.v528 c arg2 harg2 x0,
        kernelRun0_A.sl.v529 c arg2 harg2 x0,
        kernelRun0_A.sl.v530 c arg2 harg2 x0,
        kernelRun0_A.sl.v531 c arg2 harg2 x0,
        kernelRun0_A.sl.v532 c arg2 harg2 x0,
        kernelRun0_A.sl.v533 c arg2 harg2 x0,
        kernelRun0_A.sl.v534 c arg2 harg2 x0,
        kernelRun0_A.sl.v535 c arg2 harg2 x0,
        kernelRun0_A.sl.v536 c arg2 harg2 x0,
        kernelRun0_A.sl.v537 c arg2 harg2 x0,
        kernelRun0_A.sl.v538 c arg2 harg2 x0,
        kernelRun0_A.sl.v539 c arg2 harg2 x0,
        kernelRun0_A.sl.v540 c arg2 harg2 x0,
        kernelRun0_A.sl.v541 c arg2 harg2 x0,
        kernelRun0_A.sl.v542 c arg2 harg2 x0,
        kernelRun0_A.sl.v543 c arg2 harg2 x0,
        kernelRun0_A.sl.v544 c arg2 harg2 x0,
        kernelRun0_A.sl.v545 c arg2 harg2 x0,
        kernelRun0_A.sl.v546 c arg2 harg2 x0,
        kernelRun0_A.sl.v547 c arg2 harg2 x0,
        kernelRun0_A.sl.v548 c arg2 harg2 x0,
        kernelRun0_A.sl.v549 c arg2 harg2 x0,
        kernelRun0_A.sl.v550 c arg2 harg2 x0,
        kernelRun0_A.sl.v551 c arg2 harg2 x0,
        kernelRun0_A.sl.v552 c arg2 harg2 x0,
        kernelRun0_A.sl.v553 c arg2 harg2 x0,
        kernelRun0_A.sl.v554 c arg2 harg2 x0,
        kernelRun0_A.sl.v555 c arg2 harg2 x0,
        kernelRun0_A.sl.v556 c arg2 harg2 x0,
        kernelRun0_A.sl.v557 c arg2 harg2 x0,
        kernelRun0_A.sl.v558 c arg2 harg2 x0,
        kernelRun0_A.sl.v559 c arg2 harg2 x0,
        kernelRun0_A.sl.v560 c arg2 harg2 x0,
        kernelRun0_A.sl.v561 c arg2 harg2 x0,
        kernelRun0_A.sl.v562 c arg2 harg2 x0,
        kernelRun0_A.sl.v563 c arg2 harg2 x0,
        kernelRun0_A.sl.v564 c arg2 harg2 x0,
        kernelRun0_A.sl.v565 c arg2 harg2 x0,
        kernelRun0_A.sl.v566 c arg2 harg2 x0,
        kernelRun0_A.sl.v567 c arg2 harg2 x0,
        kernelRun0_A.sl.v568 c arg2 harg2 x0,
        kernelRun0_A.sl.v569 c arg2 harg2 x0,
        kernelRun0_A.sl.v570 c arg2 harg2 x0,
        kernelRun0_A.sl.v571 c arg2 harg2 x0,
        kernelRun0_A.sl.v572 c arg2 harg2 x0,
        kernelRun0_A.sl.v573 c arg2 harg2 x0,
        kernelRun0_A.sl.v574 c arg2 harg2 x0,
        kernelRun0_A.sl.v575 c arg2 harg2 x0,
        kernelRun0_A.sl.v576 c arg2 harg2 x0,
        kernelRun0_A.sl.v577 c arg2 harg2 x0,
        kernelRun0_A.sl.v578 c arg2 harg2 x0,
        kernelRun0_A.sl.v579 c arg2 harg2 x0,
        kernelRun0_A.sl.v580 c arg2 harg2 x0,
        kernelRun0_A.sl.v581 c arg2 harg2 x0,
        kernelRun0_A.sl.v582 c arg2 harg2 x0,
        kernelRun0_A.sl.v583 c arg2 harg2 x0,
        kernelRun0_A.sl.v584 c arg2 harg2 x0,
        kernelRun0_A.sl.v585 c arg2 harg2 x0,
        kernelRun0_A.sl.v586 c arg2 harg2 x0,
        kernelRun0_A.sl.v587 c arg2 harg2 x0,
        kernelRun0_A.sl.v588 c arg2 harg2 x0,
        kernelRun0_A.sl.v589 c arg2 harg2 x0]) (concatenates_rows64 _ rfl) := rfl
  refine piece_of_rows _ 0 128 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 192 to 255 of half 0: row `k` of the stored block is the window of the packed vector that
    starts at `start (0 + 192 + k)`. -/
theorem pieceA_3 (c : Dev nD) (arg2 : Memref sig .tc .vmem S1x1x2098176 .f32) (harg2 : arg2.IsWhole)
    (x0 : Vec Ideal S1x1x2098176 .f32) (inb) (z : SPiece.Idx) :
    kernelRun0_A.sl.v789 (F := Ideal) c arg2 harg2 x0 z
      = half (Val := Elt Ideal) (e := .f32) (Ideal.ofBits .f32 0x7FC00000#32) 0 x0
          ((Rect.unit (s := SHalf) ![0, 192, 0] SPiece.size inb).emb z) := by
  have hcat : kernelRun0_A.sl.v786 (F := Ideal) c arg2 harg2 x0
      = concatenate S64x2048 0 (rowPieces (C := 2048) [
        kernelRun0_A.sl.v722 c arg2 harg2 x0,
        kernelRun0_A.sl.v723 c arg2 harg2 x0,
        kernelRun0_A.sl.v724 c arg2 harg2 x0,
        kernelRun0_A.sl.v725 c arg2 harg2 x0,
        kernelRun0_A.sl.v726 c arg2 harg2 x0,
        kernelRun0_A.sl.v727 c arg2 harg2 x0,
        kernelRun0_A.sl.v728 c arg2 harg2 x0,
        kernelRun0_A.sl.v729 c arg2 harg2 x0,
        kernelRun0_A.sl.v730 c arg2 harg2 x0,
        kernelRun0_A.sl.v731 c arg2 harg2 x0,
        kernelRun0_A.sl.v732 c arg2 harg2 x0,
        kernelRun0_A.sl.v733 c arg2 harg2 x0,
        kernelRun0_A.sl.v734 c arg2 harg2 x0,
        kernelRun0_A.sl.v735 c arg2 harg2 x0,
        kernelRun0_A.sl.v736 c arg2 harg2 x0,
        kernelRun0_A.sl.v737 c arg2 harg2 x0,
        kernelRun0_A.sl.v738 c arg2 harg2 x0,
        kernelRun0_A.sl.v739 c arg2 harg2 x0,
        kernelRun0_A.sl.v740 c arg2 harg2 x0,
        kernelRun0_A.sl.v741 c arg2 harg2 x0,
        kernelRun0_A.sl.v742 c arg2 harg2 x0,
        kernelRun0_A.sl.v743 c arg2 harg2 x0,
        kernelRun0_A.sl.v744 c arg2 harg2 x0,
        kernelRun0_A.sl.v745 c arg2 harg2 x0,
        kernelRun0_A.sl.v746 c arg2 harg2 x0,
        kernelRun0_A.sl.v747 c arg2 harg2 x0,
        kernelRun0_A.sl.v748 c arg2 harg2 x0,
        kernelRun0_A.sl.v749 c arg2 harg2 x0,
        kernelRun0_A.sl.v750 c arg2 harg2 x0,
        kernelRun0_A.sl.v751 c arg2 harg2 x0,
        kernelRun0_A.sl.v752 c arg2 harg2 x0,
        kernelRun0_A.sl.v753 c arg2 harg2 x0,
        kernelRun0_A.sl.v754 c arg2 harg2 x0,
        kernelRun0_A.sl.v755 c arg2 harg2 x0,
        kernelRun0_A.sl.v756 c arg2 harg2 x0,
        kernelRun0_A.sl.v757 c arg2 harg2 x0,
        kernelRun0_A.sl.v758 c arg2 harg2 x0,
        kernelRun0_A.sl.v759 c arg2 harg2 x0,
        kernelRun0_A.sl.v760 c arg2 harg2 x0,
        kernelRun0_A.sl.v761 c arg2 harg2 x0,
        kernelRun0_A.sl.v762 c arg2 harg2 x0,
        kernelRun0_A.sl.v763 c arg2 harg2 x0,
        kernelRun0_A.sl.v764 c arg2 harg2 x0,
        kernelRun0_A.sl.v765 c arg2 harg2 x0,
        kernelRun0_A.sl.v766 c arg2 harg2 x0,
        kernelRun0_A.sl.v767 c arg2 harg2 x0,
        kernelRun0_A.sl.v768 c arg2 harg2 x0,
        kernelRun0_A.sl.v769 c arg2 harg2 x0,
        kernelRun0_A.sl.v770 c arg2 harg2 x0,
        kernelRun0_A.sl.v771 c arg2 harg2 x0,
        kernelRun0_A.sl.v772 c arg2 harg2 x0,
        kernelRun0_A.sl.v773 c arg2 harg2 x0,
        kernelRun0_A.sl.v774 c arg2 harg2 x0,
        kernelRun0_A.sl.v775 c arg2 harg2 x0,
        kernelRun0_A.sl.v776 c arg2 harg2 x0,
        kernelRun0_A.sl.v777 c arg2 harg2 x0,
        kernelRun0_A.sl.v778 c arg2 harg2 x0,
        kernelRun0_A.sl.v779 c arg2 harg2 x0,
        kernelRun0_A.sl.v780 c arg2 harg2 x0,
        kernelRun0_A.sl.v781 c arg2 harg2 x0,
        kernelRun0_A.sl.v782 c arg2 harg2 x0,
        kernelRun0_A.sl.v783 c arg2 harg2 x0,
        kernelRun0_A.sl.v784 c arg2 harg2 x0,
        kernelRun0_A.sl.v785 c arg2 harg2 x0]) (concatenates_rows64 _ rfl) := rfl
  refine piece_of_rows _ 0 192 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

end Cert.KernelIdeal.Stairs

end
-- ==== Proof.PiecesA2.lean ====
/-
  Blocks 4 to 7 of the sixteen blocks of 64 rows that a grid point of half 0 stores.

  Each stored block is a stack of 64 one-row matrices; row `k` of the block that starts at row `off` of the half is
  the window of 2048 positions of the packed vector from `start (0 + off + k)` on (for the last 63 rows of
  the matrix: the positions that exist, then the quiet-NaN word). Each theorem lists the block's rows, reads the
  stack at a row `k` (any `k`), and checks the 64 rows one by one against the half of the staircase.
-/
import proofs.«102620_j26792005992501_2_alg».proof.Proof.Gen.KernelIdeal.Frame.RunA
import proofs.«102620_j26792005992501_2_alg».proof.Proof.HalfBlock
import Idealize.ShloMosaic.PureOps.Ideal

noncomputable section

namespace Cert.KernelIdeal.Stairs

open Idealize.ShloMosaic Idealize.ShloMosaic.TcCoe Idealize.SL.Sem Cert.KernelIdeal Cert.KernelIdeal.Gen
open Idealize.ShloMosaic.ValueIdx Cert.Staircase Cert.Staircase.Rows

set_option maxHeartbeats 4000000 in
/-- Rows 256 to 319 of half 0: row `k` of the stored block is the window of the packed vector that
    starts at `start (0 + 256 + k)`. -/
theorem pieceA_4 (c : Dev nD) (arg2 : Memref sig .tc .vmem S1x1x2098176 .f32) (harg2 : arg2.IsWhole)
    (x0 : Vec Ideal S1x1x2098176 .f32) (inb) (z : SPiece.Idx) :
    kernelRun0_A.sl.v985 (F := Ideal) c arg2 harg2 x0 z
      = half (Val := Elt Ideal) (e := .f32) (Ideal.ofBits .f32 0x7FC00000#32) 0 x0
          ((Rect.unit (s := SHalf) ![0, 256, 0] SPiece.size inb).emb z) := by
  have hcat : kernelRun0_A.sl.v982 (F := Ideal) c arg2 harg2 x0
      = concatenate S64x2048 0 (rowPieces (C := 2048) [
        kernelRun0_A.sl.v918 c arg2 harg2 x0,
        kernelRun0_A.sl.v919 c arg2 harg2 x0,
        kernelRun0_A.sl.v920 c arg2 harg2 x0,
        kernelRun0_A.sl.v921 c arg2 harg2 x0,
        kernelRun0_A.sl.v922 c arg2 harg2 x0,
        kernelRun0_A.sl.v923 c arg2 harg2 x0,
        kernelRun0_A.sl.v924 c arg2 harg2 x0,
        kernelRun0_A.sl.v925 c arg2 harg2 x0,
        kernelRun0_A.sl.v926 c arg2 harg2 x0,
        kernelRun0_A.sl.v927 c arg2 harg2 x0,
        kernelRun0_A.sl.v928 c arg2 harg2 x0,
        kernelRun0_A.sl.v929 c arg2 harg2 x0,
        kernelRun0_A.sl.v930 c arg2 harg2 x0,
        kernelRun0_A.sl.v931 c arg2 harg2 x0,
        kernelRun0_A.sl.v932 c arg2 harg2 x0,
        kernelRun0_A.sl.v933 c arg2 harg2 x0,
        kernelRun0_A.sl.v934 c arg2 harg2 x0,
        kernelRun0_A.sl.v935 c arg2 harg2 x0,
        kernelRun0_A.sl.v936 c arg2 harg2 x0,
        kernelRun0_A.sl.v937 c arg2 harg2 x0,
        kernelRun0_A.sl.v938 c arg2 harg2 x0,
        kernelRun0_A.sl.v939 c arg2 harg2 x0,
        kernelRun0_A.sl.v940 c arg2 harg2 x0,
        kernelRun0_A.sl.v941 c arg2 harg2 x0,
        kernelRun0_A.sl.v942 c arg2 harg2 x0,
        kernelRun0_A.sl.v943 c arg2 harg2 x0,
        kernelRun0_A.sl.v944 c arg2 harg2 x0,
        kernelRun0_A.sl.v945 c arg2 harg2 x0,
        kernelRun0_A.sl.v946 c arg2 harg2 x0,
        kernelRun0_A.sl.v947 c arg2 harg2 x0,
        kernelRun0_A.sl.v948 c arg2 harg2 x0,
        kernelRun0_A.sl.v949 c arg2 harg2 x0,
        kernelRun0_A.sl.v950 c arg2 harg2 x0,
        kernelRun0_A.sl.v951 c arg2 harg2 x0,
        kernelRun0_A.sl.v952 c arg2 harg2 x0,
        kernelRun0_A.sl.v953 c arg2 harg2 x0,
        kernelRun0_A.sl.v954 c arg2 harg2 x0,
        kernelRun0_A.sl.v955 c arg2 harg2 x0,
        kernelRun0_A.sl.v956 c arg2 harg2 x0,
        kernelRun0_A.sl.v957 c arg2 harg2 x0,
        kernelRun0_A.sl.v958 c arg2 harg2 x0,
        kernelRun0_A.sl.v959 c arg2 harg2 x0,
        kernelRun0_A.sl.v960 c arg2 harg2 x0,
        kernelRun0_A.sl.v961 c arg2 harg2 x0,
        kernelRun0_A.sl.v962 c arg2 harg2 x0,
        kernelRun0_A.sl.v963 c arg2 harg2 x0,
        kernelRun0_A.sl.v964 c arg2 harg2 x0,
        kernelRun0_A.sl.v965 c arg2 harg2 x0,
        kernelRun0_A.sl.v966 c arg2 harg2 x0,
        kernelRun0_A.sl.v967 c arg2 harg2 x0,
        kernelRun0_A.sl.v968 c arg2 harg2 x0,
        kernelRun0_A.sl.v969 c arg2 harg2 x0,
        kernelRun0_A.sl.v970 c arg2 harg2 x0,
        kernelRun0_A.sl.v971 c arg2 harg2 x0,
        kernelRun0_A.sl.v972 c arg2 harg2 x0,
        kernelRun0_A.sl.v973 c arg2 harg2 x0,
        kernelRun0_A.sl.v974 c arg2 harg2 x0,
        kernelRun0_A.sl.v975 c arg2 harg2 x0,
        kernelRun0_A.sl.v976 c arg2 harg2 x0,
        kernelRun0_A.sl.v977 c arg2 harg2 x0,
        kernelRun0_A.sl.v978 c arg2 harg2 x0,
        kernelRun0_A.sl.v979 c arg2 harg2 x0,
        kernelRun0_A.sl.v980 c arg2 harg2 x0,
        kernelRun0_A.sl.v981 c arg2 harg2 x0]) (concatenates_rows64 _ rfl) := rfl
  refine piece_of_rows _ 0 256 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 320 to 383 of half 0: row `k` of the stored block is the window of the packed vector that
    starts at `start (0 + 320 + k)`. -/
theorem pieceA_5 (c : Dev nD) (arg2 : Memref sig .tc .vmem S1x1x2098176 .f32) (harg2 : arg2.IsWhole)
    (x0 : Vec Ideal S1x1x2098176 .f32) (inb) (z : SPiece.Idx) :
    kernelRun0_A.sl.v1181 (F := Ideal) c arg2 harg2 x0 z
      = half (Val := Elt Ideal) (e := .f32) (Ideal.ofBits .f32 0x7FC00000#32) 0 x0
          ((Rect.unit (s := SHalf) ![0, 320, 0] SPiece.size inb).emb z) := by
  have hcat : kernelRun0_A.sl.v1178 (F := Ideal) c arg2 harg2 x0
      = concatenate S64x2048 0 (rowPieces (C := 2048) [
        kernelRun0_A.sl.v1114 c arg2 harg2 x0,
        kernelRun0_A.sl.v1115 c arg2 harg2 x0,
        kernelRun0_A.sl.v1116 c arg2 harg2 x0,
        kernelRun0_A.sl.v1117 c arg2 harg2 x0,
        kernelRun0_A.sl.v1118 c arg2 harg2 x0,
        kernelRun0_A.sl.v1119 c arg2 harg2 x0,
        kernelRun0_A.sl.v1120 c arg2 harg2 x0,
        kernelRun0_A.sl.v1121 c arg2 harg2 x0,
        kernelRun0_A.sl.v1122 c arg2 harg2 x0,
        kernelRun0_A.sl.v1123 c arg2 harg2 x0,
        kernelRun0_A.sl.v1124 c arg2 harg2 x0,
        kernelRun0_A.sl.v1125 c arg2 harg2 x0,
        kernelRun0_A.sl.v1126 c arg2 harg2 x0,
        kernelRun0_A.sl.v1127 c arg2 harg2 x0,
        kernelRun0_A.sl.v1128 c arg2 harg2 x0,
        kernelRun0_A.sl.v1129 c arg2 harg2 x0,
        kernelRun0_A.sl.v1130 c arg2 harg2 x0,
        kernelRun0_A.sl.v1131 c arg2 harg2 x0,
        kernelRun0_A.sl.v1132 c arg2 harg2 x0,
        kernelRun0_A.sl.v1133 c arg2 harg2 x0,
        kernelRun0_A.sl.v1134 c arg2 harg2 x0,
        kernelRun0_A.sl.v1135 c arg2 harg2 x0,
        kernelRun0_A.sl.v1136 c arg2 harg2 x0,
        kernelRun0_A.sl.v1137 c arg2 harg2 x0,
        kernelRun0_A.sl.v1138 c arg2 harg2 x0,
        kernelRun0_A.sl.v1139 c arg2 harg2 x0,
        kernelRun0_A.sl.v1140 c arg2 harg2 x0,
        kernelRun0_A.sl.v1141 c arg2 harg2 x0,
        kernelRun0_A.sl.v1142 c arg2 harg2 x0,
        kernelRun0_A.sl.v1143 c arg2 harg2 x0,
        kernelRun0_A.sl.v1144 c arg2 harg2 x0,
        kernelRun0_A.sl.v1145 c arg2 harg2 x0,
        kernelRun0_A.sl.v1146 c arg2 harg2 x0,
        kernelRun0_A.sl.v1147 c arg2 harg2 x0,
        kernelRun0_A.sl.v1148 c arg2 harg2 x0,
        kernelRun0_A.sl.v1149 c arg2 harg2 x0,
        kernelRun0_A.sl.v1150 c arg2 harg2 x0,
        kernelRun0_A.sl.v1151 c arg2 harg2 x0,
        kernelRun0_A.sl.v1152 c arg2 harg2 x0,
        kernelRun0_A.sl.v1153 c arg2 harg2 x0,
        kernelRun0_A.sl.v1154 c arg2 harg2 x0,
        kernelRun0_A.sl.v1155 c arg2 harg2 x0,
        kernelRun0_A.sl.v1156 c arg2 harg2 x0,
        kernelRun0_A.sl.v1157 c arg2 harg2 x0,
        kernelRun0_A.sl.v1158 c arg2 harg2 x0,
        kernelRun0_A.sl.v1159 c arg2 harg2 x0,
        kernelRun0_A.sl.v1160 c arg2 harg2 x0,
        kernelRun0_A.sl.v1161 c arg2 harg2 x0,
        kernelRun0_A.sl.v1162 c arg2 harg2 x0,
        kernelRun0_A.sl.v1163 c arg2 harg2 x0,
        kernelRun0_A.sl.v1164 c arg2 harg2 x0,
        kernelRun0_A.sl.v1165 c arg2 harg2 x0,
        kernelRun0_A.sl.v1166 c arg2 harg2 x0,
        kernelRun0_A.sl.v1167 c arg2 harg2 x0,
        kernelRun0_A.sl.v1168 c arg2 harg2 x0,
        kernelRun0_A.sl.v1169 c arg2 harg2 x0,
        kernelRun0_A.sl.v1170 c arg2 harg2 x0,
        kernelRun0_A.sl.v1171 c arg2 harg2 x0,
        kernelRun0_A.sl.v1172 c arg2 harg2 x0,
        kernelRun0_A.sl.v1173 c arg2 harg2 x0,
        kernelRun0_A.sl.v1174 c arg2 harg2 x0,
        kernelRun0_A.sl.v1175 c arg2 harg2 x0,
        kernelRun0_A.sl.v1176 c arg2 harg2 x0,
        kernelRun0_A.sl.v1177 c arg2 harg2 x0]) (concatenates_rows64 _ rfl) := rfl
  refine piece_of_rows _ 0 320 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 384 to 447 of half 0: row `k` of the stored block is the window of the packed vector that
    starts at `start (0 + 384 + k)`. -/
theorem pieceA_6 (c : Dev nD) (arg2 : Memref sig .tc .vmem S1x1x2098176 .f32) (harg2 : arg2.IsWhole)
    (x0 : Vec Ideal S1x1x2098176 .f32) (inb) (z : SPiece.Idx) :
    kernelRun0_A.sl.v1377 (F := Ideal) c arg2 harg2 x0 z
      = half (Val := Elt Ideal) (e := .f32) (Ideal.ofBits .f32 0x7FC00000#32) 0 x0
          ((Rect.unit (s := SHalf) ![0, 384, 0] SPiece.size inb).emb z) := by
  have hcat : kernelRun0_A.sl.v1374 (F := Ideal) c arg2 harg2 x0
      = concatenate S64x2048 0 (rowPieces (C := 2048) [
        kernelRun0_A.sl.v1310 c arg2 harg2 x0,
        kernelRun0_A.sl.v1311 c arg2 harg2 x0,
        kernelRun0_A.sl.v1312 c arg2 harg2 x0,
        kernelRun0_A.sl.v1313 c arg2 harg2 x0,
        kernelRun0_A.sl.v1314 c arg2 harg2 x0,
        kernelRun0_A.sl.v1315 c arg2 harg2 x0,
        kernelRun0_A.sl.v1316 c arg2 harg2 x0,
        kernelRun0_A.sl.v1317 c arg2 harg2 x0,
        kernelRun0_A.sl.v1318 c arg2 harg2 x0,
        kernelRun0_A.sl.v1319 c arg2 harg2 x0,
        kernelRun0_A.sl.v1320 c arg2 harg2 x0,
        kernelRun0_A.sl.v1321 c arg2 harg2 x0,
        kernelRun0_A.sl.v1322 c arg2 harg2 x0,
        kernelRun0_A.sl.v1323 c arg2 harg2 x0,
        kernelRun0_A.sl.v1324 c arg2 harg2 x0,
        kernelRun0_A.sl.v1325 c arg2 harg2 x0,
        kernelRun0_A.sl.v1326 c arg2 harg2 x0,
        kernelRun0_A.sl.v1327 c arg2 harg2 x0,
        kernelRun0_A.sl.v1328 c arg2 harg2 x0,
        kernelRun0_A.sl.v1329 c arg2 harg2 x0,
        kernelRun0_A.sl.v1330 c arg2 harg2 x0,
        kernelRun0_A.sl.v1331 c arg2 harg2 x0,
        kernelRun0_A.sl.v1332 c arg2 harg2 x0,
        kernelRun0_A.sl.v1333 c arg2 harg2 x0,
        kernelRun0_A.sl.v1334 c arg2 harg2 x0,
        kernelRun0_A.sl.v1335 c arg2 harg2 x0,
        kernelRun0_A.sl.v1336 c arg2 harg2 x0,
        kernelRun0_A.sl.v1337 c arg2 harg2 x0,
        kernelRun0_A.sl.v1338 c arg2 harg2 x0,
        kernelRun0_A.sl.v1339 c arg2 harg2 x0,
        kernelRun0_A.sl.v1340 c arg2 harg2 x0,
        kernelRun0_A.sl.v1341 c arg2 harg2 x0,
        kernelRun0_A.sl.v1342 c arg2 harg2 x0,
        kernelRun0_A.sl.v1343 c arg2 harg2 x0,
        kernelRun0_A.sl.v1344 c arg2 harg2 x0,
        kernelRun0_A.sl.v1345 c arg2 harg2 x0,
        kernelRun0_A.sl.v1346 c arg2 harg2 x0,
        kernelRun0_A.sl.v1347 c arg2 harg2 x0,
        kernelRun0_A.sl.v1348 c arg2 harg2 x0,
        kernelRun0_A.sl.v1349 c arg2 harg2 x0,
        kernelRun0_A.sl.v1350 c arg2 harg2 x0,
        kernelRun0_A.sl.v1351 c arg2 harg2 x0,
        kernelRun0_A.sl.v1352 c arg2 harg2 x0,
        kernelRun0_A.sl.v1353 c arg2 harg2 x0,
        kernelRun0_A.sl.v1354 c arg2 harg2 x0,
        kernelRun0_A.sl.v1355 c arg2 harg2 x0,
        kernelRun0_A.sl.v1356 c arg2 harg2 x0,
        kernelRun0_A.sl.v1357 c arg2 harg2 x0,
        kernelRun0_A.sl.v1358 c arg2 harg2 x0,
        kernelRun0_A.sl.v1359 c arg2 harg2 x0,
        kernelRun0_A.sl.v1360 c arg2 harg2 x0,
        kernelRun0_A.sl.v1361 c arg2 harg2 x0,
        kernelRun0_A.sl.v1362 c arg2 harg2 x0,
        kernelRun0_A.sl.v1363 c arg2 harg2 x0,
        kernelRun0_A.sl.v1364 c arg2 harg2 x0,
        kernelRun0_A.sl.v1365 c arg2 harg2 x0,
        kernelRun0_A.sl.v1366 c arg2 harg2 x0,
        kernelRun0_A.sl.v1367 c arg2 harg2 x0,
        kernelRun0_A.sl.v1368 c arg2 harg2 x0,
        kernelRun0_A.sl.v1369 c arg2 harg2 x0,
        kernelRun0_A.sl.v1370 c arg2 harg2 x0,
        kernelRun0_A.sl.v1371 c arg2 harg2 x0,
        kernelRun0_A.sl.v1372 c arg2 harg2 x0,
        kernelRun0_A.sl.v1373 c arg2 harg2 x0]) (concatenates_rows64 _ rfl) := rfl
  refine piece_of_rows _ 0 384 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 448 to 511 of half 0: row `k` of the stored block is the window of the packed vector that
    starts at `start (0 + 448 + k)`. -/
theorem pieceA_7 (c : Dev nD) (arg2 : Memref sig .tc .vmem S1x1x2098176 .f32) (harg2 : arg2.IsWhole)
    (x0 : Vec Ideal S1x1x2098176 .f32) (inb) (z : SPiece.Idx) :
    kernelRun0_A.sl.v1573 (F := Ideal) c arg2 harg2 x0 z
      = half (Val := Elt Ideal) (e := .f32) (Ideal.ofBits .f32 0x7FC00000#32) 0 x0
          ((Rect.unit (s := SHalf) ![0, 448, 0] SPiece.size inb).emb z) := by
  have hcat : kernelRun0_A.sl.v1570 (F := Ideal) c arg2 harg2 x0
      = concatenate S64x2048 0 (rowPieces (C := 2048) [
        kernelRun0_A.sl.v1506 c arg2 harg2 x0,
        kernelRun0_A.sl.v1507 c arg2 harg2 x0,
        kernelRun0_A.sl.v1508 c arg2 harg2 x0,
        kernelRun0_A.sl.v1509 c arg2 harg2 x0,
        kernelRun0_A.sl.v1510 c arg2 harg2 x0,
        kernelRun0_A.sl.v1511 c arg2 harg2 x0,
        kernelRun0_A.sl.v1512 c arg2 harg2 x0,
        kernelRun0_A.sl.v1513 c arg2 harg2 x0,
        kernelRun0_A.sl.v1514 c arg2 harg2 x0,
        kernelRun0_A.sl.v1515 c arg2 harg2 x0,
        kernelRun0_A.sl.v1516 c arg2 harg2 x0,
        kernelRun0_A.sl.v1517 c arg2 harg2 x0,
        kernelRun0_A.sl.v1518 c arg2 harg2 x0,
        kernelRun0_A.sl.v1519 c arg2 harg2 x0,
        kernelRun0_A.sl.v1520 c arg2 harg2 x0,
        kernelRun0_A.sl.v1521 c arg2 harg2 x0,
        kernelRun0_A.sl.v1522 c arg2 harg2 x0,
        kernelRun0_A.sl.v1523 c arg2 harg2 x0,
        kernelRun0_A.sl.v1524 c arg2 harg2 x0,
        kernelRun0_A.sl.v1525 c arg2 harg2 x0,
        kernelRun0_A.sl.v1526 c arg2 harg2 x0,
        kernelRun0_A.sl.v1527 c arg2 harg2 x0,
        kernelRun0_A.sl.v1528 c arg2 harg2 x0,
        kernelRun0_A.sl.v1529 c arg2 harg2 x0,
        kernelRun0_A.sl.v1530 c arg2 harg2 x0,
        kernelRun0_A.sl.v1531 c arg2 harg2 x0,
        kernelRun0_A.sl.v1532 c arg2 harg2 x0,
        kernelRun0_A.sl.v1533 c arg2 harg2 x0,
        kernelRun0_A.sl.v1534 c arg2 harg2 x0,
        kernelRun0_A.sl.v1535 c arg2 harg2 x0,
        kernelRun0_A.sl.v1536 c arg2 harg2 x0,
        kernelRun0_A.sl.v1537 c arg2 harg2 x0,
        kernelRun0_A.sl.v1538 c arg2 harg2 x0,
        kernelRun0_A.sl.v1539 c arg2 harg2 x0,
        kernelRun0_A.sl.v1540 c arg2 harg2 x0,
        kernelRun0_A.sl.v1541 c arg2 harg2 x0,
        kernelRun0_A.sl.v1542 c arg2 harg2 x0,
        kernelRun0_A.sl.v1543 c arg2 harg2 x0,
        kernelRun0_A.sl.v1544 c arg2 harg2 x0,
        kernelRun0_A.sl.v1545 c arg2 harg2 x0,
        kernelRun0_A.sl.v1546 c arg2 harg2 x0,
        kernelRun0_A.sl.v1547 c arg2 harg2 x0,
        kernelRun0_A.sl.v1548 c arg2 harg2 x0,
        kernelRun0_A.sl.v1549 c arg2 harg2 x0,
        kernelRun0_A.sl.v1550 c arg2 harg2 x0,
        kernelRun0_A.sl.v1551 c arg2 harg2 x0,
        kernelRun0_A.sl.v1552 c arg2 harg2 x0,
        kernelRun0_A.sl.v1553 c arg2 harg2 x0,
        kernelRun0_A.sl.v1554 c arg2 harg2 x0,
        kernelRun0_A.sl.v1555 c arg2 harg2 x0,
        kernelRun0_A.sl.v1556 c arg2 harg2 x0,
        kernelRun0_A.sl.v1557 c arg2 harg2 x0,
        kernelRun0_A.sl.v1558 c arg2 harg2 x0,
        kernelRun0_A.sl.v1559 c arg2 harg2 x0,
        kernelRun0_A.sl.v1560 c arg2 harg2 x0,
        kernelRun0_A.sl.v1561 c arg2 harg2 x0,
        kernelRun0_A.sl.v1562 c arg2 harg2 x0,
        kernelRun0_A.sl.v1563 c arg2 harg2 x0,
        kernelRun0_A.sl.v1564 c arg2 harg2 x0,
        kernelRun0_A.sl.v1565 c arg2 harg2 x0,
        kernelRun0_A.sl.v1566 c arg2 harg2 x0,
        kernelRun0_A.sl.v1567 c arg2 harg2 x0,
        kernelRun0_A.sl.v1568 c arg2 harg2 x0,
        kernelRun0_A.sl.v1569 c arg2 harg2 x0]) (concatenates_rows64 _ rfl) := rfl
  refine piece_of_rows _ 0 448 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

end Cert.KernelIdeal.Stairs

end
-- ==== Proof.PiecesA3.lean ====
/-
  Blocks 8 to 11 of the sixteen blocks of 64 rows that a grid point of half 0 stores.

  Each stored block is a stack of 64 one-row matrices; row `k` of the block that starts at row `off` of the half is
  the window of 2048 positions of the packed vector from `start (0 + off + k)` on (for the last 63 rows of
  the matrix: the positions that exist, then the quiet-NaN word). Each theorem lists the block's rows, reads the
  stack at a row `k` (any `k`), and checks the 64 rows one by one against the half of the staircase.
-/
import proofs.«102620_j26792005992501_2_alg».proof.Proof.Gen.KernelIdeal.Frame.RunA
import proofs.«102620_j26792005992501_2_alg».proof.Proof.HalfBlock
import Idealize.ShloMosaic.PureOps.Ideal

noncomputable section

namespace Cert.KernelIdeal.Stairs

open Idealize.ShloMosaic Idealize.ShloMosaic.TcCoe Idealize.SL.Sem Cert.KernelIdeal Cert.KernelIdeal.Gen
open Idealize.ShloMosaic.ValueIdx Cert.Staircase Cert.Staircase.Rows

set_option maxHeartbeats 4000000 in
/-- Rows 512 to 575 of half 0: row `k` of the stored block is the window of the packed vector that
    starts at `start (0 + 512 + k)`. -/
theorem pieceA_8 (c : Dev nD) (arg2 : Memref sig .tc .vmem S1x1x2098176 .f32) (harg2 : arg2.IsWhole)
    (x0 : Vec Ideal S1x1x2098176 .f32) (inb) (z : SPiece.Idx) :
    kernelRun0_A.sl.v1769 (F := Ideal) c arg2 harg2 x0 z
      = half (Val := Elt Ideal) (e := .f32) (Ideal.ofBits .f32 0x7FC00000#32) 0 x0
          ((Rect.unit (s := SHalf) ![0, 512, 0] SPiece.size inb).emb z) := by
  have hcat : kernelRun0_A.sl.v1766 (F := Ideal) c arg2 harg2 x0
      = concatenate S64x2048 0 (rowPieces (C := 2048) [
        kernelRun0_A.sl.v1702 c arg2 harg2 x0,
        kernelRun0_A.sl.v1703 c arg2 harg2 x0,
        kernelRun0_A.sl.v1704 c arg2 harg2 x0,
        kernelRun0_A.sl.v1705 c arg2 harg2 x0,
        kernelRun0_A.sl.v1706 c arg2 harg2 x0,
        kernelRun0_A.sl.v1707 c arg2 harg2 x0,
        kernelRun0_A.sl.v1708 c arg2 harg2 x0,
        kernelRun0_A.sl.v1709 c arg2 harg2 x0,
        kernelRun0_A.sl.v1710 c arg2 harg2 x0,
        kernelRun0_A.sl.v1711 c arg2 harg2 x0,
        kernelRun0_A.sl.v1712 c arg2 harg2 x0,
        kernelRun0_A.sl.v1713 c arg2 harg2 x0,
        kernelRun0_A.sl.v1714 c arg2 harg2 x0,
        kernelRun0_A.sl.v1715 c arg2 harg2 x0,
        kernelRun0_A.sl.v1716 c arg2 harg2 x0,
        kernelRun0_A.sl.v1717 c arg2 harg2 x0,
        kernelRun0_A.sl.v1718 c arg2 harg2 x0,
        kernelRun0_A.sl.v1719 c arg2 harg2 x0,
        kernelRun0_A.sl.v1720 c arg2 harg2 x0,
        kernelRun0_A.sl.v1721 c arg2 harg2 x0,
        kernelRun0_A.sl.v1722 c arg2 harg2 x0,
        kernelRun0_A.sl.v1723 c arg2 harg2 x0,
        kernelRun0_A.sl.v1724 c arg2 harg2 x0,
        kernelRun0_A.sl.v1725 c arg2 harg2 x0,
        kernelRun0_A.sl.v1726 c arg2 harg2 x0,
        kernelRun0_A.sl.v1727 c arg2 harg2 x0,
        kernelRun0_A.sl.v1728 c arg2 harg2 x0,
        kernelRun0_A.sl.v1729 c arg2 harg2 x0,
        kernelRun0_A.sl.v1730 c arg2 harg2 x0,
        kernelRun0_A.sl.v1731 c arg2 harg2 x0,
        kernelRun0_A.sl.v1732 c arg2 harg2 x0,
        kernelRun0_A.sl.v1733 c arg2 harg2 x0,
        kernelRun0_A.sl.v1734 c arg2 harg2 x0,
        kernelRun0_A.sl.v1735 c arg2 harg2 x0,
        kernelRun0_A.sl.v1736 c arg2 harg2 x0,
        kernelRun0_A.sl.v1737 c arg2 harg2 x0,
        kernelRun0_A.sl.v1738 c arg2 harg2 x0,
        kernelRun0_A.sl.v1739 c arg2 harg2 x0,
        kernelRun0_A.sl.v1740 c arg2 harg2 x0,
        kernelRun0_A.sl.v1741 c arg2 harg2 x0,
        kernelRun0_A.sl.v1742 c arg2 harg2 x0,
        kernelRun0_A.sl.v1743 c arg2 harg2 x0,
        kernelRun0_A.sl.v1744 c arg2 harg2 x0,
        kernelRun0_A.sl.v1745 c arg2 harg2 x0,
        kernelRun0_A.sl.v1746 c arg2 harg2 x0,
        kernelRun0_A.sl.v1747 c arg2 harg2 x0,
        kernelRun0_A.sl.v1748 c arg2 harg2 x0,
        kernelRun0_A.sl.v1749 c arg2 harg2 x0,
        kernelRun0_A.sl.v1750 c arg2 harg2 x0,
        kernelRun0_A.sl.v1751 c arg2 harg2 x0,
        kernelRun0_A.sl.v1752 c arg2 harg2 x0,
        kernelRun0_A.sl.v1753 c arg2 harg2 x0,
        kernelRun0_A.sl.v1754 c arg2 harg2 x0,
        kernelRun0_A.sl.v1755 c arg2 harg2 x0,
        kernelRun0_A.sl.v1756 c arg2 harg2 x0,
        kernelRun0_A.sl.v1757 c arg2 harg2 x0,
        kernelRun0_A.sl.v1758 c arg2 harg2 x0,
        kernelRun0_A.sl.v1759 c arg2 harg2 x0,
        kernelRun0_A.sl.v1760 c arg2 harg2 x0,
        kernelRun0_A.sl.v1761 c arg2 harg2 x0,
        kernelRun0_A.sl.v1762 c arg2 harg2 x0,
        kernelRun0_A.sl.v1763 c arg2 harg2 x0,
        kernelRun0_A.sl.v1764 c arg2 harg2 x0,
        kernelRun0_A.sl.v1765 c arg2 harg2 x0]) (concatenates_rows64 _ rfl) := rfl
  refine piece_of_rows _ 0 512 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 576 to 639 of half 0: row `k` of the stored block is the window of the packed vector that
    starts at `start (0 + 576 + k)`. -/
theorem pieceA_9 (c : Dev nD) (arg2 : Memref sig .tc .vmem S1x1x2098176 .f32) (harg2 : arg2.IsWhole)
    (x0 : Vec Ideal S1x1x2098176 .f32) (inb) (z : SPiece.Idx) :
    kernelRun0_A.sl.v1965 (F := Ideal) c arg2 harg2 x0 z
      = half (Val := Elt Ideal) (e := .f32) (Ideal.ofBits .f32 0x7FC00000#32) 0 x0
          ((Rect.unit (s := SHalf) ![0, 576, 0] SPiece.size inb).emb z) := by
  have hcat : kernelRun0_A.sl.v1962 (F := Ideal) c arg2 harg2 x0
      = concatenate S64x2048 0 (rowPieces (C := 2048) [
        kernelRun0_A.sl.v1898 c arg2 harg2 x0,
        kernelRun0_A.sl.v1899 c arg2 harg2 x0,
        kernelRun0_A.sl.v1900 c arg2 harg2 x0,
        kernelRun0_A.sl.v1901 c arg2 harg2 x0,
        kernelRun0_A.sl.v1902 c arg2 harg2 x0,
        kernelRun0_A.sl.v1903 c arg2 harg2 x0,
        kernelRun0_A.sl.v1904 c arg2 harg2 x0,
        kernelRun0_A.sl.v1905 c arg2 harg2 x0,
        kernelRun0_A.sl.v1906 c arg2 harg2 x0,
        kernelRun0_A.sl.v1907 c arg2 harg2 x0,
        kernelRun0_A.sl.v1908 c arg2 harg2 x0,
        kernelRun0_A.sl.v1909 c arg2 harg2 x0,
        kernelRun0_A.sl.v1910 c arg2 harg2 x0,
        kernelRun0_A.sl.v1911 c arg2 harg2 x0,
        kernelRun0_A.sl.v1912 c arg2 harg2 x0,
        kernelRun0_A.sl.v1913 c arg2 harg2 x0,
        kernelRun0_A.sl.v1914 c arg2 harg2 x0,
        kernelRun0_A.sl.v1915 c arg2 harg2 x0,
        kernelRun0_A.sl.v1916 c arg2 harg2 x0,
        kernelRun0_A.sl.v1917 c arg2 harg2 x0,
        kernelRun0_A.sl.v1918 c arg2 harg2 x0,
        kernelRun0_A.sl.v1919 c arg2 harg2 x0,
        kernelRun0_A.sl.v1920 c arg2 harg2 x0,
        kernelRun0_A.sl.v1921 c arg2 harg2 x0,
        kernelRun0_A.sl.v1922 c arg2 harg2 x0,
        kernelRun0_A.sl.v1923 c arg2 harg2 x0,
        kernelRun0_A.sl.v1924 c arg2 harg2 x0,
        kernelRun0_A.sl.v1925 c arg2 harg2 x0,
        kernelRun0_A.sl.v1926 c arg2 harg2 x0,
        kernelRun0_A.sl.v1927 c arg2 harg2 x0,
        kernelRun0_A.sl.v1928 c arg2 harg2 x0,
        kernelRun0_A.sl.v1929 c arg2 harg2 x0,
        kernelRun0_A.sl.v1930 c arg2 harg2 x0,
        kernelRun0_A.sl.v1931 c arg2 harg2 x0,
        kernelRun0_A.sl.v1932 c arg2 harg2 x0,
        kernelRun0_A.sl.v1933 c arg2 harg2 x0,
        kernelRun0_A.sl.v1934 c arg2 harg2 x0,
        kernelRun0_A.sl.v1935 c arg2 harg2 x0,
        kernelRun0_A.sl.v1936 c arg2 harg2 x0,
        kernelRun0_A.sl.v1937 c arg2 harg2 x0,
        kernelRun0_A.sl.v1938 c arg2 harg2 x0,
        kernelRun0_A.sl.v1939 c arg2 harg2 x0,
        kernelRun0_A.sl.v1940 c arg2 harg2 x0,
        kernelRun0_A.sl.v1941 c arg2 harg2 x0,
        kernelRun0_A.sl.v1942 c arg2 harg2 x0,
        kernelRun0_A.sl.v1943 c arg2 harg2 x0,
        kernelRun0_A.sl.v1944 c arg2 harg2 x0,
        kernelRun0_A.sl.v1945 c arg2 harg2 x0,
        kernelRun0_A.sl.v1946 c arg2 harg2 x0,
        kernelRun0_A.sl.v1947 c arg2 harg2 x0,
        kernelRun0_A.sl.v1948 c arg2 harg2 x0,
        kernelRun0_A.sl.v1949 c arg2 harg2 x0,
        kernelRun0_A.sl.v1950 c arg2 harg2 x0,
        kernelRun0_A.sl.v1951 c arg2 harg2 x0,
        kernelRun0_A.sl.v1952 c arg2 harg2 x0,
        kernelRun0_A.sl.v1953 c arg2 harg2 x0,
        kernelRun0_A.sl.v1954 c arg2 harg2 x0,
        kernelRun0_A.sl.v1955 c arg2 harg2 x0,
        kernelRun0_A.sl.v1956 c arg2 harg2 x0,
        kernelRun0_A.sl.v1957 c arg2 harg2 x0,
        kernelRun0_A.sl.v1958 c arg2 harg2 x0,
        kernelRun0_A.sl.v1959 c arg2 harg2 x0,
        kernelRun0_A.sl.v1960 c arg2 harg2 x0,
        kernelRun0_A.sl.v1961 c arg2 harg2 x0]) (concatenates_rows64 _ rfl) := rfl
  refine piece_of_rows _ 0 576 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 640 to 703 of half 0: row `k` of the stored block is the window of the packed vector that
    starts at `start (0 + 640 + k)`. -/
theorem pieceA_10 (c : Dev nD) (arg2 : Memref sig .tc .vmem S1x1x2098176 .f32) (harg2 : arg2.IsWhole)
    (x0 : Vec Ideal S1x1x2098176 .f32) (inb) (z : SPiece.Idx) :
    kernelRun0_A.sl.v2161 (F := Ideal) c arg2 harg2 x0 z
      = half (Val := Elt Ideal) (e := .f32) (Ideal.ofBits .f32 0x7FC00000#32) 0 x0
          ((Rect.unit (s := SHalf) ![0, 640, 0] SPiece.size inb).emb z) := by
  have hcat : kernelRun0_A.sl.v2158 (F := Ideal) c arg2 harg2 x0
      = concatenate S64x2048 0 (rowPieces (C := 2048) [
        kernelRun0_A.sl.v2094 c arg2 harg2 x0,
        kernelRun0_A.sl.v2095 c arg2 harg2 x0,
        kernelRun0_A.sl.v2096 c arg2 harg2 x0,
        kernelRun0_A.sl.v2097 c arg2 harg2 x0,
        kernelRun0_A.sl.v2098 c arg2 harg2 x0,
        kernelRun0_A.sl.v2099 c arg2 harg2 x0,
        kernelRun0_A.sl.v2100 c arg2 harg2 x0,
        kernelRun0_A.sl.v2101 c arg2 harg2 x0,
        kernelRun0_A.sl.v2102 c arg2 harg2 x0,
        kernelRun0_A.sl.v2103 c arg2 harg2 x0,
        kernelRun0_A.sl.v2104 c arg2 harg2 x0,
        kernelRun0_A.sl.v2105 c arg2 harg2 x0,
        kernelRun0_A.sl.v2106 c arg2 harg2 x0,
        kernelRun0_A.sl.v2107 c arg2 harg2 x0,
        kernelRun0_A.sl.v2108 c arg2 harg2 x0,
        kernelRun0_A.sl.v2109 c arg2 harg2 x0,
        kernelRun0_A.sl.v2110 c arg2 harg2 x0,
        kernelRun0_A.sl.v2111 c arg2 harg2 x0,
        kernelRun0_A.sl.v2112 c arg2 harg2 x0,
        kernelRun0_A.sl.v2113 c arg2 harg2 x0,
        kernelRun0_A.sl.v2114 c arg2 harg2 x0,
        kernelRun0_A.sl.v2115 c arg2 harg2 x0,
        kernelRun0_A.sl.v2116 c arg2 harg2 x0,
        kernelRun0_A.sl.v2117 c arg2 harg2 x0,
        kernelRun0_A.sl.v2118 c arg2 harg2 x0,
        kernelRun0_A.sl.v2119 c arg2 harg2 x0,
        kernelRun0_A.sl.v2120 c arg2 harg2 x0,
        kernelRun0_A.sl.v2121 c arg2 harg2 x0,
        kernelRun0_A.sl.v2122 c arg2 harg2 x0,
        kernelRun0_A.sl.v2123 c arg2 harg2 x0,
        kernelRun0_A.sl.v2124 c arg2 harg2 x0,
        kernelRun0_A.sl.v2125 c arg2 harg2 x0,
        kernelRun0_A.sl.v2126 c arg2 harg2 x0,
        kernelRun0_A.sl.v2127 c arg2 harg2 x0,
        kernelRun0_A.sl.v2128 c arg2 harg2 x0,
        kernelRun0_A.sl.v2129 c arg2 harg2 x0,
        kernelRun0_A.sl.v2130 c arg2 harg2 x0,
        kernelRun0_A.sl.v2131 c arg2 harg2 x0,
        kernelRun0_A.sl.v2132 c arg2 harg2 x0,
        kernelRun0_A.sl.v2133 c arg2 harg2 x0,
        kernelRun0_A.sl.v2134 c arg2 harg2 x0,
        kernelRun0_A.sl.v2135 c arg2 harg2 x0,
        kernelRun0_A.sl.v2136 c arg2 harg2 x0,
        kernelRun0_A.sl.v2137 c arg2 harg2 x0,
        kernelRun0_A.sl.v2138 c arg2 harg2 x0,
        kernelRun0_A.sl.v2139 c arg2 harg2 x0,
        kernelRun0_A.sl.v2140 c arg2 harg2 x0,
        kernelRun0_A.sl.v2141 c arg2 harg2 x0,
        kernelRun0_A.sl.v2142 c arg2 harg2 x0,
        kernelRun0_A.sl.v2143 c arg2 harg2 x0,
        kernelRun0_A.sl.v2144 c arg2 harg2 x0,
        kernelRun0_A.sl.v2145 c arg2 harg2 x0,
        kernelRun0_A.sl.v2146 c arg2 harg2 x0,
        kernelRun0_A.sl.v2147 c arg2 harg2 x0,
        kernelRun0_A.sl.v2148 c arg2 harg2 x0,
        kernelRun0_A.sl.v2149 c arg2 harg2 x0,
        kernelRun0_A.sl.v2150 c arg2 harg2 x0,
        kernelRun0_A.sl.v2151 c arg2 harg2 x0,
        kernelRun0_A.sl.v2152 c arg2 harg2 x0,
        kernelRun0_A.sl.v2153 c arg2 harg2 x0,
        kernelRun0_A.sl.v2154 c arg2 harg2 x0,
        kernelRun0_A.sl.v2155 c arg2 harg2 x0,
        kernelRun0_A.sl.v2156 c arg2 harg2 x0,
        kernelRun0_A.sl.v2157 c arg2 harg2 x0]) (concatenates_rows64 _ rfl) := rfl
  refine piece_of_rows _ 0 640 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 704 to 767 of half 0: row `k` of the stored block is the window of the packed vector that
    starts at `start (0 + 704 + k)`. -/
theorem pieceA_11 (c : Dev nD) (arg2 : Memref sig .tc .vmem S1x1x2098176 .f32) (harg2 : arg2.IsWhole)
    (x0 : Vec Ideal S1x1x2098176 .f32) (inb) (z : SPiece.Idx) :
    kernelRun0_A.sl.v2357 (F := Ideal) c arg2 harg2 x0 z
      = half (Val := Elt Ideal) (e := .f32) (Ideal.ofBits .f32 0x7FC00000#32) 0 x0
          ((Rect.unit (s := SHalf) ![0, 704, 0] SPiece.size inb).emb z) := by
  have hcat : kernelRun0_A.sl.v2354 (F := Ideal) c arg2 harg2 x0
      = concatenate S64x2048 0 (rowPieces (C := 2048) [
        kernelRun0_A.sl.v2290 c arg2 harg2 x0,
        kernelRun0_A.sl.v2291 c arg2 harg2 x0,
        kernelRun0_A.sl.v2292 c arg2 harg2 x0,
        kernelRun0_A.sl.v2293 c arg2 harg2 x0,
        kernelRun0_A.sl.v2294 c arg2 harg2 x0,
        kernelRun0_A.sl.v2295 c arg2 harg2 x0,
        kernelRun0_A.sl.v2296 c arg2 harg2 x0,
        kernelRun0_A.sl.v2297 c arg2 harg2 x0,
        kernelRun0_A.sl.v2298 c arg2 harg2 x0,
        kernelRun0_A.sl.v2299 c arg2 harg2 x0,
        kernelRun0_A.sl.v2300 c arg2 harg2 x0,
        kernelRun0_A.sl.v2301 c arg2 harg2 x0,
        kernelRun0_A.sl.v2302 c arg2 harg2 x0,
        kernelRun0_A.sl.v2303 c arg2 harg2 x0,
        kernelRun0_A.sl.v2304 c arg2 harg2 x0,
        kernelRun0_A.sl.v2305 c arg2 harg2 x0,
        kernelRun0_A.sl.v2306 c arg2 harg2 x0,
        kernelRun0_A.sl.v2307 c arg2 harg2 x0,
        kernelRun0_A.sl.v2308 c arg2 harg2 x0,
        kernelRun0_A.sl.v2309 c arg2 harg2 x0,
        kernelRun0_A.sl.v2310 c arg2 harg2 x0,
        kernelRun0_A.sl.v2311 c arg2 harg2 x0,
        kernelRun0_A.sl.v2312 c arg2 harg2 x0,
        kernelRun0_A.sl.v2313 c arg2 harg2 x0,
        kernelRun0_A.sl.v2314 c arg2 harg2 x0,
        kernelRun0_A.sl.v2315 c arg2 harg2 x0,
        kernelRun0_A.sl.v2316 c arg2 harg2 x0,
        kernelRun0_A.sl.v2317 c arg2 harg2 x0,
        kernelRun0_A.sl.v2318 c arg2 harg2 x0,
        kernelRun0_A.sl.v2319 c arg2 harg2 x0,
        kernelRun0_A.sl.v2320 c arg2 harg2 x0,
        kernelRun0_A.sl.v2321 c arg2 harg2 x0,
        kernelRun0_A.sl.v2322 c arg2 harg2 x0,
        kernelRun0_A.sl.v2323 c arg2 harg2 x0,
        kernelRun0_A.sl.v2324 c arg2 harg2 x0,
        kernelRun0_A.sl.v2325 c arg2 harg2 x0,
        kernelRun0_A.sl.v2326 c arg2 harg2 x0,
        kernelRun0_A.sl.v2327 c arg2 harg2 x0,
        kernelRun0_A.sl.v2328 c arg2 harg2 x0,
        kernelRun0_A.sl.v2329 c arg2 harg2 x0,
        kernelRun0_A.sl.v2330 c arg2 harg2 x0,
        kernelRun0_A.sl.v2331 c arg2 harg2 x0,
        kernelRun0_A.sl.v2332 c arg2 harg2 x0,
        kernelRun0_A.sl.v2333 c arg2 harg2 x0,
        kernelRun0_A.sl.v2334 c arg2 harg2 x0,
        kernelRun0_A.sl.v2335 c arg2 harg2 x0,
        kernelRun0_A.sl.v2336 c arg2 harg2 x0,
        kernelRun0_A.sl.v2337 c arg2 harg2 x0,
        kernelRun0_A.sl.v2338 c arg2 harg2 x0,
        kernelRun0_A.sl.v2339 c arg2 harg2 x0,
        kernelRun0_A.sl.v2340 c arg2 harg2 x0,
        kernelRun0_A.sl.v2341 c arg2 harg2 x0,
        kernelRun0_A.sl.v2342 c arg2 harg2 x0,
        kernelRun0_A.sl.v2343 c arg2 harg2 x0,
        kernelRun0_A.sl.v2344 c arg2 harg2 x0,
        kernelRun0_A.sl.v2345 c arg2 harg2 x0,
        kernelRun0_A.sl.v2346 c arg2 harg2 x0,
        kernelRun0_A.sl.v2347 c arg2 harg2 x0,
        kernelRun0_A.sl.v2348 c arg2 harg2 x0,
        kernelRun0_A.sl.v2349 c arg2 harg2 x0,
        kernelRun0_A.sl.v2350 c arg2 harg2 x0,
        kernelRun0_A.sl.v2351 c arg2 harg2 x0,
        kernelRun0_A.sl.v2352 c arg2 harg2 x0,
        kernelRun0_A.sl.v2353 c arg2 harg2 x0]) (concatenates_rows64 _ rfl) := rfl
  refine piece_of_rows _ 0 704 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

end Cert.KernelIdeal.Stairs

end
-- ==== Proof.PiecesA4.lean ====
/-
  Blocks 12 to 15 of the sixteen blocks of 64 rows that a grid point of half 0 stores.

  Each stored block is a stack of 64 one-row matrices; row `k` of the block that starts at row `off` of the half is
  the window of 2048 positions of the packed vector from `start (0 + off + k)` on (for the last 63 rows of
  the matrix: the positions that exist, then the quiet-NaN word). Each theorem lists the block's rows, reads the
  stack at a row `k` (any `k`), and checks the 64 rows one by one against the half of the staircase.
-/
import proofs.«102620_j26792005992501_2_alg».proof.Proof.Gen.KernelIdeal.Frame.RunA
import proofs.«102620_j26792005992501_2_alg».proof.Proof.HalfBlock
import Idealize.ShloMosaic.PureOps.Ideal

noncomputable section

namespace Cert.KernelIdeal.Stairs

open Idealize.ShloMosaic Idealize.ShloMosaic.TcCoe Idealize.SL.Sem Cert.KernelIdeal Cert.KernelIdeal.Gen
open Idealize.ShloMosaic.ValueIdx Cert.Staircase Cert.Staircase.Rows

set_option maxHeartbeats 4000000 in
/-- Rows 768 to 831 of half 0: row `k` of the stored block is the window of the packed vector that
    starts at `start (0 + 768 + k)`. -/
theorem pieceA_12 (c : Dev nD) (arg2 : Memref sig .tc .vmem S1x1x2098176 .f32) (harg2 : arg2.IsWhole)
    (x0 : Vec Ideal S1x1x2098176 .f32) (inb) (z : SPiece.Idx) :
    kernelRun0_A.sl.v2553 (F := Ideal) c arg2 harg2 x0 z
      = half (Val := Elt Ideal) (e := .f32) (Ideal.ofBits .f32 0x7FC00000#32) 0 x0
          ((Rect.unit (s := SHalf) ![0, 768, 0] SPiece.size inb).emb z) := by
  have hcat : kernelRun0_A.sl.v2550 (F := Ideal) c arg2 harg2 x0
      = concatenate S64x2048 0 (rowPieces (C := 2048) [
        kernelRun0_A.sl.v2486 c arg2 harg2 x0,
        kernelRun0_A.sl.v2487 c arg2 harg2 x0,
        kernelRun0_A.sl.v2488 c arg2 harg2 x0,
        kernelRun0_A.sl.v2489 c arg2 harg2 x0,
        kernelRun0_A.sl.v2490 c arg2 harg2 x0,
        kernelRun0_A.sl.v2491 c arg2 harg2 x0,
        kernelRun0_A.sl.v2492 c arg2 harg2 x0,
        kernelRun0_A.sl.v2493 c arg2 harg2 x0,
        kernelRun0_A.sl.v2494 c arg2 harg2 x0,
        kernelRun0_A.sl.v2495 c arg2 harg2 x0,
        kernelRun0_A.sl.v2496 c arg2 harg2 x0,
        kernelRun0_A.sl.v2497 c arg2 harg2 x0,
        kernelRun0_A.sl.v2498 c arg2 harg2 x0,
        kernelRun0_A.sl.v2499 c arg2 harg2 x0,
        kernelRun0_A.sl.v2500 c arg2 harg2 x0,
        kernelRun0_A.sl.v2501 c arg2 harg2 x0,
        kernelRun0_A.sl.v2502 c arg2 harg2 x0,
        kernelRun0_A.sl.v2503 c arg2 harg2 x0,
        kernelRun0_A.sl.v2504 c arg2 harg2 x0,
        kernelRun0_A.sl.v2505 c arg2 harg2 x0,
        kernelRun0_A.sl.v2506 c arg2 harg2 x0,
        kernelRun0_A.sl.v2507 c arg2 harg2 x0,
        kernelRun0_A.sl.v2508 c arg2 harg2 x0,
        kernelRun0_A.sl.v2509 c arg2 harg2 x0,
        kernelRun0_A.sl.v2510 c arg2 harg2 x0,
        kernelRun0_A.sl.v2511 c arg2 harg2 x0,
        kernelRun0_A.sl.v2512 c arg2 harg2 x0,
        kernelRun0_A.sl.v2513 c arg2 harg2 x0,
        kernelRun0_A.sl.v2514 c arg2 harg2 x0,
        kernelRun0_A.sl.v2515 c arg2 harg2 x0,
        kernelRun0_A.sl.v2516 c arg2 harg2 x0,
        kernelRun0_A.sl.v2517 c arg2 harg2 x0,
        kernelRun0_A.sl.v2518 c arg2 harg2 x0,
        kernelRun0_A.sl.v2519 c arg2 harg2 x0,
        kernelRun0_A.sl.v2520 c arg2 harg2 x0,
        kernelRun0_A.sl.v2521 c arg2 harg2 x0,
        kernelRun0_A.sl.v2522 c arg2 harg2 x0,
        kernelRun0_A.sl.v2523 c arg2 harg2 x0,
        kernelRun0_A.sl.v2524 c arg2 harg2 x0,
        kernelRun0_A.sl.v2525 c arg2 harg2 x0,
        kernelRun0_A.sl.v2526 c arg2 harg2 x0,
        kernelRun0_A.sl.v2527 c arg2 harg2 x0,
        kernelRun0_A.sl.v2528 c arg2 harg2 x0,
        kernelRun0_A.sl.v2529 c arg2 harg2 x0,
        kernelRun0_A.sl.v2530 c arg2 harg2 x0,
        kernelRun0_A.sl.v2531 c arg2 harg2 x0,
        kernelRun0_A.sl.v2532 c arg2 harg2 x0,
        kernelRun0_A.sl.v2533 c arg2 harg2 x0,
        kernelRun0_A.sl.v2534 c arg2 harg2 x0,
        kernelRun0_A.sl.v2535 c arg2 harg2 x0,
        kernelRun0_A.sl.v2536 c arg2 harg2 x0,
        kernelRun0_A.sl.v2537 c arg2 harg2 x0,
        kernelRun0_A.sl.v2538 c arg2 harg2 x0,
        kernelRun0_A.sl.v2539 c arg2 harg2 x0,
        kernelRun0_A.sl.v2540 c arg2 harg2 x0,
        kernelRun0_A.sl.v2541 c arg2 harg2 x0,
        kernelRun0_A.sl.v2542 c arg2 harg2 x0,
        kernelRun0_A.sl.v2543 c arg2 harg2 x0,
        kernelRun0_A.sl.v2544 c arg2 harg2 x0,
        kernelRun0_A.sl.v2545 c arg2 harg2 x0,
        kernelRun0_A.sl.v2546 c arg2 harg2 x0,
        kernelRun0_A.sl.v2547 c arg2 harg2 x0,
        kernelRun0_A.sl.v2548 c arg2 harg2 x0,
        kernelRun0_A.sl.v2549 c arg2 harg2 x0]) (concatenates_rows64 _ rfl) := rfl
  refine piece_of_rows _ 0 768 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 832 to 895 of half 0: row `k` of the stored block is the window of the packed vector that
    starts at `start (0 + 832 + k)`. -/
theorem pieceA_13 (c : Dev nD) (arg2 : Memref sig .tc .vmem S1x1x2098176 .f32) (harg2 : arg2.IsWhole)
    (x0 : Vec Ideal S1x1x2098176 .f32) (inb) (z : SPiece.Idx) :
    kernelRun0_A.sl.v2749 (F := Ideal) c arg2 harg2 x0 z
      = half (Val := Elt Ideal) (e := .f32) (Ideal.ofBits .f32 0x7FC00000#32) 0 x0
          ((Rect.unit (s := SHalf) ![0, 832, 0] SPiece.size inb).emb z) := by
  have hcat : kernelRun0_A.sl.v2746 (F := Ideal) c arg2 harg2 x0
      = concatenate S64x2048 0 (rowPieces (C := 2048) [
        kernelRun0_A.sl.v2682 c arg2 harg2 x0,
        kernelRun0_A.sl.v2683 c arg2 harg2 x0,
        kernelRun0_A.sl.v2684 c arg2 harg2 x0,
        kernelRun0_A.sl.v2685 c arg2 harg2 x0,
        kernelRun0_A.sl.v2686 c arg2 harg2 x0,
        kernelRun0_A.sl.v2687 c arg2 harg2 x0,
        kernelRun0_A.sl.v2688 c arg2 harg2 x0,
        kernelRun0_A.sl.v2689 c arg2 harg2 x0,
        kernelRun0_A.sl.v2690 c arg2 harg2 x0,
        kernelRun0_A.sl.v2691 c arg2 harg2 x0,
        kernelRun0_A.sl.v2692 c arg2 harg2 x0,
        kernelRun0_A.sl.v2693 c arg2 harg2 x0,
        kernelRun0_A.sl.v2694 c arg2 harg2 x0,
        kernelRun0_A.sl.v2695 c arg2 harg2 x0,
        kernelRun0_A.sl.v2696 c arg2 harg2 x0,
        kernelRun0_A.sl.v2697 c arg2 harg2 x0,
        kernelRun0_A.sl.v2698 c arg2 harg2 x0,
        kernelRun0_A.sl.v2699 c arg2 harg2 x0,
        kernelRun0_A.sl.v2700 c arg2 harg2 x0,
        kernelRun0_A.sl.v2701 c arg2 harg2 x0,
        kernelRun0_A.sl.v2702 c arg2 harg2 x0,
        kernelRun0_A.sl.v2703 c arg2 harg2 x0,
        kernelRun0_A.sl.v2704 c arg2 harg2 x0,
        kernelRun0_A.sl.v2705 c arg2 harg2 x0,
        kernelRun0_A.sl.v2706 c arg2 harg2 x0,
        kernelRun0_A.sl.v2707 c arg2 harg2 x0,
        kernelRun0_A.sl.v2708 c arg2 harg2 x0,
        kernelRun0_A.sl.v2709 c arg2 harg2 x0,
        kernelRun0_A.sl.v2710 c arg2 harg2 x0,
        kernelRun0_A.sl.v2711 c arg2 harg2 x0,
        kernelRun0_A.sl.v2712 c arg2 harg2 x0,
        kernelRun0_A.sl.v2713 c arg2 harg2 x0,
        kernelRun0_A.sl.v2714 c arg2 harg2 x0,
        kernelRun0_A.sl.v2715 c arg2 harg2 x0,
        kernelRun0_A.sl.v2716 c arg2 harg2 x0,
        kernelRun0_A.sl.v2717 c arg2 harg2 x0,
        kernelRun0_A.sl.v2718 c arg2 harg2 x0,
        kernelRun0_A.sl.v2719 c arg2 harg2 x0,
        kernelRun0_A.sl.v2720 c arg2 harg2 x0,
        kernelRun0_A.sl.v2721 c arg2 harg2 x0,
        kernelRun0_A.sl.v2722 c arg2 harg2 x0,
        kernelRun0_A.sl.v2723 c arg2 harg2 x0,
        kernelRun0_A.sl.v2724 c arg2 harg2 x0,
        kernelRun0_A.sl.v2725 c arg2 harg2 x0,
        kernelRun0_A.sl.v2726 c arg2 harg2 x0,
        kernelRun0_A.sl.v2727 c arg2 harg2 x0,
        kernelRun0_A.sl.v2728 c arg2 harg2 x0,
        kernelRun0_A.sl.v2729 c arg2 harg2 x0,
        kernelRun0_A.sl.v2730 c arg2 harg2 x0,
        kernelRun0_A.sl.v2731 c arg2 harg2 x0,
        kernelRun0_A.sl.v2732 c arg2 harg2 x0,
        kernelRun0_A.sl.v2733 c arg2 harg2 x0,
        kernelRun0_A.sl.v2734 c arg2 harg2 x0,
        kernelRun0_A.sl.v2735 c arg2 harg2 x0,
        kernelRun0_A.sl.v2736 c arg2 harg2 x0,
        kernelRun0_A.sl.v2737 c arg2 harg2 x0,
        kernelRun0_A.sl.v2738 c arg2 harg2 x0,
        kernelRun0_A.sl.v2739 c arg2 harg2 x0,
        kernelRun0_A.sl.v2740 c arg2 harg2 x0,
        kernelRun0_A.sl.v2741 c arg2 harg2 x0,
        kernelRun0_A.sl.v2742 c arg2 harg2 x0,
        kernelRun0_A.sl.v2743 c arg2 harg2 x0,
        kernelRun0_A.sl.v2744 c arg2 harg2 x0,
        kernelRun0_A.sl.v2745 c arg2 harg2 x0]) (concatenates_rows64 _ rfl) := rfl
  refine piece_of_rows _ 0 832 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 896 to 959 of half 0: row `k` of the stored block is the window of the packed vector that
    starts at `start (0 + 896 + k)`. -/
theorem pieceA_14 (c : Dev nD) (arg2 : Memref sig .tc .vmem S1x1x2098176 .f32) (harg2 : arg2.IsWhole)
    (x0 : Vec Ideal S1x1x2098176 .f32) (inb) (z : SPiece.Idx) :
    kernelRun0_A.sl.v2945 (F := Ideal) c arg2 harg2 x0 z
      = half (Val := Elt Ideal) (e := .f32) (Ideal.ofBits .f32 0x7FC00000#32) 0 x0
          ((Rect.unit (s := SHalf) ![0, 896, 0] SPiece.size inb).emb z) := by
  have hcat : kernelRun0_A.sl.v2942 (F := Ideal) c arg2 harg2 x0
      = concatenate S64x2048 0 (rowPieces (C := 2048) [
        kernelRun0_A.sl.v2878 c arg2 harg2 x0,
        kernelRun0_A.sl.v2879 c arg2 harg2 x0,
        kernelRun0_A.sl.v2880 c arg2 harg2 x0,
        kernelRun0_A.sl.v2881 c arg2 harg2 x0,
        kernelRun0_A.sl.v2882 c arg2 harg2 x0,
        kernelRun0_A.sl.v2883 c arg2 harg2 x0,
        kernelRun0_A.sl.v2884 c arg2 harg2 x0,
        kernelRun0_A.sl.v2885 c arg2 harg2 x0,
        kernelRun0_A.sl.v2886 c arg2 harg2 x0,
        kernelRun0_A.sl.v2887 c arg2 harg2 x0,
        kernelRun0_A.sl.v2888 c arg2 harg2 x0,
        kernelRun0_A.sl.v2889 c arg2 harg2 x0,
        kernelRun0_A.sl.v2890 c arg2 harg2 x0,
        kernelRun0_A.sl.v2891 c arg2 harg2 x0,
        kernelRun0_A.sl.v2892 c arg2 harg2 x0,
        kernelRun0_A.sl.v2893 c arg2 harg2 x0,
        kernelRun0_A.sl.v2894 c arg2 harg2 x0,
        kernelRun0_A.sl.v2895 c arg2 harg2 x0,
        kernelRun0_A.sl.v2896 c arg2 harg2 x0,
        kernelRun0_A.sl.v2897 c arg2 harg2 x0,
        kernelRun0_A.sl.v2898 c arg2 harg2 x0,
        kernelRun0_A.sl.v2899 c arg2 harg2 x0,
        kernelRun0_A.sl.v2900 c arg2 harg2 x0,
        kernelRun0_A.sl.v2901 c arg2 harg2 x0,
        kernelRun0_A.sl.v2902 c arg2 harg2 x0,
        kernelRun0_A.sl.v2903 c arg2 harg2 x0,
        kernelRun0_A.sl.v2904 c arg2 harg2 x0,
        kernelRun0_A.sl.v2905 c arg2 harg2 x0,
        kernelRun0_A.sl.v2906 c arg2 harg2 x0,
        kernelRun0_A.sl.v2907 c arg2 harg2 x0,
        kernelRun0_A.sl.v2908 c arg2 harg2 x0,
        kernelRun0_A.sl.v2909 c arg2 harg2 x0,
        kernelRun0_A.sl.v2910 c arg2 harg2 x0,
        kernelRun0_A.sl.v2911 c arg2 harg2 x0,
        kernelRun0_A.sl.v2912 c arg2 harg2 x0,
        kernelRun0_A.sl.v2913 c arg2 harg2 x0,
        kernelRun0_A.sl.v2914 c arg2 harg2 x0,
        kernelRun0_A.sl.v2915 c arg2 harg2 x0,
        kernelRun0_A.sl.v2916 c arg2 harg2 x0,
        kernelRun0_A.sl.v2917 c arg2 harg2 x0,
        kernelRun0_A.sl.v2918 c arg2 harg2 x0,
        kernelRun0_A.sl.v2919 c arg2 harg2 x0,
        kernelRun0_A.sl.v2920 c arg2 harg2 x0,
        kernelRun0_A.sl.v2921 c arg2 harg2 x0,
        kernelRun0_A.sl.v2922 c arg2 harg2 x0,
        kernelRun0_A.sl.v2923 c arg2 harg2 x0,
        kernelRun0_A.sl.v2924 c arg2 harg2 x0,
        kernelRun0_A.sl.v2925 c arg2 harg2 x0,
        kernelRun0_A.sl.v2926 c arg2 harg2 x0,
        kernelRun0_A.sl.v2927 c arg2 harg2 x0,
        kernelRun0_A.sl.v2928 c arg2 harg2 x0,
        kernelRun0_A.sl.v2929 c arg2 harg2 x0,
        kernelRun0_A.sl.v2930 c arg2 harg2 x0,
        kernelRun0_A.sl.v2931 c arg2 harg2 x0,
        kernelRun0_A.sl.v2932 c arg2 harg2 x0,
        kernelRun0_A.sl.v2933 c arg2 harg2 x0,
        kernelRun0_A.sl.v2934 c arg2 harg2 x0,
        kernelRun0_A.sl.v2935 c arg2 harg2 x0,
        kernelRun0_A.sl.v2936 c arg2 harg2 x0,
        kernelRun0_A.sl.v2937 c arg2 harg2 x0,
        kernelRun0_A.sl.v2938 c arg2 harg2 x0,
        kernelRun0_A.sl.v2939 c arg2 harg2 x0,
        kernelRun0_A.sl.v2940 c arg2 harg2 x0,
        kernelRun0_A.sl.v2941 c arg2 harg2 x0]) (concatenates_rows64 _ rfl) := rfl
  refine piece_of_rows _ 0 896 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 0 _ _ x0 j _ ?_ ?_).symm <;> decide )

set_option maxHeartbeats 4000000 in
/-- Rows 960 to 1023 of half 0: row `k` of the stored block is the window of the packed vector that
    starts at `start (0 + 960 + k)`. -/
theorem pieceA_15 (c : Dev nD) (arg2 : Memref sig .tc .vmem S1x1x2098176 .f32) (harg2 : arg2.IsWhole)
    (x0 : Vec Ideal S1x1x2098176 .f32) (inb) (z : SPiece.Idx) :
    k0_pay2 (F := Ideal) (k0_pay1 (kernelRun0_A.sl.v3059 c arg2 harg2 x0) (kernelRun0_A.sl.v3061 c arg2 harg2 x0) (kernelRun0_A.sl.v3063 c arg2 harg2 x0) (kernelRun0_A.sl.v3065 c arg2 harg2 x0) (kernelRun0_A.sl.v3067 c arg2 harg2 x0) (kernelRun0_A.sl.v3069 c arg2 harg2 x0) (kernelRun0_A.sl.v3071 c arg2 harg2 x0) (kernelRun0_A.sl.v3073 c arg2 harg2 x0) (kernelRun0_A.sl.v3074 c arg2 harg2 x0) (kernelRun0_A.sl.v3075 c arg2 harg2 x0) (kernelRun0_A.sl.v3076 c arg2 harg2 x0) (kernelRun0_A.sl.v3077 c arg2 harg2 x0) (kernelRun0_A.sl.v3078 c arg2 harg2 x0) (kernelRun0_A.sl.v3079 c arg2 harg2 x0) (kernelRun0_A.sl.v3080 c arg2 harg2 x0) (kernelRun0_A.sl.v3081 c arg2 harg2 x0) (kernelRun0_A.sl.v3082 c arg2 harg2 x0) (kernelRun0_A.sl.v3083 c arg2 harg2 x0) (kernelRun0_A.sl.v3084 c arg2 harg2 x0) (kernelRun0_A.sl.v3085 c arg2 harg2 x0) (kernelRun0_A.sl.v3086 c arg2 harg2 x0) (kernelRun0_A.sl.v3087 c arg2 harg2 x0) (kernelRun0_A.sl.v3088 c arg2 harg2 x0) (kernelRun0_A.sl.v3089 c arg2 harg2 x0) (kernelRun0_A.sl.v3090 c arg2 harg2 x0) (kernelRun0_A.sl.v3091 c arg2 harg2 x0) (kernelRun0_A.sl.v3092 c arg2 harg2 x0) (kernelRun0_A.sl.v3093 c arg2 harg2 x0) (kernelRun0_A.sl.v3094 c arg2 harg2 x0) (kernelRun0_A.sl.v3095 c arg2 harg2 x0) (kernelRun0_A.sl.v3096 c arg2 harg2 x0) (kernelRun0_A.sl.v3097 c arg2 harg2 x0) (kernelRun0_A.sl.v3098 c arg2 harg2 x0) (kernelRun0_A.sl.v3099 c arg2 harg2 x0) (kernelRun0_A.sl.v3100 c arg2 harg2 x0) (kernelRun0_A.sl.v3101 c arg2 harg2 x0) (kernelRun0_A.sl.v3102 c arg2 harg2 x0) (kernelRun0_A.sl.v3103 c arg2 harg2 x0) (kernelRun0_A.sl.v3104 c arg2 harg2 x0) (kernelRun0_A.sl.v3105 c arg2 harg2 x0) (kernelRun0_A.sl.v3106 c arg2 harg2 x0) (kernelRun0_A.sl.v3107 c arg2 harg2 x0) (kernelRun0_A.sl.v3108 c arg2 harg2 x0) (kernelRun0_A.sl.v3109 c arg2 harg2 x0) (kernelRun0_A.sl.v3110 c arg2 harg2 x0) (kernelRun0_A.sl.v3111 c arg2 harg2 x0) (kernelRun0_A.sl.v3112 c arg2 harg2 x0) (kernelRun0_A.sl.v3113 c arg2 harg2 x0) (kernelRun0_A.sl.r_16 c arg2 harg2 x0) (kernelRun0_A.sl.r_17 c arg2 harg2 x0) (kernelRun0_A.sl.r_18 c arg2 harg2 x0) (kernelRun0_A.sl.r_19 c arg2 harg2 x0) (kernelRun0_A.sl.r_20 c arg2 harg2 x0) (kernelRun0_A.sl.r_21 c arg2 harg2 x0) (kernelRun0_A.sl.r_22 c arg2 harg2 x0) (kernelRun0_A.sl.r_23 c arg2 harg2 x0) (kernelRun0_A.sl.r_24 c arg2 harg2 x0) (kernelRun0_A.sl.r_25 c arg2 harg2 x0) (kernelRun0_A.sl.r_26 c arg2 harg2 x0) (kernelRun0_A.sl.r_27 c arg2 harg2 x0) (kernelRun0_A.sl.r_28 c arg2 harg2 x0) (kernelRun0_A.sl.r_29 c arg2 harg2 x0) (kernelRun0_A.sl.r_30 c arg2 harg2 x0) (kernelRun0_A.sl.r_31 c arg2 harg2 x0)) z
      = half (Val := Elt Ideal) (e := .f32) (Ideal.ofBits .f32 0x7FC00000#32) 0 x0
          ((Rect.unit (s := SHalf) ![0, 960, 0] SPiece.size inb).emb z) := by
  have hcat : k0_pay1 (F := Ideal) (kernelRun0_A.sl.v3059 c arg2 harg2 x0) (kernelRun0_A.sl.v3061 c arg2 harg2 x0) (kernelRun0_A.sl.v3063 c arg2 harg2 x0) (kernelRun0_A.sl.v3065 c arg2 harg2 x0) (kernelRun0_A.sl.v3067 c arg2 harg2 x0) (kernelRun0_A.sl.v3069 c arg2 harg2 x0) (kernelRun0_A.sl.v3071 c arg2 harg2 x0) (kernelRun0_A.sl.v3073 c arg2 harg2 x0) (kernelRun0_A.sl.v3074 c arg2 harg2 x0) (kernelRun0_A.sl.v3075 c arg2 harg2 x0) (kernelRun0_A.sl.v3076 c arg2 harg2 x0) (kernelRun0_A.sl.v3077 c arg2 harg2 x0) (kernelRun0_A.sl.v3078 c arg2 harg2 x0) (kernelRun0_A.sl.v3079 c arg2 harg2 x0) (kernelRun0_A.sl.v3080 c arg2 harg2 x0) (kernelRun0_A.sl.v3081 c arg2 harg2 x0) (kernelRun0_A.sl.v3082 c arg2 harg2 x0) (kernelRun0_A.sl.v3083 c arg2 harg2 x0) (kernelRun0_A.sl.v3084 c arg2 harg2 x0) (kernelRun0_A.sl.v3085 c arg2 harg2 x0) (kernelRun0_A.sl.v3086 c arg2 harg2 x0) (kernelRun0_A.sl.v3087 c arg2 harg2 x0) (kernelRun0_A.sl.v3088 c arg2 harg2 x0) (kernelRun0_A.sl.v3089 c arg2 harg2 x0) (kernelRun0_A.sl.v3090 c arg2 harg2 x0) (kernelRun0_A.sl.v3091 c arg2 harg2 x0) (kernelRun0_A.sl.v3092 c arg2 harg2 x0) (kernelRun0_A.sl.v3093 c arg2 harg2 x0) (kernelRun0_A.sl.v3094 c arg2 harg2 x0) (kernelRun0_A.sl.v3095 c arg2 harg2 x0) (kernelRun0_A.sl.v3096 c arg2 harg2 x0) (kernelRun0_A.sl.v3097 c arg2 harg2 x0) (kernelRun0_A.sl.v3098 c arg2 harg2 x0) (kernelRun0_A.sl.v3099 c arg2 harg2 x0) (kernelRun0_A.sl.v3100 c arg2 harg2 x0) (kernelRun0_A.sl.v3101 c arg2 harg2 x0) (kernelRun0_A.sl.v3102 c arg2 harg2 x0) (kernelRun0_A.sl.v3103 c arg2 harg2 x0) (kernelRun0_A.sl.v3104 c arg2 harg2 x0) (kernelRun0_A.sl.v3105 c arg2 harg2 x0) (kernelRun0_A.sl.v3106 c arg2 harg2 x0) (kernelRun0_A.sl.v3107 c arg2 harg2 x0) (kernelRun0_A.sl.v3108 c arg2 harg2 x0) (kernelRun0_A.sl.v3109 c arg2 harg2 x0) (kernelRun0_A.sl.v3110 c arg2 harg2 x0) (kernelRun0_A.sl.v3111 c arg2 harg2 x0) (kernelRun0_A.sl.v3112 c arg2 harg2 x0) (kernelRun0_A.sl.v3113 c arg2 harg2 x0) (kernelRun0_A.sl.r_16 c arg2 harg2 x0) (kernelRun0_A.sl.r_17 c arg2 harg2 x0) (kernelRun0_A.sl.r_18 c arg2 harg2 x0) (kernelRun0_A.sl.r_19 c arg2 harg2 x0) (kernelRun0_A.sl.r_20 c arg2 harg2 x0) (kernelRun0_A.sl.r_21 c arg2 harg2 x0) (kernelRun0_A.sl.r_22 c arg2 harg2 x0) (kernelRun0_A.sl.r_23 c arg2 harg2 x0) (kernelRun0_A.sl.r_24 c arg2 harg2 x0) (kernelRun0_A.sl.r_25 c arg2 harg2 x0) (kernelRun0_A.sl.r_26 c arg2 harg2 x0) (kernelRun0_A.sl.r_27 c arg2 harg2 x0) (kernelRun0_A.sl.r_28 c arg2 harg2 x0) (kernelRun0_A.sl.r_29 c arg2 harg2 x0) (kernelRun0_A.sl.r_30 c arg2 harg2 x0) (kernelRun0_A.sl.r_31 c arg2 harg2 x0)
      = concatenate S64x2048 0 (rowPieces (C := 2048) [
        kernelRun0_A.sl.v3074 c arg2 harg2 x0,
        kernelRun0_A.sl.v3075 c arg2 harg2 x0,
        kernelRun0_A.sl.v3076 c arg2 harg2 x0,
        kernelRun0_A.sl.v3077 c arg2 harg2 x0,
        kernelRun0_A.sl.v3078 c arg2 harg2 x0,
        kernelRun0_A.sl.v3079 c arg2 harg2 x0,
        kernelRun0_A.sl.v3080 c arg2 harg2 x0,
        kernelRun0_A.sl.v3081 c arg2 harg2 x0,
        kernelRun0_A.sl.v3082 c arg2 harg2 x0,
        kernelRun0_A.sl.v3083 c arg2 harg2 x0,
        kernelRun0_A.sl.v3084 c arg2 harg2 x0,
        kernelRun0_A.sl.v3085 c arg2 harg2 x0,
        kernelRun0_A.sl.v3086 c arg2 harg2 x0,
        kernelRun0_A.sl.v3087 c arg2 harg2 x0,
        kernelRun0_A.sl.v3088 c arg2 harg2 x0,
        kernelRun0_A.sl.v3089 c arg2 harg2 x0,
        kernelRun0_A.sl.v3090 c arg2 harg2 x0,
        kernelRun0_A.sl.v3091 c arg2 harg2 x0,
        kernelRun0_A.sl.v3092 c arg2 harg2 x0,
        kernelRun0_A.sl.v3093 c arg2 harg2 x0,
        kernelRun0_A.sl.v3094 c arg2 harg2 x0,
        kernelRun0_A.sl.v3095 c arg2 harg2 x0,
        kernelRun0_A.sl.v3096 c arg2 harg2 x0,
        kernelRun0_A.sl.v3097 c arg2 harg2 x0,
        kernelRun0_A.sl.v3098 c arg2 harg2 x0,
        kernelRun0_A.sl.v3099 c arg2 harg2 x0,
        kernelRun0_A.sl.v3100 c arg2 harg2 x0,
        kernelRun0_A.sl.v3101 c arg2 harg2 x0,
        kernelRun0_A.sl.v3102 c arg2 harg2 x0,
        kernelRun0_A.sl.v3103 c arg2 harg2 x0,
        kernelRun0_A.sl.v3104 c arg2 harg2 x0,
        kernelRun0_A.sl.v3105 c arg2 harg2 x0,
        kernelRun0_A.sl.v3106 c arg2 harg2 x0,
        kernelRun0_A.sl.v3107 c arg2 harg2 x0,
        kernelRun0_A.sl.v3108 c arg2 harg2 x0,
        kernelRun0_A.sl.v3109 c arg2 harg2 x0,
        kernelRun0_A.sl.v3110 c arg2 harg2 x0,
        kernelRun0_A.sl.v3111 c arg2 harg2 x0,
        kernelRun0_A.sl.v3112 c arg2 harg2 x0,
        kernelRun0_A.sl.v3113 c arg2 harg2 x0,
        kernelRun0_A.sl.r_16 c arg2 harg2 x0,
        kernelRun0_A.sl.r_17 c arg2 harg2 x0,
        kernelRun0_A.sl.r_18 c arg2 harg2 x0,
        kernelRun0_A.sl.r_19 c arg2 harg2 x0,
        kernelRun0_A.sl.r_20 c arg2 harg2 x0,
        kernelRun0_A.sl.r_21 c arg2 harg2 x0,
        kernelRun0_A.sl.r_22 c arg2 harg2 x0,
        kernelRun0_A.sl.r_23 c arg2 harg2 x0,
        kernelRun0_A.sl.r_24 c arg2 harg2 x0,
        kernelRun0_A.sl.r_25 c arg2 harg2 x0,
        kernelRun0_A.sl.r_26 c arg2 harg2 x0,
        kernelRun0_A.sl.r_27 c arg2 harg2 x0,
        kernelRun0_A.sl.r_28 c arg2 harg2 x0,
        kernelRun0_A.sl.r_29 c arg2 harg2 x0,
        kernelRun0_A.sl.r_30 c arg2 harg2 x0,
        kernelRun0_A.sl.r_31 c arg2 harg2 x0,
        shapeCast S1x2048 (kernelRun0_A.sl.v3059 c arg2 harg2 x0) _,
        shapeCast S1x2048 (kernelRun0_A.sl.v3061 c arg2 harg2 x0) _,
        shapeCast S1x2048 (kernelRun0_A.sl.v3063 c arg2 harg2 x0) _,
        shapeCast S1x2048 (kernelRun0_A.sl.v3065 c arg2 harg2 x0) _,
        shapeCast S1x2048 (kernelRun0_A.sl.v3067 c arg2 harg2 x0) _,
        shapeCast S1x2048 (kernelRun0_A.sl.v3069 c arg2 harg2 x0) _,
        shapeCast S1x2048 (kernelRun0_A.sl.v3071 c arg2 harg2 x0) _,
        shapeCast S1x2048 (kernelRun0_A.sl.v3073 c arg2 harg2 x0) _]) (concatenates_rows64 _ rfl) := rfl
  unfold k0_pay2
  dsimp only
  refine piece_of_rows _ 0 960 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero, kernelRun0_A.sl.r_16, k0_pay1625, kernelRun0_A.sl.r_17, k0_pay1626, kernelRun0_A.sl.r_18, k0_pay1627, kernelRun0_A.sl.r_19, k0_pay1628, kernelRun0_A.sl.r_20, k0_pay1629, kernelRun0_A.sl.r_21, k0_pay1630, kernelRun0_A.sl.r_22, k0_pay1631, kernelRun0_A.sl.r_23, k0_pay1632, kernelRun0_A.sl.r_24, k0_pay1633, kernelRun0_A.sl.r_25, k0_pay1634, kernelRun0_A.sl.r_26, k0_pay1635, kernelRun0_A.sl.r_27, k0_pay1636, kernelRun0_A.sl.r_28, k0_pay1637, kernelRun0_A.sl.r_29, k0_pay1638, kernelRun0_A.sl.r_30, k0_pay1639, kernelRun0_A.sl.r_31, k0_pay1640]
    refine (one_row_apply _ _ j).trans ?_
    refine (window_readAt arg2.view _ x0 (harg2.read_unread x0) _ _ _ ?_ j).trans ?_
    · decide
    refine (half_full _ 0 _ _ x0 j _ ?_ ?_).symm <;> decide )

end Cert.KernelIdeal.Stairs

end
-- ==== Proof.PiecesB1.lean ====
/-
  Blocks 0 to 3 of the sixteen blocks of 64 rows that a grid point of half 1 stores.

  Each stored block is a stack of 64 one-row matrices; row `k` of the block that starts at row `off` of the half is
  the window of 2048 positions of the packed vector from `start (1024 + off + k)` on (for the last 63 rows of
  the matrix: the positions that exist, then the quiet-NaN word). Each theorem lists the block's rows, reads the
  stack at a row `k` (any `k`), and checks the 64 rows one by one against the half of the staircase.
-/
import proofs.«102620_j26792005992501_2_alg».proof.Proof.Gen.KernelIdeal.Frame.RunB
import proofs.«102620_j26792005992501_2_alg».proof.Proof.HalfBlock
import Idealize.ShloMosaic.PureOps.Ideal

noncomputable section

namespace Cert.KernelIdeal.Stairs

open Idealize.ShloMosaic Idealize.ShloMosaic.TcCoe Idealize.SL.Sem Cert.KernelIdeal Cert.KernelIdeal.Gen
open Idealize.ShloMosaic.ValueIdx Cert.Staircase Cert.Staircase.Rows

set_option maxHeartbeats 4000000 in
/-- Rows 0 to 63 of half 1: row `k` of the stored block is the window of the packed vector that
    starts at `start (1024 + 0 + k)`. -/
theorem pieceB_0 (c : Dev nD) (arg2 : Memref sig .tc .vmem S1x1x2098176 .f32) (harg2 : arg2.IsWhole)
    (x0 : Vec Ideal S1x1x2098176 .f32) (inb) (z : SPiece.Idx) :
    kernelRun0_B.sl.v202 (F := Ideal) c arg2 harg2 x0 z
      = half (Val := Elt Ideal) (e := .f32) (Ideal.ofBits .f32 0x7FC00000#32) 1 x0
          ((Rect.unit (s := SHalf) ![0, 0, 0] SPiece.size inb).emb z) := by
  have hcat : kernelRun0_B.sl.v199 (F := Ideal) c arg2 harg2 x0
      = concatenate S64x2048 0 (rowPieces (C := 2048) [
        kernelRun0_B.sl.v135 c arg2 harg2 x0,
        kernelRun0_B.sl.v136 c arg2 harg2 x0,
        kernelRun0_B.sl.v137 c arg2 harg2 x0,
        kernelRun0_B.sl.v138 c arg2 harg2 x0,
        kernelRun0_B.sl.v139 c arg2 harg2 x0,
        kernelRun0_B.sl.v140 c arg2 harg2 x0,
        kernelRun0_B.sl.v141 c arg2 harg2 x0,
        kernelRun0_B.sl.v142 c arg2 harg2 x0,
        kernelRun0_B.sl.v143 c arg2 harg2 x0,
        kernelRun0_B.sl.v144 c arg2 harg2 x0,
        kernelRun0_B.sl.v145 c arg2 harg2 x0,
        kernelRun0_B.sl.v146 c arg2 harg2 x0,
        kernelRun0_B.sl.v147 c arg2 harg2 x0,
        kernelRun0_B.sl.v148 c arg2 harg2 x0,
        kernelRun0_B.sl.v149 c arg2 harg2 x0,
        kernelRun0_B.sl.v150 c arg2 harg2 x0,
        kernelRun0_B.sl.v151 c arg2 harg2 x0,
        kernelRun0_B.sl.v152 c arg2 harg2 x0,
        kernelRun0_B.sl.v153 c arg2 harg2 x0,
        kernelRun0_B.sl.v154 c arg2 harg2 x0,
        kernelRun0_B.sl.v155 c arg2 harg2 x0,
        kernelRun0_B.sl.v156 c arg2 harg2 x0,
        kernelRun0_B.sl.v157 c arg2 harg2 x0,
        kernelRun0_B.sl.v158 c arg2 harg2 x0,
        kernelRun0_B.sl.v159 c arg2 harg2 x0,
        kernelRun0_B.sl.v160 c arg2 harg2 x0,
        kernelRun0_B.sl.v161 c arg2 harg2 x0,
        kernelRun0_B.sl.v162 c arg2 harg2 x0,
        kernelRun0_B.sl.v163 c arg2 harg2 x0,
        kernelRun0_B.sl.v164 c arg2 harg2 x0,
        kernelRun0_B.sl.v165 c arg2 harg2 x0,
        kernelRun0_B.sl.v166 c arg2 harg2 x0,
        kernelRun0_B.sl.v167 c arg2 harg2 x0,
        kernelRun0_B.sl.v168 c arg2 harg2 x0,
        kernelRun0_B.sl.v169 c arg2 harg2 x0,
        kernelRun0_B.sl.v170 c arg2 harg2 x0,
        kernelRun0_B.sl.v171 c arg2 harg2 x0,
        kernelRun0_B.sl.v172 c arg2 harg2 x0,
        kernelRun0_B.sl.v173 c arg2 harg2 x0,
        kernelRun0_B.sl.v174 c arg2 harg2 x0,
        kernelRun0_B.sl.v175 c arg2 harg2 x0,
        kernelRun0_B.sl.v176 c arg2 harg2 x0,
        kernelRun0_B.sl.v177 c arg2 harg2 x0,
        kernelRun0_B.sl.v178 c arg2 harg2 x0,
        kernelRun0_B.sl.v179 c arg2 harg2 x0,
        kernelRun0_B.sl.v180 c arg2 harg2 x0,
        kernelRun0_B.sl.v181 c arg2 harg2 x0,
        kernelRun0_B.sl.v182 c arg2 harg2 x0,
        kernelRun0_B.sl.v183 c arg2 harg2 x0,
        kernelRun0_B.sl.v184 c arg2 harg2 x0,
        kernelRun0_B.sl.v185 c arg2 harg2 x0,
        kernelRun0_B.sl.v186 c arg2 harg2 x0,
        kernelRun0_B.sl.v187 c arg2 harg2 x0,
        kernelRun0_B.sl.v188 c arg2 harg2 x0,
        kernelRun0_B.sl.v189 c arg2 harg2 x0,
        kernelRun0_B.sl.v190 c arg2 harg2 x0,
        kernelRun0_B.sl.v191 c arg2 harg2 x0,
        kernelRun0_B.sl.v192 c arg2 harg2 x0,
        kernelRun0_B.sl.v193 c arg2 harg2 x0,
        kernelRun0_B.sl.v194 c arg2 harg2 x0,
        kernelRun0_B.sl.v195 c arg2 harg2 x0,
        kernelRun0_B.sl.v196 c arg2 harg2 x0,
        kernelRun0_B.sl.v197 c arg2 harg2 x0,
        kernelRun0_B.sl.v198 c arg2 harg2 x0]) (concatenates_rows64 _ rfl) := rfl
  refine piece_of_rows _ 1 0 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 64 to 127 of half 1: row `k` of the stored block is the window of the packed vector that
    starts at `start (1024 + 64 + k)`. -/
theorem pieceB_1 (c : Dev nD) (arg2 : Memref sig .tc .vmem S1x1x2098176 .f32) (harg2 : arg2.IsWhole)
    (x0 : Vec Ideal S1x1x2098176 .f32) (inb) (z : SPiece.Idx) :
    kernelRun0_B.sl.v398 (F := Ideal) c arg2 harg2 x0 z
      = half (Val := Elt Ideal) (e := .f32) (Ideal.ofBits .f32 0x7FC00000#32) 1 x0
          ((Rect.unit (s := SHalf) ![0, 64, 0] SPiece.size inb).emb z) := by
  have hcat : kernelRun0_B.sl.v395 (F := Ideal) c arg2 harg2 x0
      = concatenate S64x2048 0 (rowPieces (C := 2048) [
        kernelRun0_B.sl.v331 c arg2 harg2 x0,
        kernelRun0_B.sl.v332 c arg2 harg2 x0,
        kernelRun0_B.sl.v333 c arg2 harg2 x0,
        kernelRun0_B.sl.v334 c arg2 harg2 x0,
        kernelRun0_B.sl.v335 c arg2 harg2 x0,
        kernelRun0_B.sl.v336 c arg2 harg2 x0,
        kernelRun0_B.sl.v337 c arg2 harg2 x0,
        kernelRun0_B.sl.v338 c arg2 harg2 x0,
        kernelRun0_B.sl.v339 c arg2 harg2 x0,
        kernelRun0_B.sl.v340 c arg2 harg2 x0,
        kernelRun0_B.sl.v341 c arg2 harg2 x0,
        kernelRun0_B.sl.v342 c arg2 harg2 x0,
        kernelRun0_B.sl.v343 c arg2 harg2 x0,
        kernelRun0_B.sl.v344 c arg2 harg2 x0,
        kernelRun0_B.sl.v345 c arg2 harg2 x0,
        kernelRun0_B.sl.v346 c arg2 harg2 x0,
        kernelRun0_B.sl.v347 c arg2 harg2 x0,
        kernelRun0_B.sl.v348 c arg2 harg2 x0,
        kernelRun0_B.sl.v349 c arg2 harg2 x0,
        kernelRun0_B.sl.v350 c arg2 harg2 x0,
        kernelRun0_B.sl.v351 c arg2 harg2 x0,
        kernelRun0_B.sl.v352 c arg2 harg2 x0,
        kernelRun0_B.sl.v353 c arg2 harg2 x0,
        kernelRun0_B.sl.v354 c arg2 harg2 x0,
        kernelRun0_B.sl.v355 c arg2 harg2 x0,
        kernelRun0_B.sl.v356 c arg2 harg2 x0,
        kernelRun0_B.sl.v357 c arg2 harg2 x0,
        kernelRun0_B.sl.v358 c arg2 harg2 x0,
        kernelRun0_B.sl.v359 c arg2 harg2 x0,
        kernelRun0_B.sl.v360 c arg2 harg2 x0,
        kernelRun0_B.sl.v361 c arg2 harg2 x0,
        kernelRun0_B.sl.v362 c arg2 harg2 x0,
        kernelRun0_B.sl.v363 c arg2 harg2 x0,
        kernelRun0_B.sl.v364 c arg2 harg2 x0,
        kernelRun0_B.sl.v365 c arg2 harg2 x0,
        kernelRun0_B.sl.v366 c arg2 harg2 x0,
        kernelRun0_B.sl.v367 c arg2 harg2 x0,
        kernelRun0_B.sl.v368 c arg2 harg2 x0,
        kernelRun0_B.sl.v369 c arg2 harg2 x0,
        kernelRun0_B.sl.v370 c arg2 harg2 x0,
        kernelRun0_B.sl.v371 c arg2 harg2 x0,
        kernelRun0_B.sl.v372 c arg2 harg2 x0,
        kernelRun0_B.sl.v373 c arg2 harg2 x0,
        kernelRun0_B.sl.v374 c arg2 harg2 x0,
        kernelRun0_B.sl.v375 c arg2 harg2 x0,
        kernelRun0_B.sl.v376 c arg2 harg2 x0,
        kernelRun0_B.sl.v377 c arg2 harg2 x0,
        kernelRun0_B.sl.v378 c arg2 harg2 x0,
        kernelRun0_B.sl.v379 c arg2 harg2 x0,
        kernelRun0_B.sl.v380 c arg2 harg2 x0,
        kernelRun0_B.sl.v381 c arg2 harg2 x0,
        kernelRun0_B.sl.v382 c arg2 harg2 x0,
        kernelRun0_B.sl.v383 c arg2 harg2 x0,
        kernelRun0_B.sl.v384 c arg2 harg2 x0,
        kernelRun0_B.sl.v385 c arg2 harg2 x0,
        kernelRun0_B.sl.v386 c arg2 harg2 x0,
        kernelRun0_B.sl.v387 c arg2 harg2 x0,
        kernelRun0_B.sl.v388 c arg2 harg2 x0,
        kernelRun0_B.sl.v389 c arg2 harg2 x0,
        kernelRun0_B.sl.v390 c arg2 harg2 x0,
        kernelRun0_B.sl.v391 c arg2 harg2 x0,
        kernelRun0_B.sl.v392 c arg2 harg2 x0,
        kernelRun0_B.sl.v393 c arg2 harg2 x0,
        kernelRun0_B.sl.v394 c arg2 harg2 x0]) (concatenates_rows64 _ rfl) := rfl
  refine piece_of_rows _ 1 64 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 128 to 191 of half 1: row `k` of the stored block is the window of the packed vector that
    starts at `start (1024 + 128 + k)`. -/
theorem pieceB_2 (c : Dev nD) (arg2 : Memref sig .tc .vmem S1x1x2098176 .f32) (harg2 : arg2.IsWhole)
    (x0 : Vec Ideal S1x1x2098176 .f32) (inb) (z : SPiece.Idx) :
    kernelRun0_B.sl.v594 (F := Ideal) c arg2 harg2 x0 z
      = half (Val := Elt Ideal) (e := .f32) (Ideal.ofBits .f32 0x7FC00000#32) 1 x0
          ((Rect.unit (s := SHalf) ![0, 128, 0] SPiece.size inb).emb z) := by
  have hcat : kernelRun0_B.sl.v591 (F := Ideal) c arg2 harg2 x0
      = concatenate S64x2048 0 (rowPieces (C := 2048) [
        kernelRun0_B.sl.v527 c arg2 harg2 x0,
        kernelRun0_B.sl.v528 c arg2 harg2 x0,
        kernelRun0_B.sl.v529 c arg2 harg2 x0,
        kernelRun0_B.sl.v530 c arg2 harg2 x0,
        kernelRun0_B.sl.v531 c arg2 harg2 x0,
        kernelRun0_B.sl.v532 c arg2 harg2 x0,
        kernelRun0_B.sl.v533 c arg2 harg2 x0,
        kernelRun0_B.sl.v534 c arg2 harg2 x0,
        kernelRun0_B.sl.v535 c arg2 harg2 x0,
        kernelRun0_B.sl.v536 c arg2 harg2 x0,
        kernelRun0_B.sl.v537 c arg2 harg2 x0,
        kernelRun0_B.sl.v538 c arg2 harg2 x0,
        kernelRun0_B.sl.v539 c arg2 harg2 x0,
        kernelRun0_B.sl.v540 c arg2 harg2 x0,
        kernelRun0_B.sl.v541 c arg2 harg2 x0,
        kernelRun0_B.sl.v542 c arg2 harg2 x0,
        kernelRun0_B.sl.v543 c arg2 harg2 x0,
        kernelRun0_B.sl.v544 c arg2 harg2 x0,
        kernelRun0_B.sl.v545 c arg2 harg2 x0,
        kernelRun0_B.sl.v546 c arg2 harg2 x0,
        kernelRun0_B.sl.v547 c arg2 harg2 x0,
        kernelRun0_B.sl.v548 c arg2 harg2 x0,
        kernelRun0_B.sl.v549 c arg2 harg2 x0,
        kernelRun0_B.sl.v550 c arg2 harg2 x0,
        kernelRun0_B.sl.v551 c arg2 harg2 x0,
        kernelRun0_B.sl.v552 c arg2 harg2 x0,
        kernelRun0_B.sl.v553 c arg2 harg2 x0,
        kernelRun0_B.sl.v554 c arg2 harg2 x0,
        kernelRun0_B.sl.v555 c arg2 harg2 x0,
        kernelRun0_B.sl.v556 c arg2 harg2 x0,
        kernelRun0_B.sl.v557 c arg2 harg2 x0,
        kernelRun0_B.sl.v558 c arg2 harg2 x0,
        kernelRun0_B.sl.v559 c arg2 harg2 x0,
        kernelRun0_B.sl.v560 c arg2 harg2 x0,
        kernelRun0_B.sl.v561 c arg2 harg2 x0,
        kernelRun0_B.sl.v562 c arg2 harg2 x0,
        kernelRun0_B.sl.v563 c arg2 harg2 x0,
        kernelRun0_B.sl.v564 c arg2 harg2 x0,
        kernelRun0_B.sl.v565 c arg2 harg2 x0,
        kernelRun0_B.sl.v566 c arg2 harg2 x0,
        kernelRun0_B.sl.v567 c arg2 harg2 x0,
        kernelRun0_B.sl.v568 c arg2 harg2 x0,
        kernelRun0_B.sl.v569 c arg2 harg2 x0,
        kernelRun0_B.sl.v570 c arg2 harg2 x0,
        kernelRun0_B.sl.v571 c arg2 harg2 x0,
        kernelRun0_B.sl.v572 c arg2 harg2 x0,
        kernelRun0_B.sl.v573 c arg2 harg2 x0,
        kernelRun0_B.sl.v574 c arg2 harg2 x0,
        kernelRun0_B.sl.v575 c arg2 harg2 x0,
        kernelRun0_B.sl.v576 c arg2 harg2 x0,
        kernelRun0_B.sl.v577 c arg2 harg2 x0,
        kernelRun0_B.sl.v578 c arg2 harg2 x0,
        kernelRun0_B.sl.v579 c arg2 harg2 x0,
        kernelRun0_B.sl.v580 c arg2 harg2 x0,
        kernelRun0_B.sl.v581 c arg2 harg2 x0,
        kernelRun0_B.sl.v582 c arg2 harg2 x0,
        kernelRun0_B.sl.v583 c arg2 harg2 x0,
        kernelRun0_B.sl.v584 c arg2 harg2 x0,
        kernelRun0_B.sl.v585 c arg2 harg2 x0,
        kernelRun0_B.sl.v586 c arg2 harg2 x0,
        kernelRun0_B.sl.v587 c arg2 harg2 x0,
        kernelRun0_B.sl.v588 c arg2 harg2 x0,
        kernelRun0_B.sl.v589 c arg2 harg2 x0,
        kernelRun0_B.sl.v590 c arg2 harg2 x0]) (concatenates_rows64 _ rfl) := rfl
  refine piece_of_rows _ 1 128 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 192 to 255 of half 1: row `k` of the stored block is the window of the packed vector that
    starts at `start (1024 + 192 + k)`. -/
theorem pieceB_3 (c : Dev nD) (arg2 : Memref sig .tc .vmem S1x1x2098176 .f32) (harg2 : arg2.IsWhole)
    (x0 : Vec Ideal S1x1x2098176 .f32) (inb) (z : SPiece.Idx) :
    kernelRun0_B.sl.v790 (F := Ideal) c arg2 harg2 x0 z
      = half (Val := Elt Ideal) (e := .f32) (Ideal.ofBits .f32 0x7FC00000#32) 1 x0
          ((Rect.unit (s := SHalf) ![0, 192, 0] SPiece.size inb).emb z) := by
  have hcat : kernelRun0_B.sl.v787 (F := Ideal) c arg2 harg2 x0
      = concatenate S64x2048 0 (rowPieces (C := 2048) [
        kernelRun0_B.sl.v723 c arg2 harg2 x0,
        kernelRun0_B.sl.v724 c arg2 harg2 x0,
        kernelRun0_B.sl.v725 c arg2 harg2 x0,
        kernelRun0_B.sl.v726 c arg2 harg2 x0,
        kernelRun0_B.sl.v727 c arg2 harg2 x0,
        kernelRun0_B.sl.v728 c arg2 harg2 x0,
        kernelRun0_B.sl.v729 c arg2 harg2 x0,
        kernelRun0_B.sl.v730 c arg2 harg2 x0,
        kernelRun0_B.sl.v731 c arg2 harg2 x0,
        kernelRun0_B.sl.v732 c arg2 harg2 x0,
        kernelRun0_B.sl.v733 c arg2 harg2 x0,
        kernelRun0_B.sl.v734 c arg2 harg2 x0,
        kernelRun0_B.sl.v735 c arg2 harg2 x0,
        kernelRun0_B.sl.v736 c arg2 harg2 x0,
        kernelRun0_B.sl.v737 c arg2 harg2 x0,
        kernelRun0_B.sl.v738 c arg2 harg2 x0,
        kernelRun0_B.sl.v739 c arg2 harg2 x0,
        kernelRun0_B.sl.v740 c arg2 harg2 x0,
        kernelRun0_B.sl.v741 c arg2 harg2 x0,
        kernelRun0_B.sl.v742 c arg2 harg2 x0,
        kernelRun0_B.sl.v743 c arg2 harg2 x0,
        kernelRun0_B.sl.v744 c arg2 harg2 x0,
        kernelRun0_B.sl.v745 c arg2 harg2 x0,
        kernelRun0_B.sl.v746 c arg2 harg2 x0,
        kernelRun0_B.sl.v747 c arg2 harg2 x0,
        kernelRun0_B.sl.v748 c arg2 harg2 x0,
        kernelRun0_B.sl.v749 c arg2 harg2 x0,
        kernelRun0_B.sl.v750 c arg2 harg2 x0,
        kernelRun0_B.sl.v751 c arg2 harg2 x0,
        kernelRun0_B.sl.v752 c arg2 harg2 x0,
        kernelRun0_B.sl.v753 c arg2 harg2 x0,
        kernelRun0_B.sl.v754 c arg2 harg2 x0,
        kernelRun0_B.sl.v755 c arg2 harg2 x0,
        kernelRun0_B.sl.v756 c arg2 harg2 x0,
        kernelRun0_B.sl.v757 c arg2 harg2 x0,
        kernelRun0_B.sl.v758 c arg2 harg2 x0,
        kernelRun0_B.sl.v759 c arg2 harg2 x0,
        kernelRun0_B.sl.v760 c arg2 harg2 x0,
        kernelRun0_B.sl.v761 c arg2 harg2 x0,
        kernelRun0_B.sl.v762 c arg2 harg2 x0,
        kernelRun0_B.sl.v763 c arg2 harg2 x0,
        kernelRun0_B.sl.v764 c arg2 harg2 x0,
        kernelRun0_B.sl.v765 c arg2 harg2 x0,
        kernelRun0_B.sl.v766 c arg2 harg2 x0,
        kernelRun0_B.sl.v767 c arg2 harg2 x0,
        kernelRun0_B.sl.v768 c arg2 harg2 x0,
        kernelRun0_B.sl.v769 c arg2 harg2 x0,
        kernelRun0_B.sl.v770 c arg2 harg2 x0,
        kernelRun0_B.sl.v771 c arg2 harg2 x0,
        kernelRun0_B.sl.v772 c arg2 harg2 x0,
        kernelRun0_B.sl.v773 c arg2 harg2 x0,
        kernelRun0_B.sl.v774 c arg2 harg2 x0,
        kernelRun0_B.sl.v775 c arg2 harg2 x0,
        kernelRun0_B.sl.v776 c arg2 harg2 x0,
        kernelRun0_B.sl.v777 c arg2 harg2 x0,
        kernelRun0_B.sl.v778 c arg2 harg2 x0,
        kernelRun0_B.sl.v779 c arg2 harg2 x0,
        kernelRun0_B.sl.v780 c arg2 harg2 x0,
        kernelRun0_B.sl.v781 c arg2 harg2 x0,
        kernelRun0_B.sl.v782 c arg2 harg2 x0,
        kernelRun0_B.sl.v783 c arg2 harg2 x0,
        kernelRun0_B.sl.v784 c arg2 harg2 x0,
        kernelRun0_B.sl.v785 c arg2 harg2 x0,
        kernelRun0_B.sl.v786 c arg2 harg2 x0]) (concatenates_rows64 _ rfl) := rfl
  refine piece_of_rows _ 1 192 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

end Cert.KernelIdeal.Stairs

end
-- ==== Proof.PiecesB2.lean ====
/-
  Blocks 4 to 7 of the sixteen blocks of 64 rows that a grid point of half 1 stores.

  Each stored block is a stack of 64 one-row matrices; row `k` of the block that starts at row `off` of the half is
  the window of 2048 positions of the packed vector from `start (1024 + off + k)` on (for the last 63 rows of
  the matrix: the positions that exist, then the quiet-NaN word). Each theorem lists the block's rows, reads the
  stack at a row `k` (any `k`), and checks the 64 rows one by one against the half of the staircase.
-/
import proofs.«102620_j26792005992501_2_alg».proof.Proof.Gen.KernelIdeal.Frame.RunB
import proofs.«102620_j26792005992501_2_alg».proof.Proof.HalfBlock
import Idealize.ShloMosaic.PureOps.Ideal

noncomputable section

namespace Cert.KernelIdeal.Stairs

open Idealize.ShloMosaic Idealize.ShloMosaic.TcCoe Idealize.SL.Sem Cert.KernelIdeal Cert.KernelIdeal.Gen
open Idealize.ShloMosaic.ValueIdx Cert.Staircase Cert.Staircase.Rows

set_option maxHeartbeats 4000000 in
/-- Rows 256 to 319 of half 1: row `k` of the stored block is the window of the packed vector that
    starts at `start (1024 + 256 + k)`. -/
theorem pieceB_4 (c : Dev nD) (arg2 : Memref sig .tc .vmem S1x1x2098176 .f32) (harg2 : arg2.IsWhole)
    (x0 : Vec Ideal S1x1x2098176 .f32) (inb) (z : SPiece.Idx) :
    kernelRun0_B.sl.v986 (F := Ideal) c arg2 harg2 x0 z
      = half (Val := Elt Ideal) (e := .f32) (Ideal.ofBits .f32 0x7FC00000#32) 1 x0
          ((Rect.unit (s := SHalf) ![0, 256, 0] SPiece.size inb).emb z) := by
  have hcat : kernelRun0_B.sl.v983 (F := Ideal) c arg2 harg2 x0
      = concatenate S64x2048 0 (rowPieces (C := 2048) [
        kernelRun0_B.sl.v919 c arg2 harg2 x0,
        kernelRun0_B.sl.v920 c arg2 harg2 x0,
        kernelRun0_B.sl.v921 c arg2 harg2 x0,
        kernelRun0_B.sl.v922 c arg2 harg2 x0,
        kernelRun0_B.sl.v923 c arg2 harg2 x0,
        kernelRun0_B.sl.v924 c arg2 harg2 x0,
        kernelRun0_B.sl.v925 c arg2 harg2 x0,
        kernelRun0_B.sl.v926 c arg2 harg2 x0,
        kernelRun0_B.sl.v927 c arg2 harg2 x0,
        kernelRun0_B.sl.v928 c arg2 harg2 x0,
        kernelRun0_B.sl.v929 c arg2 harg2 x0,
        kernelRun0_B.sl.v930 c arg2 harg2 x0,
        kernelRun0_B.sl.v931 c arg2 harg2 x0,
        kernelRun0_B.sl.v932 c arg2 harg2 x0,
        kernelRun0_B.sl.v933 c arg2 harg2 x0,
        kernelRun0_B.sl.v934 c arg2 harg2 x0,
        kernelRun0_B.sl.v935 c arg2 harg2 x0,
        kernelRun0_B.sl.v936 c arg2 harg2 x0,
        kernelRun0_B.sl.v937 c arg2 harg2 x0,
        kernelRun0_B.sl.v938 c arg2 harg2 x0,
        kernelRun0_B.sl.v939 c arg2 harg2 x0,
        kernelRun0_B.sl.v940 c arg2 harg2 x0,
        kernelRun0_B.sl.v941 c arg2 harg2 x0,
        kernelRun0_B.sl.v942 c arg2 harg2 x0,
        kernelRun0_B.sl.v943 c arg2 harg2 x0,
        kernelRun0_B.sl.v944 c arg2 harg2 x0,
        kernelRun0_B.sl.v945 c arg2 harg2 x0,
        kernelRun0_B.sl.v946 c arg2 harg2 x0,
        kernelRun0_B.sl.v947 c arg2 harg2 x0,
        kernelRun0_B.sl.v948 c arg2 harg2 x0,
        kernelRun0_B.sl.v949 c arg2 harg2 x0,
        kernelRun0_B.sl.v950 c arg2 harg2 x0,
        kernelRun0_B.sl.v951 c arg2 harg2 x0,
        kernelRun0_B.sl.v952 c arg2 harg2 x0,
        kernelRun0_B.sl.v953 c arg2 harg2 x0,
        kernelRun0_B.sl.v954 c arg2 harg2 x0,
        kernelRun0_B.sl.v955 c arg2 harg2 x0,
        kernelRun0_B.sl.v956 c arg2 harg2 x0,
        kernelRun0_B.sl.v957 c arg2 harg2 x0,
        kernelRun0_B.sl.v958 c arg2 harg2 x0,
        kernelRun0_B.sl.v959 c arg2 harg2 x0,
        kernelRun0_B.sl.v960 c arg2 harg2 x0,
        kernelRun0_B.sl.v961 c arg2 harg2 x0,
        kernelRun0_B.sl.v962 c arg2 harg2 x0,
        kernelRun0_B.sl.v963 c arg2 harg2 x0,
        kernelRun0_B.sl.v964 c arg2 harg2 x0,
        kernelRun0_B.sl.v965 c arg2 harg2 x0,
        kernelRun0_B.sl.v966 c arg2 harg2 x0,
        kernelRun0_B.sl.v967 c arg2 harg2 x0,
        kernelRun0_B.sl.v968 c arg2 harg2 x0,
        kernelRun0_B.sl.v969 c arg2 harg2 x0,
        kernelRun0_B.sl.v970 c arg2 harg2 x0,
        kernelRun0_B.sl.v971 c arg2 harg2 x0,
        kernelRun0_B.sl.v972 c arg2 harg2 x0,
        kernelRun0_B.sl.v973 c arg2 harg2 x0,
        kernelRun0_B.sl.v974 c arg2 harg2 x0,
        kernelRun0_B.sl.v975 c arg2 harg2 x0,
        kernelRun0_B.sl.v976 c arg2 harg2 x0,
        kernelRun0_B.sl.v977 c arg2 harg2 x0,
        kernelRun0_B.sl.v978 c arg2 harg2 x0,
        kernelRun0_B.sl.v979 c arg2 harg2 x0,
        kernelRun0_B.sl.v980 c arg2 harg2 x0,
        kernelRun0_B.sl.v981 c arg2 harg2 x0,
        kernelRun0_B.sl.v982 c arg2 harg2 x0]) (concatenates_rows64 _ rfl) := rfl
  refine piece_of_rows _ 1 256 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 320 to 383 of half 1: row `k` of the stored block is the window of the packed vector that
    starts at `start (1024 + 320 + k)`. -/
theorem pieceB_5 (c : Dev nD) (arg2 : Memref sig .tc .vmem S1x1x2098176 .f32) (harg2 : arg2.IsWhole)
    (x0 : Vec Ideal S1x1x2098176 .f32) (inb) (z : SPiece.Idx) :
    kernelRun0_B.sl.v1182 (F := Ideal) c arg2 harg2 x0 z
      = half (Val := Elt Ideal) (e := .f32) (Ideal.ofBits .f32 0x7FC00000#32) 1 x0
          ((Rect.unit (s := SHalf) ![0, 320, 0] SPiece.size inb).emb z) := by
  have hcat : kernelRun0_B.sl.v1179 (F := Ideal) c arg2 harg2 x0
      = concatenate S64x2048 0 (rowPieces (C := 2048) [
        kernelRun0_B.sl.v1115 c arg2 harg2 x0,
        kernelRun0_B.sl.v1116 c arg2 harg2 x0,
        kernelRun0_B.sl.v1117 c arg2 harg2 x0,
        kernelRun0_B.sl.v1118 c arg2 harg2 x0,
        kernelRun0_B.sl.v1119 c arg2 harg2 x0,
        kernelRun0_B.sl.v1120 c arg2 harg2 x0,
        kernelRun0_B.sl.v1121 c arg2 harg2 x0,
        kernelRun0_B.sl.v1122 c arg2 harg2 x0,
        kernelRun0_B.sl.v1123 c arg2 harg2 x0,
        kernelRun0_B.sl.v1124 c arg2 harg2 x0,
        kernelRun0_B.sl.v1125 c arg2 harg2 x0,
        kernelRun0_B.sl.v1126 c arg2 harg2 x0,
        kernelRun0_B.sl.v1127 c arg2 harg2 x0,
        kernelRun0_B.sl.v1128 c arg2 harg2 x0,
        kernelRun0_B.sl.v1129 c arg2 harg2 x0,
        kernelRun0_B.sl.v1130 c arg2 harg2 x0,
        kernelRun0_B.sl.v1131 c arg2 harg2 x0,
        kernelRun0_B.sl.v1132 c arg2 harg2 x0,
        kernelRun0_B.sl.v1133 c arg2 harg2 x0,
        kernelRun0_B.sl.v1134 c arg2 harg2 x0,
        kernelRun0_B.sl.v1135 c arg2 harg2 x0,
        kernelRun0_B.sl.v1136 c arg2 harg2 x0,
        kernelRun0_B.sl.v1137 c arg2 harg2 x0,
        kernelRun0_B.sl.v1138 c arg2 harg2 x0,
        kernelRun0_B.sl.v1139 c arg2 harg2 x0,
        kernelRun0_B.sl.v1140 c arg2 harg2 x0,
        kernelRun0_B.sl.v1141 c arg2 harg2 x0,
        kernelRun0_B.sl.v1142 c arg2 harg2 x0,
        kernelRun0_B.sl.v1143 c arg2 harg2 x0,
        kernelRun0_B.sl.v1144 c arg2 harg2 x0,
        kernelRun0_B.sl.v1145 c arg2 harg2 x0,
        kernelRun0_B.sl.v1146 c arg2 harg2 x0,
        kernelRun0_B.sl.v1147 c arg2 harg2 x0,
        kernelRun0_B.sl.v1148 c arg2 harg2 x0,
        kernelRun0_B.sl.v1149 c arg2 harg2 x0,
        kernelRun0_B.sl.v1150 c arg2 harg2 x0,
        kernelRun0_B.sl.v1151 c arg2 harg2 x0,
        kernelRun0_B.sl.v1152 c arg2 harg2 x0,
        kernelRun0_B.sl.v1153 c arg2 harg2 x0,
        kernelRun0_B.sl.v1154 c arg2 harg2 x0,
        kernelRun0_B.sl.v1155 c arg2 harg2 x0,
        kernelRun0_B.sl.v1156 c arg2 harg2 x0,
        kernelRun0_B.sl.v1157 c arg2 harg2 x0,
        kernelRun0_B.sl.v1158 c arg2 harg2 x0,
        kernelRun0_B.sl.v1159 c arg2 harg2 x0,
        kernelRun0_B.sl.v1160 c arg2 harg2 x0,
        kernelRun0_B.sl.v1161 c arg2 harg2 x0,
        kernelRun0_B.sl.v1162 c arg2 harg2 x0,
        kernelRun0_B.sl.v1163 c arg2 harg2 x0,
        kernelRun0_B.sl.v1164 c arg2 harg2 x0,
        kernelRun0_B.sl.v1165 c arg2 harg2 x0,
        kernelRun0_B.sl.v1166 c arg2 harg2 x0,
        kernelRun0_B.sl.v1167 c arg2 harg2 x0,
        kernelRun0_B.sl.v1168 c arg2 harg2 x0,
        kernelRun0_B.sl.v1169 c arg2 harg2 x0,
        kernelRun0_B.sl.v1170 c arg2 harg2 x0,
        kernelRun0_B.sl.v1171 c arg2 harg2 x0,
        kernelRun0_B.sl.v1172 c arg2 harg2 x0,
        kernelRun0_B.sl.v1173 c arg2 harg2 x0,
        kernelRun0_B.sl.v1174 c arg2 harg2 x0,
        kernelRun0_B.sl.v1175 c arg2 harg2 x0,
        kernelRun0_B.sl.v1176 c arg2 harg2 x0,
        kernelRun0_B.sl.v1177 c arg2 harg2 x0,
        kernelRun0_B.sl.v1178 c arg2 harg2 x0]) (concatenates_rows64 _ rfl) := rfl
  refine piece_of_rows _ 1 320 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 384 to 447 of half 1: row `k` of the stored block is the window of the packed vector that
    starts at `start (1024 + 384 + k)`. -/
theorem pieceB_6 (c : Dev nD) (arg2 : Memref sig .tc .vmem S1x1x2098176 .f32) (harg2 : arg2.IsWhole)
    (x0 : Vec Ideal S1x1x2098176 .f32) (inb) (z : SPiece.Idx) :
    kernelRun0_B.sl.v1378 (F := Ideal) c arg2 harg2 x0 z
      = half (Val := Elt Ideal) (e := .f32) (Ideal.ofBits .f32 0x7FC00000#32) 1 x0
          ((Rect.unit (s := SHalf) ![0, 384, 0] SPiece.size inb).emb z) := by
  have hcat : kernelRun0_B.sl.v1375 (F := Ideal) c arg2 harg2 x0
      = concatenate S64x2048 0 (rowPieces (C := 2048) [
        kernelRun0_B.sl.v1311 c arg2 harg2 x0,
        kernelRun0_B.sl.v1312 c arg2 harg2 x0,
        kernelRun0_B.sl.v1313 c arg2 harg2 x0,
        kernelRun0_B.sl.v1314 c arg2 harg2 x0,
        kernelRun0_B.sl.v1315 c arg2 harg2 x0,
        kernelRun0_B.sl.v1316 c arg2 harg2 x0,
        kernelRun0_B.sl.v1317 c arg2 harg2 x0,
        kernelRun0_B.sl.v1318 c arg2 harg2 x0,
        kernelRun0_B.sl.v1319 c arg2 harg2 x0,
        kernelRun0_B.sl.v1320 c arg2 harg2 x0,
        kernelRun0_B.sl.v1321 c arg2 harg2 x0,
        kernelRun0_B.sl.v1322 c arg2 harg2 x0,
        kernelRun0_B.sl.v1323 c arg2 harg2 x0,
        kernelRun0_B.sl.v1324 c arg2 harg2 x0,
        kernelRun0_B.sl.v1325 c arg2 harg2 x0,
        kernelRun0_B.sl.v1326 c arg2 harg2 x0,
        kernelRun0_B.sl.v1327 c arg2 harg2 x0,
        kernelRun0_B.sl.v1328 c arg2 harg2 x0,
        kernelRun0_B.sl.v1329 c arg2 harg2 x0,
        kernelRun0_B.sl.v1330 c arg2 harg2 x0,
        kernelRun0_B.sl.v1331 c arg2 harg2 x0,
        kernelRun0_B.sl.v1332 c arg2 harg2 x0,
        kernelRun0_B.sl.v1333 c arg2 harg2 x0,
        kernelRun0_B.sl.v1334 c arg2 harg2 x0,
        kernelRun0_B.sl.v1335 c arg2 harg2 x0,
        kernelRun0_B.sl.v1336 c arg2 harg2 x0,
        kernelRun0_B.sl.v1337 c arg2 harg2 x0,
        kernelRun0_B.sl.v1338 c arg2 harg2 x0,
        kernelRun0_B.sl.v1339 c arg2 harg2 x0,
        kernelRun0_B.sl.v1340 c arg2 harg2 x0,
        kernelRun0_B.sl.v1341 c arg2 harg2 x0,
        kernelRun0_B.sl.v1342 c arg2 harg2 x0,
        kernelRun0_B.sl.v1343 c arg2 harg2 x0,
        kernelRun0_B.sl.v1344 c arg2 harg2 x0,
        kernelRun0_B.sl.v1345 c arg2 harg2 x0,
        kernelRun0_B.sl.v1346 c arg2 harg2 x0,
        kernelRun0_B.sl.v1347 c arg2 harg2 x0,
        kernelRun0_B.sl.v1348 c arg2 harg2 x0,
        kernelRun0_B.sl.v1349 c arg2 harg2 x0,
        kernelRun0_B.sl.v1350 c arg2 harg2 x0,
        kernelRun0_B.sl.v1351 c arg2 harg2 x0,
        kernelRun0_B.sl.v1352 c arg2 harg2 x0,
        kernelRun0_B.sl.v1353 c arg2 harg2 x0,
        kernelRun0_B.sl.v1354 c arg2 harg2 x0,
        kernelRun0_B.sl.v1355 c arg2 harg2 x0,
        kernelRun0_B.sl.v1356 c arg2 harg2 x0,
        kernelRun0_B.sl.v1357 c arg2 harg2 x0,
        kernelRun0_B.sl.v1358 c arg2 harg2 x0,
        kernelRun0_B.sl.v1359 c arg2 harg2 x0,
        kernelRun0_B.sl.v1360 c arg2 harg2 x0,
        kernelRun0_B.sl.v1361 c arg2 harg2 x0,
        kernelRun0_B.sl.v1362 c arg2 harg2 x0,
        kernelRun0_B.sl.v1363 c arg2 harg2 x0,
        kernelRun0_B.sl.v1364 c arg2 harg2 x0,
        kernelRun0_B.sl.v1365 c arg2 harg2 x0,
        kernelRun0_B.sl.v1366 c arg2 harg2 x0,
        kernelRun0_B.sl.v1367 c arg2 harg2 x0,
        kernelRun0_B.sl.v1368 c arg2 harg2 x0,
        kernelRun0_B.sl.v1369 c arg2 harg2 x0,
        kernelRun0_B.sl.v1370 c arg2 harg2 x0,
        kernelRun0_B.sl.v1371 c arg2 harg2 x0,
        kernelRun0_B.sl.v1372 c arg2 harg2 x0,
        kernelRun0_B.sl.v1373 c arg2 harg2 x0,
        kernelRun0_B.sl.v1374 c arg2 harg2 x0]) (concatenates_rows64 _ rfl) := rfl
  refine piece_of_rows _ 1 384 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 448 to 511 of half 1: row `k` of the stored block is the window of the packed vector that
    starts at `start (1024 + 448 + k)`. -/
theorem pieceB_7 (c : Dev nD) (arg2 : Memref sig .tc .vmem S1x1x2098176 .f32) (harg2 : arg2.IsWhole)
    (x0 : Vec Ideal S1x1x2098176 .f32) (inb) (z : SPiece.Idx) :
    kernelRun0_B.sl.v1574 (F := Ideal) c arg2 harg2 x0 z
      = half (Val := Elt Ideal) (e := .f32) (Ideal.ofBits .f32 0x7FC00000#32) 1 x0
          ((Rect.unit (s := SHalf) ![0, 448, 0] SPiece.size inb).emb z) := by
  have hcat : kernelRun0_B.sl.v1571 (F := Ideal) c arg2 harg2 x0
      = concatenate S64x2048 0 (rowPieces (C := 2048) [
        kernelRun0_B.sl.v1507 c arg2 harg2 x0,
        kernelRun0_B.sl.v1508 c arg2 harg2 x0,
        kernelRun0_B.sl.v1509 c arg2 harg2 x0,
        kernelRun0_B.sl.v1510 c arg2 harg2 x0,
        kernelRun0_B.sl.v1511 c arg2 harg2 x0,
        kernelRun0_B.sl.v1512 c arg2 harg2 x0,
        kernelRun0_B.sl.v1513 c arg2 harg2 x0,
        kernelRun0_B.sl.v1514 c arg2 harg2 x0,
        kernelRun0_B.sl.v1515 c arg2 harg2 x0,
        kernelRun0_B.sl.v1516 c arg2 harg2 x0,
        kernelRun0_B.sl.v1517 c arg2 harg2 x0,
        kernelRun0_B.sl.v1518 c arg2 harg2 x0,
        kernelRun0_B.sl.v1519 c arg2 harg2 x0,
        kernelRun0_B.sl.v1520 c arg2 harg2 x0,
        kernelRun0_B.sl.v1521 c arg2 harg2 x0,
        kernelRun0_B.sl.v1522 c arg2 harg2 x0,
        kernelRun0_B.sl.v1523 c arg2 harg2 x0,
        kernelRun0_B.sl.v1524 c arg2 harg2 x0,
        kernelRun0_B.sl.v1525 c arg2 harg2 x0,
        kernelRun0_B.sl.v1526 c arg2 harg2 x0,
        kernelRun0_B.sl.v1527 c arg2 harg2 x0,
        kernelRun0_B.sl.v1528 c arg2 harg2 x0,
        kernelRun0_B.sl.v1529 c arg2 harg2 x0,
        kernelRun0_B.sl.v1530 c arg2 harg2 x0,
        kernelRun0_B.sl.v1531 c arg2 harg2 x0,
        kernelRun0_B.sl.v1532 c arg2 harg2 x0,
        kernelRun0_B.sl.v1533 c arg2 harg2 x0,
        kernelRun0_B.sl.v1534 c arg2 harg2 x0,
        kernelRun0_B.sl.v1535 c arg2 harg2 x0,
        kernelRun0_B.sl.v1536 c arg2 harg2 x0,
        kernelRun0_B.sl.v1537 c arg2 harg2 x0,
        kernelRun0_B.sl.v1538 c arg2 harg2 x0,
        kernelRun0_B.sl.v1539 c arg2 harg2 x0,
        kernelRun0_B.sl.v1540 c arg2 harg2 x0,
        kernelRun0_B.sl.v1541 c arg2 harg2 x0,
        kernelRun0_B.sl.v1542 c arg2 harg2 x0,
        kernelRun0_B.sl.v1543 c arg2 harg2 x0,
        kernelRun0_B.sl.v1544 c arg2 harg2 x0,
        kernelRun0_B.sl.v1545 c arg2 harg2 x0,
        kernelRun0_B.sl.v1546 c arg2 harg2 x0,
        kernelRun0_B.sl.v1547 c arg2 harg2 x0,
        kernelRun0_B.sl.v1548 c arg2 harg2 x0,
        kernelRun0_B.sl.v1549 c arg2 harg2 x0,
        kernelRun0_B.sl.v1550 c arg2 harg2 x0,
        kernelRun0_B.sl.v1551 c arg2 harg2 x0,
        kernelRun0_B.sl.v1552 c arg2 harg2 x0,
        kernelRun0_B.sl.v1553 c arg2 harg2 x0,
        kernelRun0_B.sl.v1554 c arg2 harg2 x0,
        kernelRun0_B.sl.v1555 c arg2 harg2 x0,
        kernelRun0_B.sl.v1556 c arg2 harg2 x0,
        kernelRun0_B.sl.v1557 c arg2 harg2 x0,
        kernelRun0_B.sl.v1558 c arg2 harg2 x0,
        kernelRun0_B.sl.v1559 c arg2 harg2 x0,
        kernelRun0_B.sl.v1560 c arg2 harg2 x0,
        kernelRun0_B.sl.v1561 c arg2 harg2 x0,
        kernelRun0_B.sl.v1562 c arg2 harg2 x0,
        kernelRun0_B.sl.v1563 c arg2 harg2 x0,
        kernelRun0_B.sl.v1564 c arg2 harg2 x0,
        kernelRun0_B.sl.v1565 c arg2 harg2 x0,
        kernelRun0_B.sl.v1566 c arg2 harg2 x0,
        kernelRun0_B.sl.v1567 c arg2 harg2 x0,
        kernelRun0_B.sl.v1568 c arg2 harg2 x0,
        kernelRun0_B.sl.v1569 c arg2 harg2 x0,
        kernelRun0_B.sl.v1570 c arg2 harg2 x0]) (concatenates_rows64 _ rfl) := rfl
  refine piece_of_rows _ 1 448 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

end Cert.KernelIdeal.Stairs

end
-- ==== Proof.PiecesB3.lean ====
/-
  Blocks 8 to 11 of the sixteen blocks of 64 rows that a grid point of half 1 stores.

  Each stored block is a stack of 64 one-row matrices; row `k` of the block that starts at row `off` of the half is
  the window of 2048 positions of the packed vector from `start (1024 + off + k)` on (for the last 63 rows of
  the matrix: the positions that exist, then the quiet-NaN word). Each theorem lists the block's rows, reads the
  stack at a row `k` (any `k`), and checks the 64 rows one by one against the half of the staircase.
-/
import proofs.«102620_j26792005992501_2_alg».proof.Proof.Gen.KernelIdeal.Frame.RunB
import proofs.«102620_j26792005992501_2_alg».proof.Proof.HalfBlock
import Idealize.ShloMosaic.PureOps.Ideal

noncomputable section

namespace Cert.KernelIdeal.Stairs

open Idealize.ShloMosaic Idealize.ShloMosaic.TcCoe Idealize.SL.Sem Cert.KernelIdeal Cert.KernelIdeal.Gen
open Idealize.ShloMosaic.ValueIdx Cert.Staircase Cert.Staircase.Rows

set_option maxHeartbeats 4000000 in
/-- Rows 512 to 575 of half 1: row `k` of the stored block is the window of the packed vector that
    starts at `start (1024 + 512 + k)`. -/
theorem pieceB_8 (c : Dev nD) (arg2 : Memref sig .tc .vmem S1x1x2098176 .f32) (harg2 : arg2.IsWhole)
    (x0 : Vec Ideal S1x1x2098176 .f32) (inb) (z : SPiece.Idx) :
    kernelRun0_B.sl.v1770 (F := Ideal) c arg2 harg2 x0 z
      = half (Val := Elt Ideal) (e := .f32) (Ideal.ofBits .f32 0x7FC00000#32) 1 x0
          ((Rect.unit (s := SHalf) ![0, 512, 0] SPiece.size inb).emb z) := by
  have hcat : kernelRun0_B.sl.v1767 (F := Ideal) c arg2 harg2 x0
      = concatenate S64x2048 0 (rowPieces (C := 2048) [
        kernelRun0_B.sl.v1703 c arg2 harg2 x0,
        kernelRun0_B.sl.v1704 c arg2 harg2 x0,
        kernelRun0_B.sl.v1705 c arg2 harg2 x0,
        kernelRun0_B.sl.v1706 c arg2 harg2 x0,
        kernelRun0_B.sl.v1707 c arg2 harg2 x0,
        kernelRun0_B.sl.v1708 c arg2 harg2 x0,
        kernelRun0_B.sl.v1709 c arg2 harg2 x0,
        kernelRun0_B.sl.v1710 c arg2 harg2 x0,
        kernelRun0_B.sl.v1711 c arg2 harg2 x0,
        kernelRun0_B.sl.v1712 c arg2 harg2 x0,
        kernelRun0_B.sl.v1713 c arg2 harg2 x0,
        kernelRun0_B.sl.v1714 c arg2 harg2 x0,
        kernelRun0_B.sl.v1715 c arg2 harg2 x0,
        kernelRun0_B.sl.v1716 c arg2 harg2 x0,
        kernelRun0_B.sl.v1717 c arg2 harg2 x0,
        kernelRun0_B.sl.v1718 c arg2 harg2 x0,
        kernelRun0_B.sl.v1719 c arg2 harg2 x0,
        kernelRun0_B.sl.v1720 c arg2 harg2 x0,
        kernelRun0_B.sl.v1721 c arg2 harg2 x0,
        kernelRun0_B.sl.v1722 c arg2 harg2 x0,
        kernelRun0_B.sl.v1723 c arg2 harg2 x0,
        kernelRun0_B.sl.v1724 c arg2 harg2 x0,
        kernelRun0_B.sl.v1725 c arg2 harg2 x0,
        kernelRun0_B.sl.v1726 c arg2 harg2 x0,
        kernelRun0_B.sl.v1727 c arg2 harg2 x0,
        kernelRun0_B.sl.v1728 c arg2 harg2 x0,
        kernelRun0_B.sl.v1729 c arg2 harg2 x0,
        kernelRun0_B.sl.v1730 c arg2 harg2 x0,
        kernelRun0_B.sl.v1731 c arg2 harg2 x0,
        kernelRun0_B.sl.v1732 c arg2 harg2 x0,
        kernelRun0_B.sl.v1733 c arg2 harg2 x0,
        kernelRun0_B.sl.v1734 c arg2 harg2 x0,
        kernelRun0_B.sl.v1735 c arg2 harg2 x0,
        kernelRun0_B.sl.v1736 c arg2 harg2 x0,
        kernelRun0_B.sl.v1737 c arg2 harg2 x0,
        kernelRun0_B.sl.v1738 c arg2 harg2 x0,
        kernelRun0_B.sl.v1739 c arg2 harg2 x0,
        kernelRun0_B.sl.v1740 c arg2 harg2 x0,
        kernelRun0_B.sl.v1741 c arg2 harg2 x0,
        kernelRun0_B.sl.v1742 c arg2 harg2 x0,
        kernelRun0_B.sl.v1743 c arg2 harg2 x0,
        kernelRun0_B.sl.v1744 c arg2 harg2 x0,
        kernelRun0_B.sl.v1745 c arg2 harg2 x0,
        kernelRun0_B.sl.v1746 c arg2 harg2 x0,
        kernelRun0_B.sl.v1747 c arg2 harg2 x0,
        kernelRun0_B.sl.v1748 c arg2 harg2 x0,
        kernelRun0_B.sl.v1749 c arg2 harg2 x0,
        kernelRun0_B.sl.v1750 c arg2 harg2 x0,
        kernelRun0_B.sl.v1751 c arg2 harg2 x0,
        kernelRun0_B.sl.v1752 c arg2 harg2 x0,
        kernelRun0_B.sl.v1753 c arg2 harg2 x0,
        kernelRun0_B.sl.v1754 c arg2 harg2 x0,
        kernelRun0_B.sl.v1755 c arg2 harg2 x0,
        kernelRun0_B.sl.v1756 c arg2 harg2 x0,
        kernelRun0_B.sl.v1757 c arg2 harg2 x0,
        kernelRun0_B.sl.v1758 c arg2 harg2 x0,
        kernelRun0_B.sl.v1759 c arg2 harg2 x0,
        kernelRun0_B.sl.v1760 c arg2 harg2 x0,
        kernelRun0_B.sl.v1761 c arg2 harg2 x0,
        kernelRun0_B.sl.v1762 c arg2 harg2 x0,
        kernelRun0_B.sl.v1763 c arg2 harg2 x0,
        kernelRun0_B.sl.v1764 c arg2 harg2 x0,
        kernelRun0_B.sl.v1765 c arg2 harg2 x0,
        kernelRun0_B.sl.v1766 c arg2 harg2 x0]) (concatenates_rows64 _ rfl) := rfl
  refine piece_of_rows _ 1 512 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 576 to 639 of half 1: row `k` of the stored block is the window of the packed vector that
    starts at `start (1024 + 576 + k)`. -/
theorem pieceB_9 (c : Dev nD) (arg2 : Memref sig .tc .vmem S1x1x2098176 .f32) (harg2 : arg2.IsWhole)
    (x0 : Vec Ideal S1x1x2098176 .f32) (inb) (z : SPiece.Idx) :
    kernelRun0_B.sl.v1966 (F := Ideal) c arg2 harg2 x0 z
      = half (Val := Elt Ideal) (e := .f32) (Ideal.ofBits .f32 0x7FC00000#32) 1 x0
          ((Rect.unit (s := SHalf) ![0, 576, 0] SPiece.size inb).emb z) := by
  have hcat : kernelRun0_B.sl.v1963 (F := Ideal) c arg2 harg2 x0
      = concatenate S64x2048 0 (rowPieces (C := 2048) [
        kernelRun0_B.sl.v1899 c arg2 harg2 x0,
        kernelRun0_B.sl.v1900 c arg2 harg2 x0,
        kernelRun0_B.sl.v1901 c arg2 harg2 x0,
        kernelRun0_B.sl.v1902 c arg2 harg2 x0,
        kernelRun0_B.sl.v1903 c arg2 harg2 x0,
        kernelRun0_B.sl.v1904 c arg2 harg2 x0,
        kernelRun0_B.sl.v1905 c arg2 harg2 x0,
        kernelRun0_B.sl.v1906 c arg2 harg2 x0,
        kernelRun0_B.sl.v1907 c arg2 harg2 x0,
        kernelRun0_B.sl.v1908 c arg2 harg2 x0,
        kernelRun0_B.sl.v1909 c arg2 harg2 x0,
        kernelRun0_B.sl.v1910 c arg2 harg2 x0,
        kernelRun0_B.sl.v1911 c arg2 harg2 x0,
        kernelRun0_B.sl.v1912 c arg2 harg2 x0,
        kernelRun0_B.sl.v1913 c arg2 harg2 x0,
        kernelRun0_B.sl.v1914 c arg2 harg2 x0,
        kernelRun0_B.sl.v1915 c arg2 harg2 x0,
        kernelRun0_B.sl.v1916 c arg2 harg2 x0,
        kernelRun0_B.sl.v1917 c arg2 harg2 x0,
        kernelRun0_B.sl.v1918 c arg2 harg2 x0,
        kernelRun0_B.sl.v1919 c arg2 harg2 x0,
        kernelRun0_B.sl.v1920 c arg2 harg2 x0,
        kernelRun0_B.sl.v1921 c arg2 harg2 x0,
        kernelRun0_B.sl.v1922 c arg2 harg2 x0,
        kernelRun0_B.sl.v1923 c arg2 harg2 x0,
        kernelRun0_B.sl.v1924 c arg2 harg2 x0,
        kernelRun0_B.sl.v1925 c arg2 harg2 x0,
        kernelRun0_B.sl.v1926 c arg2 harg2 x0,
        kernelRun0_B.sl.v1927 c arg2 harg2 x0,
        kernelRun0_B.sl.v1928 c arg2 harg2 x0,
        kernelRun0_B.sl.v1929 c arg2 harg2 x0,
        kernelRun0_B.sl.v1930 c arg2 harg2 x0,
        kernelRun0_B.sl.v1931 c arg2 harg2 x0,
        kernelRun0_B.sl.v1932 c arg2 harg2 x0,
        kernelRun0_B.sl.v1933 c arg2 harg2 x0,
        kernelRun0_B.sl.v1934 c arg2 harg2 x0,
        kernelRun0_B.sl.v1935 c arg2 harg2 x0,
        kernelRun0_B.sl.v1936 c arg2 harg2 x0,
        kernelRun0_B.sl.v1937 c arg2 harg2 x0,
        kernelRun0_B.sl.v1938 c arg2 harg2 x0,
        kernelRun0_B.sl.v1939 c arg2 harg2 x0,
        kernelRun0_B.sl.v1940 c arg2 harg2 x0,
        kernelRun0_B.sl.v1941 c arg2 harg2 x0,
        kernelRun0_B.sl.v1942 c arg2 harg2 x0,
        kernelRun0_B.sl.v1943 c arg2 harg2 x0,
        kernelRun0_B.sl.v1944 c arg2 harg2 x0,
        kernelRun0_B.sl.v1945 c arg2 harg2 x0,
        kernelRun0_B.sl.v1946 c arg2 harg2 x0,
        kernelRun0_B.sl.v1947 c arg2 harg2 x0,
        kernelRun0_B.sl.v1948 c arg2 harg2 x0,
        kernelRun0_B.sl.v1949 c arg2 harg2 x0,
        kernelRun0_B.sl.v1950 c arg2 harg2 x0,
        kernelRun0_B.sl.v1951 c arg2 harg2 x0,
        kernelRun0_B.sl.v1952 c arg2 harg2 x0,
        kernelRun0_B.sl.v1953 c arg2 harg2 x0,
        kernelRun0_B.sl.v1954 c arg2 harg2 x0,
        kernelRun0_B.sl.v1955 c arg2 harg2 x0,
        kernelRun0_B.sl.v1956 c arg2 harg2 x0,
        kernelRun0_B.sl.v1957 c arg2 harg2 x0,
        kernelRun0_B.sl.v1958 c arg2 harg2 x0,
        kernelRun0_B.sl.v1959 c arg2 harg2 x0,
        kernelRun0_B.sl.v1960 c arg2 harg2 x0,
        kernelRun0_B.sl.v1961 c arg2 harg2 x0,
        kernelRun0_B.sl.v1962 c arg2 harg2 x0]) (concatenates_rows64 _ rfl) := rfl
  refine piece_of_rows _ 1 576 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 640 to 703 of half 1: row `k` of the stored block is the window of the packed vector that
    starts at `start (1024 + 640 + k)`. -/
theorem pieceB_10 (c : Dev nD) (arg2 : Memref sig .tc .vmem S1x1x2098176 .f32) (harg2 : arg2.IsWhole)
    (x0 : Vec Ideal S1x1x2098176 .f32) (inb) (z : SPiece.Idx) :
    kernelRun0_B.sl.v2162 (F := Ideal) c arg2 harg2 x0 z
      = half (Val := Elt Ideal) (e := .f32) (Ideal.ofBits .f32 0x7FC00000#32) 1 x0
          ((Rect.unit (s := SHalf) ![0, 640, 0] SPiece.size inb).emb z) := by
  have hcat : kernelRun0_B.sl.v2159 (F := Ideal) c arg2 harg2 x0
      = concatenate S64x2048 0 (rowPieces (C := 2048) [
        kernelRun0_B.sl.v2095 c arg2 harg2 x0,
        kernelRun0_B.sl.v2096 c arg2 harg2 x0,
        kernelRun0_B.sl.v2097 c arg2 harg2 x0,
        kernelRun0_B.sl.v2098 c arg2 harg2 x0,
        kernelRun0_B.sl.v2099 c arg2 harg2 x0,
        kernelRun0_B.sl.v2100 c arg2 harg2 x0,
        kernelRun0_B.sl.v2101 c arg2 harg2 x0,
        kernelRun0_B.sl.v2102 c arg2 harg2 x0,
        kernelRun0_B.sl.v2103 c arg2 harg2 x0,
        kernelRun0_B.sl.v2104 c arg2 harg2 x0,
        kernelRun0_B.sl.v2105 c arg2 harg2 x0,
        kernelRun0_B.sl.v2106 c arg2 harg2 x0,
        kernelRun0_B.sl.v2107 c arg2 harg2 x0,
        kernelRun0_B.sl.v2108 c arg2 harg2 x0,
        kernelRun0_B.sl.v2109 c arg2 harg2 x0,
        kernelRun0_B.sl.v2110 c arg2 harg2 x0,
        kernelRun0_B.sl.v2111 c arg2 harg2 x0,
        kernelRun0_B.sl.v2112 c arg2 harg2 x0,
        kernelRun0_B.sl.v2113 c arg2 harg2 x0,
        kernelRun0_B.sl.v2114 c arg2 harg2 x0,
        kernelRun0_B.sl.v2115 c arg2 harg2 x0,
        kernelRun0_B.sl.v2116 c arg2 harg2 x0,
        kernelRun0_B.sl.v2117 c arg2 harg2 x0,
        kernelRun0_B.sl.v2118 c arg2 harg2 x0,
        kernelRun0_B.sl.v2119 c arg2 harg2 x0,
        kernelRun0_B.sl.v2120 c arg2 harg2 x0,
        kernelRun0_B.sl.v2121 c arg2 harg2 x0,
        kernelRun0_B.sl.v2122 c arg2 harg2 x0,
        kernelRun0_B.sl.v2123 c arg2 harg2 x0,
        kernelRun0_B.sl.v2124 c arg2 harg2 x0,
        kernelRun0_B.sl.v2125 c arg2 harg2 x0,
        kernelRun0_B.sl.v2126 c arg2 harg2 x0,
        kernelRun0_B.sl.v2127 c arg2 harg2 x0,
        kernelRun0_B.sl.v2128 c arg2 harg2 x0,
        kernelRun0_B.sl.v2129 c arg2 harg2 x0,
        kernelRun0_B.sl.v2130 c arg2 harg2 x0,
        kernelRun0_B.sl.v2131 c arg2 harg2 x0,
        kernelRun0_B.sl.v2132 c arg2 harg2 x0,
        kernelRun0_B.sl.v2133 c arg2 harg2 x0,
        kernelRun0_B.sl.v2134 c arg2 harg2 x0,
        kernelRun0_B.sl.v2135 c arg2 harg2 x0,
        kernelRun0_B.sl.v2136 c arg2 harg2 x0,
        kernelRun0_B.sl.v2137 c arg2 harg2 x0,
        kernelRun0_B.sl.v2138 c arg2 harg2 x0,
        kernelRun0_B.sl.v2139 c arg2 harg2 x0,
        kernelRun0_B.sl.v2140 c arg2 harg2 x0,
        kernelRun0_B.sl.v2141 c arg2 harg2 x0,
        kernelRun0_B.sl.v2142 c arg2 harg2 x0,
        kernelRun0_B.sl.v2143 c arg2 harg2 x0,
        kernelRun0_B.sl.v2144 c arg2 harg2 x0,
        kernelRun0_B.sl.v2145 c arg2 harg2 x0,
        kernelRun0_B.sl.v2146 c arg2 harg2 x0,
        kernelRun0_B.sl.v2147 c arg2 harg2 x0,
        kernelRun0_B.sl.v2148 c arg2 harg2 x0,
        kernelRun0_B.sl.v2149 c arg2 harg2 x0,
        kernelRun0_B.sl.v2150 c arg2 harg2 x0,
        kernelRun0_B.sl.v2151 c arg2 harg2 x0,
        kernelRun0_B.sl.v2152 c arg2 harg2 x0,
        kernelRun0_B.sl.v2153 c arg2 harg2 x0,
        kernelRun0_B.sl.v2154 c arg2 harg2 x0,
        kernelRun0_B.sl.v2155 c arg2 harg2 x0,
        kernelRun0_B.sl.v2156 c arg2 harg2 x0,
        kernelRun0_B.sl.v2157 c arg2 harg2 x0,
        kernelRun0_B.sl.v2158 c arg2 harg2 x0]) (concatenates_rows64 _ rfl) := rfl
  refine piece_of_rows _ 1 640 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 704 to 767 of half 1: row `k` of the stored block is the window of the packed vector that
    starts at `start (1024 + 704 + k)`. -/
theorem pieceB_11 (c : Dev nD) (arg2 : Memref sig .tc .vmem S1x1x2098176 .f32) (harg2 : arg2.IsWhole)
    (x0 : Vec Ideal S1x1x2098176 .f32) (inb) (z : SPiece.Idx) :
    kernelRun0_B.sl.v2358 (F := Ideal) c arg2 harg2 x0 z
      = half (Val := Elt Ideal) (e := .f32) (Ideal.ofBits .f32 0x7FC00000#32) 1 x0
          ((Rect.unit (s := SHalf) ![0, 704, 0] SPiece.size inb).emb z) := by
  have hcat : kernelRun0_B.sl.v2355 (F := Ideal) c arg2 harg2 x0
      = concatenate S64x2048 0 (rowPieces (C := 2048) [
        kernelRun0_B.sl.v2291 c arg2 harg2 x0,
        kernelRun0_B.sl.v2292 c arg2 harg2 x0,
        kernelRun0_B.sl.v2293 c arg2 harg2 x0,
        kernelRun0_B.sl.v2294 c arg2 harg2 x0,
        kernelRun0_B.sl.v2295 c arg2 harg2 x0,
        kernelRun0_B.sl.v2296 c arg2 harg2 x0,
        kernelRun0_B.sl.v2297 c arg2 harg2 x0,
        kernelRun0_B.sl.v2298 c arg2 harg2 x0,
        kernelRun0_B.sl.v2299 c arg2 harg2 x0,
        kernelRun0_B.sl.v2300 c arg2 harg2 x0,
        kernelRun0_B.sl.v2301 c arg2 harg2 x0,
        kernelRun0_B.sl.v2302 c arg2 harg2 x0,
        kernelRun0_B.sl.v2303 c arg2 harg2 x0,
        kernelRun0_B.sl.v2304 c arg2 harg2 x0,
        kernelRun0_B.sl.v2305 c arg2 harg2 x0,
        kernelRun0_B.sl.v2306 c arg2 harg2 x0,
        kernelRun0_B.sl.v2307 c arg2 harg2 x0,
        kernelRun0_B.sl.v2308 c arg2 harg2 x0,
        kernelRun0_B.sl.v2309 c arg2 harg2 x0,
        kernelRun0_B.sl.v2310 c arg2 harg2 x0,
        kernelRun0_B.sl.v2311 c arg2 harg2 x0,
        kernelRun0_B.sl.v2312 c arg2 harg2 x0,
        kernelRun0_B.sl.v2313 c arg2 harg2 x0,
        kernelRun0_B.sl.v2314 c arg2 harg2 x0,
        kernelRun0_B.sl.v2315 c arg2 harg2 x0,
        kernelRun0_B.sl.v2316 c arg2 harg2 x0,
        kernelRun0_B.sl.v2317 c arg2 harg2 x0,
        kernelRun0_B.sl.v2318 c arg2 harg2 x0,
        kernelRun0_B.sl.v2319 c arg2 harg2 x0,
        kernelRun0_B.sl.v2320 c arg2 harg2 x0,
        kernelRun0_B.sl.v2321 c arg2 harg2 x0,
        kernelRun0_B.sl.v2322 c arg2 harg2 x0,
        kernelRun0_B.sl.v2323 c arg2 harg2 x0,
        kernelRun0_B.sl.v2324 c arg2 harg2 x0,
        kernelRun0_B.sl.v2325 c arg2 harg2 x0,
        kernelRun0_B.sl.v2326 c arg2 harg2 x0,
        kernelRun0_B.sl.v2327 c arg2 harg2 x0,
        kernelRun0_B.sl.v2328 c arg2 harg2 x0,
        kernelRun0_B.sl.v2329 c arg2 harg2 x0,
        kernelRun0_B.sl.v2330 c arg2 harg2 x0,
        kernelRun0_B.sl.v2331 c arg2 harg2 x0,
        kernelRun0_B.sl.v2332 c arg2 harg2 x0,
        kernelRun0_B.sl.v2333 c arg2 harg2 x0,
        kernelRun0_B.sl.v2334 c arg2 harg2 x0,
        kernelRun0_B.sl.v2335 c arg2 harg2 x0,
        kernelRun0_B.sl.v2336 c arg2 harg2 x0,
        kernelRun0_B.sl.v2337 c arg2 harg2 x0,
        kernelRun0_B.sl.v2338 c arg2 harg2 x0,
        kernelRun0_B.sl.v2339 c arg2 harg2 x0,
        kernelRun0_B.sl.v2340 c arg2 harg2 x0,
        kernelRun0_B.sl.v2341 c arg2 harg2 x0,
        kernelRun0_B.sl.v2342 c arg2 harg2 x0,
        kernelRun0_B.sl.v2343 c arg2 harg2 x0,
        kernelRun0_B.sl.v2344 c arg2 harg2 x0,
        kernelRun0_B.sl.v2345 c arg2 harg2 x0,
        kernelRun0_B.sl.v2346 c arg2 harg2 x0,
        kernelRun0_B.sl.v2347 c arg2 harg2 x0,
        kernelRun0_B.sl.v2348 c arg2 harg2 x0,
        kernelRun0_B.sl.v2349 c arg2 harg2 x0,
        kernelRun0_B.sl.v2350 c arg2 harg2 x0,
        kernelRun0_B.sl.v2351 c arg2 harg2 x0,
        kernelRun0_B.sl.v2352 c arg2 harg2 x0,
        kernelRun0_B.sl.v2353 c arg2 harg2 x0,
        kernelRun0_B.sl.v2354 c arg2 harg2 x0]) (concatenates_rows64 _ rfl) := rfl
  refine piece_of_rows _ 1 704 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

end Cert.KernelIdeal.Stairs

end
-- ==== Proof.PiecesB4.lean ====
/-
  Blocks 12 to 15 of the sixteen blocks of 64 rows that a grid point of half 1 stores.

  Each stored block is a stack of 64 one-row matrices; row `k` of the block that starts at row `off` of the half is
  the window of 2048 positions of the packed vector from `start (1024 + off + k)` on (for the last 63 rows of
  the matrix: the positions that exist, then the quiet-NaN word). Each theorem lists the block's rows, reads the
  stack at a row `k` (any `k`), and checks the 64 rows one by one against the half of the staircase.
-/
import proofs.«102620_j26792005992501_2_alg».proof.Proof.Gen.KernelIdeal.Frame.RunB
import proofs.«102620_j26792005992501_2_alg».proof.Proof.HalfBlock
import Idealize.ShloMosaic.PureOps.Ideal

noncomputable section

namespace Cert.KernelIdeal.Stairs

open Idealize.ShloMosaic Idealize.ShloMosaic.TcCoe Idealize.SL.Sem Cert.KernelIdeal Cert.KernelIdeal.Gen
open Idealize.ShloMosaic.ValueIdx Cert.Staircase Cert.Staircase.Rows

set_option maxHeartbeats 4000000 in
/-- Rows 768 to 831 of half 1: row `k` of the stored block is the window of the packed vector that
    starts at `start (1024 + 768 + k)`. -/
theorem pieceB_12 (c : Dev nD) (arg2 : Memref sig .tc .vmem S1x1x2098176 .f32) (harg2 : arg2.IsWhole)
    (x0 : Vec Ideal S1x1x2098176 .f32) (inb) (z : SPiece.Idx) :
    kernelRun0_B.sl.v2554 (F := Ideal) c arg2 harg2 x0 z
      = half (Val := Elt Ideal) (e := .f32) (Ideal.ofBits .f32 0x7FC00000#32) 1 x0
          ((Rect.unit (s := SHalf) ![0, 768, 0] SPiece.size inb).emb z) := by
  have hcat : kernelRun0_B.sl.v2551 (F := Ideal) c arg2 harg2 x0
      = concatenate S64x2048 0 (rowPieces (C := 2048) [
        kernelRun0_B.sl.v2487 c arg2 harg2 x0,
        kernelRun0_B.sl.v2488 c arg2 harg2 x0,
        kernelRun0_B.sl.v2489 c arg2 harg2 x0,
        kernelRun0_B.sl.v2490 c arg2 harg2 x0,
        kernelRun0_B.sl.v2491 c arg2 harg2 x0,
        kernelRun0_B.sl.v2492 c arg2 harg2 x0,
        kernelRun0_B.sl.v2493 c arg2 harg2 x0,
        kernelRun0_B.sl.v2494 c arg2 harg2 x0,
        kernelRun0_B.sl.v2495 c arg2 harg2 x0,
        kernelRun0_B.sl.v2496 c arg2 harg2 x0,
        kernelRun0_B.sl.v2497 c arg2 harg2 x0,
        kernelRun0_B.sl.v2498 c arg2 harg2 x0,
        kernelRun0_B.sl.v2499 c arg2 harg2 x0,
        kernelRun0_B.sl.v2500 c arg2 harg2 x0,
        kernelRun0_B.sl.v2501 c arg2 harg2 x0,
        kernelRun0_B.sl.v2502 c arg2 harg2 x0,
        kernelRun0_B.sl.v2503 c arg2 harg2 x0,
        kernelRun0_B.sl.v2504 c arg2 harg2 x0,
        kernelRun0_B.sl.v2505 c arg2 harg2 x0,
        kernelRun0_B.sl.v2506 c arg2 harg2 x0,
        kernelRun0_B.sl.v2507 c arg2 harg2 x0,
        kernelRun0_B.sl.v2508 c arg2 harg2 x0,
        kernelRun0_B.sl.v2509 c arg2 harg2 x0,
        kernelRun0_B.sl.v2510 c arg2 harg2 x0,
        kernelRun0_B.sl.v2511 c arg2 harg2 x0,
        kernelRun0_B.sl.v2512 c arg2 harg2 x0,
        kernelRun0_B.sl.v2513 c arg2 harg2 x0,
        kernelRun0_B.sl.v2514 c arg2 harg2 x0,
        kernelRun0_B.sl.v2515 c arg2 harg2 x0,
        kernelRun0_B.sl.v2516 c arg2 harg2 x0,
        kernelRun0_B.sl.v2517 c arg2 harg2 x0,
        kernelRun0_B.sl.v2518 c arg2 harg2 x0,
        kernelRun0_B.sl.v2519 c arg2 harg2 x0,
        kernelRun0_B.sl.v2520 c arg2 harg2 x0,
        kernelRun0_B.sl.v2521 c arg2 harg2 x0,
        kernelRun0_B.sl.v2522 c arg2 harg2 x0,
        kernelRun0_B.sl.v2523 c arg2 harg2 x0,
        kernelRun0_B.sl.v2524 c arg2 harg2 x0,
        kernelRun0_B.sl.v2525 c arg2 harg2 x0,
        kernelRun0_B.sl.v2526 c arg2 harg2 x0,
        kernelRun0_B.sl.v2527 c arg2 harg2 x0,
        kernelRun0_B.sl.v2528 c arg2 harg2 x0,
        kernelRun0_B.sl.v2529 c arg2 harg2 x0,
        kernelRun0_B.sl.v2530 c arg2 harg2 x0,
        kernelRun0_B.sl.v2531 c arg2 harg2 x0,
        kernelRun0_B.sl.v2532 c arg2 harg2 x0,
        kernelRun0_B.sl.v2533 c arg2 harg2 x0,
        kernelRun0_B.sl.v2534 c arg2 harg2 x0,
        kernelRun0_B.sl.v2535 c arg2 harg2 x0,
        kernelRun0_B.sl.v2536 c arg2 harg2 x0,
        kernelRun0_B.sl.v2537 c arg2 harg2 x0,
        kernelRun0_B.sl.v2538 c arg2 harg2 x0,
        kernelRun0_B.sl.v2539 c arg2 harg2 x0,
        kernelRun0_B.sl.v2540 c arg2 harg2 x0,
        kernelRun0_B.sl.v2541 c arg2 harg2 x0,
        kernelRun0_B.sl.v2542 c arg2 harg2 x0,
        kernelRun0_B.sl.v2543 c arg2 harg2 x0,
        kernelRun0_B.sl.v2544 c arg2 harg2 x0,
        kernelRun0_B.sl.v2545 c arg2 harg2 x0,
        kernelRun0_B.sl.v2546 c arg2 harg2 x0,
        kernelRun0_B.sl.v2547 c arg2 harg2 x0,
        kernelRun0_B.sl.v2548 c arg2 harg2 x0,
        kernelRun0_B.sl.v2549 c arg2 harg2 x0,
        kernelRun0_B.sl.v2550 c arg2 harg2 x0]) (concatenates_rows64 _ rfl) := rfl
  refine piece_of_rows _ 1 768 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 832 to 895 of half 1: row `k` of the stored block is the window of the packed vector that
    starts at `start (1024 + 832 + k)`. -/
theorem pieceB_13 (c : Dev nD) (arg2 : Memref sig .tc .vmem S1x1x2098176 .f32) (harg2 : arg2.IsWhole)
    (x0 : Vec Ideal S1x1x2098176 .f32) (inb) (z : SPiece.Idx) :
    kernelRun0_B.sl.v2750 (F := Ideal) c arg2 harg2 x0 z
      = half (Val := Elt Ideal) (e := .f32) (Ideal.ofBits .f32 0x7FC00000#32) 1 x0
          ((Rect.unit (s := SHalf) ![0, 832, 0] SPiece.size inb).emb z) := by
  have hcat : kernelRun0_B.sl.v2747 (F := Ideal) c arg2 harg2 x0
      = concatenate S64x2048 0 (rowPieces (C := 2048) [
        kernelRun0_B.sl.v2683 c arg2 harg2 x0,
        kernelRun0_B.sl.v2684 c arg2 harg2 x0,
        kernelRun0_B.sl.v2685 c arg2 harg2 x0,
        kernelRun0_B.sl.v2686 c arg2 harg2 x0,
        kernelRun0_B.sl.v2687 c arg2 harg2 x0,
        kernelRun0_B.sl.v2688 c arg2 harg2 x0,
        kernelRun0_B.sl.v2689 c arg2 harg2 x0,
        kernelRun0_B.sl.v2690 c arg2 harg2 x0,
        kernelRun0_B.sl.v2691 c arg2 harg2 x0,
        kernelRun0_B.sl.v2692 c arg2 harg2 x0,
        kernelRun0_B.sl.v2693 c arg2 harg2 x0,
        kernelRun0_B.sl.v2694 c arg2 harg2 x0,
        kernelRun0_B.sl.v2695 c arg2 harg2 x0,
        kernelRun0_B.sl.v2696 c arg2 harg2 x0,
        kernelRun0_B.sl.v2697 c arg2 harg2 x0,
        kernelRun0_B.sl.v2698 c arg2 harg2 x0,
        kernelRun0_B.sl.v2699 c arg2 harg2 x0,
        kernelRun0_B.sl.v2700 c arg2 harg2 x0,
        kernelRun0_B.sl.v2701 c arg2 harg2 x0,
        kernelRun0_B.sl.v2702 c arg2 harg2 x0,
        kernelRun0_B.sl.v2703 c arg2 harg2 x0,
        kernelRun0_B.sl.v2704 c arg2 harg2 x0,
        kernelRun0_B.sl.v2705 c arg2 harg2 x0,
        kernelRun0_B.sl.v2706 c arg2 harg2 x0,
        kernelRun0_B.sl.v2707 c arg2 harg2 x0,
        kernelRun0_B.sl.v2708 c arg2 harg2 x0,
        kernelRun0_B.sl.v2709 c arg2 harg2 x0,
        kernelRun0_B.sl.v2710 c arg2 harg2 x0,
        kernelRun0_B.sl.v2711 c arg2 harg2 x0,
        kernelRun0_B.sl.v2712 c arg2 harg2 x0,
        kernelRun0_B.sl.v2713 c arg2 harg2 x0,
        kernelRun0_B.sl.v2714 c arg2 harg2 x0,
        kernelRun0_B.sl.v2715 c arg2 harg2 x0,
        kernelRun0_B.sl.v2716 c arg2 harg2 x0,
        kernelRun0_B.sl.v2717 c arg2 harg2 x0,
        kernelRun0_B.sl.v2718 c arg2 harg2 x0,
        kernelRun0_B.sl.v2719 c arg2 harg2 x0,
        kernelRun0_B.sl.v2720 c arg2 harg2 x0,
        kernelRun0_B.sl.v2721 c arg2 harg2 x0,
        kernelRun0_B.sl.v2722 c arg2 harg2 x0,
        kernelRun0_B.sl.v2723 c arg2 harg2 x0,
        kernelRun0_B.sl.v2724 c arg2 harg2 x0,
        kernelRun0_B.sl.v2725 c arg2 harg2 x0,
        kernelRun0_B.sl.v2726 c arg2 harg2 x0,
        kernelRun0_B.sl.v2727 c arg2 harg2 x0,
        kernelRun0_B.sl.v2728 c arg2 harg2 x0,
        kernelRun0_B.sl.v2729 c arg2 harg2 x0,
        kernelRun0_B.sl.v2730 c arg2 harg2 x0,
        kernelRun0_B.sl.v2731 c arg2 harg2 x0,
        kernelRun0_B.sl.v2732 c arg2 harg2 x0,
        kernelRun0_B.sl.v2733 c arg2 harg2 x0,
        kernelRun0_B.sl.v2734 c arg2 harg2 x0,
        kernelRun0_B.sl.v2735 c arg2 harg2 x0,
        kernelRun0_B.sl.v2736 c arg2 harg2 x0,
        kernelRun0_B.sl.v2737 c arg2 harg2 x0,
        kernelRun0_B.sl.v2738 c arg2 harg2 x0,
        kernelRun0_B.sl.v2739 c arg2 harg2 x0,
        kernelRun0_B.sl.v2740 c arg2 harg2 x0,
        kernelRun0_B.sl.v2741 c arg2 harg2 x0,
        kernelRun0_B.sl.v2742 c arg2 harg2 x0,
        kernelRun0_B.sl.v2743 c arg2 harg2 x0,
        kernelRun0_B.sl.v2744 c arg2 harg2 x0,
        kernelRun0_B.sl.v2745 c arg2 harg2 x0,
        kernelRun0_B.sl.v2746 c arg2 harg2 x0]) (concatenates_rows64 _ rfl) := rfl
  refine piece_of_rows _ 1 832 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 896 to 959 of half 1: row `k` of the stored block is the window of the packed vector that
    starts at `start (1024 + 896 + k)`. -/
theorem pieceB_14 (c : Dev nD) (arg2 : Memref sig .tc .vmem S1x1x2098176 .f32) (harg2 : arg2.IsWhole)
    (x0 : Vec Ideal S1x1x2098176 .f32) (inb) (z : SPiece.Idx) :
    kernelRun0_B.sl.v2946 (F := Ideal) c arg2 harg2 x0 z
      = half (Val := Elt Ideal) (e := .f32) (Ideal.ofBits .f32 0x7FC00000#32) 1 x0
          ((Rect.unit (s := SHalf) ![0, 896, 0] SPiece.size inb).emb z) := by
  have hcat : kernelRun0_B.sl.v2943 (F := Ideal) c arg2 harg2 x0
      = concatenate S64x2048 0 (rowPieces (C := 2048) [
        kernelRun0_B.sl.v2879 c arg2 harg2 x0,
        kernelRun0_B.sl.v2880 c arg2 harg2 x0,
        kernelRun0_B.sl.v2881 c arg2 harg2 x0,
        kernelRun0_B.sl.v2882 c arg2 harg2 x0,
        kernelRun0_B.sl.v2883 c arg2 harg2 x0,
        kernelRun0_B.sl.v2884 c arg2 harg2 x0,
        kernelRun0_B.sl.v2885 c arg2 harg2 x0,
        kernelRun0_B.sl.v2886 c arg2 harg2 x0,
        kernelRun0_B.sl.v2887 c arg2 harg2 x0,
        kernelRun0_B.sl.v2888 c arg2 harg2 x0,
        kernelRun0_B.sl.v2889 c arg2 harg2 x0,
        kernelRun0_B.sl.v2890 c arg2 harg2 x0,
        kernelRun0_B.sl.v2891 c arg2 harg2 x0,
        kernelRun0_B.sl.v2892 c arg2 harg2 x0,
        kernelRun0_B.sl.v2893 c arg2 harg2 x0,
        kernelRun0_B.sl.v2894 c arg2 harg2 x0,
        kernelRun0_B.sl.v2895 c arg2 harg2 x0,
        kernelRun0_B.sl.v2896 c arg2 harg2 x0,
        kernelRun0_B.sl.v2897 c arg2 harg2 x0,
        kernelRun0_B.sl.v2898 c arg2 harg2 x0,
        kernelRun0_B.sl.v2899 c arg2 harg2 x0,
        kernelRun0_B.sl.v2900 c arg2 harg2 x0,
        kernelRun0_B.sl.v2901 c arg2 harg2 x0,
        kernelRun0_B.sl.v2902 c arg2 harg2 x0,
        kernelRun0_B.sl.v2903 c arg2 harg2 x0,
        kernelRun0_B.sl.v2904 c arg2 harg2 x0,
        kernelRun0_B.sl.v2905 c arg2 harg2 x0,
        kernelRun0_B.sl.v2906 c arg2 harg2 x0,
        kernelRun0_B.sl.v2907 c arg2 harg2 x0,
        kernelRun0_B.sl.v2908 c arg2 harg2 x0,
        kernelRun0_B.sl.v2909 c arg2 harg2 x0,
        kernelRun0_B.sl.v2910 c arg2 harg2 x0,
        kernelRun0_B.sl.v2911 c arg2 harg2 x0,
        kernelRun0_B.sl.v2912 c arg2 harg2 x0,
        kernelRun0_B.sl.v2913 c arg2 harg2 x0,
        kernelRun0_B.sl.v2914 c arg2 harg2 x0,
        kernelRun0_B.sl.v2915 c arg2 harg2 x0,
        kernelRun0_B.sl.v2916 c arg2 harg2 x0,
        kernelRun0_B.sl.v2917 c arg2 harg2 x0,
        kernelRun0_B.sl.v2918 c arg2 harg2 x0,
        kernelRun0_B.sl.v2919 c arg2 harg2 x0,
        kernelRun0_B.sl.v2920 c arg2 harg2 x0,
        kernelRun0_B.sl.v2921 c arg2 harg2 x0,
        kernelRun0_B.sl.v2922 c arg2 harg2 x0,
        kernelRun0_B.sl.v2923 c arg2 harg2 x0,
        kernelRun0_B.sl.v2924 c arg2 harg2 x0,
        kernelRun0_B.sl.v2925 c arg2 harg2 x0,
        kernelRun0_B.sl.v2926 c arg2 harg2 x0,
        kernelRun0_B.sl.v2927 c arg2 harg2 x0,
        kernelRun0_B.sl.v2928 c arg2 harg2 x0,
        kernelRun0_B.sl.v2929 c arg2 harg2 x0,
        kernelRun0_B.sl.v2930 c arg2 harg2 x0,
        kernelRun0_B.sl.v2931 c arg2 harg2 x0,
        kernelRun0_B.sl.v2932 c arg2 harg2 x0,
        kernelRun0_B.sl.v2933 c arg2 harg2 x0,
        kernelRun0_B.sl.v2934 c arg2 harg2 x0,
        kernelRun0_B.sl.v2935 c arg2 harg2 x0,
        kernelRun0_B.sl.v2936 c arg2 harg2 x0,
        kernelRun0_B.sl.v2937 c arg2 harg2 x0,
        kernelRun0_B.sl.v2938 c arg2 harg2 x0,
        kernelRun0_B.sl.v2939 c arg2 harg2 x0,
        kernelRun0_B.sl.v2940 c arg2 harg2 x0,
        kernelRun0_B.sl.v2941 c arg2 harg2 x0,
        kernelRun0_B.sl.v2942 c arg2 harg2 x0]) (concatenates_rows64 _ rfl) := rfl
  refine piece_of_rows _ 1 896 (by omega) x0 _ _ inb (fun k hk j => ?_) z
  rw [hcat]
  refine (stack_rows_getElem (R := 64) (C := 2048) _ _ rfl k hk j).trans ?_
  interval_cases k <;>
  ( dsimp only [List.getElem_cons_succ, List.getElem_cons_zero]
    refine (one_row_apply _ _ j).trans ?_
    refine (window_readAt arg2.view _ x0 (harg2.read_unread x0) _ _ _ ?_ j).trans ?_
    · decide
    refine (half_full _ 1 _ _ x0 j _ ?_ ?_).symm <;> decide )

set_option maxHeartbeats 4000000 in
/-- Rows 960 to 1023 of half 1: row `k` of the stored block is the window of the packed vector that
    starts at `start (1024 + 960 + k)`, cut short and filled with the quiet-NaN word where the vector ends. -/
theorem pieceB_15 (c : Dev nD) (arg2 : Memref sig .tc .vmem S1x1x2098176 .f32) (harg2 : arg2.IsWhole)
    (x0 : Vec Ideal S1x1x2098176 .f32) (inb) (z : SPiece.Idx) :
    k0_pay4 (F := Ideal) (k0_pay3 (kernelRun0_B.sl.v3132 c arg2 harg2 x0) (kernelRun0_B.sl.v3136 c arg2 harg2 x0) (kernelRun0_B.sl.v3140 c arg2 harg2 x0) (kernelRun0_B.sl.v3144 c arg2 harg2 x0) (kernelRun0_B.sl.v3148 c arg2 harg2 x0) (kernelRun0_B.sl.v3152 c arg2 harg2 x0) (kernelRun0_B.sl.v3156 c arg2 harg2 x0) (kernelRun0_B.sl.v3160 c arg2 harg2 x0) (kernelRun0_B.sl.v3164 c arg2 harg2 x0) (kernelRun0_B.sl.v3168 c arg2 harg2 x0) (kernelRun0_B.sl.v3172 c arg2 harg2 x0) (kernelRun0_B.sl.v3176 c arg2 harg2 x0) (kernelRun0_B.sl.v3180 c arg2 harg2 x0) (kernelRun0_B.sl.v3184 c arg2 harg2 x0) (kernelRun0_B.sl.v3188 c arg2 harg2 x0) (kernelRun0_B.sl.v3192 c arg2 harg2 x0) (kernelRun0_B.sl.v3196 c arg2 harg2 x0) (kernelRun0_B.sl.v3200 c arg2 harg2 x0) (kernelRun0_B.sl.v3201 c arg2 harg2 x0) (kernelRun0_B.sl.v3202 c arg2 harg2 x0) (kernelRun0_B.sl.v3203 c arg2 harg2 x0) (kernelRun0_B.sl.v3204 c arg2 harg2 x0) (kernelRun0_B.sl.v3205 c arg2 harg2 x0) (kernelRun0_B.sl.v3206 c arg2 harg2 x0) (kernelRun0_B.sl.v3207 c arg2 harg2 x0) (kernelRun0_B.sl.v3208 c arg2 harg2 x0) (kernelRun0_B.sl.v3209 c arg2 harg2 x0) (kernelRun0_B.sl.v3210 c arg2 harg2 x0) (kernelRun0_B.sl.v3211 c arg2 harg2 x0) (kernelRun0_B.sl.v3212 c arg2 harg2 x0) (kernelRun0_B.sl.v3213 c arg2 harg2 x0) (kernelRun0_B.sl.v3214 c arg2 harg2 x0) (kernelRun0_B.sl.v3215 c arg2 harg2 x0) (kernelRun0_B.sl.v3216 c arg2 harg2 x0) (kernelRun0_B.sl.v3217 c arg2 harg2 x0) (kernelRun0_B.sl.v3218 c arg2 harg2 x0) (kernelRun0_B.sl.v3219 c arg2 harg2 x0) (kernelRun0_B.sl.v3220 c arg2 harg2 x0) (kernelRun0_B.sl.v3221 c arg2 harg2 x0) (kernelRun0_B.sl.v3222 c arg2 harg2 x0) (kernelRun0_B.sl.v3223 c arg2 harg2 x0) (kernelRun0_B.sl.v3224 c arg2 harg2 x0) (kernelRun0_B.sl.v3225 c arg2 harg2 x0) (kernelRun0_B.sl.v3226 c arg2 harg2 x0) (kernelRun0_B.sl.v3227 c arg2 harg2 x0) (kernelRun0_B.sl.v3228 c arg2 harg2 x0) (kernelRun0_B.sl.v3229 c arg2 harg2 x0) (kernelRun0_B.sl.v3230 c arg2 harg2 x0) (kernelRun0_B.sl.v3231 c arg2 harg2 x0) (kernelRun0_B.sl.v3232 c arg2 harg2 x0) (kernelRun0_B.sl.r_28 c arg2 harg2 x0) (kernelRun0_B.sl.r_29 c arg2 harg2 x0) (kernelRun0_B.sl.r_30 c arg2 harg2 x0) (kernelRun0_B.sl.r_31 c arg2 harg2 x0) (kernelRun0_B.sl.r_32 c arg2 harg2 x0) (kernelRun0_B.sl.r_33 c arg2 harg2 x0) (kernelRun0_B.sl.r_34 c arg2 harg2 x0) (kernelRun0_B.sl.r_35 c arg2 harg2 x0) (kernelRun0_B.sl.r_36 c arg2 harg2 x0) (kernelRun0_B.sl.r_37 c arg2 harg2 x0) (kernelRun0_B.sl.r_38 c arg2 harg2 x0) (kernelRun0_B.sl.r_39 c arg2 harg2 x0) (kernelRun0_B.sl.r_40 c arg2 harg2 x0) (kernelRun0_B.sl.r_41 c arg2 harg2 x0)) z
      = half (Val := Elt Ideal) (e := .f32) (Ideal.ofBits .f32 0x7FC00000#32) 1 x0
          ((Rect.unit (s := SHalf) ![0, 960, 0] SPiece.size inb).emb z) := by
  have hcat : k0_pay3 (F := Ideal) (kernelRun0_B.sl.v3132 c arg2 harg2 x0) (kernelRun0_B.sl.v3136 c arg2 harg2 x0) (kernelRun0_B.sl.v3140 c arg2 harg2 x0) (kernelRun0_B.sl.v3144 c arg2 harg2 x0) (kernelRun0_B.sl.v3148 c arg2 harg2 x0) (kernelRun0_B.sl.v3152 c arg2 harg2 x0) (kernelRun0_B.sl.v3156 c arg2 harg2 x0) (kernelRun0_B.sl.v3160 c arg2 harg2 x0) (kernelRun0_B.sl.v3164 c arg2 harg2 x0) (kernelRun0_B.sl.v3168 c arg2 harg2 x0) (kernelRun0_B.sl.v3172 c arg2 harg2 x0) (kernelRun0_B.sl.v3176 c arg2 harg2 x0) (kernelRun0_B.sl.v3180 c arg2 harg2 x0) (kernelRun0_B.sl.v3184 c arg2 harg2 x0) (kernelRun0_B.sl.v3188 c arg2 harg2 x0) (kernelRun0_B.sl.v3192 c arg2 harg2 x0) (kernelRun0_B.sl.v3196 c arg2 harg2 x0) (kernelRun0_B.sl.v3200 c arg2 harg2 x0) (kernelRun0_B.sl.v3201 c arg2 harg2 x0) (kernelRun0_B.sl.v3202 c arg2 harg2 x0) (kernelRun0_B.sl.v3203 c arg2 harg2 x0) (kernelRun0_B.sl.v3204 c arg2 harg2 x0) (kernelRun0_B.sl.v3205 c arg2 harg2 x0) (kernelRun0_B.sl.v3206 c arg2 harg2 x0) (kernelRun0_B.sl.v3207 c arg2 harg2 x0) (kernelRun0_B.sl.v3208 c arg2 harg2 x0) (kernelRun0_B.sl.v3209 c arg2 harg2 x0) (kernelRun0_B.sl.v3210 c arg2 harg2 x0) (kernelRun0_B.sl.v3211 c arg2 harg2 x0) (kernelRun0_B.sl.v3212 c arg2 harg2 x0) (kernelRun0_B.sl.v3213 c arg2 harg2 x0) (kernelRun0_B.sl.v3214 c arg2 harg2 x0) (kernelRun0_B.sl.v3215 c arg2 harg2 x0) (kernelRun0_B.sl.v3216 c arg2 harg2 x0) (kernelRun0_B.sl.v3217 c arg2 harg2 x0) (kernelRun0_B.sl.v3218 c arg2 harg2 x0) (kernelRun0_B.sl.v3219 c arg2 harg2 x0) (kernelRun0_B.sl.v3220 c arg2 harg2 x0) (kernelRun0_B.sl.v3221 c arg2 harg2 x0) (kernelRun0_B.sl.v3222 c arg2 harg2 x0) (kernelRun0_B.sl.v3223 c arg2 harg2 x0) (kernelRun0_B.sl.v3224 c arg2 harg2 x0) (kernelRun0_B.sl.v3225 c arg2 harg2 x0) (kernelRun0_B.sl.v3226 c arg2 harg2 x0) (kernelRun0_B.sl.v3227 c arg2 harg2 x0) (kernelRun0_B.sl.v3228 c arg2 harg2 x0) (kernelRun0_B.sl.v3229 c arg2 harg2 x0) (kernelRun0_B.sl.v3230 c arg2 harg2 x0) (kernelRun0_B.sl.v3231 c arg2 harg2 x0) (kernelRun0_B.sl.v3232 c arg2 harg2 x0) (kernelRun0_B.sl.r_28 c arg2 harg2 x0) (kernelRun0_B.sl.r_29 c arg2 harg2 x0) (kernelRun0_B.sl.r_30 c arg2 harg2 x0) (kernelRun0_B.sl.r_31 c arg2 harg2 x0) (kernelRun0_B.sl.r_32 c arg2 harg2 x0) (kernelRun0_B.sl.r_33 c arg2 harg2 x0) (kernelRun0_B.sl.r_34 c arg2 harg2 x0) (kernelRun0_B.sl.r_35 c arg2 harg2 x0) (kernelRun0_B.sl.r_36 c arg2 harg2 x0) (kernelRun0_B.sl.r_37 c arg2 harg2 x0) (kernelRun0_B.sl.r_38 c arg2 harg2 x0) (kernelRun0_B.sl.r_39 c arg2 harg2 x0) (kernelRun0_B.sl.r_40 c arg2 harg2 x0) (kernelRun0_B.sl.r_41 c arg2 harg2 x0)
      = concatenate S64x2048 0 (rowPieces (C := 2048) [
        kernelRun0_B.sl.v3201 c arg2 harg2 x0,
        kernelRun0_B.sl.v3202 c arg2 harg2 x0,
        kernelRun0_B.sl.v3203 c arg2 harg2 x0,
        kernelRun0_B.sl.v3204 c arg2 harg2 x0,
        kernelRun0_B.sl.v3205 c arg2 harg2 x0,
        kernelRun0_B.sl.v3206 c arg2 harg2 x0,
        kernelRun0_B.sl.v3207 c arg2 harg2 x0,
        kernelRun0_B.sl.v3208 c arg2 harg2 x0,
        kernelRun0_B.sl.v3209 c arg2 harg2 x0,
        kernelRun0_B.sl.v3210 c arg2 harg2 x0,
        kernelRun0_B.sl.v3211 c arg2 harg2 x0,
        kernelRun0_B.sl.v3212 c arg2 harg2 x0,
        kernelRun0_B.sl.v3213 c arg2 harg2 x0,
        kernelRun0_B.sl.v3214 c arg2 harg2 x0,
        kernelRun0_B.sl.v3215 c arg2 harg2 x0,
        kernelRun0_B.sl.v3216 c arg2 harg2 x0,
        kernelRun0_B.sl.v3217 c arg2 harg2 x0,
        kernelRun0_B.sl.v3218 c arg2 harg2 x0,
        kernelRun0_B.sl.v3219 c arg2 harg2 x0,
        kernelRun0_B.sl.v3220 c arg2 harg2 x0,
        kernelRun0_B.sl.v3221 c arg2 harg2 x0,
        kernelRun0_B.sl.v3222 c arg2 harg2 x0,
        kernelRun0_B.sl.v3223 c arg2 harg2 x0,
        kernelRun0_B.sl.v3224 c arg2 harg2 x0,
        kernelRun0_B.sl.v3225 c arg2 harg2 x0,
        kernelRun0_B.sl.v3226 c arg2 harg2 x0,
        kernelRun0_B.sl.v3227 c arg2 harg2 x0,
        kernelRun0_B.sl.v3228 c arg2 harg2 x0,
        kernelRun0_B.sl.v3229 c arg2 harg2 x0,
        kernelRun0_B.sl.v3230 c arg2 harg2 x0,
        kernelRun0_B.sl.v3231 c arg2 harg2 x0,
        kernelRun0_B.sl.v3232 c arg2 harg2 x0,
        kernelRun0_B.sl.r_28 c arg2 harg2 x0,
        kernelRun0_B.sl.r_29 c arg2 harg2 x0,
        kernelRun0_B.sl.r_30 c arg2 harg2 x0,
        kernelRun0_B.sl.r_31 c arg2 harg2 x0,
        kernelRun0_B.sl.r_32 c arg2 harg2 x0,
        kernelRun0_B.sl.r_33 c arg2 harg2 x0,
        kernelRun0_B.sl.r_34 c arg2 harg2 x0,
        kernelRun0_B.sl.r_35 c arg2 harg2 x0,
        kernelRun0_B.sl.r_36 c arg2 harg2 x0,
        kernelRun0_B.sl.r_37 c arg2 harg2 x0,
        kernelRun0_B.sl.r_38 c arg2 harg2 x0,
        kernelRun0_B.sl.r_39 c arg2 harg2 x0,
        kernelRun0_B.sl.r_40 c arg2 harg2 x0,
        kernelRun0_B.sl.r_41 c arg2 harg2 x0,
        shapeCast S1x2048 (kernelRun0_B.sl.v3132 c arg2 harg2 x0) _,
        shapeCast S1x2048 (kernelRun0_B.sl.v3136 c arg2 harg2 x0) _,
        shapeCast S1x2048 (kernelRun0_B.sl.v3140 c arg2 harg2 x0) _,
        shapeCast S1x2048 (kernelRun0_B.sl.v3144 c arg2 harg2 x0) _,
        shapeCast S1x2048 (kernelRun0_B.sl.v3148 c arg2 harg2 x0) _,
        shapeCast S1x2048 (kernelRun0_B.sl.v3152 c arg2 harg2 x0) _,
        shapeCast S1x2048 (kernelRun0_B.sl.v3156 c arg2 harg2 x0) _,
        shapeCast S1x2048 (kernelRun0_B.sl.v3160 c arg2 harg2 x0) _,
        shapeCast S1x2048 (kernelRun0_B.sl.v3164 c arg2 harg2 x0) _,
        shapeCast S1x2048 (kernelRun0_B.sl.v3168 c arg2 harg2 x0) _,
        shapeCast S1x2048 (kernelRun0_B.sl.v3172 c arg2 harg2 x0) _,
        shapeCast S1x2048 (kernelRun0_B.sl.v3176 c arg2 harg2 x0) _,
        shapeCast S1x2048 (kernelRun0_B.sl.v3180 c arg2 harg2 x0) _,
        shapeCast S1x2048 (kernelRun0_B.sl.v3184 c arg2 harg2 x0) _,
        shapeCast S1x2048 (kernelRun0_B.sl.v3188 c arg2 harg2 x0) _,
        shapeCast S1x2048 (kernelRun0_B.sl.v3192 c arg2 harg2 x0) _,
        shapeCast S1x2048 (kernelRun0_B.sl.v3196 c arg2 harg2 x0) _,
        shapeCast S1x2048 (kernelRun0_B.sl.v3200 c arg2 harg2 x0) _]) (concatenates_rows64 _ rfl) := rfl
  unfold k0_pay4
  dsimp only
  refine piece_of_rows _ 1 960 (by omega) x0 _ _ inb (fun k hk j => ?_) z
  rw [hcat]
  refine (stack_rows_getElem (R := 64) (C := 2048) _ _ rfl k hk j).trans ?_
  interval_cases k <;>
  first
  | ( dsimp only [List.getElem_cons_succ, List.getElem_cons_zero, kernelRun0_B.sl.r_28, k0_pay3228, kernelRun0_B.sl.r_29, k0_pay3229, kernelRun0_B.sl.r_30, k0_pay3230, kernelRun0_B.sl.r_31, k0_pay3231, kernelRun0_B.sl.r_32, k0_pay3232, kernelRun0_B.sl.r_33, k0_pay3233, kernelRun0_B.sl.r_34, k0_pay3234, kernelRun0_B.sl.r_35, k0_pay3235, kernelRun0_B.sl.r_36, k0_pay3236, kernelRun0_B.sl.r_37, k0_pay3237, kernelRun0_B.sl.r_38, k0_pay3238, kernelRun0_B.sl.r_39, k0_pay3239, kernelRun0_B.sl.r_40, k0_pay3240, kernelRun0_B.sl.r_41, k0_pay3241]
      refine (one_row_apply _ _ j).trans ?_
      refine (window_readAt arg2.view _ x0 (harg2.read_unread x0) _ _ _ ?_ j).trans ?_
      · decide
      refine (half_full _ 1 _ _ x0 j _ ?_ ?_).symm <;> decide )
  | ( dsimp only [List.getElem_cons_succ, List.getElem_cons_zero, kernelRun0_B.sl.r_28, k0_pay3228, kernelRun0_B.sl.r_29, k0_pay3229, kernelRun0_B.sl.r_30, k0_pay3230, kernelRun0_B.sl.r_31, k0_pay3231, kernelRun0_B.sl.r_32, k0_pay3232, kernelRun0_B.sl.r_33, k0_pay3233, kernelRun0_B.sl.r_34, k0_pay3234, kernelRun0_B.sl.r_35, k0_pay3235, kernelRun0_B.sl.r_36, k0_pay3236, kernelRun0_B.sl.r_37, k0_pay3237, kernelRun0_B.sl.r_38, k0_pay3238, kernelRun0_B.sl.r_39, k0_pay3239, kernelRun0_B.sl.r_40, k0_pay3240, kernelRun0_B.sl.r_41, k0_pay3241]
      refine (one_row_apply _ _ j).trans ?_
      refine (tail_row_readAt arg2.view _ x0 (harg2.read_unread x0) _ _ _ (Ideal.ofBits .f32 0x7FC00000#32) _ ?_ _ ?_ ?_ j).trans ?_
      · intro i; rfl
      · decide
      · decide
      refine (half_tail _ 1 _ _ x0 j _ _ ?_ ?_).symm <;> decide )

end Cert.KernelIdeal.Stairs

end
-- ==== Proof.Pieces.lean ====
/-
  What a grid point leaves in its output block.

  A point of half `h` fills its [1, 1024, 2048] output block with sixteen stores of 64 rows each, which tile the
  block. Every stored block is the restriction of half `h` of the staircase of the point's input block (the
  packed vector of its batch entry) to the rows it is stored at, so the output block, read back, is that half.
-/
import proofs.«102620_j26792005992501_2_alg».proof.Proof.Gen.KernelIdeal.Frame
import proofs.«102620_j26792005992501_2_alg».proof.Proof.PiecesA1
import proofs.«102620_j26792005992501_2_alg».proof.Proof.PiecesA2
import proofs.«102620_j26792005992501_2_alg».proof.Proof.PiecesA3
import proofs.«102620_j26792005992501_2_alg».proof.Proof.PiecesA4
import proofs.«102620_j26792005992501_2_alg».proof.Proof.PiecesB1
import proofs.«102620_j26792005992501_2_alg».proof.Proof.PiecesB2
import proofs.«102620_j26792005992501_2_alg».proof.Proof.PiecesB3
import proofs.«102620_j26792005992501_2_alg».proof.Proof.PiecesB4

noncomputable section

namespace Cert.KernelIdeal.Stairs

open Idealize.ShloMosaic Idealize.ShloMosaic.TcCoe Idealize.SL.Sem Cert.KernelIdeal Cert.KernelIdeal.Gen
open Idealize.ShloMosaic.ValueIdx Cert.Staircase Cert.Staircase.Rows

/-- A point of half 0 leaves half 0 of the staircase of its input block. -/
theorem out_A (c : Dev nD) (i : grid0.Coords) (arg2 : Memref sig .tc .vmem S1x1x2098176 .f32) (harg2 : arg2.IsWhole)
    (arg3 : Memref sig .tc .vmem S1x1024x2048 .f32) (harg3 : arg3.IsWhole) (hc0 : cond0_0 i) (hc1 : ¬cond0_1 i)
    (x0 : Vec Ideal S1x1x2098176 .f32) :
    out0_A_1 (F := Ideal) c i arg2 harg2 arg3 harg3 hc0 hc1 x0
      = half (Val := Elt Ideal) (e := .f32) (Ideal.ofBits .f32 0x7FC00000#32) 0 x0 := by
  funext y
  unfold out0_A_1
  rw [View.read_writes_eq_canon _ _ _ (cover0_A_1 c i arg2 harg2 arg3 harg3 hc0 hc1 x0)]
  refine View.canon_apply_of_pieces
    (half (Val := Elt Ideal) (e := .f32) (Ideal.ofBits .f32 0x7FC00000#32) 0 x0) _ ?_ y
    (cover0_A_1 c i arg2 harg2 arg3 harg3 hc0 hc1 x0 y)
  unfold kernelRun0_A
  dsimp only
  refine List.forall_mem_cons.2 ⟨fun x => ?_, ?_⟩
  · exact pieceA_15 c arg2 harg2 x0 (by decide) x
  refine List.forall_mem_cons.2 ⟨fun x => ?_, ?_⟩
  · exact pieceA_14 c arg2 harg2 x0 (by decide) x
  refine List.forall_mem_cons.2 ⟨fun x => ?_, ?_⟩
  · exact pieceA_13 c arg2 harg2 x0 (by decide) x
  refine List.forall_mem_cons.2 ⟨fun x => ?_, ?_⟩
  · exact pieceA_12 c arg2 harg2 x0 (by decide) x
  refine List.forall_mem_cons.2 ⟨fun x => ?_, ?_⟩
  · exact pieceA_11 c arg2 harg2 x0 (by decide) x
  refine List.forall_mem_cons.2 ⟨fun x => ?_, ?_⟩
  · exact pieceA_10 c arg2 harg2 x0 (by decide) x
  refine List.forall_mem_cons.2 ⟨fun x => ?_, ?_⟩
  · exact pieceA_9 c arg2 harg2 x0 (by decide) x
  refine List.forall_mem_cons.2 ⟨fun x => ?_, ?_⟩
  · exact pieceA_8 c arg2 harg2 x0 (by decide) x
  refine List.forall_mem_cons.2 ⟨fun x => ?_, ?_⟩
  · exact pieceA_7 c arg2 harg2 x0 (by decide) x
  refine List.forall_mem_cons.2 ⟨fun x => ?_, ?_⟩
  · exact pieceA_6 c arg2 harg2 x0 (by decide) x
  refine List.forall_mem_cons.2 ⟨fun x => ?_, ?_⟩
  · exact pieceA_5 c arg2 harg2 x0 (by decide) x
  refine List.forall_mem_cons.2 ⟨fun x => ?_, ?_⟩
  · exact pieceA_4 c arg2 harg2 x0 (by decide) x
  refine List.forall_mem_cons.2 ⟨fun x => ?_, ?_⟩
  · exact pieceA_3 c arg2 harg2 x0 (by decide) x
  refine List.forall_mem_cons.2 ⟨fun x => ?_, ?_⟩
  · exact pieceA_2 c arg2 harg2 x0 (by decide) x
  refine List.forall_mem_cons.2 ⟨fun x => ?_, ?_⟩
  · exact pieceA_1 c arg2 harg2 x0 (by decide) x
  refine List.forall_mem_cons.2 ⟨fun x => ?_, ?_⟩
  · exact pieceA_0 c arg2 harg2 x0 (by decide) x
  exact fun p hp => absurd hp List.not_mem_nil

/-- A point of half 1 leaves half 1 of the staircase of its input block. -/
theorem out_B (c : Dev nD) (i : grid0.Coords) (arg2 : Memref sig .tc .vmem S1x1x2098176 .f32) (harg2 : arg2.IsWhole)
    (arg3 : Memref sig .tc .vmem S1x1024x2048 .f32) (harg3 : arg3.IsWhole) (hc0 : ¬cond0_0 i) (hc1 : cond0_1 i)
    (x0 : Vec Ideal S1x1x2098176 .f32) :
    out0_B_1 (F := Ideal) c i arg2 harg2 arg3 harg3 hc0 hc1 x0
      = half (Val := Elt Ideal) (e := .f32) (Ideal.ofBits .f32 0x7FC00000#32) 1 x0 := by
  funext y
  unfold out0_B_1
  rw [View.read_writes_eq_canon _ _ _ (cover0_B_1 c i arg2 harg2 arg3 harg3 hc0 hc1 x0)]
  refine View.canon_apply_of_pieces
    (half (Val := Elt Ideal) (e := .f32) (Ideal.ofBits .f32 0x7FC00000#32) 1 x0) _ ?_ y
    (cover0_B_1 c i arg2 harg2 arg3 harg3 hc0 hc1 x0 y)
  unfold kernelRun0_B
  dsimp only
  refine List.forall_mem_cons.2 ⟨fun x => ?_, ?_⟩
  · exact pieceB_15 c arg2 harg2 x0 (by decide) x
  refine List.forall_mem_cons.2 ⟨fun x => ?_, ?_⟩
  · exact pieceB_14 c arg2 harg2 x0 (by decide) x
  refine List.forall_mem_cons.2 ⟨fun x => ?_, ?_⟩
  · exact pieceB_13 c arg2 harg2 x0 (by decide) x
  refine List.forall_mem_cons.2 ⟨fun x => ?_, ?_⟩
  · exact pieceB_12 c arg2 harg2 x0 (by decide) x
  refine List.forall_mem_cons.2 ⟨fun x => ?_, ?_⟩
  · exact pieceB_11 c arg2 harg2 x0 (by decide) x
  refine List.forall_mem_cons.2 ⟨fun x => ?_, ?_⟩
  · exact pieceB_10 c arg2 harg2 x0 (by decide) x
  refine List.forall_mem_cons.2 ⟨fun x => ?_, ?_⟩
  · exact pieceB_9 c arg2 harg2 x0 (by decide) x
  refine List.forall_mem_cons.2 ⟨fun x => ?_, ?_⟩
  · exact pieceB_8 c arg2 harg2 x0 (by decide) x
  refine List.forall_mem_cons.2 ⟨fun x => ?_, ?_⟩
  · exact pieceB_7 c arg2 harg2 x0 (by decide) x
  refine List.forall_mem_cons.2 ⟨fun x => ?_, ?_⟩
  · exact pieceB_6 c arg2 harg2 x0 (by decide) x
  refine List.forall_mem_cons.2 ⟨fun x => ?_, ?_⟩
  · exact pieceB_5 c arg2 harg2 x0 (by decide) x
  refine List.forall_mem_cons.2 ⟨fun x => ?_, ?_⟩
  · exact pieceB_4 c arg2 harg2 x0 (by decide) x
  refine List.forall_mem_cons.2 ⟨fun x => ?_, ?_⟩
  · exact pieceB_3 c arg2 harg2 x0 (by decide) x
  refine List.forall_mem_cons.2 ⟨fun x => ?_, ?_⟩
  · exact pieceB_2 c arg2 harg2 x0 (by decide) x
  refine List.forall_mem_cons.2 ⟨fun x => ?_, ?_⟩
  · exact pieceB_1 c arg2 harg2 x0 (by decide) x
  refine List.forall_mem_cons.2 ⟨fun x => ?_, ?_⟩
  · exact pieceB_0 c arg2 harg2 x0 (by decide) x
  exact fun p hp => absurd hp List.not_mem_nil

end Cert.KernelIdeal.Stairs

end
-- ==== Proof.Final.lean ====
/-
  From the two halves each grid point writes to the whole result array.

  The grid has 64 points: point `t` works on batch entry `t / 2` and on half `t % 2` of its staircase. Its
  input block is the whole packed vector of that batch entry (the argument array, reshaped from [32, N] to
  [32, 1, N] before the launch), and the block it writes back is rows `1024 (t % 2) ..` of that entry's
  result matrix. Given that what a point of either parity leaves in its output block is the corresponding
  half of the staircase of its input block, every block written back is the restriction of the staircase of
  the argument array, and the 64 blocks cover the result array.
-/
import proofs.«102620_j26792005992501_2_alg».proof.Proof.Gen.KernelIdeal.Value
import proofs.«102620_j26792005992501_2_alg».proof.Proof.HalfBlock
import proofs.«102620_j26792005992501_2_alg».proof.Proof.Pieces
import Idealize.ShloMosaic.Lib.StableHlo.Run

noncomputable section

namespace Cert.KernelIdeal.Stairs

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- The array the input window stages is the argument array with a unit axis inserted. -/
theorem V_v0 (c : Dev nD) :
    (V m c main_v0 : S32x1x2098176.Idx → Elt Ideal .f32)
      = shapeCast S32x1x2098176 (m ((c : Thread nD τ).loc main_arg0)) shapeCasts_S32x2098176_S32x1x2098176 := by
  dsimp only [Gen.V, Gen.hostOps0]
  after_results
  rfl

/-- Read at an index: position `p` of batch entry `b`. -/
theorem V_v0_apply (c : Dev nD) (b : Fin 32) (p : Fin 2098176) :
    (V m c main_v0 : S32x1x2098176.Idx → Elt Ideal .f32) (ix3 b (0 : Fin 1) p)
      = (m ((c : Thread nD τ).loc main_arg0) : S32x2098176.Idx → Elt Ideal .f32) (ix2 b p) := by
  rw [V_v0]
  refine shapeCast_apply _ _ _ (ix2 b p) ?_
  rw [Shape.rowMajor_val_two, Shape.rowMajor_val_three]
  show b.val * 2098176 + p.val = (b.val * 1 + 0) * 2098176 + p.val
  omega

/-- The printed index maps over the grid: both windows move with the batch entry `t / 2`, the output
    window also with the half `t % 2`. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2
    ∧ win0_1.index t (2 : Fin 3) = 0 :=
  (by decide +kernel : ∀ t : Fin grid0.N, _)

/-- The input block of point `t` is the packed vector of batch entry `t / 2`. -/
theorem iblk_apply (c : Dev nD) (t : Fin cfg0.N) (hb : t.val / 2 < 32) (p : Fin 2098176) :
    iblk m c 0 t (ix3 (0 : Fin 1) (0 : Fin 1) p)
      = (m ((c : Thread nD τ).loc main_arg0) : S32x2098176.Idx → Elt Ideal .f32) (ix2 (⟨t.val / 2, hb⟩ : Fin 32) p) := by
  obtain ⟨e0, e1, e2, -, -, -⟩ := idx_facts t
  show V m c main_v0 (((cfg0.win 0).blk t).view.emb (ix3 (0 : Fin 1) (0 : Fin 1) p)) = _
  rw [← V_v0_apply m c ⟨t.val / 2, hb⟩ p]
  refine congrArg _ (funext fun a => Fin.ext ?_)
  match a with
  | ⟨0, _⟩ => show win0_0.index t (0 : Fin 3) * 1 + 1 * 0 = t.val / 2; omega
  | ⟨1, _⟩ => show win0_0.index t (1 : Fin 3) * 1 + 1 * 0 = 0; omega
  | ⟨2, _⟩ => show win0_0.index t (2 : Fin 3) * 2098176 + 1 * p.val = p.val; omega

/-- WHAT POINT `t` WRITES BACK is block `t` of the staircase of the argument array. -/
theorem flushed_eq (c : Dev nD) (t : Fin cfg0.N) :
    (dats m 0 c).flushed 1 t
      = ((cfg0.win 1).blk t).view.read (Elt Ideal) (Cert.Staircase.G (m ((c : Thread nD τ).loc main_arg0))) := by
  obtain ⟨-, -, -, e3, e4, e5⟩ := idx_facts t
  have hN : t.val < 64 := lt_of_lt_of_eq t.isLt (show cfg0.N = 64 from N_0)
  have hb : t.val / 2 < 32 := by omega
  have key : ∀ h : Nat, t.val % 2 = h →
      (cfg0.win 1).cut (grid0.coords t)
          (Cert.Staircase.half (Val := Elt Ideal) (e := .f32) (Ideal.ofBits .f32 0x7FC00000#32) h (iblk m c 0 t))
        = ((cfg0.win 1).blk t).view.read (Elt Ideal) (Cert.Staircase.G (m ((c : Thread nD τ).loc main_arg0))) := by
    intro h hh
    funext y
    show Cert.Staircase.half (Val := Elt Ideal) (e := .f32) (Ideal.ofBits .f32 0x7FC00000#32) h (iblk m c 0 t) y
      = Cert.Staircase.G (m ((c : Thread nD τ).loc main_arg0)) (((cfg0.win 1).blk t).view.emb y)
    refine Cert.Staircase.half_eq_G _ _ ⟨t.val / 2, hb⟩ (fun p => iblk_apply m c t hb p) h y _ ?_ ?_ ?_
    · show win0_1.index t (0 : Fin 3) * 1 + 1 * (y 0).val = t.val / 2
      have h0 : (y 0).val < 1 := (y 0).isLt
      omega
    · show win0_1.index t (1 : Fin 3) * 1024 + 1 * (y 1).val = 1024 * h + (y 1).val
      omega
    · show win0_1.index t (2 : Fin 3) * 2048 + 1 * (y 2).val = (y 2).val
      omega
  by_cases h0 : t.val % 2 = 0
  · have h1 : ¬t.val % 2 = 1 := by omega
    rw [flushed1_A m c t h0 h1, out_A]
    exact key 0 h0
  · have h1 : t.val % 2 = 1 := by omega
    rw [flushed1_B m c t h0 h1, out_B]
    exact key 1 h1

/-- An index of the result array is in point `t`'s block iff each coordinate is in the block's range. -/
theorem mem_blk (t : Fin cfg0.N) (i : S32x2048x2048.Idx) :
    i ∈ ((cfg0.win 1).blk t).view.set ↔ ∀ a : Fin 3, win0_1.index t a * S1x1024x2048.size a ≤ (i a).val
      ∧ (i a).val < win0_1.index t a * S1x1024x2048.size a + S1x1024x2048.size a := by
  show i ∈ ((View.whole main_v1).slice (win0_1.rect t)).set ↔ _
  rw [View.set_slice_whole, Rect.mem_set_unit]
  exact Iff.rfl

/-- Every index `(b, r, j)` of the result array is in the block of the point `2 b + r / 1024`. -/
theorem cover (i : S32x2048x2048.Idx) :
    ∃ t : Fin cfg0.N, (cfg0.win 1).flush t = true ∧ i ∈ ((cfg0.win 1).blk t).view.set := by
  have hi0 : (i 0).val < 32 := (i 0).isLt
  have hi1 : (i 1).val < 2048 := (i 1).isLt
  have hi2 : (i 2).val < 2048 := (i 2).isLt
  have hN : cfg0.N = 64 := N_0
  have hlt : 2 * (i 0).val + (i 1).val / 1024 < cfg0.N := by rw [hN]; omega
  obtain ⟨-, -, -, e3, e4, e5⟩ := idx_facts ⟨2 * (i 0).val + (i 1).val / 1024, hlt⟩
  refine ⟨⟨2 * (i 0).val + (i 1).val / 1024, hlt⟩, flush0_1 _, ?_⟩
  rw [mem_blk]
  intro a
  match a with
  | ⟨0, _⟩ =>
    show win0_1.index ⟨2 * (i 0).val + (i 1).val / 1024, hlt⟩ (0 : Fin 3) * 1 ≤ (i 0).val
      ∧ (i 0).val < win0_1.index ⟨2 * (i 0).val + (i 1).val / 1024, hlt⟩ (0 : Fin 3) * 1 + 1
    simp only [] at e3
    omega
  | ⟨1, _⟩ =>
    show win0_1.index ⟨2 * (i 0).val + (i 1).val / 1024, hlt⟩ (1 : Fin 3) * 1024 ≤ (i 1).val
      ∧ (i 1).val < win0_1.index ⟨2 * (i 0).val + (i 1).val / 1024, hlt⟩ (1 : Fin 3) * 1024 + 1024
    simp only [] at e4
    omega
  | ⟨2, _⟩ =>
    show win0_1.index ⟨2 * (i 0).val + (i 1).val / 1024, hlt⟩ (2 : Fin 3) * 2048 ≤ (i 2).val
      ∧ (i 2).val < win0_1.index ⟨2 * (i 0).val + (i 1).val / 1024, hlt⟩ (2 : Fin 3) * 2048 + 2048
    omega

/-- THE RESULT ARRAY after the run is the staircase of the argument array. -/
theorem final (c : Dev nD) :
    (dats m 0 c).arrAt 1 cfg0.N = Cert.Staircase.G (m ((c : Thread nD τ).loc main_arg0)) :=
  (dats m 0 c).arrAt_eq_of_cover 1 (Cert.Staircase.G (m ((c : Thread nD τ).loc main_arg0)))
    (fun t _ => flushed_eq m c t) cover

/-- The kernel's run: it terminates with the result array at the staircase of the argument array and the
    argument array unchanged. -/
theorem run : θ_run defs (onTc (τ := τ) (main (F := Ideal))) ⟨m, fun _ => 0, ρ⟩ fun r => ∀ c : Dev nD,
      r.2.mem ((c : Thread nD τ).loc main_v1) = Cert.Staircase.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Stairs

end
-- ==== Proof.RefRun.lean ====
/-
  The reference program as one straight line of host operations, and its run.

  The program computes a row offset for each of the 2048 rows by integer arithmetic (through a called floored division,
  which itself calls a select), spreads offset plus column over a 2048 x 2048 table of positions, and takes the elements at
  those positions from each of the 32 packed vectors (a called take: bounds mask, gather, select, with one more called
  select inside). Written out call by call these are 56 operations. Every weakly fair execution of the program terminates,
  and each buffer then holds what the operations, applied in order, make of the contents at launch.
-/
import proofs.«102620_j26792005992501_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the program in order, each called function's operations written out at its call over
    that call's buffers. -/
abbrev ops : List (HloOp τ sig (Elt F)) :=
  [ StableHlo.nullary main_v0 (iotaInDim S2048 32 0),
    StableHlo.nullary main_c (constantI S_ 32 2048#32),
    StableHlo.unary main_c main_v1 (broadcastInDim S2048 ![] bcast_S_S2048 : (⟨S_, .i32⟩ : BufTy).Contents (Elt F) → (⟨S2048, .i32⟩ : BufTy).Contents (Elt F)),
    StableHlo.binary main_v0 main_v1 main_v2 (muli : (⟨S2048, .i32⟩ : BufTy).Contents (Elt F) → (⟨S2048, .i32⟩ : BufTy).Contents (Elt F) → (⟨S2048, .i32⟩ : BufTy).Contents (Elt F)),
    StableHlo.nullary main_c_0 (constantI S_ 32 1#32),
    StableHlo.unary main_c_0 main_v3 (broadcastInDim S2048 ![] bcast_S_S2048 : (⟨S_, .i32⟩ : BufTy).Contents (Elt F) → (⟨S2048, .i32⟩ : BufTy).Contents (Elt F)),
    StableHlo.binary main_v0 main_v3 main_v4 (subi : (⟨S2048, .i32⟩ : BufTy).Contents (Elt F) → (⟨S2048, .i32⟩ : BufTy).Contents (Elt F) → (⟨S2048, .i32⟩ : BufTy).Contents (Elt F)),
    StableHlo.binary main_v0 main_v4 main_v5 (muli : (⟨S2048, .i32⟩ : BufTy).Contents (Elt F) → (⟨S2048, .i32⟩ : BufTy).Contents (Elt F) → (⟨S2048, .i32⟩ : BufTy).Contents (Elt F)),
    StableHlo.nullary main_c_1 (constantI S_ 32 2#32),
    StableHlo.TRef.unary (.of main_c_1) main_call0.v0 id,
    StableHlo.TRef.unary main_call0.v0 main_call0.v1 (broadcastInDim S2048 ![] bcast_S_S2048),
    StableHlo.TRef.binary (.of main_v5) main_call0.v1 main_call0.v2 Host.divsi,
    StableHlo.TRef.unary (.of main_v5) main_call0.v3 signi,
    StableHlo.TRef.unary main_call0.v0 main_call0.v4 signi,
    StableHlo.TRef.unary main_call0.v4 main_call0.v5 (broadcastInDim S2048 ![] bcast_S_S2048),
    StableHlo.TRef.binary main_call0.v3 main_call0.v5 main_call0.v6 (cmpi .ne),
    StableHlo.TRef.unary main_call0.v0 main_call0.v7 (broadcastInDim S2048 ![] bcast_S_S2048),
    StableHlo.TRef.binary (.of main_v5) main_call0.v7 main_call0.v8 Host.remsi,
    StableHlo.TRef.nullary main_call0.c (constantI S_ 32 0#32),
    StableHlo.TRef.unary main_call0.c main_call0.v9 (broadcastInDim S2048 ![] bcast_S_S2048),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S2048 ![] bcast_S_S2048),
    StableHlo.TRef.binary main_call0.v2 main_call0.v12 main_call0.v13 subi,
    StableHlo.TRef.ternary main_call0.v11 main_call0.v13 main_call0.v2 main_call0.call0.v0 select,
    StableHlo.binary main_v2 main_v6 main_v7 (subi : (⟨S2048, .i32⟩ : BufTy).Contents (Elt F) → (⟨S2048, .i32⟩ : BufTy).Contents (Elt F) → (⟨S2048, .i32⟩ : BufTy).Contents (Elt F)),
    StableHlo.unary main_v7 main_v8 (broadcastInDim S2048x1 ![0] bcast_S2048_S2048x1_0 : (⟨S2048, .i32⟩ : BufTy).Contents (Elt F) → (⟨S2048x1, .i32⟩ : BufTy).Contents (Elt F)),
    StableHlo.nullary main_v9 (iotaInDim S2048 32 0),
    StableHlo.unary main_v9 main_v10 (broadcastInDim S1x2048 ![1] bcast_S2048_S1x2048_1 : (⟨S2048, .i32⟩ : BufTy).Contents (Elt F) → (⟨S1x2048, .i32⟩ : BufTy).Contents (Elt F)),
    StableHlo.unary main_v8 main_v11 (broadcastInDim S2048x2048 ![0, 1] bcast_S2048x1_S2048x2048_0_1 : (⟨S2048x1, .i32⟩ : BufTy).Contents (Elt F) → (⟨S2048x2048, .i32⟩ : BufTy).Contents (Elt F)),
    StableHlo.unary main_v10 main_v12 (broadcastInDim S2048x2048 ![0, 1] bcast_S1x2048_S2048x2048_0_1 : (⟨S1x2048, .i32⟩ : BufTy).Contents (Elt F) → (⟨S2048x2048, .i32⟩ : BufTy).Contents (Elt F)),
    StableHlo.binary main_v11 main_v12 main_v13 (addi : (⟨S2048x2048, .i32⟩ : BufTy).Contents (Elt F) → (⟨S2048x2048, .i32⟩ : BufTy).Contents (Elt F) → (⟨S2048x2048, .i32⟩ : BufTy).Contents (Elt F)),
    StableHlo.TRef.nullary main_call1.c (constantI S_ 32 0#32),
    StableHlo.TRef.unary main_call1.c main_call1.v0 (broadcastInDim S2048x2048 ![] bcast_S_S2048x2048),
    StableHlo.TRef.binary (.of main_v13) main_call1.v0 main_call1.v1 (cmpi .slt),
    StableHlo.TRef.nullary main_call1.c_0 (constantI S_ 32 2098176#32),
    StableHlo.TRef.unary main_call1.c_0 main_call1.v2 (broadcastInDim S2048x2048 ![] bcast_S_S2048x2048),
    StableHlo.TRef.binary (.of main_v13) main_call1.v2 main_call1.v3 addi,
    StableHlo.TRef.ternary main_call1.v1 main_call1.v3 (.of main_v13) main_call1.call0.v0 select,
    StableHlo.TRef.unary main_call1.call0.v0 main_call1.v5 (broadcastInDim S2048x2048x1 ![0, 1] bcast_S2048x2048_S2048x2048x1_0_1),
    StableHlo.TRef.nullary main_call1.c_1 (constantI S1 32 2098175#32),
    StableHlo.TRef.nullary main_call1.c_2 (constantI S_ 32 0#32),
    StableHlo.TRef.unary main_call1.c_2 main_call1.v6 (broadcastInDim S2048x2048x1 ![] bcast_S_S2048x2048x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S2048x2048x1 ![0, 1, 2] bcast_S1x1x1_S2048x2048x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S2048x2048x1_S2048x2048_d2 h_S_),
    StableHlo.TRef.binary (.of main_arg0) main_call1.v5 main_call1.v13 (fun x i => Host.gather gather_S32x2098176_S2048x2048x1_S32x2048x2048_0_1_n_n_1_2_321 x i),
    StableHlo.TRef.unary main_call1.v12 main_call1.v14 (broadcastInDim S32x2048x2048 ![1, 2] bcast_S2048x2048_S32x2048x2048_1_2),
    StableHlo.TRef.nullary main_call1.cst (constant S_ .f32 0x7FC00000#32),
    StableHlo.TRef.unary main_call1.cst main_call1.v15 (broadcastInDim S32x2048x2048 ![] bcast_S_S32x2048x2048),
    StableHlo.TRef.ternary main_call1.v14 main_call1.v13 main_call1.v15 main_call1.v16 select ]

set_option maxRecDepth 2048 in
/-- The program is that straight line: unfolding the called functions at their calls and reassociating the
    sequencing leaves one chain of steps. -/
theorem main_eq (c : Dev nD) : main (F := F) c = seq ops := by
  simp only [main, fn_floor_divide.body, fn_where.body, fn_take.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., binary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every weakly fair execution of the program terminates, and each buffer then holds the fold of the operations
    over the contents at launch. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  What the reference program computes, as one term of the argument, named piece by piece: the product `i * (i - 1)`
  of each row number with its predecessor, its quotient by 2 (truncated, then floored), the row offset
  `2048 * i` less that quotient, the table of positions offset plus column, the same with a negative position counted from
  the end, the positions as one-component start indices, the mask of positions inside the packed vector, and the result: the
  gathered element where the mask holds, the quiet-NaN word elsewhere.
-/
import proofs.«102620_j26792005992501_2_alg».proof.Proof.Gen.ReferenceIdeal

noncomputable section

namespace Cert.ReferenceIdeal.RefValue

open Cert.ReferenceIdeal Cert.ReferenceIdeal.Gen Idealize.ShloMosaic

variable {F : FTy → Type} [FloatOps F]

/-! ## The composed term

What the operations compute from the argument, named piece by piece. -/

/-- `i * (i - 1)` for each row `i`, in 32-bit words. -/
def prodV : IVec S2048 32 :=
  muli (iotaInDim S2048 32 0) (subi (iotaInDim S2048 32 0) (broadcastInDim S2048 ![] bcast_S_S2048 (constantI S_ 32 1#32)))

/-- The divisor 2 on every row. -/
def twoV : IVec S2048 32 := broadcastInDim S2048 ![] bcast_S_S2048 (constantI S_ 32 2#32)

/-- The quotient of `i * (i - 1)` by 2 rounded toward zero. -/
def quotV : IVec S2048 32 := Host.divsi prodV twoV

/-- The quotient rounded down: one less than the quotient rounded toward zero where the signs of dividend and divisor differ
    and the remainder is not zero. -/
def floorV : IVec S2048 32 :=
  select
    (andi (cmpi .ne (signi prodV) (broadcastInDim S2048 ![] bcast_S_S2048 (signi (constantI S_ 32 2#32))))
      (cmpi .ne (Host.remsi prodV twoV) (broadcastInDim S2048 ![] bcast_S_S2048 (constantI S_ 32 0#32))))
    (subi quotV (broadcastInDim S2048 ![] bcast_S_S2048 (constantI S_ 32 1#32)))
    quotV

/-- The offset at which each row begins: `2048 * i` less the floored half of `i * (i - 1)`. -/
def startV : IVec S2048 32 :=
  subi (muli (iotaInDim S2048 32 0) (broadcastInDim S2048 ![] bcast_S_S2048 (constantI S_ 32 2048#32))) floorV

/-- The position read for row `i`, column `j`: the row's offset plus `j`. -/
def idxV : IVec S2048x2048 32 :=
  addi
    (broadcastInDim S2048x2048 ![0, 1] bcast_S2048x1_S2048x2048_0_1 (broadcastInDim S2048x1 ![0] bcast_S2048_S2048x1_0 startV))
    (broadcastInDim S2048x2048 ![0, 1] bcast_S1x2048_S2048x2048_0_1
      (broadcastInDim S1x2048 ![1] bcast_S2048_S1x2048_1 (iotaInDim S2048 32 0)))

/-- The position with a negative one counted from the end. -/
def wrapV : IVec S2048x2048 32 :=
  select (cmpi .slt idxV (broadcastInDim S2048x2048 ![] bcast_S_S2048x2048 (constantI S_ 32 0#32)))
    (addi idxV (broadcastInDim S2048x2048 ![] bcast_S_S2048x2048 (constantI S_ 32 2098176#32))) idxV

/-- The positions as start indices, one component each. -/
def idx3V : IVec S2048x2048x1 32 :=
  broadcastInDim S2048x2048x1 ![0, 1] bcast_S2048x2048_S2048x2048x1_0_1 wrapV

/-- Whether each position lies inside the packed vector. -/
def maskV : IVec S2048x2048 1 :=
  Host.reduce IntOp.andi
    (andi (cmpi .sge idx3V (broadcastInDim S2048x2048x1 ![] bcast_S_S2048x2048x1 (constantI S_ 32 0#32)))
      (cmpi .sle idx3V (broadcastInDim S2048x2048x1 ![0, 1, 2] bcast_S1x1x1_S2048x2048x1_0_1_2
        (broadcastInDim S1x1x1 ![2] bcast_S1_S1x1x1_2 (constantI S1 32 2098175#32)))))
    (constantI S_ 1 1#1) reducesTo_S2048x2048x1_S2048x2048_d2 h_S_

/-- The result as a function of the argument: the gathered element where the position is inside the packed vector, the
    quiet-NaN word elsewhere. -/
def refOut (x : FVec F S32x2098176 .f32) : FVec F S32x2048x2048 .f32 :=
  select (broadcastInDim S32x2048x2048 ![1, 2] bcast_S2048x2048_S32x2048x2048_1_2 maskV)
    (Host.gather gather_S32x2098176_S2048x2048x1_S32x2048x2048_0_1_n_n_1_2_321 x idx3V)
    (broadcastInDim S32x2048x2048 ![] bcast_S_S32x2048x2048 (constant S_ .f32 0x7FC00000#32))

end Cert.ReferenceIdeal.RefValue

end
-- ==== Proof.LibTypedRef.lean ====
/-
  Three facts for reading host operations at the exact values.

  A host operation inside an outlined function addresses its buffers through typed references, and what it computes is
  carried to and from a buffer's own contents type by a transport along the reference's type equation. Written through a
  reference and read back through the same reference, contents are unchanged: the two transports cancel, whatever the
  reference. At the exact extended-real values a widening of the float format is the identity on arrays, and the short
  format's zero pattern and the single format's zero pattern denote the same constant array, the number 0 everywhere.
  With these, two readings of one chain of host operations that differ only in the storage format of some operands
  become the same term. The module depends on the library only.
-/
import Idealize.ShloMosaic.Lib.StableHlo
import Idealize.ShloMosaic.Lib.IdealHost
import Idealize.ShloMosaic.Lib.ValueIdx

noncomputable section

namespace Idealize.ShloMosaic.StableHlo

/-- Contents written through a typed reference and read back through it are the contents. -/
theorem TRef.ofBuf_toBuf {sig : RefSig} {T : BufTy} {Val : EltTy → Type} (x : TRef sig T) (v : T.Contents Val) :
    x.ofBuf (x.toBuf v) = v := by
  obtain ⟨r, h, h1, h2⟩ := x
  subst h
  rfl

/-- Contents read through a typed reference and written back through it are the contents. -/
theorem TRef.toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Idealize.ShloMosaic.StableHlo

namespace Idealize.ShloMosaic.ValueIdx

/-- At the exact values widening an array's float format changes nothing. -/
theorem extf_same {s : Shape} {φ ψ : FTy} (x : FVec Ideal s φ) (h : φ.bits < ψ.bits) : (extf ψ x h : FVec Ideal s ψ) = x := rfl

/-- At the exact values narrowing an array's float format changes nothing. -/
theorem truncf_same {s : Shape} {φ ψ : FTy} (x : FVec Ideal s φ) (h : ψ.bits < φ.bits) : (truncf ψ x h : FVec Ideal s ψ) = x := rfl

/-- The short format's zero pattern and the single format's zero pattern are the same constant array. -/
theorem zero_short (s : Shape) :
    (constant (F := Ideal) s .bf16 0x0000#16 : s.Idx → EReal) = constant (F := Ideal) s .f32 0x00000000#32 := by
  funext i
  show Ideal.ofBits .bf16 0x0000#16 = Ideal.ofBits .f32 0x00000000#32
  rw [Ideal.ofBits_zero_bf16, Ideal.ofBits_zero_f32]

end Idealize.ShloMosaic.ValueIdx

end
-- ==== Proof.RefOut.lean ====
/-
  The run of the reference program read back: the result buffer ends at the composed term of the argument, the argument
  is unchanged.
-/
import proofs.«102620_j26792005992501_2_alg».proof.Proof.RefRun
import proofs.«102620_j26792005992501_2_alg».proof.Proof.RefTerm
import proofs.«102620_j26792005992501_2_alg».proof.Proof.LibTypedRef

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## Typed references at literal buffers

A called function addresses its buffers through references that carry the value's type; at a literal buffer the
buffer's own type is that type, and moving contents between the two is the identity. -/

theorem ofBuf_arg0 (p1 : (main_arg0 : Ref sig .tc).ty = (⟨S32x2098176, .f32⟩ : BufTy)) (p2 : (main_arg0 : Ref sig .tc).space ≠ .host)
    (p3 : (main_arg0 : Ref sig .tc).isScoped = false) (u : (main_arg0 : Ref sig .tc).ty.Contents (Elt F)) :
    (TRef.of main_arg0 p1 p2 p3).ofBuf u = u := rfl

theorem ofBuf_v5 (p1 : (main_v5 : Ref sig .tc).ty = (⟨S2048, .i32⟩ : BufTy)) (p2 : (main_v5 : Ref sig .tc).space ≠ .host)
    (p3 : (main_v5 : Ref sig .tc).isScoped = false) (u : (main_v5 : Ref sig .tc).ty.Contents (Elt F)) :
    (TRef.of main_v5 p1 p2 p3).ofBuf u = u := rfl

theorem ofBuf_c_1 (p1 : (main_c_1 : Ref sig .tc).ty = (⟨S_, .i32⟩ : BufTy)) (p2 : (main_c_1 : Ref sig .tc).space ≠ .host)
    (p3 : (main_c_1 : Ref sig .tc).isScoped = false) (u : (main_c_1 : Ref sig .tc).ty.Contents (Elt F)) :
    (TRef.of main_c_1 p1 p2 p3).ofBuf u = u := rfl

theorem ofBuf_v13 (p1 : (main_v13 : Ref sig .tc).ty = (⟨S2048x2048, .i32⟩ : BufTy)) (p2 : (main_v13 : Ref sig .tc).space ≠ .host)
    (p3 : (main_v13 : Ref sig .tc).isScoped = false) (u : (main_v13 : Ref sig .tc).ty.Contents (Elt F)) :
    (TRef.of main_v13 p1 p2 p3).ofBuf u = u := rfl

theorem toBuf_v6 (p1 : (main_v6 : Ref sig .tc).ty = (⟨S2048, .i32⟩ : BufTy)) (p2 : (main_v6 : Ref sig .tc).space ≠ .host)
    (p3 : (main_v6 : Ref sig .tc).isScoped = false) (u : (⟨S2048, .i32⟩ : BufTy).Contents (Elt F)) :
    (TRef.of main_v6 p1 p2 p3).toBuf u = u := rfl

theorem toBuf_v14 (p1 : (main_v14 : Ref sig .tc).ty = (⟨S32x2048x2048, .f32⟩ : BufTy)) (p2 : (main_v14 : Ref sig .tc).space ≠ .host)
    (p3 : (main_v14 : Ref sig .tc).isScoped = false) (u : (⟨S32x2048x2048, .f32⟩ : BufTy).Contents (Elt F)) :
    (TRef.of main_v14 p1 p2 p3).toBuf u = u := rfl

attribute [local irreducible] Host.reduce Host.gather in
set_option maxRecDepth 8192 in
set_option maxHeartbeats 1000000 in
/-- The fold of the operations at the result buffer is the composed term of the argument: each operation's result is
    read at its own buffer, the moves between a value's type and its buffer's type cancel, and what is left is the term. -/
theorem out_eq (V : Valuation τ sig (Elt F)) :
    after ops V (main_v14 : DevRef τ sig) = refOut (V (main_arg0 : DevRef τ sig)) := by
  after_results_simp
  simp only [TRef.ofBuf_toBuf]
  simp only [ofBuf_arg0, ofBuf_v5, ofBuf_c_1, ofBuf_v13, toBuf_v6, toBuf_v14, id]
  unfold refOut maskV idx3V wrapV idxV startV floorV quotV twoV prodV
  rfl

set_option maxRecDepth 8192 in
/-- No operation writes the argument. -/
theorem arg0_eq (V : Valuation τ sig (Elt F)) :
    after ops V (main_arg0 : DevRef τ sig) = V (main_arg0 : DevRef τ sig) := by
  simp only [after_cons, after_nil]
  rfl

/-- Every weakly fair execution of the program terminates with the result buffer at the composed term of the argument's
    contents at launch, and the argument unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v14).trans (out_eq _), (h c main_arg0).trans (arg0_eq _)⟩)
    (run_after m ρ)

end Cert.ReferenceIdeal.RefValue

end
-- ==== Proof.RefWords.lean ====
/-
  Arithmetic of 32-bit words holding small natural numbers, as the offsets of the staircase need it: for a row number
  `i` below 2048 the product `i * (i - 1)`, its half, the offset `2048 * i - i * (i - 1) / 2` and the offset plus a column
  are all below `2 ^ 31`, so each word operation is the operation on natural numbers, with no wrap-around; a signed
  comparison of such a word reads the natural number.
-/
import Idealize.ShloMosaic.Lib.Affine
import Idealize.ShloMosaic.Lib.ValueIdx

namespace Cert.ReferenceIdeal.RefValue

open Idealize.ShloMosaic Idealize.ShloMosaic.ValueIdx

/-! ## 32-bit words of small natural numbers -/

theorem toNat_ofNat32 (n : Nat) (h : n < 2 ^ 32) : (BitVec.ofNat 32 n).toNat = n := by
  rw [BitVec.toNat_ofNat]; exact Nat.mod_eq_of_lt h

theorem toInt_ofNat32 (n : Nat) (h : n < 2 ^ 31) : (BitVec.ofNat 32 n).toInt = (n : Int) := by
  have hn := toNat_ofNat32 n (by omega)
  rw [BitVec.toInt_eq_toNat_of_lt (by rw [hn]; omega), hn]

theorem msb_ofNat32 (n : Nat) (h : n < 2 ^ 31) : (BitVec.ofNat 32 n).msb = false := by
  rw [BitVec.msb_eq_false_iff_two_mul_lt, toNat_ofNat32 n (by omega)]; omega

/-- The product of a row number below 2048 and its predecessor is small. -/
theorem prod_le (i : Nat) (hi : i < 2048) : i * (i - 1) ≤ 2047 * i := by
  rw [Nat.mul_comm 2047 i]; exact Nat.mul_le_mul_left i (by omega)

/-- `i * (i - 1)` in 32-bit words is the word of the natural number, with no wrap-around (at `i = 0` the wrapped
    predecessor is multiplied by zero). -/
theorem prod_word (i : Nat) (hi : i < 2048) :
    IntOp.muli (BitVec.ofNat 32 i) (IntOp.subi (BitVec.ofNat 32 i) 1#32) = BitVec.ofNat 32 (i * (i - 1)) := by
  unfold IntOp.muli IntOp.subi
  rcases Nat.eq_zero_or_pos i with rfl | hp
  · decide
  · have h1 : BitVec.ofNat 32 i - 1#32 = BitVec.ofNat 32 (i - 1) := by
      apply BitVec.eq_of_toNat_eq
      rw [BitVec.toNat_sub, toNat_ofNat32 i (by omega), toNat_ofNat32 (i - 1) (by omega)]
      show (2 ^ 32 - 1 + i) % 2 ^ 32 = i - 1
      omega
    rw [h1]
    apply BitVec.eq_of_toNat_eq
    rw [BitVec.toNat_mul, toNat_ofNat32 i (by omega), toNat_ofNat32 (i - 1) (by omega), BitVec.toNat_ofNat]

/-- The quotient by 2 of a nonnegative word, rounded toward zero, is the word of the natural quotient. -/
theorem divsi_word (p : Nat) (hp : p < 2 ^ 31) :
    IntOp.divsi .host (BitVec.ofNat 32 p) 2#32 = BitVec.ofNat 32 (p / 2) := by
  have h2 : (0 : Int) < (2#32 : BitVec 32).toInt := by decide
  have hmb : (2#32 : BitVec 32).msb = false := by decide
  rw [IntOp.divsi, if_neg (IntOp.not_corner_of_pos h2), BitVec.sdiv_eq, msb_ofNat32 p hp, hmb]
  dsimp only
  rw [BitVec.udiv_eq]
  apply BitVec.eq_of_toNat_eq
  rw [BitVec.toNat_udiv, toNat_ofNat32 p (by omega), toNat_ofNat32 (p / 2) (by omega)]
  rfl

/-- The condition under which the floored quotient differs from the truncated one never holds for a nonnegative dividend and the
    divisor 2: the signs differ only when the dividend is zero, and then the remainder is zero. -/
theorem floor_cond_word (p : Nat) (hp : p < 2 ^ 31) :
    IntOp.andi
      (IntOp.cmpi .ne (if BitVec.ofNat 32 p = 0 then (0 : BitVec 32) else if (BitVec.ofNat 32 p).msb then -1 else 1)
        (if (2#32 : BitVec 32) = 0 then (0 : BitVec 32) else if (2#32 : BitVec 32).msb then -1 else 1))
      (IntOp.cmpi .ne (IntOp.remsi .host (BitVec.ofNat 32 p) 2#32) 0#32) = 0#1 := by
  apply eq_zero_of_ne_one
  intro h
  obtain ⟨h1, h2⟩ := IntOp.andi_eq_one.1 h
  rw [IntOp.cmpi_ne] at h1 h2
  by_cases h0 : BitVec.ofNat 32 p = 0
  · apply h2; rw [h0]; decide
  · apply h1; rw [if_neg h0, msb_ofNat32 p hp]; decide

/-- The row offset in words: `2048 * i` less the half, with no wrap-around. -/
theorem start_word (i : Nat) (hi : i < 2048) :
    IntOp.subi (IntOp.muli (BitVec.ofNat 32 i) 2048#32) (BitVec.ofNat 32 (i * (i - 1) / 2))
      = BitVec.ofNat 32 (2048 * i - i * (i - 1) / 2) := by
  have hP := prod_le i hi
  generalize i * (i - 1) = P at hP ⊢
  unfold IntOp.subi IntOp.muli
  apply BitVec.eq_of_toNat_eq
  rw [BitVec.toNat_sub, BitVec.toNat_mul, toNat_ofNat32 i (by omega), toNat_ofNat32 (P / 2) (by omega),
    toNat_ofNat32 (2048 * i - P / 2) (by omega)]
  show (2 ^ 32 - P / 2 + i * 2048 % 2 ^ 32) % 2 ^ 32 = 2048 * i - P / 2
  omega

/-- A row offset plus a column, in words. -/
theorem add_word (s j : Nat) (h : s + j < 2 ^ 32) :
    IntOp.addi (BitVec.ofNat 32 s) (BitVec.ofNat 32 j) = BitVec.ofNat 32 (s + j) := by
  unfold IntOp.addi
  apply BitVec.eq_of_toNat_eq
  rw [BitVec.toNat_add, toNat_ofNat32 s (by omega), toNat_ofNat32 j (by omega), toNat_ofNat32 (s + j) h]
  exact Nat.mod_eq_of_lt h

/-- Every position read is below `2 ^ 31`. -/
theorem pos_lt (i j : Nat) (hi : i < 2048) (hj : j < 2048) : 2048 * i - i * (i - 1) / 2 + j < 2 ^ 31 := by omega

/-- A nonnegative word is not below zero. -/
theorem slt_zero_word (n : Nat) (h : n < 2 ^ 31) : IntOp.cmpi .slt (BitVec.ofNat 32 n) 0#32 = 0#1 := by
  apply eq_zero_of_ne_one
  intro hc
  rw [IntOp.cmpi_slt, toInt_ofNat32 n h, show (0#32 : BitVec 32).toInt = 0 from by decide] at hc
  omega

/-- A nonnegative word is at least zero. -/
theorem sge_zero_word (n : Nat) (h : n < 2 ^ 31) : IntOp.cmpi .sge (BitVec.ofNat 32 n) 0#32 = 1#1 := by
  rw [IntOp.cmpi_sge, toInt_ofNat32 n h, show (0#32 : BitVec 32).toInt = 0 from by decide]
  omega

/-- A position inside the packed vector tests at most the last position. -/
theorem sle_last_word_in (n : Nat) (h : n ≤ 2098175) : IntOp.cmpi .sle (BitVec.ofNat 32 n) 2098175#32 = 1#1 := by
  rw [IntOp.cmpi_sle, toInt_ofNat32 n (by omega), show (2098175#32 : BitVec 32).toInt = 2098175 from by decide]
  omega

/-- A position past the end does not. -/
theorem sle_last_word_out (n : Nat) (h : ¬n ≤ 2098175) (h' : n < 2 ^ 31) :
    IntOp.cmpi .sle (BitVec.ofNat 32 n) 2098175#32 = 0#1 := by
  apply eq_zero_of_ne_one
  intro hc
  rw [IntOp.cmpi_sle, toInt_ofNat32 n h', show (2098175#32 : BitVec 32).toInt = 2098175 from by decide] at hc
  omega

end Cert.ReferenceIdeal.RefValue
-- ==== Proof.RefGather.lean ====
/-
  The gather that takes, for every batch entry and every pair (row, column), one element of that batch entry's packed
  vector, read at an index.
-/
import proofs.«102620_j26792005992501_2_alg».proof.Proof.Gen.ReferenceIdeal
import Idealize.ShloMosaic.Lib.ValueIdx

noncomputable section

namespace Cert.ReferenceIdeal.RefValue

open Cert.ReferenceIdeal Cert.ReferenceIdeal.Gen Idealize.ShloMosaic Idealize.ShloMosaic.ValueIdx

/-! ## The gather read at an index

The gather of the program takes, for every batch entry and every pair (row, column), one element of the batch entry's packed
vector: operand `[B, N]`, start indices `[R, C, 1]`, result `[B, R, C]`; the batch axis of the operand is an offset
axis of full slice size, the position axis is collapsed (slice size 1) and is the one the start index names. -/

section Gather
variable {α : Type}

/-- Those dimension numbers; their conditions are decided on a program's literal shapes. -/
abbrev stairDims (B N R C : Nat)
    (wf : GatherDims.WF ⟨2, ![B, N]⟩ ⟨3, ![R, C, 1]⟩ ⟨3, ![B, R, C]⟩ [0] [1] [] [1] [] 2 ![B, 1]) :
    GatherDims ⟨2, ![B, N]⟩ ⟨3, ![R, C, 1]⟩ ⟨3, ![B, R, C]⟩ where
  offsetDims := [0]
  collapsedSliceDims := [1]
  operandBatchingDims := []
  startIndicesBatchingDims := []
  startIndexMap := [1]
  indexVectorDim := 2
  sliceSizes := ![B, 1]
  wf := wf

/-- The gather read at `(b, t, q)`: batch entry `b` of the operand at the start index `idx[t, q, 0]`, read signed and
    clamped into `[0, N - 1]`. -/
theorem gather_stair_apply {B N R C w : Nat} (hN : 0 < N)
    (wf : GatherDims.WF ⟨2, ![B, N]⟩ ⟨3, ![R, C, 1]⟩ ⟨3, ![B, R, C]⟩ [0] [1] [] [1] [] 2 ![B, 1])
    (x : (⟨2, ![B, N]⟩ : Shape).Idx → α) (idx : IVec ⟨3, ![R, C, 1]⟩ w) (b : Fin B) (t : Fin R) (q : Fin C) :
    Host.gather (stairDims B N R C wf) x idx (ix3 b t q)
      = x (ix2 b ⟨min (idx (ix3 t q ⟨0, Nat.one_pos⟩)).toInt.toNat (N - 1), by omega⟩) := by
  unfold Host.gather
  congr 1
  funext a
  refine Fin.ext ?_
  show (stairDims B N R C wf).start (ix3 b t q) idx a + (stairDims B N R C wf).batchCoord (ix3 b t q) a
      + (stairDims B N R C wf).offCoord (ix3 b t q) a = _
  rw [GatherDims.batchCoord_eq_zero _ _ _ List.not_mem_nil]
  simp only [Nat.add_zero]
  match a with
  | ⟨0, _⟩ =>
    -- the batch axis: the start index map does not name it, so the start is 0; the offset is the result's batch coordinate
    show (stairDims B N R C wf).start (ix3 b t q) idx (0 : Fin 2) + (stairDims B N R C wf).offCoord (ix3 b t q) (0 : Fin 2) = b.val
    unfold GatherDims.start
    rw [dif_neg (show (0 : Fin 2) ∉ (stairDims B N R C wf).startIndexMap from
      fun h => absurd (congrArg Fin.val (List.mem_singleton.mp h)) Nat.zero_ne_one)]
    rw [Nat.zero_add]
    rfl
  | ⟨1, _⟩ =>
    -- the position axis: collapsed, so no offset; named by the start index map, so the clamped start index
    show (stairDims B N R C wf).start (ix3 b t q) idx (1 : Fin 2) + (stairDims B N R C wf).offCoord (ix3 b t q) (1 : Fin 2)
      = min (idx (ix3 t q ⟨0, Nat.one_pos⟩)).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (stairDims B N R C wf).startIndexMap from List.mem_singleton.mpr rfl)]
    have hsi : (stairDims B N R C wf).siIdx (ix3 b t q) ⟨List.idxOf (1 : Fin 2) (stairDims B N R C wf).startIndexMap,
        List.idxOf_lt_length_iff.2 (List.mem_singleton.mpr rfl)⟩ = ix3 t q ⟨0, Nat.one_pos⟩ := by
      funext c; refine Fin.ext ?_
      match c with
      | ⟨0, _⟩ => rfl
      | ⟨1, _⟩ => rfl
      | ⟨2, _⟩ => rfl
    rw [hsi]
    rfl

end Gather

/-- The program's gather read at `(b, i, j)`. -/
theorem gather_apply {α : Type} (x : S32x2098176.Idx → α) (idx : IVec S2048x2048x1 32) (b : Fin 32) (i j : Fin 2048) :
    Host.gather gather_S32x2098176_S2048x2048x1_S32x2048x2048_0_1_n_n_1_2_321 x idx (ix3 b i j)
      = x (ix2 b ⟨min (idx (ix3 i j ⟨0, Nat.one_pos⟩)).toInt.toNat (2098176 - 1), by omega⟩) :=
  gather_stair_apply (by decide) gather_S32x2098176_S2048x2048x1_S32x2048x2048_0_1_n_n_1_2_321_wf x idx b i j

end Cert.ReferenceIdeal.RefValue

end
-- ==== Proof.LibBroadcastInDim.lean ====
/-
  `broadcast_in_dim` read at an index, for four shapes a host program takes a row statistic or a bias through
  (the library has the fifth, a scalar spread over any shape): a vector written as a column; a column repeated along every column; a vector written
  as a one-row matrix; a one-row matrix repeated down every row. In each the entry of the result at an index is the
  operand's entry at the coordinates the operand has.
-/
import Idealize.ShloMosaic.Lib.Pipeline.Value
import Idealize.ShloMosaic.Lib.ValueIdx

namespace Idealize.ShloMosaic.ValueIdx

variable {α : Type}

/-- An `[a]` vector written as the column `[a, 1]` (its axis sent to axis 0) reads, at `(p, u)`, the vector at `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (![0] : Fin 1 → Fin 2) h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- An `[a, 1]` column repeated along the columns of `[a, b]` (axes kept in place) reads, at `(p, c)`, the column at row `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) :=
  broadcastInDim_apply _ h x (ix2 p c) (ix2 p (0 : Fin 1)) fun ax => by
    match ax with
    | ⟨0, _⟩ =>
      show p.val = if a = 1 then 0 else p.val
      split
      · have := p.isLt; omega
      · rfl
    | ⟨1, _⟩ => rfl

/-- A `[b]` vector written as the one-row matrix `[1, b]` (its axis sent to axis 1) reads, at `(u, c)`, the vector at `c`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) :=
  broadcastInDim_apply _ h x (ix2 u c) (ix1 c) fun ax => by
    match ax with
    | ⟨0, _⟩ =>
      show c.val = if b = 1 then 0 else c.val
      split
      · have := c.isLt; omega
      · rfl

/-- A `[1, b]` one-row matrix repeated down the rows of `[a, b]` reads, at `(p, c)`, the row at column `c`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (![0, 1] : Fin 2 → Fin 2) h x (ix2 p c) = x (ix2 (0 : Fin 1) c) :=
  broadcastInDim_apply _ h x (ix2 p c) (ix2 (0 : Fin 1) c) fun ax => by
    match ax with
    | ⟨0, _⟩ => rfl
    | ⟨1, _⟩ =>
      show c.val = if b = 1 then 0 else c.val
      split
      · have := c.isLt; omega
      · rfl

end Idealize.ShloMosaic.ValueIdx
-- ==== Proof.RefIndex.lean ====
/-
  The composed term of the reference program read at an index. Row `i`'s offset is the staircase's
  `2048 * i - i * (i - 1) / 2` (the floored quotient is the truncated one, the dividend being nonnegative); the position for
  `(i, j)` is offset plus `j`, never negative; the mask at `(i, j)` says whether that position is at most the last one;
  so entry `(b, i, j)` of the result is the packed vector `b` at that position when it exists and the quiet-NaN word
  otherwise.
-/
import proofs.«102620_j26792005992501_2_alg».proof.Proof.RefTerm
import proofs.«102620_j26792005992501_2_alg».proof.Proof.RefWords
import proofs.«102620_j26792005992501_2_alg».proof.Proof.RefGather
import proofs.«102620_j26792005992501_2_alg».proof.Proof.LibBroadcastInDim
import Idealize.ShloMosaic.Lib.Pipeline.Value
import Idealize.ShloMosaic.Lib.ValueIdx
import Idealize.ShloMosaic.PureOps.Reduce

noncomputable section

namespace Cert.ReferenceIdeal.RefValue

open Cert.ReferenceIdeal Cert.ReferenceIdeal.Gen Idealize.ShloMosaic Idealize.ShloMosaic.ValueIdx

/-! ## The pieces read at an index -/

theorem prodV_apply (i : Fin 2048) : prodV (ix1 i) = BitVec.ofNat 32 (i.val * (i.val - 1)) :=
  prod_word i.val i.isLt

theorem prod_lt (i : Fin 2048) : i.val * (i.val - 1) < 2 ^ 31 := by
  have := prod_le i.val i.isLt; have := i.isLt; omega

theorem quotV_apply (i : Fin 2048) : quotV (ix1 i) = BitVec.ofNat 32 (i.val * (i.val - 1) / 2) := by
  show IntOp.divsi .host (prodV (ix1 i)) 2#32 = _
  rw [prodV_apply]
  exact divsi_word _ (prod_lt i)

/-- The floored quotient is the truncated one: the dividend is never negative. -/
theorem floorV_apply (i : Fin 2048) : floorV (ix1 i) = quotV (ix1 i) := by
  have hc : (andi (cmpi .ne (signi prodV) (broadcastInDim S2048 ![] bcast_S_S2048 (signi (constantI S_ 32 2#32))))
      (cmpi .ne (Host.remsi prodV twoV) (broadcastInDim S2048 ![] bcast_S_S2048 (constantI S_ 32 0#32)))) (ix1 i) = 0#1 := by
    show IntOp.andi (IntOp.cmpi .ne (if prodV (ix1 i) = 0 then (0 : BitVec 32) else if (prodV (ix1 i)).msb then -1 else 1)
        (if (2#32 : BitVec 32) = 0 then (0 : BitVec 32) else if (2#32 : BitVec 32).msb then -1 else 1))
      (IntOp.cmpi .ne (IntOp.remsi .host (prodV (ix1 i)) 2#32) 0#32) = 0#1
    rw [prodV_apply]
    exact floor_cond_word _ (prod_lt i)
  unfold floorV
  rw [select_apply, hc, select_zero]

/-- The row offset is the staircase's, with no wrap-around. -/
theorem startV_apply (i : Fin 2048) : startV (ix1 i) = BitVec.ofNat 32 (2048 * i.val - i.val * (i.val - 1) / 2) := by
  show IntOp.subi (IntOp.muli (BitVec.ofNat 32 i.val) 2048#32) (floorV (ix1 i)) = _
  rw [floorV_apply, quotV_apply]
  exact start_word i.val i.isLt

/-- The position read for row `i`, column `j`. -/
theorem idxV_apply (i j : Fin 2048) : idxV (ix2 i j) = BitVec.ofNat 32 (2048 * i.val - i.val * (i.val - 1) / 2 + j.val) := by
  show IntOp.addi
      (broadcastInDim S2048x2048 ![0, 1] bcast_S2048x1_S2048x2048_0_1 (broadcastInDim S2048x1 ![0] bcast_S2048_S2048x1_0 startV) (ix2 i j))
      (broadcastInDim S2048x2048 ![0, 1] bcast_S1x2048_S2048x2048_0_1
        (broadcastInDim S1x2048 ![1] bcast_S2048_S1x2048_1 (iotaInDim S2048 32 0)) (ix2 i j)) = _
  rw [broadcastInDim_a1_ab_apply, broadcastInDim_a_a1_apply, broadcastInDim_1b_ab_apply, broadcastInDim_b_1b_apply, startV_apply]
  exact add_word (2048 * i.val - i.val * (i.val - 1) / 2) j.val (by have := pos_lt i.val j.val i.isLt j.isLt; omega)

/-- No position is negative, so none is counted from the end. -/
theorem wrapV_apply (i j : Fin 2048) : wrapV (ix2 i j) = idxV (ix2 i j) := by
  have hc : (cmpi .slt idxV (broadcastInDim S2048x2048 ![] bcast_S_S2048x2048 (constantI S_ 32 0#32))) (ix2 i j) = 0#1 := by
    show IntOp.cmpi .slt (idxV (ix2 i j)) 0#32 = 0#1
    rw [idxV_apply]
    exact slt_zero_word _ (pos_lt i.val j.val i.isLt j.isLt)
  unfold wrapV
  rw [select_apply, hc, select_zero]

theorem idx3V_apply (i j : Fin 2048) (u : Fin 1) : idx3V (ix3 i j u) = wrapV (ix2 i j) :=
  broadcastInDim_apply _ _ wrapV (ix3 i j u) (ix2 i j) fun a => by
    match a with
    | ⟨0, _⟩ => rfl
    | ⟨1, _⟩ => rfl

theorem idx3V_val (i j : Fin 2048) : idx3V (ix3 i j ⟨0, Nat.one_pos⟩) = BitVec.ofNat 32 (2048 * i.val - i.val * (i.val - 1) / 2 + j.val) := by
  rw [idx3V_apply, wrapV_apply, idxV_apply]

/-! ## The mask: a reduction over an axis of extent one -/

theorem reduces_last : S2048x2048x1.Reduces [2] S2048x2048 := by decide

/-- Over an index `(i, j)` of the result the only source index is `(i, j, 0)`. -/
theorem lift_last (i j : Fin 2048) (k : Fin 1) :
    reduces_last.lift (ix2 i j) k = ix3 i j ⟨0, Nat.one_pos⟩ := by
  funext c; refine Fin.ext ?_
  show Shape.Reduces.liftVal reduces_last (ix2 i j) k.val c = (ix3 i j ⟨0, Nat.one_pos⟩ c).val
  match c with
  | ⟨0, _⟩ => rfl
  | ⟨1, _⟩ => rfl
  | ⟨2, _⟩ =>
    show k.val = 0
    have := k.isLt; omega

/-- A fold over the one-element index set is one application. -/
theorem fold_unit {β : Type} (op : β → β → β) [Std.Commutative op] [Std.Associative op] (b : β) (f : Fin 1 → β) :
    (Finset.univ : Finset (Fin 1)).fold op b f = op (f 0) b := by
  rw [Finset.univ_unique, Finset.fold_singleton]; rfl

theorem maskV_apply (i j : Fin 2048) :
    maskV (ix2 i j) = IntOp.andi (IntOp.andi (IntOp.cmpi .sge (idx3V (ix3 i j ⟨0, Nat.one_pos⟩)) 0#32)
        (IntOp.cmpi .sle (idx3V (ix3 i j ⟨0, Nat.one_pos⟩)) 2098175#32)) 1#1 := by
  unfold maskV
  rw [Host.reduce_eq_fold_single IntOp.andi _ _ reducesTo_S2048x2048x1_S2048x2048_d2 reduces_last h_S_ (ix2 i j)]
  refine (fold_unit IntOp.andi _ _).trans ?_
  simp only [Function.comp_apply, lift_last]
  rfl

theorem maskV_in (i j : Fin 2048) (h : 2048 * i.val - i.val * (i.val - 1) / 2 + j.val ≤ 2098175) : maskV (ix2 i j) = 1#1 := by
  rw [maskV_apply, idx3V_val, sge_zero_word _ (pos_lt i.val j.val i.isLt j.isLt), sle_last_word_in _ h]
  decide

theorem maskV_out (i j : Fin 2048) (h : ¬2048 * i.val - i.val * (i.val - 1) / 2 + j.val ≤ 2098175) : maskV (ix2 i j) = 0#1 := by
  rw [maskV_apply, idx3V_val, sge_zero_word _ (pos_lt i.val j.val i.isLt j.isLt),
    sle_last_word_out _ h (pos_lt i.val j.val i.isLt j.isLt)]
  decide

/-! ## The result read at an index -/

/-- Entry `(b, i, j)` of the result: the packed vector `b` at the staircase position when it exists, the quiet-NaN word
    otherwise. -/
theorem refOut_apply (x : FVec Ideal S32x2098176 .f32) (b : Fin 32) (i j : Fin 2048) :
    refOut x (ix3 b i j) =
      if h : 2048 * i.val - i.val * (i.val - 1) / 2 + j.val < 2098176 then x (ix2 b ⟨2048 * i.val - i.val * (i.val - 1) / 2 + j.val, h⟩)
      else Ideal.ofBits .f32 0x7FC00000#32 := by
  unfold refOut
  rw [select_apply]
  have hm : broadcastInDim S32x2048x2048 ![1, 2] bcast_S2048x2048_S32x2048x2048_1_2 maskV (ix3 b i j) = maskV (ix2 i j) :=
    broadcastInDim_apply _ _ maskV (ix3 b i j) (ix2 i j) fun a => by
      match a with
      | ⟨0, _⟩ => rfl
      | ⟨1, _⟩ => rfl
  rw [hm]
  by_cases h : 2048 * i.val - i.val * (i.val - 1) / 2 + j.val < 2098176
  · rw [dif_pos h, maskV_in i j (by omega), select_one, gather_apply]
    refine congrArg x (congrArg (ix2 b) (Fin.ext ?_))
    show min (idx3V (ix3 i j ⟨0, Nat.one_pos⟩)).toInt.toNat (2098176 - 1) = 2048 * i.val - i.val * (i.val - 1) / 2 + j.val
    rw [idx3V_val, toInt_ofNat32 _ (pos_lt i.val j.val i.isLt j.isLt), Int.toNat_natCast]
    omega
  · rw [dif_neg h, maskV_out i j (by omega), select_zero]
    rfl

end Cert.ReferenceIdeal.RefValue

end
-- ==== Proof.RefValue.lean ====
/-
  The reference program computes the staircase of its argument: every weakly fair execution terminates with the result
  buffer at the staircase of the argument's contents at launch, and the argument unchanged.
-/
import proofs.«102620_j26792005992501_2_alg».proof.Proof.RefOut
import proofs.«102620_j26792005992501_2_alg».proof.Proof.RefIndex
import proofs.«102620_j26792005992501_2_alg».proof.Proof.Staircase

noncomputable section

namespace Cert.ReferenceIdeal.RefValue

open Cert.ReferenceIdeal Cert.ReferenceIdeal.Gen Idealize.ShloMosaic Idealize.ShloMosaic.TcCoe Idealize.SL.Sem Idealize.ShloMosaic.ValueIdx

/-- The composed term is the staircase, entry by entry. -/
theorem refOut_eq_G (x : FVec Ideal S32x2098176 .f32) : refOut x = Cert.Staircase.G x := by
  funext y
  obtain ⟨b, i, j, rfl⟩ : ∃ (b : Fin 32) (i j : Fin 2048), y = ix3 b i j := ⟨y 0, y 1, y 2, eq_ix3 y⟩
  exact (refOut_apply x b i j).trans rfl

/-- Every weakly fair execution of the reference program terminates with the result buffer at the staircase of the
    argument's contents at launch, and the argument unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v14)
          = Cert.Staircase.G (m ((c.tc : Thread _ _).loc Cert.ReferenceIdeal.main_arg0))
        ∧ r.2.mem ((c.tc : Thread Cert.ReferenceIdeal.nD Cert.ReferenceIdeal.τ).loc Cert.ReferenceIdeal.main_arg0)
          = m ((c.tc : Thread _ _).loc Cert.ReferenceIdeal.main_arg0)) :=
  (θ_run defs _ _).mono (fun _ h c => ⟨(h c).1.trans (refOut_eq_G _), (h c).2⟩) (run_term m ρ)

end Cert.ReferenceIdeal.RefValue

end
-- ==== Proof.lean ====
/-
  The staircase gather: a Pallas kernel against `jnp.take`.

  The argument is a batch of 32 symmetric-packed vectors of length N = 2048 * 2049 / 2 = 2098176 (rows of lengths
  2048, 2047, ..., 1 laid end to end; row `i` begins at `start i = 2048 i - i (i - 1) / 2`). Both programs
  produce, for each batch entry, the 2048 x 2048 matrix whose entry `(i, j)` is the packed vector at position
  `start i + j` when `start i + j < N`, and the quiet-NaN word where the position does not exist (that happens
  only in the last 63 rows). Call this function of the argument array `G` (Proof/Staircase.lean).

  The kernel launches a grid of 64 points, two per batch entry: a point copies, row by row, windows of its
  entry's packed vector into one half (1024 rows) of the entry's matrix, sixteen blocks of 64 rows at a time,
  filling the positions past the end of the vector with the NaN word (Proof/PiecesA*.lean, Proof/PiecesB*.lean,
  Proof/Pieces.lean: each half; Proof/Final.lean: the 64 halves make up `G` of the argument).
  The reference computes the index table `start i + j` in 32-bit integers, gathers with clamped indices and
  selects the NaN word where the index is out of range (Proof/Ref*.lean: its run, and that its result is `G`).
  No floating-point operation is applied to any entry, so the two results agree entry by entry at the ideal
  instance for every input, finite or not: the claim's precondition is not used. The idealization rewrote
  nothing, so there is nothing to preserve; the three frame claims are the generated frame certificates of the
  two kernel programs and the reference's run with the result forgotten.
-/
import proofs.«102620_j26792005992501_2_alg».proof.Defs
import proofs.«102620_j26792005992501_2_alg».proof.Proof.Gen.Kernel
import proofs.«102620_j26792005992501_2_alg».proof.Proof.Gen.Kernel.Skeleton
import proofs.«102620_j26792005992501_2_alg».proof.Proof.Gen.Kernel.Launch
import proofs.«102620_j26792005992501_2_alg».proof.Proof.Gen.Kernel.Points
import proofs.«102620_j26792005992501_2_alg».proof.Proof.Gen.Kernel.Frame
import proofs.«102620_j26792005992501_2_alg».proof.Proof.Gen.KernelIdeal
import proofs.«102620_j26792005992501_2_alg».proof.Proof.Gen.KernelIdeal.Skeleton
import proofs.«102620_j26792005992501_2_alg».proof.Proof.Gen.KernelIdeal.Launch
import proofs.«102620_j26792005992501_2_alg».proof.Proof.Gen.KernelIdeal.Points
import proofs.«102620_j26792005992501_2_alg».proof.Proof.Gen.KernelIdeal.Frame
import proofs.«102620_j26792005992501_2_alg».proof.Proof.Gen.ReferenceIdeal
import proofs.«102620_j26792005992501_2_alg».proof.Proof.Gen.Pre_finite_inputs
import proofs.«102620_j26792005992501_2_alg».proof.Proof.Gen.KernelIdeal.Value
import proofs.«102620_j26792005992501_2_alg».proof.Proof.Final
import proofs.«102620_j26792005992501_2_alg».proof.Proof.RefValue
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference runs and leaves its argument unchanged: its run, with the result forgotten. -/
theorem frame_reference_ideal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both programs end with the staircase `G` of the (shared) argument array. -/
theorem algebraic : Cert.algebraic_KernelIdeal_ReferenceIdeal := by
  intro m ρ m' ρ' _ hagree
  refine ⟨fun c => Cert.Staircase.G (m ((c.tc : Thread Cert.KernelIdeal.nD Cert.KernelIdeal.τ).loc Cert.KernelIdeal.main_arg0)),
    Cert.KernelIdeal.Stairs.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
